-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v38_1)) (v3 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v38_1) = v2 c
          ∧ r.2.mem ((c.tc : Thread Cert.KernelIdeal.nD Cert.KernelIdeal.τ).loc Cert.KernelIdeal.main_v16_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x256x512 : Shape := ⟨3, ![8, 256, 512]⟩
abbrev S512x512 : Shape := ⟨2, ![512, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x512 : Shape := ⟨2, ![1024, 512]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_

variable [Facts]

def fn_part6 {F : FTy → Type} [FloatOps F] (main_arg21 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S512 .f32) (main_arg19 : FVec F S512 .f32) (main_arg20 : FVec F S1024 .f32) (main_arg21 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S1024x512 .f32) (main_arg15 : FVec F S1024 .f32) (main_arg16 : FVec F S1024x1024 .f32) (main_arg17 : FVec F S1024 .f32) (main_arg18 : FVec F S512 .f32) (main_arg19 : FVec F S512 .f32) (main_arg20 : FVec F S1024 .f32) (main_arg21 : FVec F S1024 .f32) (main_v63 : IVec S_ 1) (main_v67 : IVec S_ 1) : IVec S_ 1 :=
  let main_v68 : IVec S_ 1 := andi main_v63 main_v67
  let main_v69 : FVec F S1024x512 .f32 := Host.absf main_arg14
  let main_cst_26 : FVec F S_ .f32 := constant S_ .f32 0x7F800000#32
  let main_v70 : FVec F S1024x512 .f32 := broadcastInDim S1024x512 ![] bcast_S_S1024x512 main_cst_26
  let main_v71 : IVec S1024x512 1 := cmpf .olt main_v69 main_v70
  let main_c_27 : IVec S_ 1 := constantI S_ 1 1#1
  let main_v72 : IVec S_ 1 := (fun x v => Host.reduce IntOp.andi x v reducesTo_S1024x512_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S512 .f32) (main_arg12 : FVec F S512x512 .f32) (main_arg13 : FVec F S512 .f32) (main_arg14 : FVec F S1024x512 .f32) (main_arg15 : FVec F S1024 .f32) (main_arg16 : FVec F S1024x1024 .f32) (main_arg17 : FVec F S1024 .f32) (main_arg18 : FVec F S512 .f32) (main_arg19 : FVec F S512 .f32) (main_arg20 : FVec F S1024 .f32) (main_arg21 : FVec F S1024 .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1024 .f32) (main_arg8 : FVec F S512x1024 .f32) (main_arg9 : FVec F S512 .f32) (main_arg10 : FVec F S512x1024 .f32) (main_arg11 : FVec F S512 .f32) (main_arg12 : FVec F S512x512 .f32) (main_arg13 : FVec F S512 .f32) (main_arg14 : FVec F S1024x512 .f32) (main_arg15 : FVec F S1024 .f32) (main_arg16 : FVec F S1024x1024 .f32) (main_arg17 : FVec F S1024 .f32) (main_arg18 : FVec F S512 .f32) (main_arg19 : FVec F S512 .f32) (main_arg20 : FVec F S1024 .f32) (main_arg21 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S512x1024 .f32) (main_arg5 : FVec F S512 .f32) (main_arg6 : FVec F S1024x1024 .f32) (main_arg7 : FVec F S1024 .f32) (main_arg8 : FVec F S512x1024 .f32) (main_arg9 : FVec F S512 .f32) (main_arg10 : FVec F S512x1024 .f32) (main_arg11 : FVec F S512 .f32) (main_arg12 : FVec F S512x512 .f32) (main_arg13 : FVec F S512 .f32) (main_arg14 : FVec F S1024x512 .f32) (main_arg15 : FVec F S1024 .f32) (main_arg16 : FVec F S1024x1024 .f32) (main_arg17 : FVec F S1024 .f32) (main_arg18 : FVec F S512 .f32) (main_arg19 : FVec F S512 .f32) (main_arg20 : FVec F S1024 .f32) (main_arg21 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8x4096x1024 .f32) (main_arg1 : FVec F S8x256x512 .f32) (main_arg2 : FVec F S512x512 .f32) (main_arg3 : FVec F S512 .f32) (main_arg4 : FVec F S512x1024 .f32) (main_arg5 : FVec F S512 .f32) (main_arg6 : FVec F S1024x1024 .f32) (main_arg7 : FVec F S1024 .f32) (main_arg8 : FVec F S512x1024 .f32) (main_arg9 : FVec F S512 .f32) (main_arg10 : FVec F S512x1024 .f32) (main_arg11 : FVec F S512 .f32) (main_arg12 : FVec F S512x512 .f32) (main_arg13 : FVec F S512 .f32) (main_arg14 : FVec F S1024x512 .f32) (main_arg15 : FVec F S1024 .f32) (main_arg16 : FVec F S1024x1024 .f32) (main_arg17 : FVec F S1024 .f32) (main_arg18 : FVec F S512 .f32) (main_arg19 : FVec F S512 .f32) (main_arg20 : FVec F S1024 .f32) (main_arg21 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x256x512 .f32 := Host.absf main_arg1
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_c_1 : IVec S_ 1 := constantI S_ 1 1#1
  let main_v7 : IVec S_ 1 := (fun x v => Host.reduce IntOp.andi x v reducesTo_S8x256x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8x4096x1024 : Shape := ⟨3, ![8, 4096, 1024]⟩
abbrev S8x256x512 : Shape := ⟨3, ![8, 256, 512]⟩
abbrev S512x512 : Shape := ⟨2, ![512, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x512 : Shape := ⟨2, ![1024, 512]⟩
abbrev S2048x512 : Shape := ⟨2, ![2048, 512]⟩
abbrev S1x512 : Shape := ⟨2, ![1, 512]⟩
abbrev S32768x1024 : Shape := ⟨2, ![32768, 1024]⟩
abbrev S1x1024 : Shape := ⟨2, ![1, 1024]⟩
abbrev S32768x512 : Shape := ⟨2, ![32768, 512]⟩
abbrev S8x4096x512 : Shape := ⟨3, ![8, 4096, 512]⟩
abbrev S8x256x1024 : Shape := ⟨3, ![8, 256, 1024]⟩
abbrev S8x8x256x4096 : Shape := ⟨4, ![8, 8, 256, 4096]⟩
abbrev S1x128x128 : Shape := ⟨3, ![1, 128, 128]⟩
abbrev S1x4096x128 : Shape := ⟨3, ![1, 4096, 128]⟩
abbrev S1x4096x256 : Shape := ⟨3, ![1, 4096, 256]⟩
abbrev S1x128x256 : Shape := ⟨3, ![1, 128, 256]⟩
abbrev S1x2x128x4096 : Shape := ⟨4, ![1, 2, 128, 4096]⟩
abbrev S1x128x64 : Shape := ⟨3, ![1, 128, 64]⟩
abbrev S128x64 : Shape := ⟨2, ![128, 64]⟩
abbrev S1x4096x64 : Shape := ⟨3, ![1, 4096, 64]⟩
abbrev S4096x64 : Shape := ⟨2, ![4096, 64]⟩
abbrev S4096x128 : Shape := ⟨2, ![4096, 128]⟩
abbrev S128x4096 : Shape := ⟨2, ![128, 4096]⟩
abbrev S128 : Shape := ⟨1, ![128]⟩
abbrev S128x1 : Shape := ⟨2, ![128, 1]⟩
abbrev S1x1x128x4096 : Shape := ⟨4, ![1, 1, 128, 4096]⟩
abbrev S128x128 : Shape := ⟨2, ![128, 128]⟩
abbrev S2048x1024 : Shape := ⟨2, ![2048, 1024]⟩
abbrev S512x1 : Shape := ⟨2, ![512, 1]⟩
abbrev S8x8x4096x256 : Shape := ⟨4, ![8, 8, 4096, 256]⟩
abbrev S1x1024x128 : Shape := ⟨3, ![1, 1024, 128]⟩
abbrev S1x256x128 : Shape := ⟨3, ![1, 256, 128]⟩
abbrev S1x256x256 : Shape := ⟨3, ![1, 256, 256]⟩
abbrev S1x1024x256 : Shape := ⟨3, ![1, 1024, 256]⟩
abbrev S1x2x1024x256 : Shape := ⟨4, ![1, 2, 1024, 256]⟩
abbrev S1x1024x64 : Shape := ⟨3, ![1, 1024, 64]⟩
abbrev S1024x64 : Shape := ⟨2, ![1024, 64]⟩
abbrev S1x256x64 : Shape := ⟨3, ![1, 256, 64]⟩
abbrev S256x64 : Shape := ⟨2, ![256, 64]⟩
abbrev S256x128 : Shape := ⟨2, ![256, 128]⟩
abbrev S1024x256 : Shape := ⟨2, ![1024, 256]⟩
abbrev S1024x1 : Shape := ⟨2, ![1024, 1]⟩
abbrev S1x1x1024x256 : Shape := ⟨4, ![1, 1, 1024, 256]⟩
abbrev S1024x128 : Shape := ⟨2, ![1024, 128]⟩

abbrev nBuf : Space → Nat
  | .hbm => 73
  | .vmem => 76
  | .smem => 0
  | _ => 0

abbrev bufTy : (tb : Table) → Fin (tcTables nBuf tb) → BufTy
  | .hbm, ⟨0, _⟩ => ⟨S8x4096x1024, .f32⟩
  | .hbm, ⟨1, _⟩ => ⟨S8x256x512, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S512x1024, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1024x512, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S512, .f32⟩
  | .hbm, ⟨19, _⟩ => ⟨S512, .f32⟩
  | .hbm, ⟨20, _⟩ => ⟨S1024, .f32⟩
  | .hbm, ⟨21, _⟩ => ⟨S1024, .f32⟩
  | .hbm, ⟨22, _⟩ => ⟨S2048x512, .f32⟩
  | .hbm, ⟨23, _⟩ => ⟨S512x512, .f32⟩
  | .hbm, ⟨24, _⟩ => ⟨S1x512, .f32⟩
  | .hbm, ⟨25, _⟩ => ⟨S2048x512, .f32⟩
  | .hbm, ⟨26, _⟩ => ⟨S8x256x512, .f32⟩
  | .hbm, ⟨27, _⟩ => ⟨S32768x1024, .f32⟩
  | .hbm, ⟨28, _⟩ => ⟨S1024x512, .f32⟩
  | .hbm, ⟨29, _⟩ => ⟨S1024x1024, .f32⟩
  | .hbm, ⟨30, _⟩ => ⟨S1024x512, .f32⟩
  | .hbm, ⟨31, _⟩ => ⟨S1x512, .f32⟩
  | .hbm, ⟨32, _⟩ => ⟨S1x1024, .f32⟩
  | .hbm, ⟨33, _⟩ => ⟨S1x512, .f32⟩
  | .hbm, ⟨34, _⟩ => ⟨S32768x512, .f32⟩
  | .hbm, ⟨35, _⟩ => ⟨S32768x1024, .f32⟩
  | .hbm, ⟨36, _⟩ => ⟨S32768x512, .f32⟩
  | .hbm, ⟨37, _⟩ => ⟨S8x4096x512, .f32⟩
  | .hbm, ⟨38, _⟩ => ⟨S8x4096x1024, .f32⟩
  | .hbm, ⟨39, _⟩ => ⟨S8x4096x512, .f32⟩
  | .hbm, ⟨40, _⟩ => ⟨S8x256x1024, .f32⟩
  | .hbm, ⟨41, _⟩ => ⟨S8x8x256x4096, .f32⟩
  | .hbm, ⟨42, _⟩ => ⟨S2048x1024, .f32⟩
  | .hbm, ⟨43, _⟩ => ⟨S1024x512, .f32⟩
  | .hbm, ⟨44, _⟩ => ⟨S1x512, .f32⟩
  | .hbm, ⟨45, _⟩ => ⟨S2048x512, .f32⟩
  | .hbm, ⟨46, _⟩ => ⟨S8x256x512, .f32⟩
  | .hbm, ⟨47, _⟩ => ⟨S2048x512, .f32⟩
  | .hbm, ⟨48, _⟩ => ⟨S2048x512, .f32⟩
  | .hbm, ⟨49, _⟩ => ⟨S1x512, .f32⟩
  | .hbm, ⟨50, _⟩ => ⟨S1x512, .f32⟩
  | .hbm, ⟨51, _⟩ => ⟨S2048x512, .f32⟩
  | .hbm, ⟨52, _⟩ => ⟨S8x256x512, .f32⟩
  | .hbm, ⟨53, _⟩ => ⟨S2048x512, .f32⟩
  | .hbm, ⟨54, _⟩ => ⟨S512x512, .f32⟩
  | .hbm, ⟨55, _⟩ => ⟨S1x512, .f32⟩
  | .hbm, ⟨56, _⟩ => ⟨S2048x512, .f32⟩
  | .hbm, ⟨57, _⟩ => ⟨S8x256x512, .f32⟩
  | .hbm, ⟨58, _⟩ => ⟨S2048x512, .f32⟩
  | .hbm, ⟨59, _⟩ => ⟨S512x1024, .f32⟩
  | .hbm, ⟨60, _⟩ => ⟨S1x1024, .f32⟩
  | .hbm, ⟨61, _⟩ => ⟨S2048x1024, .f32⟩
  | .hbm, ⟨62, _⟩ => ⟨S8x256x1024, .f32⟩
  | .hbm, ⟨63, _⟩ => ⟨S8x4096x1024, .f32⟩
  | .hbm, ⟨64, _⟩ => ⟨S8x8x4096x256, .f32⟩
  | .hbm, ⟨65, _⟩ => ⟨S32768x1024, .f32⟩
  | .hbm, ⟨66, _⟩ => ⟨S32768x1024, .f32⟩
  | .hbm, ⟨67, _⟩ => ⟨S1024x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S32768x1024, .f32⟩
  | .hbm, ⟨72, _⟩ => ⟨S8x4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1024x512, .f32⟩
  | .local _ .vmem, ⟨9, _⟩ => ⟨S1x512, .f32⟩
  | .local _ .vmem, ⟨10, _⟩ => ⟨S1024x1024, .f32⟩
  | .local _ .vmem, ⟨11, _⟩ => ⟨S1x1024, .f32⟩
  | .local _ .vmem, ⟨12, _⟩ => ⟨S1024x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S1x128x128, .f32⟩
  | .local _ .vmem, ⟨21, _⟩ => ⟨S1x128x128, .f32⟩
  | .local _ .vmem, ⟨22, _⟩ => ⟨S1x4096x128, .f32⟩
  | .local _ .vmem, ⟨23, _⟩ => ⟨S1x4096x128, .f32⟩
  | .local _ .vmem, ⟨24, _⟩ => ⟨S1x4096x256, .f32⟩
  | .local _ .vmem, ⟨25, _⟩ => ⟨S1x4096x256, .f32⟩
  | .local _ .vmem, ⟨26, _⟩ => ⟨S1x128x256, .f32⟩
  | .local _ .vmem, ⟨27, _⟩ => ⟨S1x128x256, .f32⟩
  | .local _ .vmem, ⟨28, _⟩ => ⟨S1x2x128x4096, .f32⟩
  | .local _ .vmem, ⟨29, _⟩ => ⟨S1x2x128x4096, .f32⟩
  | .local _ .vmem, ⟨30, _⟩ => ⟨S512x1024, .f32⟩
  | .local _ .vmem, ⟨31, _⟩ => ⟨S512x1024, .f32⟩
  | .local _ .vmem, ⟨32, _⟩ => ⟨S1024x512, .f32⟩
  | .local _ .vmem, ⟨33, _⟩ => ⟨S1x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S1x512, .f32⟩
  | .local _ .vmem, ⟨41, _⟩ => ⟨S1x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S1x512, .f32⟩
  | .local _ .vmem, ⟨48, _⟩ => ⟨S512x512, .f32⟩
  | .local _ .vmem, ⟨49, _⟩ => ⟨S512x512, .f32⟩
  | .local _ .vmem, ⟨50, _⟩ => ⟨S512x512, .f32⟩
  | .local _ .vmem, ⟨51, _⟩ => ⟨S512x512, .f32⟩
  | .local _ .vmem, ⟨52, _⟩ => ⟨S512x1024, .f32⟩
  | .local _ .vmem, ⟨53, _⟩ => ⟨S1x1024, .f32⟩
  | .local _ .vmem, ⟨54, _⟩ => ⟨S512x1024, .f32⟩
  | .local _ .vmem, ⟨55, _⟩ => ⟨S512x1024, .f32⟩
  | .local _ .vmem, ⟨56, _⟩ => ⟨S1x1024x128, .f32⟩
  | .local _ .vmem, ⟨57, _⟩ => ⟨S1x1024x128, .f32⟩
  | .local _ .vmem, ⟨58, _⟩ => ⟨S1x256x128, .f32⟩
  | .local _ .vmem, ⟨59, _⟩ => ⟨S1x256x128, .f32⟩
  | .local _ .vmem, ⟨60, _⟩ => ⟨S1x256x256, .f32⟩
  | .local _ .vmem, ⟨61, _⟩ => ⟨S1x256x256, .f32⟩
  | .local _ .vmem, ⟨62, _⟩ => ⟨S1x1024x256, .f32⟩
  | .local _ .vmem, ⟨63, _⟩ => ⟨S1x1024x256, .f32⟩
  | .local _ .vmem, ⟨64, _⟩ => ⟨S1x2x1024x256, .f32⟩
  | .local _ .vmem, ⟨65, _⟩ => ⟨S1x2x1024x256, .f32⟩
  | .local _ .vmem, ⟨66, _⟩ => ⟨S512x1024, .f32⟩
  | .local _ .vmem, ⟨67, _⟩ => ⟨S512x1024, .f32⟩
  | .local _ .vmem, ⟨68, _⟩ => ⟨S1024x1024, .f32⟩
  | .local _ .vmem, ⟨69, _⟩ => ⟨S1x1024, .f32⟩
  | .local _ .vmem, ⟨70, _⟩ => ⟨S512x1024, .f32⟩
  | .local _ .vmem, ⟨71, _⟩ => ⟨S512x1024, .f32⟩
  | .local _ .vmem, ⟨72, _⟩ => ⟨S1x1024, .f32⟩
  | .local _ .vmem, ⟨73, _⟩ => ⟨S1x1024, .f32⟩
  | .local _ .vmem, ⟨74, _⟩ => ⟨S512x1024, .f32⟩
  | .local _ .vmem, ⟨75, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12_0 : Ref sig .tc := ⟨.hbm, 34, rfl⟩
abbrev main_v12_1 : Ref sig .tc := ⟨.hbm, 35, rfl⟩
abbrev main_v12_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38_0 : Ref sig .tc := ⟨.hbm, 63, rfl⟩
abbrev main_v38_1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg3_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg3_1 : Ref sig .tc := ⟨.vmem, 63, rfl⟩
abbrev cc7_stg4_0 : Ref sig .tc := ⟨.vmem, 64, rfl⟩
abbrev cc7_stg4_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg3_1 : Ref sig .tc := ⟨.vmem, 71, rfl⟩
abbrev cc8_stg4_0 : Ref sig .tc := ⟨.vmem, 72, rfl⟩
abbrev cc8_stg5_0 : Ref sig .tc := ⟨.vmem, 73, rfl⟩
abbrev cc8_stg6_0 : Ref sig .tc := ⟨.vmem, 74, rfl⟩
abbrev cc8_stg6_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem3_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63
abbrev cc7_sem4_0 : DmaSem sig := 64
abbrev cc7_sem4_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem3_0 : DmaSem sig := 70
abbrev cc8_sem3_1 : DmaSem sig := 71
abbrev cc8_sem4_0 : DmaSem sig := 72
abbrev cc8_sem5_0 : DmaSem sig := 73
abbrev cc8_sem6_0 : DmaSem sig := 74
abbrev cc8_sem6_1 : DmaSem sig := 75

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨3, ![8, 4, 2], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_4 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage2_0 : Fin 2 → Memref sig .tc .vmem S1x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x128x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x2x128x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨3, ![8, 4, 4], ![false, false, false]⟩

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc7_transform_3 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc7_transform_4 (i : grid7.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage7_0 : Fin 2 → Memref sig .tc .vmem S1x1024x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true, true]

abbrev stage7_1 : Fin 2 → Memref sig .tc .vmem S1x256x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true, false]

abbrev stage7_2 : Fin 2 → Memref sig .tc .vmem S1x256x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1x1024x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, true]

abbrev stage7_4 : Fin 2 → Memref sig .tc .vmem S1x2x1024x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true, true]

abbrev grid8 : Pipeline.Grid := ⟨1, ![64], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1024x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x1024 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S512x1024 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  shapeCasts_S8x256x512_S2048x512 : S8x256x512.ShapeCasts S2048x512
  transposes_S512x512_S512x512_1_0 : S512x512.Transposes [1, 0] S512x512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S2048x512_S8x256x512 : S2048x512.ShapeCasts S8x256x512
  shapeCasts_S8x4096x1024_S32768x1024 : S8x4096x1024.ShapeCasts S32768x1024
  transposes_S512x1024_S1024x512_1_0 : S512x1024.Transposes [1, 0] S1024x512
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x512_S8x4096x512 : S32768x512.ShapeCasts S8x4096x512
  shapeCasts_S32768x1024_S8x4096x1024 : S32768x1024.ShapeCasts S8x4096x1024
  inb_S1x128x128_S1x128x64_0_0_0 : ∀ a, (![0, 0, 0] : Fin 3 → Nat) a + S1x128x64.size a ≤ S1x128x128.size a
  h_S1x128x64 : 0 < S1x128x64.numel
  shapeCasts_S1x128x64_S128x64 : S1x128x64.ShapeCasts S128x64
  inb_S1x4096x128_S1x4096x64_0_0_0 : ∀ a, (![0, 0, 0] : Fin 3 → Nat) a + S1x4096x64.size a ≤ S1x4096x128.size a
  h_S1x4096x64 : 0 < S1x4096x64.numel
  shapeCasts_S1x4096x64_S4096x64 : S1x4096x64.ShapeCasts S4096x64
  inb_S1x4096x256_S1x4096x128_0_0_0 : ∀ a, (![0, 0, 0] : Fin 3 → Nat) a + S1x4096x128.size a ≤ S1x4096x256.size a
  h_S1x4096x128 : 0 < S1x4096x128.numel
  shapeCasts_S1x4096x128_S4096x128 : S1x4096x128.ShapeCasts S4096x128
  reduces_S128x4096_S128 : S128x4096.Reduces [1] S128
  shapeCasts_S128_S128x1 : S128.ShapeCasts S128x1
  broadcasts_S128x1_S128x4096 : S128x1.Broadcasts S128x4096
  inb_S1x2x128x4096_S1x1x128x4096_0_0_0_0 : ∀ a, (![0, 0, 0, 0] : Fin 4 → Nat) a + S1x1x128x4096.size a ≤ S1x2x128x4096.size a
  h_S1x1x128x4096 : 0 < S1x1x128x4096.numel
  shapeCasts_S1x1x128x4096_S128x4096 : S1x1x128x4096.ShapeCasts S128x4096
  shapeCasts_S128x4096_S1x1x128x4096 : S128x4096.ShapeCasts S1x1x128x4096
  inb_S1x128x256_S1x128x128_0_0_0 : ∀ a, (![0, 0, 0] : Fin 3 → Nat) a + S1x128x128.size a ≤ S1x128x256.size a
  h_S1x128x128 : 0 < S1x128x128.numel
  shapeCasts_S1x128x128_S128x128 : S1x128x128.ShapeCasts S128x128
  shapeCasts_S128x128_S1x128x128 : S128x128.ShapeCasts S1x128x128
  inb_S1x128x128_S1x128x64_0_0_64 : ∀ a, (![0, 0, 64] : Fin 3 → Nat) a + S1x128x64.size a ≤ S1x128x128.size a
  inb_S1x4096x128_S1x4096x64_0_0_64 : ∀ a, (![0, 0, 64] : Fin 3 → Nat) a + S1x4096x64.size a ≤ S1x4096x128.size a
  inb_S1x4096x256_S1x4096x128_0_0_128 : ∀ a, (![0, 0, 128] : Fin 3 → Nat) a + S1x4096x128.size a ≤ S1x4096x256.size a
  inb_S1x2x128x4096_S1x1x128x4096_0_1_0_0 : ∀ a, (![0, 1, 0, 0] : Fin 4 → Nat) a + S1x1x128x4096.size a ≤ S1x2x128x4096.size a
  inb_S1x128x256_S1x128x128_0_0_128 : ∀ a, (![0, 0, 128] : Fin 3 → Nat) a + S1x128x128.size a ≤ S1x128x256.size a
  shapeCasts_S8x256x1024_S2048x1024 : S8x256x1024.ShapeCasts S2048x1024
  reduces_S512x512_S512 : S512x512.Reduces [1] S512
  shapeCasts_S512_S512x1 : S512.ShapeCasts S512x1
  broadcasts_S512x1_S512x512 : S512x1.Broadcasts S512x512
  transposes_S1024x512_S512x1024_1_0 : S1024x512.Transposes [1, 0] S512x1024
  shapeCasts_S2048x1024_S8x256x1024 : S2048x1024.ShapeCasts S8x256x1024
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  inb_S1x256x128_S1x256x64_0_0_0 : ∀ a, (![0, 0, 0] : Fin 3 → Nat) a + S1x256x64.size a ≤ S1x256x128.size a
  h_S1x256x64 : 0 < S1x256x64.numel
  shapeCasts_S1x256x64_S256x64 : S1x256x64.ShapeCasts S256x64
  inb_S1x256x256_S1x256x128_0_0_0 : ∀ a, (![0, 0, 0] : Fin 3 → Nat) a + S1x256x128.size a ≤ S1x256x256.size a
  h_S1x256x128 : 0 < S1x256x128.numel
  shapeCasts_S1x256x128_S256x128 : S1x256x128.ShapeCasts S256x128
  reduces_S1024x256_S1024 : S1024x256.Reduces [1] S1024
  shapeCasts_S1024_S1024x1 : S1024.ShapeCasts S1024x1
  broadcasts_S1024x1_S1024x256 : S1024x1.Broadcasts S1024x256
  inb_S1x2x1024x256_S1x1x1024x256_0_0_0_0 : ∀ a, (![0, 0, 0, 0] : Fin 4 → Nat) a + S1x1x1024x256.size a ≤ S1x2x1024x256.size a
  h_S1x1x1024x256 : 0 < S1x1x1024x256.numel
  shapeCasts_S1x1x1024x256_S1024x256 : S1x1x1024x256.ShapeCasts S1024x256
  shapeCasts_S1024x256_S1x1x1024x256 : S1024x256.ShapeCasts S1x1x1024x256
  inb_S1x1024x256_S1x1024x128_0_0_0 : ∀ a, (![0, 0, 0] : Fin 3 → Nat) a + S1x1024x128.size a ≤ S1x1024x256.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x1024x128_S1x1024x64_0_0_64 : ∀ a, (![0, 0, 64] : Fin 3 → Nat) a + S1x1024x64.size a ≤ S1x1024x128.size a
  inb_S1x256x128_S1x256x64_0_0_64 : ∀ a, (![0, 0, 64] : Fin 3 → Nat) a + S1x256x64.size a ≤ S1x256x128.size a
  inb_S1x256x256_S1x256x128_0_0_128 : ∀ a, (![0, 0, 128] : Fin 3 → Nat) a + S1x256x128.size a ≤ S1x256x256.size a
  inb_S1x2x1024x256_S1x1x1024x256_0_1_0_0 : ∀ a, (![0, 1, 0, 0] : Fin 4 → Nat) a + S1x1x1024x256.size a ≤ S1x2x1024x256.size a
  inb_S1x1024x256_S1x1024x128_0_0_128 : ∀ a, (![0, 0, 128] : Fin 3 → Nat) a + S1x1024x128.size a ≤ S1x1024x256.size a
  reduces_S512x1024_S512 : S512x1024.Reduces [1] S512
  broadcasts_S512x1_S512x1024 : S512x1.Broadcasts S512x1024
  dot_S512x512_S512x512_S512x512_1_0_0_1_n_n_wf : DotDims.WF S512x512 S512x512 S512x512 [1] [0] [0] [1] [] []
  dot_S512x1024_S1024x512_S512x512_1_0_0_1_n_n_wf : DotDims.WF S512x1024 S1024x512 S512x512 [1] [0] [0] [1] [] []
  dot_S512x1024_S1024x1024_S512x1024_1_0_0_1_n_n_wf : DotDims.WF S512x1024 S1024x1024 S512x1024 [1] [0] [0] [1] [] []
  dot_S128x64_S4096x64_S128x4096_1_1_0_0_n_n_wf : DotDims.WF S128x64 S4096x64 S128x4096 [1] [1] [0] [0] [] []
  dot_S128x4096_S4096x128_S128x128_1_0_0_1_n_n_wf : DotDims.WF S128x4096 S4096x128 S128x128 [1] [0] [0] [1] [] []
  dot_S512x512_S512x1024_S512x1024_1_0_0_1_n_n_wf : DotDims.WF S512x512 S512x1024 S512x1024 [1] [0] [0] [1] [] []
  dot_S1024x64_S256x64_S1024x256_1_1_0_0_n_n_wf : DotDims.WF S1024x64 S256x64 S1024x256 [1] [1] [0] [0] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .f32 = 32 ∨ (Rect.block (s := S2048x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x512.size a
  hwx0_3 : ∀ i : grid0.Coords, EltTy.bits .f32 = 32 ∨ (Rect.block (s := S2048x512) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S32768x1024.size a
  hwx1_0 : ∀ i : grid1.Coords, EltTy.bits .f32 = 32 ∨ (Rect.block (s := S32768x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x512.size a
  hwx1_5 : ∀ i : grid1.Coords, EltTy.bits .f32 = 32 ∨ (Rect.block (s := S1024x512) S1024x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S32768x512.size a
  hwx1_7 : ∀ i : grid1.Coords, EltTy.bits .f32 = 32 ∨ (Rect.block (s := S32768x512) S512x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1024.size a ≤ S32768x1024.size a
  hwx1_8 : ∀ i : grid1.Coords, EltTy.bits .f32 = 32 ∨ (Rect.block (s := S32768x1024) S512x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x512.size a ≤ S32768x512.size a
  hwx1_9 : ∀ i : grid1.Coords, EltTy.bits .f32 = 32 ∨ (Rect.block (s := S32768x512) S512x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x128.size a ≤ S8x256x512.size a
  hwx2_0 : ∀ i : grid2.Coords, EltTy.bits .f32 = 32 ∨ (Rect.block (s := S8x256x512) S1x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096x128.size a ≤ S8x4096x512.size a
  hwx2_1 : ∀ i : grid2.Coords, EltTy.bits .f32 = 32 ∨ (Rect.block (s := S8x4096x512) S1x4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x4096x256.size a ≤ S8x4096x1024.size a
  hwx2_2 : ∀ i : grid2.Coords, EltTy.bits .f32 = 32 ∨ (Rect.block (s := S8x4096x1024) S1x4096x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128x256.size a ≤ S8x256x1024.size a
  hwx2_3 : ∀ i : grid2.Coords, EltTy.bits .f32 = 32 ∨ (Rect.block (s := S8x256x1024) S1x128x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2x128x4096.size a ≤ S8x8x256x4096.size a
  hwx2_4 : ∀ i : grid2.Coords, EltTy.bits .f32 = 32 ∨ (Rect.block (s := S8x8x256x4096) S1x2x128x4096.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S2048x1024.size a
  hwx3_0 : ∀ i : grid3.Coords, EltTy.bits .f32 = 32 ∨ (Rect.block (s := S2048x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x512.size a
  hwx3_1 : ∀ i : grid3.Coords, EltTy.bits .f32 = 32 ∨ (Rect.block (s := S1024x512) S1024x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S2048x512.size a
  hwx3_3 : ∀ i : grid3.Coords, EltTy.bits .f32 = 32 ∨ (Rect.block (s := S2048x512) S512x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S2048x512.size a
  hwx4_0 : ∀ i : grid4.Coords, EltTy.bits .f32 = 32 ∨ (Rect.block (s := S2048x512) S512x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S2048x512.size a
  hwx4_1 : ∀ i : grid4.Coords, EltTy.bits .f32 = 32 ∨ (Rect.block (s := S2048x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x512.size a ≤ S2048x512.size a
  hwx4_4 : ∀ i : grid4.Coords, EltTy.bits .f32 = 32 ∨ (Rect.block (s := S2048x512) S512x512.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x512.size a ≤ S2048x512.size a
  hwx5_0 : ∀ i : grid5.Coords, EltTy.bits .f32 = 32 ∨ (Rect.block (s := S2048x512) S512x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S512x512.size a
  hwx5_1 : ∀ i : grid5.Coords, EltTy.bits .f32 = 32 ∨ (Rect.block (s := S512x512) S512x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x512.size a ≤ S2048x512.size a
  hwx5_3 : ∀ i : grid5.Coords, EltTy.bits .f32 = 32 ∨ (Rect.block (s := S2048x512) S512x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x512.size a ≤ S2048x512.size a
  hwx6_0 : ∀ i : grid6.Coords, EltTy.bits .f32 = 32 ∨ (Rect.block (s := S2048x512) S512x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x1024.size a ≤ S512x1024.size a
  hwx6_1 : ∀ i : grid6.Coords, EltTy.bits .f32 = 32 ∨ (Rect.block (s := S512x1024) S512x1024.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x1024.size a
  hwx6_2 : ∀ i : grid6.Coords, EltTy.bits .f32 = 32 ∨ (Rect.block (s := S1x1024) S1x1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x1024.size a ≤ S2048x1024.size a
  hwx6_3 : ∀ i : grid6.Coords, EltTy.bits .f32 = 32 ∨ (Rect.block (s := S2048x1024) S512x1024.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x1024x128.size a ≤ S8x4096x512.size a
  hwx7_0 : ∀ i : grid7.Coords, EltTy.bits .f32 = 32 ∨ (Rect.block (s := S8x4096x512) S1x1024x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x256x128.size a ≤ S8x256x512.size a
  hwx7_1 : ∀ i : grid7.Coords, EltTy.bits .f32 = 32 ∨ (Rect.block (s := S8x256x512) S1x256x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x256x256.size a ≤ S8x256x1024.size a
  hwx7_2 : ∀ i : grid7.Coords, EltTy.bits .f32 = 32 ∨ (Rect.block (s := S8x256x1024) S1x256x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x1024x256.size a ≤ S8x4096x1024.size a
  hwx7_3 : ∀ i : grid7.Coords, EltTy.bits .f32 = 32 ∨ (Rect.block (s := S8x4096x1024) S1x1024x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x2x1024x256.size a ≤ S8x8x4096x256.size a
  hwx7_4 : ∀ i : grid7.Coords, EltTy.bits .f32 = 32 ∨ (Rect.block (s := S8x8x4096x256) S1x2x1024x256.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x1024.size a ≤ S32768x1024.size a
  hwx8_0 : ∀ i : grid8.Coords, EltTy.bits .f32 = 32 ∨ (Rect.block (s := S32768x1024) S512x1024.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1024x1024.size a ≤ S1024x1024.size a
  hwx8_1 : ∀ i : grid8.Coords, EltTy.bits .f32 = 32 ∨ (Rect.block (s := S1024x1024) S1024x1024.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x1024.size a
  hwx8_2 : ∀ i : grid8.Coords, EltTy.bits .f32 = 32 ∨ (Rect.block (s := S1x1024) S1x1024.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x1024.size a ≤ S32768x1024.size a
  hwx8_3 : ∀ i : grid8.Coords, EltTy.bits .f32 = 32 ∨ (Rect.block (s := S32768x1024) S512x1024.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1024.size a ≤ S1x1024.size a
  hwx8_4 : ∀ i : grid8.Coords, EltTy.bits .f32 = 32 ∨ (Rect.block (s := S1x1024) S1x1024.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x1024.size a ≤ S1x1024.size a
  hwx8_5 : ∀ i : grid8.Coords, EltTy.bits .f32 = 32 ∨ (Rect.block (s := S1x1024) S1x1024.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S512x1024.size a ≤ S32768x1024.size a
  hwx8_6 : ∀ i : grid8.Coords, EltTy.bits .f32 = 32 ∨ (Rect.block (s := S32768x1024) S512x1024.size (cc8_transform_6 i) (hinb8_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1024x64_S256x64_S1024x256_1_1_0_0_n_n : DotDims S1024x64 S256x64 S1024x256 where
  lhsContracting := [1]
  rhsContracting := [1]
  lhsNonContracting := [0]
  rhsNonContracting := [0]
  lhsBatch := []
  rhsBatch := []
  wf := dot_S1024x64_S256x64_S1024x256_1_1_0_0_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1024x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12_0) S512x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_1) S512x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v12_2) S512x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v4) S1x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x4096x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16_0) S1x128x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16_1) S1x2x128x4096.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v17) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1024x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S512x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v22) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S512x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v25) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v26) S512x512.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v28) S512x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S512x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v31) S512x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v33) S512x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v34) S512x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v35) S1x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v36) S512x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v15) S1x1024x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S1x256x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v37) S1x256x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v38_0) S1x1024x256.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v38_1) S1x2x1024x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v39) S512x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v41) S1024x1024.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v42) S1x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v40) S512x1024.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v43) S1x1024.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v44) S1x1024.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v45) S512x1024.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S8x4096x1024 : Shape := ⟨3, ![8, 4096, 1024]⟩
abbrev S8x256x512 : Shape := ⟨3, ![8, 256, 512]⟩
abbrev S512x512 : Shape := ⟨2, ![512, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x512 : Shape := ⟨2, ![1024, 512]⟩
abbrev S1x1x512 : Shape := ⟨3, ![1, 1, 512]⟩
abbrev S8x256x8x64 : Shape := ⟨4, ![8, 256, 8, 64]⟩
abbrev S8x8x256x64 : Shape := ⟨4, ![8, 8, 256, 64]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S1x1x1024 : Shape := ⟨3, ![1, 1, 1024]⟩
abbrev S8x4096x8x128 : Shape := ⟨4, ![8, 4096, 8, 128]⟩
abbrev S8x8x4096x128 : Shape := ⟨4, ![8, 8, 4096, 128]⟩
abbrev S8x8x256x4096 : Shape := ⟨4, ![8, 8, 256, 4096]⟩
abbrev S_ : Shape := ⟨0, ![]⟩
abbrev S8x8x256 : Shape := ⟨3, ![8, 8, 256]⟩
abbrev S8x8x256x1 : Shape := ⟨4, ![8, 8, 256, 1]⟩
abbrev S8x8x256x128 : Shape := ⟨4, ![8, 8, 256, 128]⟩
abbrev S8x256x8x128 : Shape := ⟨4, ![8, 256, 8, 128]⟩
abbrev S8x256x1024 : Shape := ⟨3, ![8, 256, 1024]⟩
abbrev S8x256 : Shape := ⟨2, ![8, 256]⟩
abbrev S8x256x1 : Shape := ⟨3, ![8, 256, 1]⟩
abbrev S8x8x4096x256 : Shape := ⟨4, ![8, 8, 4096, 256]⟩
abbrev S8x8x4096 : Shape := ⟨3, ![8, 8, 4096]⟩
abbrev S8x8x4096x1 : Shape := ⟨4, ![8, 8, 4096, 1]⟩
abbrev S8x4096 : Shape := ⟨2, ![8, 4096]⟩
abbrev S8x4096x1 : Shape := ⟨3, ![8, 4096, 1]⟩

abbrev nBuf : Space → Nat
  | .hbm => 168
  | .vmem => 0
  | .smem => 0
  | _ => 0

abbrev hbmTy0_0 (i : Nat) : BufTy := match i % 128 with
  | 0 => ⟨S8x4096x1024, .f32⟩
  | 1 => ⟨S8x256x512, .f32⟩
  | 2 => ⟨S512x512, .f32⟩
  | 3 => ⟨S512, .f32⟩
  | 4 => ⟨S512x1024, .f32⟩
  | 5 => ⟨S512, .f32⟩
  | 6 => ⟨S1024x1024, .f32⟩
  | 7 => ⟨S1024, .f32⟩
  | 8 => ⟨S512x1024, .f32⟩
  | 9 => ⟨S512, .f32⟩
  | 10 => ⟨S512x1024, .f32⟩
  | 11 => ⟨S512, .f32⟩
  | 12 => ⟨S512x512, .f32⟩
  | 13 => ⟨S512, .f32⟩
  | 14 => ⟨S1024x512, .f32⟩
  | 15 => ⟨S1024, .f32⟩
  | 16 => ⟨S1024x1024, .f32⟩
  | 17 => ⟨S1024, .f32⟩
  | 18 => ⟨S512, .f32⟩
  | 19 => ⟨S512, .f32⟩
  | 20 => ⟨S1024, .f32⟩
  | 21 => ⟨S1024, .f32⟩
  | 22 => ⟨S8x256x512, .f32⟩
  | 23 => ⟨S1x1x512, .f32⟩
  | 24 => ⟨S8x256x512, .f32⟩
  | 25 => ⟨S8x256x512, .f32⟩
  | 26 => ⟨S8x256x8x64, .f32⟩
  | 27 => ⟨S8x8x256x64, .f32⟩
  | 28 => ⟨S8x4096x512, .f32⟩
  | 29 => ⟨S1x1x512, .f32⟩
  | 30 => ⟨S8x4096x512, .f32⟩
  | 31 => ⟨S8x4096x512, .f32⟩
  | 32 => ⟨S8x4096x8x64, .f32⟩
  | 33 => ⟨S8x8x4096x64, .f32⟩
  | 34 => ⟨S8x4096x1024, .f32⟩
  | 35 => ⟨S1x1x1024, .f32⟩
  | 36 => ⟨S8x4096x1024, .f32⟩
  | 37 => ⟨S8x4096x1024, .f32⟩
  | 38 => ⟨S8x4096x8x128, .f32⟩
  | 39 => ⟨S8x8x4096x128, .f32⟩
  | 40 => ⟨S8x8x256x4096, .f32⟩
  | 41 => ⟨S_, .f32⟩
  | 42 => ⟨S8x8x256x4096, .f32⟩
  | 43 => ⟨S8x8x256x4096, .f32⟩
  | 44 => ⟨S_, .f32⟩
  | 45 => ⟨S8x8x256, .f32⟩
  | 46 => ⟨S_, .f32⟩
  | 47 => ⟨S8x8x256, .f32⟩
  | 48 => ⟨S8x8x256, .f32⟩
  | 49 => ⟨S8x8x256x1, .f32⟩
  | 50 => ⟨S8x8x256x4096, .f32⟩
  | 51 => ⟨S8x8x256x4096, .f32⟩
  | 52 => ⟨S8x8x256x4096, .f32⟩
  | 53 => ⟨S_, .f32⟩
  | 54 => ⟨S8x8x256, .f32⟩
  | 55 => ⟨S8x8x256x1, .f32⟩
  | 56 => ⟨S8x8x256x4096, .f32⟩
  | 57 => ⟨S8x8x256x4096, .f32⟩
  | 58 => ⟨S8x8x256x128, .f32⟩
  | 59 => ⟨S8x256x8x128, .f32⟩
  | 60 => ⟨S8x256x1024, .f32⟩
  | 61 => ⟨S8x256x512, .f32⟩
  | 62 => ⟨S1x1x512, .f32⟩
  | 63 => ⟨S8x256x512, .f32⟩
  | 64 => ⟨S8x256x512, .f32⟩
  | 65 => ⟨S8x256x512, .f32⟩
  | 66 => ⟨S_, .f32⟩
  | 67 => ⟨S8x256, .f32⟩
  | 68 => ⟨S8x256x1, .f32⟩
  | 69 => ⟨S_, .f32⟩
  | 70 => ⟨S8x256x1, .f32⟩
  | 71 => ⟨S8x256x1, .f32⟩
  | 72 => ⟨S8x256x512, .f32⟩
  | 73 => ⟨S8x256x512, .f32⟩
  | 74 => ⟨S8x256x512, .f32⟩
  | 75 => ⟨S_, .f32⟩
  | 76 => ⟨S8x256, .f32⟩
  | 77 => ⟨S8x256x1, .f32⟩
  | 78 => ⟨S_, .f32⟩
  | 79 => ⟨S8x256x1, .f32⟩
  | 80 => ⟨S8x256x1, .f32⟩
  | 81 => ⟨S8x256x512, .f32⟩
  | 82 => ⟨S8x256x512, .f32⟩
  | 83 => ⟨S_, .f32⟩
  | 84 => ⟨S8x256x1, .f32⟩
  | 85 => ⟨S8x256x1, .f32⟩
  | 86 => ⟨S8x256x1, .f32⟩
  | 87 => ⟨S8x256x512, .f32⟩
  | 88 => ⟨S8x256x512, .f32⟩
  | 89 => ⟨S1x1x512, .f32⟩
  | 90 => ⟨S8x256x512, .f32⟩
  | 91 => ⟨S8x256x512, .f32⟩
  | 92 => ⟨S1x1x512, .f32⟩
  | 93 => ⟨S8x256x512, .f32⟩
  | 94 => ⟨S8x256x512, .f32⟩
  | 95 => ⟨S8x4096x512, .f32⟩
  | 96 => ⟨S1x1x512, .f32⟩
  | 97 => ⟨S8x4096x512, .f32⟩
  | 98 => ⟨S8x4096x512, .f32⟩
  | 99 => ⟨S8x4096x8x64, .f32⟩
  | 100 => ⟨S8x8x4096x64, .f32⟩
  | 101 => ⟨S8x256x512, .f32⟩
  | 102 => ⟨S1x1x512, .f32⟩
  | 103 => ⟨S8x256x512, .f32⟩
  | 104 => ⟨S8x256x512, .f32⟩
  | 105 => ⟨S8x256x8x64, .f32⟩
  | 106 => ⟨S8x8x256x64, .f32⟩
  | 107 => ⟨S8x256x1024, .f32⟩
  | 108 => ⟨S1x1x1024, .f32⟩
  | 109 => ⟨S8x256x1024, .f32⟩
  | 110 => ⟨S8x256x1024, .f32⟩
  | 111 => ⟨S8x256x8x128, .f32⟩
  | 112 => ⟨S8x8x256x128, .f32⟩
  | 113 => ⟨S8x8x4096x256, .f32⟩
  | 114 => ⟨S_, .f32⟩
  | 115 => ⟨S8x8x4096x256, .f32⟩
  | 116 => ⟨S8x8x4096x256, .f32⟩
  | 117 => ⟨S_, .f32⟩
  | 118 => ⟨S8x8x4096, .f32⟩
  | 119 => ⟨S_, .f32⟩
  | 120 => ⟨S8x8x4096, .f32⟩
  | 121 => ⟨S8x8x4096, .f32⟩
  | 122 => ⟨S8x8x4096x1, .f32⟩
  | 123 => ⟨S8x8x4096x256, .f32⟩
  | 124 => ⟨S8x8x4096x256, .f32⟩
  | 125 => ⟨S8x8x4096x256, .f32⟩
  | 126 => ⟨S_, .f32⟩
  | 127 => ⟨S8x8x4096, .f32⟩
  | _ => ⟨S8x4096x1024, .f32⟩

abbrev hbmTy0_1 (i : Nat) : BufTy := match i % 128 with
  | 0 => ⟨S8x8x4096x1, .f32⟩
  | 1 => ⟨S8x8x4096x256, .f32⟩
  | 2 => ⟨S8x8x4096x256, .f32⟩
  | 3 => ⟨S8x8x4096x128, .f32⟩
  | 4 => ⟨S8x4096x8x128, .f32⟩
  | 5 => ⟨S8x4096x1024, .f32⟩
  | 6 => ⟨S8x4096x1024, .f32⟩
  | 7 => ⟨S1x1x1024, .f32⟩
  | 8 => ⟨S8x4096x1024, .f32⟩
  | 9 => ⟨S8x4096x1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S8x4096x1024, .f32⟩
  | 18 => ⟨S8x4096x1024, .f32⟩
  | 19 => ⟨S8x4096x1024, .f32⟩
  | 20 => ⟨S_, .f32⟩
  | 21 => ⟨S8x4096, .f32⟩
  | 22 => ⟨S8x4096x1, .f32⟩
  | 23 => ⟨S_, .f32⟩
  | 24 => ⟨S8x4096x1, .f32⟩
  | 25 => ⟨S8x4096x1, .f32⟩
  | 26 => ⟨S8x4096x1024, .f32⟩
  | 27 => ⟨S8x4096x1024, .f32⟩
  | 28 => ⟨S_, .f32⟩
  | 29 => ⟨S8x4096x1, .f32⟩
  | 30 => ⟨S8x4096x1, .f32⟩
  | 31 => ⟨S8x4096x1, .f32⟩
  | 32 => ⟨S8x4096x1024, .f32⟩
  | 33 => ⟨S8x4096x1024, .f32⟩
  | 34 => ⟨S1x1x1024, .f32⟩
  | 35 => ⟨S8x4096x1024, .f32⟩
  | 36 => ⟨S8x4096x1024, .f32⟩
  | 37 => ⟨S1x1x1024, .f32⟩
  | 38 => ⟨S8x4096x1024, .f32⟩
  | 39 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_v21 : Ref sig .tc := ⟨.hbm, 45, rfl⟩
abbrev main_cst_1 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_3 : Ref sig .tc := ⟨.hbm, 66, rfl⟩
abbrev main_v40 : Ref sig .tc := ⟨.hbm, 67, rfl⟩
abbrev main_v41 : Ref sig .tc := ⟨.hbm, 68, rfl⟩
abbrev main_cst_4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_8 : Ref sig .tc := ⟨.hbm, 114, rfl⟩
abbrev main_v83 : Ref sig .tc := ⟨.hbm, 115, rfl⟩
abbrev main_v84 : Ref sig .tc := ⟨.hbm, 116, rfl⟩
abbrev main_cst_9 : Ref sig .tc := ⟨.hbm, 117, rfl⟩
abbrev main_v85 : Ref sig .tc := ⟨.hbm, 118, rfl⟩
abbrev main_cst_10 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_11 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_12 : Ref sig .tc := ⟨.hbm, 139, rfl⟩
abbrev main_v104 : Ref sig .tc := ⟨.hbm, 140, rfl⟩
abbrev main_v105 : Ref sig .tc := ⟨.hbm, 141, rfl⟩
abbrev main_cst_13 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_14 : Ref sig .tc := ⟨.hbm, 148, rfl⟩
abbrev main_v111 : Ref sig .tc := ⟨.hbm, 149, rfl⟩
abbrev main_v112 : Ref sig .tc := ⟨.hbm, 150, rfl⟩
abbrev main_cst_15 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_16 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x256x512_0_1_2 : S1x1x512.BroadcastsInDim S8x256x512 (![0, 1, 2] : Fin 3 → Fin S8x256x512.rank)
  shapeCasts_S8x256x512_S8x256x8x64 : S8x256x512.ShapeCasts S8x256x8x64
  transposes_S8x256x8x64_S8x8x256x64_0_2_1_3 : S8x256x8x64.Transposes [0, 2, 1, 3] S8x8x256x64
  bcast_S1x1x512_S8x4096x512_0_1_2 : S1x1x512.BroadcastsInDim S8x4096x512 (![0, 1, 2] : Fin 3 → Fin S8x4096x512.rank)
  shapeCasts_S8x4096x512_S8x4096x8x64 : S8x4096x512.ShapeCasts S8x4096x8x64
  transposes_S8x4096x8x64_S8x8x4096x64_0_2_1_3 : S8x4096x8x64.Transposes [0, 2, 1, 3] S8x8x4096x64
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  shapeCasts_S8x4096x1024_S8x4096x8x128 : S8x4096x1024.ShapeCasts S8x4096x8x128
  transposes_S8x4096x8x128_S8x8x4096x128_0_2_1_3 : S8x4096x8x128.Transposes [0, 2, 1, 3] S8x8x4096x128
  bcast_S_S8x8x256x4096 : S_.BroadcastsInDim S8x8x256x4096 (![] : Fin 0 → Fin S8x8x256x4096.rank)
  reducesTo_S8x8x256x4096_S8x8x256_d3 : S8x8x256x4096.ReducesTo [3] S8x8x256
  h_S_ : 0 < S_.numel
  bcast_S_S8x8x256 : S_.BroadcastsInDim S8x8x256 (![] : Fin 0 → Fin S8x8x256.rank)
  bcast_S8x8x256_S8x8x256x1_0_1_2 : S8x8x256.BroadcastsInDim S8x8x256x1 (![0, 1, 2] : Fin 3 → Fin S8x8x256x1.rank)
  bcast_S8x8x256x1_S8x8x256x4096_0_1_2_3 : S8x8x256x1.BroadcastsInDim S8x8x256x4096 (![0, 1, 2, 3] : Fin 4 → Fin S8x8x256x4096.rank)
  transposes_S8x8x256x128_S8x256x8x128_0_2_1_3 : S8x8x256x128.Transposes [0, 2, 1, 3] S8x256x8x128
  shapeCasts_S8x256x8x128_S8x256x1024 : S8x256x8x128.ShapeCasts S8x256x1024
  reducesTo_S8x256x512_S8x256_d2 : S8x256x512.ReducesTo [2] S8x256
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S8x256x1_S8x256x512_0_1_2 : S8x256x1.BroadcastsInDim S8x256x512 (![0, 1, 2] : Fin 3 → Fin S8x256x512.rank)
  bcast_S1x1x1024_S8x256x1024_0_1_2 : S1x1x1024.BroadcastsInDim S8x256x1024 (![0, 1, 2] : Fin 3 → Fin S8x256x1024.rank)
  shapeCasts_S8x256x1024_S8x256x8x128 : S8x256x1024.ShapeCasts S8x256x8x128
  transposes_S8x256x8x128_S8x8x256x128_0_2_1_3 : S8x256x8x128.Transposes [0, 2, 1, 3] S8x8x256x128
  bcast_S_S8x8x4096x256 : S_.BroadcastsInDim S8x8x4096x256 (![] : Fin 0 → Fin S8x8x4096x256.rank)
  reducesTo_S8x8x4096x256_S8x8x4096_d3 : S8x8x4096x256.ReducesTo [3] S8x8x4096
  bcast_S_S8x8x4096 : S_.BroadcastsInDim S8x8x4096 (![] : Fin 0 → Fin S8x8x4096.rank)
  bcast_S8x8x4096_S8x8x4096x1_0_1_2 : S8x8x4096.BroadcastsInDim S8x8x4096x1 (![0, 1, 2] : Fin 3 → Fin S8x8x4096x1.rank)
  bcast_S8x8x4096x1_S8x8x4096x256_0_1_2_3 : S8x8x4096x1.BroadcastsInDim S8x8x4096x256 (![0, 1, 2, 3] : Fin 4 → Fin S8x8x4096x256.rank)
  transposes_S8x8x4096x128_S8x4096x8x128_0_2_1_3 : S8x8x4096x128.Transposes [0, 2, 1, 3] S8x4096x8x128
  shapeCasts_S8x4096x8x128_S8x4096x1024 : S8x4096x8x128.ShapeCasts S8x4096x1024
  reducesTo_S8x4096x1024_S8x4096_d2 : S8x4096x1024.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  dot_S8x256x512_S512x512_S8x256x512_2_1_01_0_n_n_wf : DotDims.WF S8x256x512 S512x512 S8x256x512 [2] [1] [0, 1] [0] [] []
  dot_S8x4096x1024_S512x1024_S8x4096x512_2_1_01_0_n_n_wf : DotDims.WF S8x4096x1024 S512x1024 S8x4096x512 [2] [1] [0, 1] [0] [] []
  dot_S8x4096x1024_S1024x1024_S8x4096x1024_2_1_01_0_n_n_wf : DotDims.WF S8x4096x1024 S1024x1024 S8x4096x1024 [2] [1] [0, 1] [0] [] []
  dot_S8x8x256x64_S8x8x4096x64_S8x8x256x4096_3_3_2_2_01_01_wf : DotDims.WF S8x8x256x64 S8x8x4096x64 S8x8x256x4096 [3] [3] [2] [2] [0, 1] [0, 1]
  dot_S8x8x256x4096_S8x8x4096x128_S8x8x256x128_3_2_2_3_01_01_wf : DotDims.WF S8x8x256x4096 S8x8x4096x128 S8x8x256x128 [3] [2] [2] [3] [0, 1] [0, 1]
  dot_S8x256x1024_S512x1024_S8x256x512_2_1_01_0_n_n_wf : DotDims.WF S8x256x1024 S512x1024 S8x256x512 [2] [1] [0, 1] [0] [] []
  dot_S8x256x512_S1024x512_S8x256x1024_2_1_01_0_n_n_wf : DotDims.WF S8x256x512 S1024x512 S8x256x1024 [2] [1] [0, 1] [0] [] []
  dot_S8x8x4096x64_S8x8x256x64_S8x8x4096x256_3_3_2_2_01_01_wf : DotDims.WF S8x8x4096x64 S8x8x256x64 S8x8x4096x256 [3] [3] [2] [2] [0, 1] [0, 1]
  dot_S8x8x4096x256_S8x8x256x128_S8x8x4096x128_3_2_2_3_01_01_wf : DotDims.WF S8x8x4096x256 S8x8x256x128 S8x8x4096x128 [3] [2] [2] [3] [0, 1] [0, 1]

variable [Facts₀]

def dot_S8x256x512_S512x512_S8x256x512_2_1_01_0_n_n : DotDims S8x256x512 S512x512 S8x256x512 where
  lhsContracting := [2]
  rhsContracting := [1]
  lhsNonContracting := [0, 1]
  rhsNonContracting := [0]
  lhsBatch := []
  rhsBatch := []
  wf := dot_S8x256x512_S512x512_S8x256x512_2_1_01_0_n_n_wf
def dot_S8x4096x1024_S512x1024_S8x4096x512_2_1_01_0_n_n : DotDims S8x4096x1024 S512x1024 S8x4096x512 where
  lhsContracting := [2]
  rhsContracting := [1]
  lhsNonContracting := [0, 1]
  rhsNonContracting := [0]
  lhsBatch := []
  rhsBatch := []
  wf := dot_S8x4096x1024_S512x1024_S8x4096x512_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x8x256x64_S8x8x4096x64_S8x8x256x4096_3_3_2_2_01_01 : DotDims S8x8x256x64 S8x8x4096x64 S8x8x256x4096 where
  lhsContracting := [3]
  rhsContracting := [3]
  lhsNonContracting := [2]
  rhsNonContracting := [2]
  lhsBatch := [0, 1]
  rhsBatch := [0, 1]
  wf := dot_S8x8x256x64_S8x8x4096x64_S8x8x256x4096_3_3_2_2_01_01_wf
def dot_S8x8x256x4096_S8x8x4096x128_S8x8x256x128_3_2_2_3_01_01 : DotDims S8x8x256x4096 S8x8x4096x128 S8x8x256x128 where
  lhsContracting := [3]
  rhsContracting := [2]
  lhsNonContracting := [2]
  rhsNonContracting := [3]
  lhsBatch := [0, 1]
  rhsBatch := [0, 1]
  wf := dot_S8x8x256x4096_S8x8x4096x128_S8x8x256x128_3_2_2_3_01_01_wf
def dot_S8x256x1024_S512x1024_S8x256x512_2_1_01_0_n_n : DotDims S8x256x1024 S512x1024 S8x256x512 where
  lhsContracting := [2]
  rhsContracting := [1]
  lhsNonContracting := [0, 1]
  rhsNonContracting := [0]
  lhsBatch := []
  rhsBatch := []
  wf := dot_S8x256x1024_S512x1024_S8x256x512_2_1_01_0_n_n_wf
def dot_S8x256x512_S1024x512_S8x256x1024_2_1_01_0_n_n : DotDims S8x256x512 S1024x512 S8x256x1024 where
  lhsContracting := [2]
  rhsContracting := [1]
  lhsNonContracting := [0, 1]
  rhsNonContracting := [0]
  lhsBatch := []
  rhsBatch := []
  wf := dot_S8x256x512_S1024x512_S8x256x1024_2_1_01_0_n_n_wf
def dot_S8x8x4096x64_S8x8x256x64_S8x8x4096x256_3_3_2_2_01_01 : DotDims S8x8x4096x64 S8x8x256x64 S8x8x4096x256 where
  lhsContracting := [3]
  rhsContracting := [3]
  lhsNonContracting := [2]
  rhsNonContracting := [2]
  lhsBatch := [0, 1]
  rhsBatch := [0, 1]
  wf := dot_S8x8x4096x64_S8x8x256x64_S8x8x4096x256_3_3_2_2_01_01_wf
def dot_S8x8x4096x256_S8x8x256x128_S8x8x4096x128_3_2_2_3_01_01 : DotDims S8x8x4096x256 S8x8x256x128 S8x8x4096x128 where
  lhsContracting := [3]
  rhsContracting := [2]
  lhsNonContracting := [2]
  rhsNonContracting := [3]
  lhsBatch := [0, 1]
  rhsBatch := [0, 1]
  wf := dot_S8x8x4096x256_S8x8x256x128_S8x8x4096x128_3_2_2_3_01_01_wf

class Facts : Prop extends Facts₀ where

variable [Facts]
-- ==== Proof.KernelFinalMem.lean ====
/-
  The idealized kernel program's run, with the final contents of every buffer.

  @main is nine kernel regions between ten stretches of layout operations (reshapes and transposes). Core `c`'s buffer
  contents after each stretch and after each region's write-backs form a chain of valuations `W0 … W19` over the launch
  memory: a stretch maps a valuation to the operations' results over it, a region replaces its windows' arrays by what
  its grid points flushed. Every weakly fair execution terminates, faults nowhere, and ends with every unscoped
  TensorCore buffer of every core at the last valuation `W19`; in particular each of the four result buffers.
-/
import proofs.«120082_j85341000171970_2_alg».proof.Proof.Gen.KernelIdeal.Frame

set_option maxRecDepth 16384

noncomputable section

namespace Cert.KernelIdeal.FinalMem

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state every unscoped
    TensorCore buffer `b` of every core `c` holds `W19 m ρ c b`. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- An unscoped buffer `b`, read at core `c`'s TensorCore thread in such a final state, is `W19 m ρ c b`. -/
theorem final_at {r : PUnit × MemSt nD τ sig (Elt F)}
    (h : ∀ c : Dev nD, ∀ b ∈ Pipeline.ucRefs τ sig, r.2.mem (((c : Thread nD τ)).1, b) = W19 m ρ c b)
    (c : Dev nD) (b : Ref sig .tc) (hb : ¬ (Proc.devRef .tc b : DevRef τ sig).isScoped) :
    r.2.mem ((c.tc : Thread nD τ).loc b) = W19 m ρ c (Proc.devRef .tc b) :=
  h c _ (mem_uc b hb)

end Cert.KernelIdeal.FinalMem

end
-- ==== Proof.Spec.lean ====
/-
  The computation both programs perform, written once over the extended reals.

  Two attention layers between a long sequence `hidden` (8 batches × 4096 rows × 1024 features) and a short one `aux`
  (8 × 256 × 512), each followed by a residual LayerNorm:

    pack    q₁ = aux·Wq₁ᵀ + bq₁,  k₁ = hidden·Wk₁ᵀ + bk₁,  v₁ = hidden·Wv₁ᵀ + bv₁          (8 heads: 64-wide q/k, 128-wide v)
            attn₁ = softmax_k (q₁·k₁ᵀ · σ),  ctx₁ = attn₁·v₁,  out₁ = ctx₁·Wo₁ᵀ + bo₁,  aux' = LN (aux + out₁)
    unpack  q₂ = hidden·Wq₂ᵀ + bq₂,  k₂ = out₁·Wk₂ᵀ + bk₂,  v₂ = out₁·Wv₂ᵀ + bv₂
            attn₂ = softmax_k (q₂·k₂ᵀ · σ),  ctx₂ = attn₂·v₂,  out = LN (hidden + (ctx₂·Wo₂ᵀ + bo₂))

  Arrays are curried functions of their coordinates (`Fin 8 → Fin 4096 → Fin 1024 → EReal`), so that a statement about an
  entry names its batch, row, head and feature directly; head `h`'s slice of a 512-wide (resp. 1024-wide) feature axis is
  the features `64·h + d` (resp. `128·h + e`). Sums are sums over `Fin n` in the commutative monoid of extended reals, so
  their order and grouping carry no information; the quotient, the exponential and the square root are the total
  operations on the extended reals (`Ideal.div`, `Ideal.exp`, `Ideal.sqrt`). The scale σ and the LayerNorm's ε enter as the
  extended reals `σ`, `ε` — both programs spell them with the same binary32 words.
-/
import Idealize.ShloMosaic.PureOps.Ideal
import Idealize.ShloMosaic.Lib.ValueIdx

noncomputable section

namespace Cert.Spec

open Idealize.ShloMosaic

/-- A linear layer along the last axis: `y[b, r, o] = (∑ₖ x[b, r, k] · w[o, k]) + bias[o]` (the weight is stored
    output-major, as `einsum "bkd,od->bko"` reads it). -/
def lin {B M D O : ℕ} (x : Fin B → Fin M → Fin D → EReal) (w : Fin O → Fin D → EReal) (bias : Fin O → EReal) :
    Fin B → Fin M → Fin O → EReal :=
  fun b r o => (∑ k : Fin D, x b r k * w o k) + bias o

/-- Feature `64·h + d` of a 512-wide axis: head `h`'s `d`-th query/key feature. -/
def qk (h : Fin 8) (d : Fin 64) : Fin 512 := ⟨64 * h.val + d.val, by omega⟩

/-- Feature `128·h + e` of a 1024-wide axis: head `h`'s `e`-th value feature. -/
def vf (h : Fin 8) (e : Fin 128) : Fin 1024 := ⟨128 * h.val + e.val, by omega⟩

/-- Scaled attention logits of head `h`: `s[b, h, q, k] = (∑_d Q[b, q, 64h+d] · K[b, k, 64h+d]) · σ`. -/
def logits {Mq Mk : ℕ} (σ : EReal) (Q : Fin 8 → Fin Mq → Fin 512 → EReal) (K : Fin 8 → Fin Mk → Fin 512 → EReal) :
    Fin 8 → Fin 8 → Fin Mq → Fin Mk → EReal :=
  fun b h q k => (∑ d : Fin 64, Q b q (qk h d) * K b k (qk h d)) * σ

/-- The softmax numerators along the last axis: `p[…, k] = exp (s[…, k] − max_k' s[…, k'])`; the maximum of a row is the
    fold of `max` over its keys from `⊥`, the least extended real (`max` is commutative and associative, so the fold has
    no order). -/
def softNum {Mq Mk : ℕ} (s : Fin 8 → Fin 8 → Fin Mq → Fin Mk → EReal) : Fin 8 → Fin 8 → Fin Mq → Fin Mk → EReal :=
  fun b h q k => Ideal.exp (s b h q k - Finset.univ.fold max ⊥ (fun k' : Fin Mk => s b h q k'))

/-- Softmax along the last axis: each numerator over its row's sum. -/
def softmax {Mq Mk : ℕ} (s : Fin 8 → Fin 8 → Fin Mq → Fin Mk → EReal) : Fin 8 → Fin 8 → Fin Mq → Fin Mk → EReal :=
  fun b h q k => Ideal.div (softNum s b h q k) (∑ k' : Fin Mk, softNum s b h q k')

/-- The attention context with the heads merged back into one 1024-wide axis:
    `ctx[b, q, 128h+e] = ∑ₖ A[b, h, q, k] · V[b, k, 128h+e]`. -/
def context {Mq Mk : ℕ} (A : Fin 8 → Fin 8 → Fin Mq → Fin Mk → EReal) (V : Fin 8 → Fin Mk → Fin 1024 → EReal) :
    Fin 8 → Fin Mq → Fin 8 → Fin 128 → EReal :=
  fun b q h e => ∑ k : Fin Mk, A b h q k * V b k (vf h e)

/-- The merged context as an array over the 1024-wide axis: feature `f` belongs to head `f / 128`, at `f % 128`. -/
def merged {Mq : ℕ} (C : Fin 8 → Fin Mq → Fin 8 → Fin 128 → EReal) : Fin 8 → Fin Mq → Fin 1024 → EReal :=
  fun b q f => C b q ⟨f.val / 128, by omega⟩ ⟨f.val % 128, Nat.mod_lt _ (by norm_num)⟩

/-- The mean of a row: `(∑ⱼ row[j]) / n`. -/
def rowMean {D : ℕ} (n : EReal) (row : Fin D → EReal) : EReal :=
  Ideal.div (∑ j : Fin D, row j) n

/-- LayerNorm of one row, with gain and bias: `y[j] = (row[j] − μ) / √(var + ε) · g[j] + β[j]`, `μ` the row's mean and `var`
    the mean of the squared deviations. -/
def lnRow {D : ℕ} (n ε : EReal) (row g β : Fin D → EReal) : Fin D → EReal :=
  fun j =>
    Ideal.div (row j - rowMean n row)
        (Ideal.sqrt (rowMean n (fun j => (row j - rowMean n row) * (row j - rowMean n row)) + ε)) * g j + β j

/-- LayerNorm along the last axis: every row `x[b, r, ·]` normalised by itself. -/
def layerNorm {B M D : ℕ} (n ε : EReal) (x : Fin B → Fin M → Fin D → EReal) (g β : Fin D → EReal) :
    Fin B → Fin M → Fin D → EReal :=
  fun b r => lnRow n ε (x b r) g β

/-- The arguments, by position: the two sequences, eight weight/bias pairs, two gain/bias pairs. -/
structure Args where
  hidden : Fin 8 → Fin 4096 → Fin 1024 → EReal
  aux : Fin 8 → Fin 256 → Fin 512 → EReal
  wq1 : Fin 512 → Fin 512 → EReal
  bq1 : Fin 512 → EReal
  wk1 : Fin 512 → Fin 1024 → EReal
  bk1 : Fin 512 → EReal
  wv1 : Fin 1024 → Fin 1024 → EReal
  bv1 : Fin 1024 → EReal
  wo1 : Fin 512 → Fin 1024 → EReal
  bo1 : Fin 512 → EReal
  wq2 : Fin 512 → Fin 1024 → EReal
  bq2 : Fin 512 → EReal
  wk2 : Fin 512 → Fin 512 → EReal
  bk2 : Fin 512 → EReal
  wv2 : Fin 1024 → Fin 512 → EReal
  bv2 : Fin 1024 → EReal
  wo2 : Fin 1024 → Fin 1024 → EReal
  bo2 : Fin 1024 → EReal
  gAux : Fin 512 → EReal
  bAux : Fin 512 → EReal
  gH : Fin 1024 → EReal
  bH : Fin 1024 → EReal

/-- The softmax scale, the binary32 word both programs multiply the logits by (the float nearest `1/√128`). -/
def σ₀ : EReal := Ideal.ofBits .f32 0x3DB504F3#32
/-- The LayerNorm's ε, the binary32 word both programs add to the variance (the float nearest `10⁻⁵`). -/
def ε₀ : EReal := Ideal.ofBits .f32 0x3727C5AC#32
/-- The row lengths the means divide by: `512` and `1024`, exact in binary32. -/
def n512₀ : EReal := Ideal.ofBits .f32 0x44000000#32
def n1024₀ : EReal := Ideal.ofBits .f32 0x44800000#32

/-- An array over a literal shape as a curried function of its coordinates. -/
abbrev cur1 {n0 : ℕ} (x : (⟨1, ![n0]⟩ : Shape).Idx → EReal) : Fin n0 → EReal := fun i => x (ValueIdx.ix1 i)
abbrev cur2 {n0 n1 : ℕ} (x : (⟨2, ![n0, n1]⟩ : Shape).Idx → EReal) : Fin n0 → Fin n1 → EReal :=
  fun i j => x (ValueIdx.ix2 i j)
abbrev cur3 {n0 n1 n2 : ℕ} (x : (⟨3, ![n0, n1, n2]⟩ : Shape).Idx → EReal) : Fin n0 → Fin n1 → Fin n2 → EReal :=
  fun i j k => x (ValueIdx.ix3 i j k)
abbrev cur4 {n0 n1 n2 n3 : ℕ} (x : (⟨4, ![n0, n1, n2, n3]⟩ : Shape).Idx → EReal) :
    Fin n0 → Fin n1 → Fin n2 → Fin n3 → EReal :=
  fun i j k l => x (ValueIdx.ix4 i j k l)

/-- The arguments from the 22 argument arrays, in @main's order. -/
def Args.ofArrays
    (a0 : (⟨3, ![8, 4096, 1024]⟩ : Shape).Idx → EReal) (a1 : (⟨3, ![8, 256, 512]⟩ : Shape).Idx → EReal)
    (a2 : (⟨2, ![512, 512]⟩ : Shape).Idx → EReal) (a3 : (⟨1, ![512]⟩ : Shape).Idx → EReal)
    (a4 : (⟨2, ![512, 1024]⟩ : Shape).Idx → EReal) (a5 : (⟨1, ![512]⟩ : Shape).Idx → EReal)
    (a6 : (⟨2, ![1024, 1024]⟩ : Shape).Idx → EReal) (a7 : (⟨1, ![1024]⟩ : Shape).Idx → EReal)
    (a8 : (⟨2, ![512, 1024]⟩ : Shape).Idx → EReal) (a9 : (⟨1, ![512]⟩ : Shape).Idx → EReal)
    (a10 : (⟨2, ![512, 1024]⟩ : Shape).Idx → EReal) (a11 : (⟨1, ![512]⟩ : Shape).Idx → EReal)
    (a12 : (⟨2, ![512, 512]⟩ : Shape).Idx → EReal) (a13 : (⟨1, ![512]⟩ : Shape).Idx → EReal)
    (a14 : (⟨2, ![1024, 512]⟩ : Shape).Idx → EReal) (a15 : (⟨1, ![1024]⟩ : Shape).Idx → EReal)
    (a16 : (⟨2, ![1024, 1024]⟩ : Shape).Idx → EReal) (a17 : (⟨1, ![1024]⟩ : Shape).Idx → EReal)
    (a18 : (⟨1, ![512]⟩ : Shape).Idx → EReal) (a19 : (⟨1, ![512]⟩ : Shape).Idx → EReal)
    (a20 : (⟨1, ![1024]⟩ : Shape).Idx → EReal) (a21 : (⟨1, ![1024]⟩ : Shape).Idx → EReal) : Args where
  hidden := cur3 a0
  aux := cur3 a1
  wq1 := cur2 a2
  bq1 := cur1 a3
  wk1 := cur2 a4
  bk1 := cur1 a5
  wv1 := cur2 a6
  bv1 := cur1 a7
  wo1 := cur2 a8
  bo1 := cur1 a9
  wq2 := cur2 a10
  bq2 := cur1 a11
  wk2 := cur2 a12
  bk2 := cur1 a13
  wv2 := cur2 a14
  bv2 := cur1 a15
  wo2 := cur2 a16
  bo2 := cur1 a17
  gAux := cur1 a18
  bAux := cur1 a19
  gH := cur1 a20
  bH := cur1 a21

variable (σ ε n512 n1024 : EReal) (a : Args)

/-- The pack layer's attention weights, `[8, 8, 256, 4096]`. -/
def attn1 : Fin 8 → Fin 8 → Fin 256 → Fin 4096 → EReal :=
  softmax (logits σ (lin a.aux a.wq1 a.bq1) (lin a.hidden a.wk1 a.bk1))

/-- The packed context projected to the short sequence's width, before its LayerNorm: `[8, 256, 512]`. -/
def out1 : Fin 8 → Fin 256 → Fin 512 → EReal :=
  lin (merged (context (attn1 σ a) (lin a.hidden a.wv1 a.bv1))) a.wo1 a.bo1

/-- The short sequence's result: `LN (aux + out₁)`. -/
def auxOut : Fin 8 → Fin 256 → Fin 512 → EReal :=
  layerNorm n512 ε (fun b r j => a.aux b r j + out1 σ a b r j) a.gAux a.bAux

/-- The unpack layer's attention weights, `[8, 8, 4096, 256]`. -/
def attn2 : Fin 8 → Fin 8 → Fin 4096 → Fin 256 → EReal :=
  softmax (logits σ (lin a.hidden a.wq2 a.bq2) (lin (out1 σ a) a.wk2 a.bk2))

/-- The long sequence's result: `LN (hidden + (ctx₂·Wo₂ᵀ + bo₂))`. -/
def out : Fin 8 → Fin 4096 → Fin 1024 → EReal :=
  layerNorm n1024 ε
    (fun b r j => a.hidden b r j + lin (merged (context (attn2 σ a) (lin (out1 σ a) a.wv2 a.bv2))) a.wo2 a.bo2 b r j)
    a.gH a.bH

end Cert.Spec

end
-- ==== Proof.KernelArgs.lean ====
/-
  The idealized kernel program's 22 argument arrays at launch, packaged as the specification's arguments.
-/
import proofs.«120082_j85341000171970_2_alg».proof.Proof.Gen.KernelIdeal
import proofs.«120082_j85341000171970_2_alg».proof.Proof.Spec

noncomputable section

namespace Cert.KernelIdeal.Whole

open Cert.KernelIdeal
open Idealize.ShloMosaic Idealize.ShloMosaic.TcCoe Idealize.SL.Sem

/-- Core `c`'s 22 argument arrays at launch, as the specification's arguments. -/
def argsOf (m : (ℓ : Loc nD τ sig) → Buf (Elt Ideal) ℓ) (c : Dev nD) : Cert.Spec.Args :=
  Cert.Spec.Args.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))

end Cert.KernelIdeal.Whole

end
-- ==== Proof.KernelLinPayload.lean ====
/-
  The linear regions' arithmetic, read at an entry.

  Each of these bodies rounds its row block `x` (512 rows) and its transposed weight block `wT` to the matrix unit's input
  format — the identity on the extended reals —, multiplies them into a zero accumulator and adds the bias row to every
  row. At entry `(p, q)` of the block that is `(∑ₖ x[p, k] · wT[k, q]) + bias[0, q]`: the product's contraction index has one
  axis, whose coordinate `k` picks `x[p, k]` and `wT[k, q]`.
-/
import proofs.«120082_j85341000171970_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.LinPay

open Cert.KernelIdeal Cert.KernelIdeal.Gen
open Idealize.ShloMosaic Idealize.ShloMosaic.ValueIdx

/-- The query projection of the short sequence (region 0). -/
theorem k0_pay1_apply (x0 : Vec Ideal S512x512 .f32) (x1 : Vec Ideal S512x512 .f32) (x2 : Vec Ideal S1x512 .f32)
    (p : Fin 512) (q : Fin 512) :
    k0_pay1 (F := Ideal) x0 x1 x2 (ix2 p q) = (∑ k : Fin 512, x0 (ix2 p k) * x1 (ix2 k q)) + x2 (ix2 (0 : Fin 1) q) := by
  unfold k0_pay1
  rw [addf_apply, shapeCast_self, shapeCast_self, shapeCast_self]
  refine congrArg₂ (· + ·) ?_ ?_
  · refine (Ideal.matmul_constant_zero_apply dot_S512x512_S512x512_S512x512_1_0_0_1_n_n none _ _ (ix2 p q)).trans ?_
    refine (Equiv.sum_comp (contrEquiv1 dot_S512x512_S512x512_S512x512_1_0_0_1_n_n 512 rfl rfl).symm _).symm.trans ?_
    refine Finset.sum_congr rfl fun k _ => ?_
    have hl : dot_S512x512_S512x512_S512x512_1_0_0_1_n_n.lhsIdx (ix2 p q) ((contrEquiv1 dot_S512x512_S512x512_S512x512_1_0_0_1_n_n 512 rfl rfl).symm k) = ix2 p k := by
      funext a; apply Fin.ext
      match a with
      | ⟨0, _⟩ => rfl
      | ⟨1, _⟩ =>
        exact (dot_S512x512_S512x512_S512x512_1_0_0_1_n_n.lhsIdx_val_of_single (cl := 1) rfl (ix2 p q) _).trans
          (contrEquiv1_symm_val dot_S512x512_S512x512_S512x512_1_0_0_1_n_n 512 rfl rfl k)
    have hr : dot_S512x512_S512x512_S512x512_1_0_0_1_n_n.rhsIdx (ix2 p q) ((contrEquiv1 dot_S512x512_S512x512_S512x512_1_0_0_1_n_n 512 rfl rfl).symm k) = ix2 k q := by
      funext a; apply Fin.ext
      match a with
      | ⟨0, _⟩ =>
        exact (dot_S512x512_S512x512_S512x512_1_0_0_1_n_n.rhsIdx_val_of_single (cr := 0) rfl (ix2 p q) _).trans
          (contrEquiv1_symm_val dot_S512x512_S512x512_S512x512_1_0_0_1_n_n 512 rfl rfl k)
      | ⟨1, _⟩ => rfl
    rw [truncf_apply, truncf_apply, hl, hr]
  · exact broadcastTo_1b_ab_apply x2 _ p q

/-- The key projection of the long sequence (region 1, first output). -/
theorem k1_pay2_apply (x0 : Vec Ideal S512x1024 .f32) (x1 : Vec Ideal S1024x512 .f32) (x2 : Vec Ideal S1x512 .f32)
    (p : Fin 512) (q : Fin 512) :
    k1_pay2 (F := Ideal) x0 x1 x2 (ix2 p q) = (∑ k : Fin 1024, x0 (ix2 p k) * x1 (ix2 k q)) + x2 (ix2 (0 : Fin 1) q) := by
  unfold k1_pay2 k1_pay1
  rw [addf_apply, shapeCast_self, shapeCast_self, shapeCast_self]
  refine congrArg₂ (· + ·) ?_ ?_
  · refine (Ideal.matmul_constant_zero_apply dot_S512x1024_S1024x512_S512x512_1_0_0_1_n_n none _ _ (ix2 p q)).trans ?_
    refine (Equiv.sum_comp (contrEquiv1 dot_S512x1024_S1024x512_S512x512_1_0_0_1_n_n 1024 rfl rfl).symm _).symm.trans ?_
    refine Finset.sum_congr rfl fun k _ => ?_
    have hl : dot_S512x1024_S1024x512_S512x512_1_0_0_1_n_n.lhsIdx (ix2 p q) ((contrEquiv1 dot_S512x1024_S1024x512_S512x512_1_0_0_1_n_n 1024 rfl rfl).symm k) = ix2 p k := by
      funext a; apply Fin.ext
      match a with
      | ⟨0, _⟩ => rfl
      | ⟨1, _⟩ =>
        exact (dot_S512x1024_S1024x512_S512x512_1_0_0_1_n_n.lhsIdx_val_of_single (cl := 1) rfl (ix2 p q) _).trans
          (contrEquiv1_symm_val dot_S512x1024_S1024x512_S512x512_1_0_0_1_n_n 1024 rfl rfl k)
    have hr : dot_S512x1024_S1024x512_S512x512_1_0_0_1_n_n.rhsIdx (ix2 p q) ((contrEquiv1 dot_S512x1024_S1024x512_S512x512_1_0_0_1_n_n 1024 rfl rfl).symm k) = ix2 k q := by
      funext a; apply Fin.ext
      match a with
      | ⟨0, _⟩ =>
        exact (dot_S512x1024_S1024x512_S512x512_1_0_0_1_n_n.rhsIdx_val_of_single (cr := 0) rfl (ix2 p q) _).trans
          (contrEquiv1_symm_val dot_S512x1024_S1024x512_S512x512_1_0_0_1_n_n 1024 rfl rfl k)
      | ⟨1, _⟩ => rfl
    rw [truncf_apply, truncf_apply, hl, hr]
  · exact broadcastTo_1b_ab_apply x2 _ p q

/-- The value projection of the long sequence (region 1, second output). -/
theorem k1_pay3_apply (x0 : Vec Ideal S512x1024 .f32) (x1 : Vec Ideal S1024x1024 .f32) (x2 : Vec Ideal S1x1024 .f32)
    (p : Fin 512) (q : Fin 1024) :
    k1_pay3 (F := Ideal) x0 x1 x2 (ix2 p q) = (∑ k : Fin 1024, x0 (ix2 p k) * x1 (ix2 k q)) + x2 (ix2 (0 : Fin 1) q) := by
  unfold k1_pay3 k1_pay1
  rw [addf_apply, shapeCast_self, shapeCast_self, shapeCast_self]
  refine congrArg₂ (· + ·) ?_ ?_
  · refine (Ideal.matmul_constant_zero_apply dot_S512x1024_S1024x1024_S512x1024_1_0_0_1_n_n none _ _ (ix2 p q)).trans ?_
    refine (Equiv.sum_comp (contrEquiv1 dot_S512x1024_S1024x1024_S512x1024_1_0_0_1_n_n 1024 rfl rfl).symm _).symm.trans ?_
    refine Finset.sum_congr rfl fun k _ => ?_
    have hl : dot_S512x1024_S1024x1024_S512x1024_1_0_0_1_n_n.lhsIdx (ix2 p q) ((contrEquiv1 dot_S512x1024_S1024x1024_S512x1024_1_0_0_1_n_n 1024 rfl rfl).symm k) = ix2 p k := by
      funext a; apply Fin.ext
      match a with
      | ⟨0, _⟩ => rfl
      | ⟨1, _⟩ =>
        exact (dot_S512x1024_S1024x1024_S512x1024_1_0_0_1_n_n.lhsIdx_val_of_single (cl := 1) rfl (ix2 p q) _).trans
          (contrEquiv1_symm_val dot_S512x1024_S1024x1024_S512x1024_1_0_0_1_n_n 1024 rfl rfl k)
    have hr : dot_S512x1024_S1024x1024_S512x1024_1_0_0_1_n_n.rhsIdx (ix2 p q) ((contrEquiv1 dot_S512x1024_S1024x1024_S512x1024_1_0_0_1_n_n 1024 rfl rfl).symm k) = ix2 k q := by
      funext a; apply Fin.ext
      match a with
      | ⟨0, _⟩ =>
        exact (dot_S512x1024_S1024x1024_S512x1024_1_0_0_1_n_n.rhsIdx_val_of_single (cr := 0) rfl (ix2 p q) _).trans
          (contrEquiv1_symm_val dot_S512x1024_S1024x1024_S512x1024_1_0_0_1_n_n 1024 rfl rfl k)
      | ⟨1, _⟩ => rfl
    rw [truncf_apply, truncf_apply, hl, hr]
  · exact broadcastTo_1b_ab_apply x2 _ p q

/-- The long sequence's query projection for the unpack layer (region 1, third output). -/
theorem k1_pay4_apply (x0 : Vec Ideal S512x1024 .f32) (x1 : Vec Ideal S1024x512 .f32) (x2 : Vec Ideal S1x512 .f32)
    (p : Fin 512) (q : Fin 512) :
    k1_pay4 (F := Ideal) x0 x1 x2 (ix2 p q) = (∑ k : Fin 1024, x0 (ix2 p k) * x1 (ix2 k q)) + x2 (ix2 (0 : Fin 1) q) := by
  unfold k1_pay4 k1_pay1
  rw [addf_apply, shapeCast_self, shapeCast_self, shapeCast_self]
  refine congrArg₂ (· + ·) ?_ ?_
  · refine (Ideal.matmul_constant_zero_apply dot_S512x1024_S1024x512_S512x512_1_0_0_1_n_n none _ _ (ix2 p q)).trans ?_
    refine (Equiv.sum_comp (contrEquiv1 dot_S512x1024_S1024x512_S512x512_1_0_0_1_n_n 1024 rfl rfl).symm _).symm.trans ?_
    refine Finset.sum_congr rfl fun k _ => ?_
    have hl : dot_S512x1024_S1024x512_S512x512_1_0_0_1_n_n.lhsIdx (ix2 p q) ((contrEquiv1 dot_S512x1024_S1024x512_S512x512_1_0_0_1_n_n 1024 rfl rfl).symm k) = ix2 p k := by
      funext a; apply Fin.ext
      match a with
      | ⟨0, _⟩ => rfl
      | ⟨1, _⟩ =>
        exact (dot_S512x1024_S1024x512_S512x512_1_0_0_1_n_n.lhsIdx_val_of_single (cl := 1) rfl (ix2 p q) _).trans
          (contrEquiv1_symm_val dot_S512x1024_S1024x512_S512x512_1_0_0_1_n_n 1024 rfl rfl k)
    have hr : dot_S512x1024_S1024x512_S512x512_1_0_0_1_n_n.rhsIdx (ix2 p q) ((contrEquiv1 dot_S512x1024_S1024x512_S512x512_1_0_0_1_n_n 1024 rfl rfl).symm k) = ix2 k q := by
      funext a; apply Fin.ext
      match a with
      | ⟨0, _⟩ =>
        exact (dot_S512x1024_S1024x512_S512x512_1_0_0_1_n_n.rhsIdx_val_of_single (cr := 0) rfl (ix2 p q) _).trans
          (contrEquiv1_symm_val dot_S512x1024_S1024x512_S512x512_1_0_0_1_n_n 1024 rfl rfl k)
      | ⟨1, _⟩ => rfl
    rw [truncf_apply, truncf_apply, hl, hr]
  · exact broadcastTo_1b_ab_apply x2 _ p q

/-- The packed context's output projection (region 3). -/
theorem k3_pay1_apply (x0 : Vec Ideal S512x1024 .f32) (x1 : Vec Ideal S1024x512 .f32) (x2 : Vec Ideal S1x512 .f32)
    (p : Fin 512) (q : Fin 512) :
    k3_pay1 (F := Ideal) x0 x1 x2 (ix2 p q) = (∑ k : Fin 1024, x0 (ix2 p k) * x1 (ix2 k q)) + x2 (ix2 (0 : Fin 1) q) := by
  unfold k3_pay1
  rw [addf_apply, shapeCast_self, shapeCast_self, shapeCast_self]
  refine congrArg₂ (· + ·) ?_ ?_
  · refine (Ideal.matmul_constant_zero_apply dot_S512x1024_S1024x512_S512x512_1_0_0_1_n_n none _ _ (ix2 p q)).trans ?_
    refine (Equiv.sum_comp (contrEquiv1 dot_S512x1024_S1024x512_S512x512_1_0_0_1_n_n 1024 rfl rfl).symm _).symm.trans ?_
    refine Finset.sum_congr rfl fun k _ => ?_
    have hl : dot_S512x1024_S1024x512_S512x512_1_0_0_1_n_n.lhsIdx (ix2 p q) ((contrEquiv1 dot_S512x1024_S1024x512_S512x512_1_0_0_1_n_n 1024 rfl rfl).symm k) = ix2 p k := by
      funext a; apply Fin.ext
      match a with
      | ⟨0, _⟩ => rfl
      | ⟨1, _⟩ =>
        exact (dot_S512x1024_S1024x512_S512x512_1_0_0_1_n_n.lhsIdx_val_of_single (cl := 1) rfl (ix2 p q) _).trans
          (contrEquiv1_symm_val dot_S512x1024_S1024x512_S512x512_1_0_0_1_n_n 1024 rfl rfl k)
    have hr : dot_S512x1024_S1024x512_S512x512_1_0_0_1_n_n.rhsIdx (ix2 p q) ((contrEquiv1 dot_S512x1024_S1024x512_S512x512_1_0_0_1_n_n 1024 rfl rfl).symm k) = ix2 k q := by
      funext a; apply Fin.ext
      match a with
      | ⟨0, _⟩ =>
        exact (dot_S512x1024_S1024x512_S512x512_1_0_0_1_n_n.rhsIdx_val_of_single (cr := 0) rfl (ix2 p q) _).trans
          (contrEquiv1_symm_val dot_S512x1024_S1024x512_S512x512_1_0_0_1_n_n 1024 rfl rfl k)
      | ⟨1, _⟩ => rfl
    rw [truncf_apply, truncf_apply, hl, hr]
  · exact broadcastTo_1b_ab_apply x2 _ p q

/-- The unpack layer's key projection (region 5). -/
theorem k5_pay1_apply (x0 : Vec Ideal S512x512 .f32) (x1 : Vec Ideal S512x512 .f32) (x2 : Vec Ideal S1x512 .f32)
    (p : Fin 512) (q : Fin 512) :
    k5_pay1 (F := Ideal) x0 x1 x2 (ix2 p q) = (∑ k : Fin 512, x0 (ix2 p k) * x1 (ix2 k q)) + x2 (ix2 (0 : Fin 1) q) := by
  unfold k5_pay1
  rw [addf_apply, shapeCast_self, shapeCast_self, shapeCast_self]
  refine congrArg₂ (· + ·) ?_ ?_
  · refine (Ideal.matmul_constant_zero_apply dot_S512x512_S512x512_S512x512_1_0_0_1_n_n none _ _ (ix2 p q)).trans ?_
    refine (Equiv.sum_comp (contrEquiv1 dot_S512x512_S512x512_S512x512_1_0_0_1_n_n 512 rfl rfl).symm _).symm.trans ?_
    refine Finset.sum_congr rfl fun k _ => ?_
    have hl : dot_S512x512_S512x512_S512x512_1_0_0_1_n_n.lhsIdx (ix2 p q) ((contrEquiv1 dot_S512x512_S512x512_S512x512_1_0_0_1_n_n 512 rfl rfl).symm k) = ix2 p k := by
      funext a; apply Fin.ext
      match a with
      | ⟨0, _⟩ => rfl
      | ⟨1, _⟩ =>
        exact (dot_S512x512_S512x512_S512x512_1_0_0_1_n_n.lhsIdx_val_of_single (cl := 1) rfl (ix2 p q) _).trans
          (contrEquiv1_symm_val dot_S512x512_S512x512_S512x512_1_0_0_1_n_n 512 rfl rfl k)
    have hr : dot_S512x512_S512x512_S512x512_1_0_0_1_n_n.rhsIdx (ix2 p q) ((contrEquiv1 dot_S512x512_S512x512_S512x512_1_0_0_1_n_n 512 rfl rfl).symm k) = ix2 k q := by
      funext a; apply Fin.ext
      match a with
      | ⟨0, _⟩ =>
        exact (dot_S512x512_S512x512_S512x512_1_0_0_1_n_n.rhsIdx_val_of_single (cr := 0) rfl (ix2 p q) _).trans
          (contrEquiv1_symm_val dot_S512x512_S512x512_S512x512_1_0_0_1_n_n 512 rfl rfl k)
      | ⟨1, _⟩ => rfl
    rw [truncf_apply, truncf_apply, hl, hr]
  · exact broadcastTo_1b_ab_apply x2 _ p q

/-- The unpack layer's value projection (region 6). -/
theorem k6_pay1_apply (x0 : Vec Ideal S512x512 .f32) (x1 : Vec Ideal S512x1024 .f32) (x2 : Vec Ideal S1x1024 .f32)
    (p : Fin 512) (q : Fin 1024) :
    k6_pay1 (F := Ideal) x0 x1 x2 (ix2 p q) = (∑ k : Fin 512, x0 (ix2 p k) * x1 (ix2 k q)) + x2 (ix2 (0 : Fin 1) q) := by
  unfold k6_pay1
  rw [addf_apply, shapeCast_self, shapeCast_self, shapeCast_self]
  refine congrArg₂ (· + ·) ?_ ?_
  · refine (Ideal.matmul_constant_zero_apply dot_S512x512_S512x1024_S512x1024_1_0_0_1_n_n none _ _ (ix2 p q)).trans ?_
    refine (Equiv.sum_comp (contrEquiv1 dot_S512x512_S512x1024_S512x1024_1_0_0_1_n_n 512 rfl rfl).symm _).symm.trans ?_
    refine Finset.sum_congr rfl fun k _ => ?_
    have hl : dot_S512x512_S512x1024_S512x1024_1_0_0_1_n_n.lhsIdx (ix2 p q) ((contrEquiv1 dot_S512x512_S512x1024_S512x1024_1_0_0_1_n_n 512 rfl rfl).symm k) = ix2 p k := by
      funext a; apply Fin.ext
      match a with
      | ⟨0, _⟩ => rfl
      | ⟨1, _⟩ =>
        exact (dot_S512x512_S512x1024_S512x1024_1_0_0_1_n_n.lhsIdx_val_of_single (cl := 1) rfl (ix2 p q) _).trans
          (contrEquiv1_symm_val dot_S512x512_S512x1024_S512x1024_1_0_0_1_n_n 512 rfl rfl k)
    have hr : dot_S512x512_S512x1024_S512x1024_1_0_0_1_n_n.rhsIdx (ix2 p q) ((contrEquiv1 dot_S512x512_S512x1024_S512x1024_1_0_0_1_n_n 512 rfl rfl).symm k) = ix2 k q := by
      funext a; apply Fin.ext
      match a with
      | ⟨0, _⟩ =>
        exact (dot_S512x512_S512x1024_S512x1024_1_0_0_1_n_n.rhsIdx_val_of_single (cr := 0) rfl (ix2 p q) _).trans
          (contrEquiv1_symm_val dot_S512x512_S512x1024_S512x1024_1_0_0_1_n_n 512 rfl rfl k)
      | ⟨1, _⟩ => rfl
    rw [truncf_apply, truncf_apply, hl, hr]
  · exact broadcastTo_1b_ab_apply x2 _ p q

end Cert.KernelIdeal.LinPay

end
-- ==== Proof.KernelRegion0.lean ====
/-
  Region 0: the short sequence's query projection, as one function of the arrays the region finds.

  The region runs over 4 grid points; point `t` reads rows `512·t … 512·t + 511` of the flattened sequence `x` ([2048, 512]),
  the whole transposed weight `wT` ([512, 512]) and the bias row ([1, 512]), and writes back the same rows of the output.
  Entry `(p, q)` of the block it writes is `(∑ₖ x[512·t + p, k] · wT[k, q]) + bias[0, q]`, which is entry `(512·t + p, q)` of ONE
  function of the three arrays; the 4 row blocks tile the output, so after the region the output array is that function.
-/
import proofs.«120082_j85341000171970_2_alg».proof.Proof.Gen.KernelIdeal.Frame
import proofs.«120082_j85341000171970_2_alg».proof.Proof.KernelLinPayload

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows times the transposed weight, plus the bias row. -/
def G (x : S2048x512.Idx → EReal) (wT : S512x512.Idx → EReal) (b : S1x512.Idx → EReal) : S2048x512.Idx → EReal :=
  fun i => (∑ k : Fin 512, x (ix2 (i 0) k) * wT (ix2 k (i 1))) + b (ix2 (0 : Fin 1) (i 1))

/-- The index maps over the grid: the row windows move with the point, the weight and bias windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G` of the arrays as the region finds them. -/
theorem flushed_eq (c : Dev nD) (t : Fin cfg0.N) :
    (dat0 V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S512x512) hz, View.ld_unit_zero (S := S1x512) hz]
  obtain ⟨e00, e01, e10, e11, e20, e21, e30, e31⟩ := idx_facts t
  funext j
  obtain ⟨p, q, rfl⟩ : ∃ (p : Fin 512) (q : Fin 512), j = ix2 p q := ⟨j 0, j 1, eq_ix2 j⟩
  show k0_pay1 (iblk0 V c 0 t) (iblk0 V c 1 t) (iblk0 V c 2 t) (ix2 p q)
    = G (V c (Pipeline.arrRef spec0 0)) (V c (Pipeline.arrRef spec0 1)) (V c (Pipeline.arrRef spec0 2))
        (((cfg0.win 3).blk t).view.emb (ix2 p q))
  refine (LinPay.k0_pay1_apply (iblk0 V c 0 t) (iblk0 V c 1 t) (iblk0 V c 2 t) p q).trans ?_
  unfold G
  refine congrArg₂ (· + ·) (Finset.sum_congr rfl fun k _ => congrArg₂ (· * ·) ?_ ?_) ?_
  · show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 512 + 1 * k.val = k.val; omega
  · show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 512 + 1 * k.val = k.val; omega
    | ⟨1, _⟩ => show win0_1.index t (1 : Fin 2) * 512 + 1 * q.val = win0_3.index t (1 : Fin 2) * 512 + 1 * q.val; omega
  · show V c (Pipeline.arrRef spec0 2) (((cfg0.win 2).blk t).view.emb (ix2 (0 : Fin 1) q)) = _
    refine congrArg (V c (Pipeline.arrRef spec0 2)) (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega

/-- An index of the output is in point `t`'s block iff each coordinate is in the block's range on its axis. -/
theorem mem_blk (t : Fin cfg0.N) (i : S2048x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v3).slice (win0_3.rect t)).set ↔ _
  rw [View.set_slice_whole, Rect.mem_set_unit]
  exact Iff.rfl

/-- Every row block of the output is some point's. -/
theorem idx_onto : ∀ q0 : Fin 4, ∃ t : Fin cfg0.N, win0_3.index t = ![q0.val, 0] :=
  (by decide +kernel : ∀ q0 : Fin 4, ∃ t : Fin grid0.N, win0_3.index t = ![q0.val, 0])

/-- The 4 row blocks cover the output: row `r` is in block `r / 512`. -/
theorem cover (i : S2048x512.Idx) :
    ∃ t : Fin cfg0.N, (cfg0.win 3).flush t = true ∧ i ∈ ((cfg0.win 3).blk t).view.set := by
  have hi0 : (i 0).val < 2048 := (i 0).isLt
  have hi1 : (i 1).val < 512 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- After the region its output array is `G` of the arrays the region found. -/
theorem final (c : Dev nD) : (dat0 V c).arrAt 3 cfg0.N
    = G (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Region0

end
-- ==== Proof.KernelRegion1K.lean ====
/-
  Region 1 (K): the long sequence's key projection, as one function of the arrays the region finds.

  The region runs over 64 grid points; point `t` reads rows `512·t … 512·t + 511` of the flattened sequence `x` ([32768, 1024]),
  the whole transposed weight `wT` ([1024, 512]) and the bias row ([1, 512]), and writes back the same rows of the output.
  Entry `(p, q)` of the block it writes is `(∑ₖ x[512·t + p, k] · wT[k, q]) + bias[0, q]`, which is entry `(512·t + p, q)` of ONE
  function of the three arrays; the 64 row blocks tile the output, so after the region the output array is that function.
-/
import proofs.«120082_j85341000171970_2_alg».proof.Proof.Gen.KernelIdeal.Frame
import proofs.«120082_j85341000171970_2_alg».proof.Proof.KernelLinPayload

set_option maxRecDepth 16384

noncomputable section

namespace Cert.KernelIdeal.Region1K

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows times the transposed weight, plus the bias row. -/
def G (x : S32768x1024.Idx → EReal) (wT : S1024x512.Idx → EReal) (b : S1x512.Idx → EReal) : S32768x512.Idx → EReal :=
  fun i => (∑ k : Fin 1024, x (ix2 (i 0) k) * wT (ix2 k (i 1))) + b (ix2 (0 : Fin 1) (i 1))

/-- The index maps over the grid: the row windows move with the point, the weight and bias windows stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_7.index t (0 : Fin 2) = t.val ∧ win1_7.index t (1 : Fin 2) = 0 :=
  (by decide +kernel : ∀ t : Fin grid1.N, _)

/-- What point `t` writes back is block `t` of `G` of the arrays as the region finds them. -/
theorem flushed_eq (c : Dev nD) (t : Fin cfg1.N) :
    (dat1 V c).flushed 7 t = ((cfg1.win 7).blk t).view.read (Elt Ideal)
      (G (V c (Pipeline.arrRef spec1 0)) (V c (Pipeline.arrRef spec1 1)) (V c (Pipeline.arrRef spec1 2))) := by
  show (cfg1.win 7).cut (grid1.coords t) ((dat1 V c).after 7 t) = _
  rw [after1_7]
  unfold out1_7
  rw [View.canon_unit_zero hz]
  simp only [View.ld_unit_zero (S := S512x1024) hz, View.ld_unit_zero (S := S1024x512) hz, View.ld_unit_zero (S := S1x512) hz]
  obtain ⟨e00, e01, e10, e11, e20, e21, e30, e31⟩ := idx_facts t
  funext j
  obtain ⟨p, q, rfl⟩ : ∃ (p : Fin 512) (q : Fin 512), j = ix2 p q := ⟨j 0, j 1, eq_ix2 j⟩
  show k1_pay2 (iblk1 V c 0 t) (iblk1 V c 1 t) (iblk1 V c 2 t) (ix2 p q)
    = G (V c (Pipeline.arrRef spec1 0)) (V c (Pipeline.arrRef spec1 1)) (V c (Pipeline.arrRef spec1 2))
        (((cfg1.win 7).blk t).view.emb (ix2 p q))
  refine (LinPay.k1_pay2_apply (iblk1 V c 0 t) (iblk1 V c 1 t) (iblk1 V c 2 t) p q).trans ?_
  unfold G
  refine congrArg₂ (· + ·) (Finset.sum_congr rfl fun k _ => congrArg₂ (· * ·) ?_ ?_) ?_
  · show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 512 + 1 * p.val = win1_7.index t (0 : Fin 2) * 512 + 1 * p.val; omega
    | ⟨1, _⟩ => show win1_0.index t (1 : Fin 2) * 1024 + 1 * k.val = k.val; omega
  · show V c (Pipeline.arrRef spec1 1) (((cfg1.win 1).blk t).view.emb (ix2 k q)) = _
    refine congrArg (V c (Pipeline.arrRef spec1 1)) (funext fun a => Fin.ext ?_)
    match a with
    | ⟨0, _⟩ => show win1_1.index t (0 : Fin 2) * 1024 + 1 * k.val = k.val; omega
    | ⟨1, _⟩ => show win1_1.index t (1 : Fin 2) * 512 + 1 * q.val = win1_7.index t (1 : Fin 2) * 512 + 1 * q.val; omega
  · show V c (Pipeline.arrRef spec1 2) (((cfg1.win 2).blk t).view.emb (ix2 (0 : Fin 1) q)) = _
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 512 + 1 * q.val = win1_7.index t (1 : Fin 2) * 512 + 1 * q.val; omega

/-- An index of the output is in point `t`'s block iff each coordinate is in the block's range on its axis. -/
theorem mem_blk (t : Fin cfg1.N) (i : S32768x512.Idx) :
    i ∈ ((cfg1.win 7).blk t).view.set ↔ ∀ a : Fin 2, win1_7.index t a * S512x512.size a ≤ (i a).val
      ∧ (i a).val < win1_7.index t a * S512x512.size a + S512x512.size a := by
  show i ∈ ((View.whole main_v12_0).slice (win1_7.rect t)).set ↔ _
  rw [View.set_slice_whole, Rect.mem_set_unit]
  exact Iff.rfl

/-- Every row block of the output is some point's. -/
theorem idx_onto : ∀ q0 : Fin 64, ∃ t : Fin cfg1.N, win1_7.index t = ![q0.val, 0] :=
  (by decide +kernel : ∀ q0 : Fin 64, ∃ t : Fin grid1.N, win1_7.index t = ![q0.val, 0])

/-- The 64 row blocks cover the output: row `r` is in block `r / 512`. -/
theorem cover (i : S32768x512.Idx) :
    ∃ t : Fin cfg1.N, (cfg1.win 7).flush t = true ∧ i ∈ ((cfg1.win 7).blk t).view.set := by
  have hi0 : (i 0).val < 32768 := (i 0).isLt
  have hi1 : (i 1).val < 512 := (i 1).isLt
  obtain ⟨t, ht⟩ := idx_onto ⟨(i 0).val / 512, by omega⟩
  have q0 : win1_7.index t (0 : Fin 2) = (i 0).val / 512 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 512 ≤ (i 1).val ∧ (i 1).val < win1_7.index t (1 : Fin 2) * 512 + 512; omega

/-- After the region its output array is `G` of the arrays the region found. -/
theorem final (c : Dev nD) : (dat1 V c).arrAt 7 cfg1.N
    = G (V c (Pipeline.arrRef spec1 0)) (V c (Pipeline.arrRef spec1 1)) (V c (Pipeline.arrRef spec1 2)) :=
  (dat1 V c).arrAt_eq_of_cover 7 _ (fun t _ => flushed_eq V c t) cover

end Cert.KernelIdeal.Region1K

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.KernelAttnPayload.lean ====
/-
  The attention regions' arithmetic, read at an entry.

  One grid point handles two heads. For each it takes a 64-wide slice `q` of the query block and `k` of the key block,
  rounds them to the matrix unit's input format (the identity on the extended reals), forms the logits
  `s[m, n] = (∑_d q[m, d] · k[n, d]) · σ`, subtracts each row's maximum, exponentiates, and divides by the row's sum:
  the attention weight `exp (s[m, n] − max_n' s[m, n']) / ∑_n' exp (s[m, n'] − max_n'' s[m, n''])`. The block it stores is
  that array with two unit axes in front.
-/
import proofs.«120082_j85341000171970_2_alg».proof.Proof.Gen.KernelIdeal.Skeleton
import proofs.«120082_j85341000171970_2_alg».proof.Proof.LibColumnLayout

set_option maxRecDepth 16384

noncomputable section

namespace Cert.KernelIdeal.AttnPay

open Cert.KernelIdeal Cert.KernelIdeal.Gen
open Idealize.ShloMosaic Idealize.ShloMosaic.ValueIdx Idealize.ShloMosaic.ColumnLayout

/-- Scaled logits of one head on a block: `(∑_d q[m, d] · k[n, d]) · σ`. -/
def logit {M N : ℕ} (q : Fin M → Fin 64 → EReal) (k : Fin N → Fin 64 → EReal) (m : Fin M) (n : Fin N) : EReal :=
  (∑ d : Fin 64, q m d * k n d) * Ideal.ofBits .f32 0x3DB504F3#32

/-- The softmax numerator `exp (s − row max)`. -/
def num {M N : ℕ} (q : Fin M → Fin 64 → EReal) (k : Fin N → Fin 64 → EReal) (m : Fin M) (n : Fin N) : EReal :=
  Ideal.exp (logit q k m n - (Finset.univ : Finset (Fin N)).fold max ⊥ (fun n' => logit q k m n'))

/-- The attention weight: the numerator over its row's sum. -/
def weight {M N : ℕ} (q : Fin M → Fin 64 → EReal) (k : Fin N → Fin 64 → EReal) (m : Fin M) (n : Fin N) : EReal :=
  Ideal.div (num q k m n) (∑ n' : Fin N, num q k m n')

/-! ## Region 2: 128 query rows against 4096 keys -/

/-- The logits block of the pair's first head, whose query slice arrives with a unit axis in front. -/
theorem logitsA2_apply (v0 : Vec Ideal S1x128x64 .f32) (v3 : Vec Ideal S1x4096x64 .f32) (m : Fin 128) (n : Fin 4096) :
    mulf (matmul (F := Ideal) dot_S128x64_S4096x64_S128x4096_1_1_0_0_n_n none
        (truncf .bf16 (shapeCast S128x64 v0 shapeCasts_S1x128x64_S128x64) bitsLt_bf16_f32)
        (truncf .bf16 (shapeCast S4096x64 v3 shapeCasts_S1x4096x64_S4096x64) bitsLt_bf16_f32)
        (constant (F := Ideal) S128x4096 .f32 0x00000000#32))
      (broadcast S128x4096 (Scalar.ofBits (F := Ideal) .f32 0x3DB504F3#32)) (ix2 m n)
    = logit (fun m d => v0 (ix3 (0 : Fin 1) m d)) (fun n d => v3 (ix3 (0 : Fin 1) n d)) m n := by
  rw [mulf_apply]
  unfold logit
  refine congrArg₂ (· * ·) ?_ rfl
  refine (Ideal.matmul_constant_zero_apply dot_S128x64_S4096x64_S128x4096_1_1_0_0_n_n none _ _ (ix2 m n)).trans ?_
  refine (Equiv.sum_comp (contrEquiv1 dot_S128x64_S4096x64_S128x4096_1_1_0_0_n_n 64 rfl rfl).symm _).symm.trans ?_
  refine Finset.sum_congr rfl fun d _ => ?_
  have hl : dot_S128x64_S4096x64_S128x4096_1_1_0_0_n_n.lhsIdx (ix2 m n) ((contrEquiv1 dot_S128x64_S4096x64_S128x4096_1_1_0_0_n_n 64 rfl rfl).symm d) = ix2 m d := by
    funext a; apply Fin.ext
    match a with
    | ⟨0, _⟩ => rfl
    | ⟨1, _⟩ =>
      exact (dot_S128x64_S4096x64_S128x4096_1_1_0_0_n_n.lhsIdx_val_of_single (cl := 1) rfl (ix2 m n) _).trans
        (contrEquiv1_symm_val dot_S128x64_S4096x64_S128x4096_1_1_0_0_n_n 64 rfl rfl d)
  have hr : dot_S128x64_S4096x64_S128x4096_1_1_0_0_n_n.rhsIdx (ix2 m n) ((contrEquiv1 dot_S128x64_S4096x64_S128x4096_1_1_0_0_n_n 64 rfl rfl).symm d) = ix2 n d := by
    funext a; apply Fin.ext
    match a with
    | ⟨0, _⟩ => rfl
    | ⟨1, _⟩ =>
      exact (dot_S128x64_S4096x64_S128x4096_1_1_0_0_n_n.rhsIdx_val_of_single (cr := 1) rfl (ix2 m n) _).trans
        (contrEquiv1_symm_val dot_S128x64_S4096x64_S128x4096_1_1_0_0_n_n 64 rfl rfl d)
  rw [truncf_apply, truncf_apply, hl, hr, shapeCast_1ab_ab_apply, shapeCast_1ab_ab_apply]

/-- The logits block of the pair's second head, whose query slice arrives already as a matrix. -/
theorem logitsB2_apply (v30 : FVec Ideal S128x64 .f32) (v32 : Vec Ideal S1x4096x64 .f32) (m : Fin 128) (n : Fin 4096) :
    mulf (matmul (F := Ideal) dot_S128x64_S4096x64_S128x4096_1_1_0_0_n_n none
        (truncf .bf16 v30 bitsLt_bf16_f32)
        (truncf .bf16 (shapeCast S4096x64 v32 shapeCasts_S1x4096x64_S4096x64) bitsLt_bf16_f32)
        (constant (F := Ideal) S128x4096 .f32 0x00000000#32))
      (broadcast S128x4096 (Scalar.ofBits (F := Ideal) .f32 0x3DB504F3#32)) (ix2 m n)
    = logit (fun m d => v30 (ix2 m d)) (fun n d => v32 (ix3 (0 : Fin 1) n d)) m n := by
  rw [mulf_apply]
  unfold logit
  refine congrArg₂ (· * ·) ?_ rfl
  refine (Ideal.matmul_constant_zero_apply dot_S128x64_S4096x64_S128x4096_1_1_0_0_n_n none _ _ (ix2 m n)).trans ?_
  refine (Equiv.sum_comp (contrEquiv1 dot_S128x64_S4096x64_S128x4096_1_1_0_0_n_n 64 rfl rfl).symm _).symm.trans ?_
  refine Finset.sum_congr rfl fun d _ => ?_
  have hl : dot_S128x64_S4096x64_S128x4096_1_1_0_0_n_n.lhsIdx (ix2 m n) ((contrEquiv1 dot_S128x64_S4096x64_S128x4096_1_1_0_0_n_n 64 rfl rfl).symm d) = ix2 m d := by
    funext a; apply Fin.ext
    match a with
    | ⟨0, _⟩ => rfl
    | ⟨1, _⟩ =>
      exact (dot_S128x64_S4096x64_S128x4096_1_1_0_0_n_n.lhsIdx_val_of_single (cl := 1) rfl (ix2 m n) _).trans
        (contrEquiv1_symm_val dot_S128x64_S4096x64_S128x4096_1_1_0_0_n_n 64 rfl rfl d)
  have hr : dot_S128x64_S4096x64_S128x4096_1_1_0_0_n_n.rhsIdx (ix2 m n) ((contrEquiv1 dot_S128x64_S4096x64_S128x4096_1_1_0_0_n_n 64 rfl rfl).symm d) = ix2 n d := by
    funext a; apply Fin.ext
    match a with
    | ⟨0, _⟩ => rfl
    | ⟨1, _⟩ =>
      exact (dot_S128x64_S4096x64_S128x4096_1_1_0_0_n_n.rhsIdx_val_of_single (cr := 1) rfl (ix2 m n) _).trans
        (contrEquiv1_symm_val dot_S128x64_S4096x64_S128x4096_1_1_0_0_n_n 64 rfl rfl d)
  rw [truncf_apply, truncf_apply, hl, hr, shapeCast_1ab_ab_apply]

/-- First head: the block of attention weights at `(m, n)`. -/
theorem k2_pay4_apply (v0 : Vec Ideal S1x128x64 .f32) (v3 : Vec Ideal S1x4096x64 .f32) (m : Fin 128) (n : Fin 4096) :
    k2_pay4 (F := Ideal) v0 v3 (ix2 m n)
      = weight (fun m d => v0 (ix3 (0 : Fin 1) m d)) (fun n d => v3 (ix3 (0 : Fin 1) n d)) m n := by
  unfold k2_pay4
  refine (rowSoftmax_apply (a := 128) (b := 4096) _ reduces_S128x4096_S128 _ _ _ _ shapeCasts_S128_S128x1
    broadcasts_S128x1_S128x4096 m n).trans ?_
  unfold weight num
  simp only [logitsA2_apply]

/-- Second head: the block of attention weights at `(m, n)`. -/
theorem k2_pay1_apply (v30 : FVec Ideal S128x64 .f32) (v32 : Vec Ideal S1x4096x64 .f32) (m : Fin 128) (n : Fin 4096) :
    k2_pay1 (F := Ideal) v30 v32 (ix2 m n)
      = weight (fun m d => v30 (ix2 m d)) (fun n d => v32 (ix3 (0 : Fin 1) n d)) m n := by
  unfold k2_pay1
  refine (rowSoftmax_apply (a := 128) (b := 4096) _ reduces_S128x4096_S128 _ _ _ _ shapeCasts_S128_S128x1
    broadcasts_S128x1_S128x4096 m n).trans ?_
  unfold weight num
  simp only [logitsB2_apply]

/-- The stored piece of the first head: the same weights under two unit axes. -/
theorem k2_pay5_apply (v0 : Vec Ideal S1x128x64 .f32) (v3 : Vec Ideal S1x4096x64 .f32) (u v : Fin 1) (m : Fin 128) (n : Fin 4096) :
    k2_pay5 (F := Ideal) v0 v3 (ix4 u v m n)
      = weight (fun m d => v0 (ix3 (0 : Fin 1) m d)) (fun n d => v3 (ix3 (0 : Fin 1) n d)) m n := by
  unfold k2_pay5
  rw [shapeCast_ab_11ab_apply]
  exact k2_pay4_apply v0 v3 m n

/-- The stored piece of the second head; its query slice is first stripped of its unit axis. -/
theorem k2_pay2_apply (v29 : Vec Ideal S1x128x64 .f32) (v32 : Vec Ideal S1x4096x64 .f32) (u v : Fin 1) (m : Fin 128) (n : Fin 4096) :
    k2_pay2 (F := Ideal) (k2_pay7 v29) v32 (ix4 u v m n)
      = weight (fun m d => v29 (ix3 (0 : Fin 1) m d)) (fun n d => v32 (ix3 (0 : Fin 1) n d)) m n := by
  unfold k2_pay2
  rw [shapeCast_ab_11ab_apply]
  refine (k2_pay1_apply (k2_pay7 v29) v32 m n).trans ?_
  unfold k2_pay7
  simp only [shapeCast_1ab_ab_apply]

/-! ## Region 7: 1024 query rows against 256 keys -/

/-- The logits block of the pair's first head, whose query slice arrives with a unit axis in front. -/
theorem logitsA7_apply (v0 : Vec Ideal S1x1024x64 .f32) (v3 : Vec Ideal S1x256x64 .f32) (m : Fin 1024) (n : Fin 256) :
    mulf (matmul (F := Ideal) dot_S1024x64_S256x64_S1024x256_1_1_0_0_n_n none
        (truncf .bf16 (shapeCast S1024x64 v0 shapeCasts_S1x1024x64_S1024x64) bitsLt_bf16_f32)
        (truncf .bf16 (shapeCast S256x64 v3 shapeCasts_S1x256x64_S256x64) bitsLt_bf16_f32)
        (constant (F := Ideal) S1024x256 .f32 0x00000000#32))
      (broadcast S1024x256 (Scalar.ofBits (F := Ideal) .f32 0x3DB504F3#32)) (ix2 m n)
    = logit (fun m d => v0 (ix3 (0 : Fin 1) m d)) (fun n d => v3 (ix3 (0 : Fin 1) n d)) m n := by
  rw [mulf_apply]
  unfold logit
  refine congrArg₂ (· * ·) ?_ rfl
  refine (Ideal.matmul_constant_zero_apply dot_S1024x64_S256x64_S1024x256_1_1_0_0_n_n none _ _ (ix2 m n)).trans ?_
  refine (Equiv.sum_comp (contrEquiv1 dot_S1024x64_S256x64_S1024x256_1_1_0_0_n_n 64 rfl rfl).symm _).symm.trans ?_
  refine Finset.sum_congr rfl fun d _ => ?_
  have hl : dot_S1024x64_S256x64_S1024x256_1_1_0_0_n_n.lhsIdx (ix2 m n) ((contrEquiv1 dot_S1024x64_S256x64_S1024x256_1_1_0_0_n_n 64 rfl rfl).symm d) = ix2 m d := by
    funext a; apply Fin.ext
    match a with
    | ⟨0, _⟩ => rfl
    | ⟨1, _⟩ =>
      exact (dot_S1024x64_S256x64_S1024x256_1_1_0_0_n_n.lhsIdx_val_of_single (cl := 1) rfl (ix2 m n) _).trans
        (contrEquiv1_symm_val dot_S1024x64_S256x64_S1024x256_1_1_0_0_n_n 64 rfl rfl d)
  have hr : dot_S1024x64_S256x64_S1024x256_1_1_0_0_n_n.rhsIdx (ix2 m n) ((contrEquiv1 dot_S1024x64_S256x64_S1024x256_1_1_0_0_n_n 64 rfl rfl).symm d) = ix2 n d := by
    funext a; apply Fin.ext
    match a with
    | ⟨0, _⟩ => rfl
    | ⟨1, _⟩ =>
      exact (dot_S1024x64_S256x64_S1024x256_1_1_0_0_n_n.rhsIdx_val_of_single (cr := 1) rfl (ix2 m n) _).trans
        (contrEquiv1_symm_val dot_S1024x64_S256x64_S1024x256_1_1_0_0_n_n 64 rfl rfl d)
  rw [truncf_apply, truncf_apply, hl, hr, shapeCast_1ab_ab_apply, shapeCast_1ab_ab_apply]

/-- The logits block of the pair's second head, whose query slice arrives already as a matrix. -/
theorem logitsB7_apply (v30 : FVec Ideal S1024x64 .f32) (v32 : Vec Ideal S1x256x64 .f32) (m : Fin 1024) (n : Fin 256) :
    mulf (matmul (F := Ideal) dot_S1024x64_S256x64_S1024x256_1_1_0_0_n_n none
        (truncf .bf16 v30 bitsLt_bf16_f32)
        (truncf .bf16 (shapeCast S256x64 v32 shapeCasts_S1x256x64_S256x64) bitsLt_bf16_f32)
        (constant (F := Ideal) S1024x256 .f32 0x00000000#32))
      (broadcast S1024x256 (Scalar.ofBits (F := Ideal) .f32 0x3DB504F3#32)) (ix2 m n)
    = logit (fun m d => v30 (ix2 m d)) (fun n d => v32 (ix3 (0 : Fin 1) n d)) m n := by
  rw [mulf_apply]
  unfold logit
  refine congrArg₂ (· * ·) ?_ rfl
  refine (Ideal.matmul_constant_zero_apply dot_S1024x64_S256x64_S1024x256_1_1_0_0_n_n none _ _ (ix2 m n)).trans ?_
  refine (Equiv.sum_comp (contrEquiv1 dot_S1024x64_S256x64_S1024x256_1_1_0_0_n_n 64 rfl rfl).symm _).symm.trans ?_
  refine Finset.sum_congr rfl fun d _ => ?_
  have hl : dot_S1024x64_S256x64_S1024x256_1_1_0_0_n_n.lhsIdx (ix2 m n) ((contrEquiv1 dot_S1024x64_S256x64_S1024x256_1_1_0_0_n_n 64 rfl rfl).symm d) = ix2 m d := by
    funext a; apply Fin.ext
    match a with
    | ⟨0, _⟩ => rfl
    | ⟨1, _⟩ =>
      exact (dot_S1024x64_S256x64_S1024x256_1_1_0_0_n_n.lhsIdx_val_of_single (cl := 1) rfl (ix2 m n) _).trans
        (contrEquiv1_symm_val dot_S1024x64_S256x64_S1024x256_1_1_0_0_n_n 64 rfl rfl d)
  have hr : dot_S1024x64_S256x64_S1024x256_1_1_0_0_n_n.rhsIdx (ix2 m n) ((contrEquiv1 dot_S1024x64_S256x64_S1024x256_1_1_0_0_n_n 64 rfl rfl).symm d) = ix2 n d := by
    funext a; apply Fin.ext
    match a with
    | ⟨0, _⟩ => rfl
    | ⟨1, _⟩ =>
      exact (dot_S1024x64_S256x64_S1024x256_1_1_0_0_n_n.rhsIdx_val_of_single (cr := 1) rfl (ix2 m n) _).trans
        (contrEquiv1_symm_val dot_S1024x64_S256x64_S1024x256_1_1_0_0_n_n 64 rfl rfl d)
  rw [truncf_apply, truncf_apply, hl, hr, shapeCast_1ab_ab_apply]

/-- First head: the block of attention weights at `(m, n)`. -/
theorem k7_pay4_apply (v0 : Vec Ideal S1x1024x64 .f32) (v3 : Vec Ideal S1x256x64 .f32) (m : Fin 1024) (n : Fin 256) :
    k7_pay4 (F := Ideal) v0 v3 (ix2 m n)
      = weight (fun m d => v0 (ix3 (0 : Fin 1) m d)) (fun n d => v3 (ix3 (0 : Fin 1) n d)) m n := by
  unfold k7_pay4
  refine (rowSoftmax_apply (a := 1024) (b := 256) _ reduces_S1024x256_S1024 _ _ _ _ shapeCasts_S1024_S1024x1
    broadcasts_S1024x1_S1024x256 m n).trans ?_
  unfold weight num
  simp only [logitsA7_apply]

/-- Second head: the block of attention weights at `(m, n)`. -/
theorem k7_pay1_apply (v30 : FVec Ideal S1024x64 .f32) (v32 : Vec Ideal S1x256x64 .f32) (m : Fin 1024) (n : Fin 256) :
    k7_pay1 (F := Ideal) v30 v32 (ix2 m n)
      = weight (fun m d => v30 (ix2 m d)) (fun n d => v32 (ix3 (0 : Fin 1) n d)) m n := by
  unfold k7_pay1
  refine (rowSoftmax_apply (a := 1024) (b := 256) _ reduces_S1024x256_S1024 _ _ _ _ shapeCasts_S1024_S1024x1
    broadcasts_S1024x1_S1024x256 m n).trans ?_
  unfold weight num
  simp only [logitsB7_apply]

/-- The stored piece of the first head: the same weights under two unit axes. -/
theorem k7_pay5_apply (v0 : Vec Ideal S1x1024x64 .f32) (v3 : Vec Ideal S1x256x64 .f32) (u v : Fin 1) (m : Fin 1024) (n : Fin 256) :
    k7_pay5 (F := Ideal) v0 v3 (ix4 u v m n)
      = weight (fun m d => v0 (ix3 (0 : Fin 1) m d)) (fun n d => v3 (ix3 (0 : Fin 1) n d)) m n := by
  unfold k7_pay5
  rw [shapeCast_ab_11ab_apply]
  exact k7_pay4_apply v0 v3 m n

/-- The stored piece of the second head; its query slice is first stripped of its unit axis. -/
theorem k7_pay2_apply (v29 : Vec Ideal S1x1024x64 .f32) (v32 : Vec Ideal S1x256x64 .f32) (u v : Fin 1) (m : Fin 1024) (n : Fin 256) :
    k7_pay2 (F := Ideal) (k7_pay7 v29) v32 (ix4 u v m n)
      = weight (fun m d => v29 (ix3 (0 : Fin 1) m d)) (fun n d => v32 (ix3 (0 : Fin 1) n d)) m n := by
  unfold k7_pay2
  rw [shapeCast_ab_11ab_apply]
  refine (k7_pay1_apply (k7_pay7 v29) v32 m n).trans ?_
  unfold k7_pay7
  simp only [shapeCast_1ab_ab_apply]

/-! ### Region 2: the context rows, weights times values -/

/-- First head's context block at `(m, e)`: `∑ₙ weight[m, n] · v[n, e]` (the weights rounded to the matrix unit's input
    format first — the identity on the extended reals). -/
theorem k2_pay6_apply (v0 : Vec Ideal S1x128x64 .f32) (v3 : Vec Ideal S1x4096x64 .f32) (v6 : Vec Ideal S1x4096x128 .f32)
    (u : Fin 1) (m : Fin 128) (e : Fin 128) :
    k2_pay6 (F := Ideal) v0 v3 v6 (ix3 u m e)
      = ∑ n : Fin 4096, weight (fun m d => v0 (ix3 (0 : Fin 1) m d)) (fun n d => v3 (ix3 (0 : Fin 1) n d)) m n
          * v6 (ix3 (0 : Fin 1) n e) := by
  unfold k2_pay6
  rw [shapeCast_ab_1ab_apply]
  refine (Ideal.matmul_constant_zero_apply dot_S128x4096_S4096x128_S128x128_1_0_0_1_n_n none _ _ (ix2 m e)).trans ?_
  refine (Equiv.sum_comp (contrEquiv1 dot_S128x4096_S4096x128_S128x128_1_0_0_1_n_n 4096 rfl rfl).symm _).symm.trans ?_
  refine Finset.sum_congr rfl fun n _ => ?_
  have hl : dot_S128x4096_S4096x128_S128x128_1_0_0_1_n_n.lhsIdx (ix2 m e) ((contrEquiv1 dot_S128x4096_S4096x128_S128x128_1_0_0_1_n_n 4096 rfl rfl).symm n) = ix2 m n := by
    funext a; apply Fin.ext
    match a with
    | ⟨0, _⟩ => rfl
    | ⟨1, _⟩ =>
      exact (dot_S128x4096_S4096x128_S128x128_1_0_0_1_n_n.lhsIdx_val_of_single (cl := 1) rfl (ix2 m e) _).trans
        (contrEquiv1_symm_val dot_S128x4096_S4096x128_S128x128_1_0_0_1_n_n 4096 rfl rfl n)
  have hr : dot_S128x4096_S4096x128_S128x128_1_0_0_1_n_n.rhsIdx (ix2 m e) ((contrEquiv1 dot_S128x4096_S4096x128_S128x128_1_0_0_1_n_n 4096 rfl rfl).symm n) = ix2 n e := by
    funext a; apply Fin.ext
    match a with
    | ⟨0, _⟩ =>
      exact (dot_S128x4096_S4096x128_S128x128_1_0_0_1_n_n.rhsIdx_val_of_single (cr := 0) rfl (ix2 m e) _).trans
        (contrEquiv1_symm_val dot_S128x4096_S4096x128_S128x128_1_0_0_1_n_n 4096 rfl rfl n)
    | ⟨1, _⟩ => rfl
  rw [truncf_apply, truncf_apply, hl, hr, shapeCast_1ab_ab_apply, k2_pay4_apply]

/-- Second head's context block at `(m, e)`. -/
theorem k2_pay3_apply (v29 : Vec Ideal S1x128x64 .f32) (v32 : Vec Ideal S1x4096x64 .f32) (v35 : Vec Ideal S1x4096x128 .f32)
    (u : Fin 1) (m : Fin 128) (e : Fin 128) :
    k2_pay3 (F := Ideal) (k2_pay7 v29) v32 v35 (ix3 u m e)
      = ∑ n : Fin 4096, weight (fun m d => v29 (ix3 (0 : Fin 1) m d)) (fun n d => v32 (ix3 (0 : Fin 1) n d)) m n
          * v35 (ix3 (0 : Fin 1) n e) := by
  unfold k2_pay3
  rw [shapeCast_ab_1ab_apply]
  refine (Ideal.matmul_constant_zero_apply dot_S128x4096_S4096x128_S128x128_1_0_0_1_n_n none _ _ (ix2 m e)).trans ?_
  refine (Equiv.sum_comp (contrEquiv1 dot_S128x4096_S4096x128_S128x128_1_0_0_1_n_n 4096 rfl rfl).symm _).symm.trans ?_
  refine Finset.sum_congr rfl fun n _ => ?_
  have hl : dot_S128x4096_S4096x128_S128x128_1_0_0_1_n_n.lhsIdx (ix2 m e) ((contrEquiv1 dot_S128x4096_S4096x128_S128x128_1_0_0_1_n_n 4096 rfl rfl).symm n) = ix2 m n := by
    funext a; apply Fin.ext
    match a with
    | ⟨0, _⟩ => rfl
    | ⟨1, _⟩ =>
      exact (dot_S128x4096_S4096x128_S128x128_1_0_0_1_n_n.lhsIdx_val_of_single (cl := 1) rfl (ix2 m e) _).trans
        (contrEquiv1_symm_val dot_S128x4096_S4096x128_S128x128_1_0_0_1_n_n 4096 rfl rfl n)
  have hr : dot_S128x4096_S4096x128_S128x128_1_0_0_1_n_n.rhsIdx (ix2 m e) ((contrEquiv1 dot_S128x4096_S4096x128_S128x128_1_0_0_1_n_n 4096 rfl rfl).symm n) = ix2 n e := by
    funext a; apply Fin.ext
    match a with
    | ⟨0, _⟩ =>
      exact (dot_S128x4096_S4096x128_S128x128_1_0_0_1_n_n.rhsIdx_val_of_single (cr := 0) rfl (ix2 m e) _).trans
        (contrEquiv1_symm_val dot_S128x4096_S4096x128_S128x128_1_0_0_1_n_n 4096 rfl rfl n)
    | ⟨1, _⟩ => rfl
  rw [truncf_apply, truncf_apply, hl, hr, shapeCast_1ab_ab_apply, k2_pay1_apply]
  unfold k2_pay7
  simp only [shapeCast_1ab_ab_apply]

/-! ### Region 7: the context rows, weights times values -/

/-- First head's context block at `(m, e)`: `∑ₙ weight[m, n] · v[n, e]` (the weights rounded to the matrix unit's input
    format first — the identity on the extended reals). -/
theorem k7_pay6_apply (v0 : Vec Ideal S1x1024x64 .f32) (v3 : Vec Ideal S1x256x64 .f32) (v6 : Vec Ideal S1x256x128 .f32)
    (u : Fin 1) (m : Fin 1024) (e : Fin 128) :
    k7_pay6 (F := Ideal) v0 v3 v6 (ix3 u m e)
      = ∑ n : Fin 256, weight (fun m d => v0 (ix3 (0 : Fin 1) m d)) (fun n d => v3 (ix3 (0 : Fin 1) n d)) m n
          * v6 (ix3 (0 : Fin 1) n e) := by
  unfold k7_pay6
  rw [shapeCast_ab_1ab_apply]
  refine (Ideal.matmul_constant_zero_apply dot_S1024x256_S256x128_S1024x128_1_0_0_1_n_n none _ _ (ix2 m e)).trans ?_
  refine (Equiv.sum_comp (contrEquiv1 dot_S1024x256_S256x128_S1024x128_1_0_0_1_n_n 256 rfl rfl).symm _).symm.trans ?_
  refine Finset.sum_congr rfl fun n _ => ?_
  have hl : dot_S1024x256_S256x128_S1024x128_1_0_0_1_n_n.lhsIdx (ix2 m e) ((contrEquiv1 dot_S1024x256_S256x128_S1024x128_1_0_0_1_n_n 256 rfl rfl).symm n) = ix2 m n := by
    funext a; apply Fin.ext
    match a with
    | ⟨0, _⟩ => rfl
    | ⟨1, _⟩ =>
      exact (dot_S1024x256_S256x128_S1024x128_1_0_0_1_n_n.lhsIdx_val_of_single (cl := 1) rfl (ix2 m e) _).trans
        (contrEquiv1_symm_val dot_S1024x256_S256x128_S1024x128_1_0_0_1_n_n 256 rfl rfl n)
  have hr : dot_S1024x256_S256x128_S1024x128_1_0_0_1_n_n.rhsIdx (ix2 m e) ((contrEquiv1 dot_S1024x256_S256x128_S1024x128_1_0_0_1_n_n 256 rfl rfl).symm n) = ix2 n e := by
    funext a; apply Fin.ext
    match a with
    | ⟨0, _⟩ =>
      exact (dot_S1024x256_S256x128_S1024x128_1_0_0_1_n_n.rhsIdx_val_of_single (cr := 0) rfl (ix2 m e) _).trans
        (contrEquiv1_symm_val dot_S1024x256_S256x128_S1024x128_1_0_0_1_n_n 256 rfl rfl n)
    | ⟨1, _⟩ => rfl
  rw [truncf_apply, truncf_apply, hl, hr, shapeCast_1ab_ab_apply, k7_pay4_apply]

/-- Second head's context block at `(m, e)`. -/
theorem k7_pay3_apply (v29 : Vec Ideal S1x1024x64 .f32) (v32 : Vec Ideal S1x256x64 .f32) (v35 : Vec Ideal S1x256x128 .f32)
    (u : Fin 1) (m : Fin 1024) (e : Fin 128) :
    k7_pay3 (F := Ideal) (k7_pay7 v29) v32 v35 (ix3 u m e)
      = ∑ n : Fin 256, weight (fun m d => v29 (ix3 (0 : Fin 1) m d)) (fun n d => v32 (ix3 (0 : Fin 1) n d)) m n
          * v35 (ix3 (0 : Fin 1) n e) := by
  unfold k7_pay3
  rw [shapeCast_ab_1ab_apply]
  refine (Ideal.matmul_constant_zero_apply dot_S1024x256_S256x128_S1024x128_1_0_0_1_n_n none _ _ (ix2 m e)).trans ?_
  refine (Equiv.sum_comp (contrEquiv1 dot_S1024x256_S256x128_S1024x128_1_0_0_1_n_n 256 rfl rfl).symm _).symm.trans ?_
  refine Finset.sum_congr rfl fun n _ => ?_
  have hl : dot_S1024x256_S256x128_S1024x128_1_0_0_1_n_n.lhsIdx (ix2 m e) ((contrEquiv1 dot_S1024x256_S256x128_S1024x128_1_0_0_1_n_n 256 rfl rfl).symm n) = ix2 m n := by
    funext a; apply Fin.ext
    match a with
    | ⟨0, _⟩ => rfl
    | ⟨1, _⟩ =>
      exact (dot_S1024x256_S256x128_S1024x128_1_0_0_1_n_n.lhsIdx_val_of_single (cl := 1) rfl (ix2 m e) _).trans
        (contrEquiv1_symm_val dot_S1024x256_S256x128_S1024x128_1_0_0_1_n_n 256 rfl rfl n)
  have hr : dot_S1024x256_S256x128_S1024x128_1_0_0_1_n_n.rhsIdx (ix2 m e) ((contrEquiv1 dot_S1024x256_S256x128_S1024x128_1_0_0_1_n_n 256 rfl rfl).symm n) = ix2 n e := by
    funext a; apply Fin.ext
    match a with
    | ⟨0, _⟩ =>
      exact (dot_S1024x256_S256x128_S1024x128_1_0_0_1_n_n.rhsIdx_val_of_single (cr := 0) rfl (ix2 m e) _).trans
        (contrEquiv1_symm_val dot_S1024x256_S256x128_S1024x128_1_0_0_1_n_n 256 rfl rfl n)
    | ⟨1, _⟩ => rfl
  rw [truncf_apply, truncf_apply, hl, hr, shapeCast_1ab_ab_apply, k7_pay1_apply]
  unfold k7_pay7
  simp only [shapeCast_1ab_ab_apply]

end Cert.KernelIdeal.AttnPay

end
-- ==== Proof.KernelRegion2Attn.lean ====
/-
  Region 2, attention weights: the pack layer's fifth window as one function of the arrays the region finds.

  The grid is (batch `b`, head pair `hp`, query tile `mt`): 8 × 4 × 2 points. A point reads the 128 query rows
  `128·mt …` of batch `b` at the pair's 128 features `128·hp …` of the projected queries `Q` ([8, 256, 512]), all 4096 key
  rows of batch `b` at the same features of the projected keys `K` ([8, 4096, 512]), and stores, for each of the pair's two
  heads `h ∈ {0, 1}`, the softmax rows of its 64-feature slice into slot `h` of a `[1, 2, 128, 4096]` block, written back
  at `(b, hp, mt, 0)` of the `[8, 8, 256, 4096]` output. Feature `64·h + d` of the pair's slice is feature `64·(2·hp + h) + d`
  of the array: head `2·hp + h`. The 64 blocks tile the output, so after the region entry `(b, H, q, k)` of the output is the
  attention weight of query row `q` and key row `k` of batch `b` under head `H`.
-/
import proofs.«120082_j85341000171970_2_alg».proof.Proof.Gen.KernelIdeal.Frame
import proofs.«120082_j85341000171970_2_alg».proof.Proof.KernelAttnPayload

set_option maxRecDepth 16384

noncomputable section

namespace Cert.KernelIdeal.Region2A

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.AttnPay (weight)

variable (V : (c : Dev nD) → (b : Ref sig .tc) → Buf (Elt Ideal) ((c : Thread nD τ).loc b))

/-- Feature `64·h + d` of a pair's 128-wide slice: head `h` of the pair. -/
def lane (h : Fin 2) (d : Fin 64) : Fin 128 := ⟨64 * h.val + d.val, by omega⟩

/-- Feature `64·H + d` of the 512-wide axis: head `H`. -/
def feat (H : Fin 8) (d : Fin 64) : Fin 512 := ⟨64 * H.val + d.val, by omega⟩

/-- The attention weight of one query row against a key block: the row's softmax. -/
def wrow {N : ℕ} (q : Fin 64 → EReal) (k : Fin N → Fin 64 → EReal) (n : Fin N) : EReal :=
  weight (M := 1) (fun _ d => q d) k 0 n

theorem weight_eq_wrow {M N : ℕ} (q : Fin M → Fin 64 → EReal) (k : Fin N → Fin 64 → EReal) (m : Fin M) (n : Fin N) :
    weight q k m n = wrow (q m) k n := rfl

/-- What the body leaves in the block, by coordinates: slot `h`, row `m`, key `n`. -/
def blkC (x0 : Vec Ideal S1x128x128 .f32) (x1 : Vec Ideal S1x4096x128 .f32) (h : Fin 2) (m : Fin 128) (n : Fin 4096) : EReal :=
  wrow (fun d => x0 (ix3 (0 : Fin 1) m (lane h d))) (fun n d => x1 (ix3 (0 : Fin 1) n (lane h d))) n

def blk (x0 : Vec Ideal S1x128x128 .f32) (x1 : Vec Ideal S1x4096x128 .f32) : S1x2x128x4096.Idx → EReal :=
  fun y => blkC x0 x1 (y 1) (y 2) (y 3)

theorem blkC_congr (x0 : Vec Ideal S1x128x128 .f32) (x1 : Vec Ideal S1x4096x128 .f32) {h h' : Fin 2} {m m' : Fin 128}
    {n n' : Fin 4096} (eh : h = h') (em : m = m') (en : n = n') : blkC x0 x1 h m n = blkC x0 x1 h' m' n' := by
  subst eh em en; rfl

/-- The body's two stores — the second head's weights into slot 1, the first head's into slot 0 — leave `blk`. -/
theorem out_eq (x0 : Vec Ideal S1x128x128 .f32) (x1 : Vec Ideal S1x4096x128 .f32) (x2 : Vec Ideal S1x4096x256 .f32) :
    out2_4 (F := Ideal) x0 x1 x2 = blk x0 x1 := by
  funext y
  unfold out2_4
  refine View.canon_apply_of_pieces (Val := Elt Ideal) (e := .f32) (blk x0 x1) _ ?_ y (cover2_4 _ _ y)
  intro p hp x
  simp only [List.mem_cons, List.mem_singleton, List.not_mem_nil, or_false] at hp
  rcases hp with rfl | rfl
  · obtain ⟨u, v, m, n, rfl⟩ : ∃ (u v : Fin 1) (m : Fin 128) (n : Fin 4096), x = ix4 u v m n :=
      ⟨x 0, x 1, x 2, x 3, eq_ix4 x⟩
    show k2_pay2 (k2_pay7 (View.ld x0 r2_5)) (View.ld x1 r2_6) (ix4 u v m n)
      = blkC x0 x1 ((r2_8.emb (ix4 u v m n)) 1) ((r2_8.emb (ix4 u v m n)) 2) ((r2_8.emb (ix4 u v m n)) 3)
    refine (AttnPay.k2_pay2_apply _ _ u v m n).trans ?_
    rw [weight_eq_wrow]
    have hv : v.val = 0 := by omega
    refine Eq.trans ?_ (blkC_congr x0 x1 (h := 1) (m := m) (n := n) (Fin.ext ?_) (Fin.ext ?_) (Fin.ext ?_))
    · unfold blkC
      refine congrArg₂ (fun q k => wrow q k n) (funext fun d => ?_) (funext fun n' => funext fun d => ?_)
      · show x0 (r2_5.emb (ix3 (0 : Fin 1) m d)) = x0 (ix3 (0 : Fin 1) m (lane 1 d))
        refine congrArg x0 (funext fun a => Fin.ext ?_)
        match a with
        | ⟨0, _⟩ => show 0 + 1 * (0 : ℕ) = 0; omega
        | ⟨1, _⟩ => show 0 + 1 * m.val = m.val; omega
        | ⟨2, _⟩ => show 64 + 1 * d.val = 64 * 1 + d.val; omega
      · show x1 (r2_6.emb (ix3 (0 : Fin 1) n' d)) = x1 (ix3 (0 : Fin 1) n' (lane 1 d))
        refine congrArg x1 (funext fun a => Fin.ext ?_)
        match a with
        | ⟨0, _⟩ => show 0 + 1 * (0 : ℕ) = 0; omega
        | ⟨1, _⟩ => show 0 + 1 * n'.val = n'.val; omega
        | ⟨2, _⟩ => show 64 + 1 * d.val = 64 * 1 + d.val; omega
    · show (1 : ℕ) = 1 + 1 * v.val; omega
    · show m.val = 0 + 1 * m.val; omega
    · show n.val = 0 + 1 * n.val; omega
  · obtain ⟨u, v, m, n, rfl⟩ : ∃ (u v : Fin 1) (m : Fin 128) (n : Fin 4096), x = ix4 u v m n :=
      ⟨x 0, x 1, x 2, x 3, eq_ix4 x⟩
    show k2_pay5 (View.ld x0 r2_0) (View.ld x1 r2_1) (ix4 u v m n)
      = blkC x0 x1 ((r2_3.emb (ix4 u v m n)) 1) ((r2_3.emb (ix4 u v m n)) 2) ((r2_3.emb (ix4 u v m n)) 3)
    refine (AttnPay.k2_pay5_apply _ _ u v m n).trans ?_
    rw [weight_eq_wrow]
    have hv : v.val = 0 := by omega
    refine Eq.trans ?_ (blkC_congr x0 x1 (h := 0) (m := m) (n := n) (Fin.ext ?_) (Fin.ext ?_) (Fin.ext ?_))
    · unfold blkC
      refine congrArg₂ (fun q k => wrow q k n) (funext fun d => ?_) (funext fun n' => funext fun d => ?_)
      · show x0 (r2_0.emb (ix3 (0 : Fin 1) m d)) = x0 (ix3 (0 : Fin 1) m (lane 0 d))
        refine congrArg x0 (funext fun a => Fin.ext ?_)
        match a with
        | ⟨0, _⟩ => show 0 + 1 * (0 : ℕ) = 0; omega
        | ⟨1, _⟩ => show 0 + 1 * m.val = m.val; omega
        | ⟨2, _⟩ => show 0 + 1 * d.val = 64 * 0 + d.val; omega
      · show x1 (r2_1.emb (ix3 (0 : Fin 1) n' d)) = x1 (ix3 (0 : Fin 1) n' (lane 0 d))
        refine congrArg x1 (funext fun a => Fin.ext ?_)
        match a with
        | ⟨0, _⟩ => show 0 + 1 * (0 : ℕ) = 0; omega
        | ⟨1, _⟩ => show 0 + 1 * n'.val = n'.val; omega
        | ⟨2, _⟩ => show 0 + 1 * d.val = 64 * 0 + d.val; omega
    · show (0 : ℕ) = 0 + 1 * v.val; omega
    · show m.val = 0 + 1 * m.val; omega
    · show n.val = 0 + 1 * n.val; omega

theorem wrow_congr {N : ℕ} {q q' : Fin 64 → EReal} {k k' : Fin N → Fin 64 → EReal} {n n' : Fin N}
    (hq : q = q') (hk : k = k') (hn : n = n') : wrow q k n = wrow q' k' n' := by subst hq hk hn; rfl

/-- The attention weight of batch `b`, head `H`, query row `q`, key row `k`, from the projected queries and keys. -/
def GC (Q : S8x256x512.Idx → EReal) (K : S8x4096x512.Idx → EReal) (b : Fin 8) (H : Fin 8) (q : Fin 256) (k : Fin 4096) : EReal :=
  wrow (fun d => Q (ix3 b q (feat H d))) (fun n d => K (ix3 b n (feat H d))) k

def G (Q : S8x256x512.Idx → EReal) (K : S8x4096x512.Idx → EReal) : S8x8x256x4096.Idx → EReal :=
  fun i => GC Q K (i 0) (i 1) (i 2) (i 3)

/-- The index maps over the grid: queries at (batch, tile, pair), keys at (batch, 0, pair), weights at (batch, pair, tile, 0). -/
theorem idx_facts : ∀ t : Fin cfg2.N,
    win2_0.index t (0 : Fin 3) = win2_4.index t (0 : Fin 4) ∧ win2_0.index t (1 : Fin 3) = win2_4.index t (2 : Fin 4)
    ∧ win2_0.index t (2 : Fin 3) = win2_4.index t (1 : Fin 4)
    ∧ win2_1.index t (0 : Fin 3) = win2_4.index t (0 : Fin 4) ∧ win2_1.index t (1 : Fin 3) = 0
    ∧ win2_1.index t (2 : Fin 3) = win2_4.index t (1 : Fin 4)
    ∧ win2_4.index t (0 : Fin 4) ≤ 7 ∧ win2_4.index t (1 : Fin 4) ≤ 3 ∧ win2_4.index t (2 : Fin 4) ≤ 1
    ∧ win2_4.index t (3 : Fin 4) = 0 :=
  (by decide +kernel : ∀ t : Fin grid2.N, _)

/-- What point `t` writes back is block `t` of `G` of the projected queries and keys as the region finds them. -/
theorem flushed_eq (c : Dev nD) (t : Fin cfg2.N) :
    (dat2 V c).flushed 4 t = ((cfg2.win 4).blk t).view.read (Elt Ideal)
      (G (V c (Pipeline.arrRef spec2 0)) (V c (Pipeline.arrRef spec2 1))) := by
  show (cfg2.win 4).cut (grid2.coords t) ((dat2 V c).after 4 t) = _
  rw [after2_4, out_eq]
  obtain ⟨e00, e01, e02, e10, e11, e12, b0, b1, b2, e43⟩ := idx_facts t
  funext y
  obtain ⟨u, h, m, n, rfl⟩ : ∃ (u : Fin 1) (h : Fin 2) (m : Fin 128) (n : Fin 4096), y = ix4 u h m n :=
    ⟨y 0, y 1, y 2, y 3, eq_ix4 y⟩
  have hu : u.val = 0 := by omega
  show blkC (iblk2 V c 0 t) (iblk2 V c 1 t) h m n
    = G (V c (Pipeline.arrRef spec2 0)) (V c (Pipeline.arrRef spec2 1)) (((cfg2.win 4).blk t).view.emb (ix4 u h m n))
  unfold blkC G GC
  refine wrow_congr (funext fun d => ?_) (funext fun n' => funext fun d => ?_) (Fin.ext ?_)
  · show V c (Pipeline.arrRef spec2 0) (((cfg2.win 0).blk t).view.emb (ix3 (0 : Fin 1) m (lane h d))) = _
    refine congrArg (V c (Pipeline.arrRef spec2 0)) (funext fun a => Fin.ext ?_)
    match a with
    | ⟨0, _⟩ => show win2_0.index t (0 : Fin 3) * 1 + 1 * 0 = win2_4.index t (0 : Fin 4) * 1 + 1 * u.val; omega
    | ⟨1, _⟩ => show win2_0.index t (1 : Fin 3) * 128 + 1 * m.val = win2_4.index t (2 : Fin 4) * 128 + 1 * m.val; omega
    | ⟨2, _⟩ =>
      show win2_0.index t (2 : Fin 3) * 128 + 1 * (64 * h.val + d.val) = 64 * (win2_4.index t (1 : Fin 4) * 2 + 1 * h.val) + d.val
      omega
  · show V c (Pipeline.arrRef spec2 1) (((cfg2.win 1).blk t).view.emb (ix3 (0 : Fin 1) n' (lane h d))) = _
    refine congrArg (V c (Pipeline.arrRef spec2 1)) (funext fun a => Fin.ext ?_)
    match a with
    | ⟨0, _⟩ => show win2_1.index t (0 : Fin 3) * 1 + 1 * 0 = win2_4.index t (0 : Fin 4) * 1 + 1 * u.val; omega
    | ⟨1, _⟩ => show win2_1.index t (1 : Fin 3) * 4096 + 1 * n'.val = n'.val; omega
    | ⟨2, _⟩ =>
      show win2_1.index t (2 : Fin 3) * 128 + 1 * (64 * h.val + d.val) = 64 * (win2_4.index t (1 : Fin 4) * 2 + 1 * h.val) + d.val
      omega
  · show n.val = win2_4.index t (3 : Fin 4) * 4096 + 1 * n.val; omega

/-- An index of the output is in point `t`'s block iff each coordinate is in the block's range on its axis. -/
theorem mem_blk (t : Fin cfg2.N) (i : S8x8x256x4096.Idx) :
    i ∈ ((cfg2.win 4).blk t).view.set ↔ ∀ a : Fin 4, win2_4.index t a * S1x2x128x4096.size a ≤ (i a).val
      ∧ (i a).val < win2_4.index t a * S1x2x128x4096.size a + S1x2x128x4096.size a := by
  show i ∈ ((View.whole main_v16_1).slice (win2_4.rect t)).set ↔ _
  rw [View.set_slice_whole, Rect.mem_set_unit]
  exact Iff.rfl

/-- Every block of the output is some point's. -/
theorem idx_onto : ∀ (q0 : Fin 8) (q1 : Fin 4) (q2 : Fin 2), ∃ t : Fin cfg2.N, win2_4.index t = ![q0.val, q1.val, q2.val, 0] :=
  (by decide +kernel : ∀ (q0 : Fin 8) (q1 : Fin 4) (q2 : Fin 2), ∃ t : Fin grid2.N, win2_4.index t = ![q0.val, q1.val, q2.val, 0])

/-- The 64 blocks cover the output: `(b, H, q, k)` is in the block of batch `b`, pair `H / 2`, tile `q / 128`. -/
theorem cover (i : S8x8x256x4096.Idx) :
    ∃ t : Fin cfg2.N, (cfg2.win 4).flush t = true ∧ i ∈ ((cfg2.win 4).blk t).view.set := by
  have hi0 : (i 0).val < 8 := (i 0).isLt
  have hi1 : (i 1).val < 8 := (i 1).isLt
  have hi2 : (i 2).val < 256 := (i 2).isLt
  have hi3 : (i 3).val < 4096 := (i 3).isLt
  obtain ⟨t, ht⟩ := idx_onto ⟨(i 0).val, by omega⟩ ⟨(i 1).val / 2, by omega⟩ ⟨(i 2).val / 128, by omega⟩
  have q0 : win2_4.index t (0 : Fin 4) = (i 0).val := congrFun ht 0
  have q1 : win2_4.index t (1 : Fin 4) = (i 1).val / 2 := congrFun ht 1
  have q2 : win2_4.index t (2 : Fin 4) = (i 2).val / 128 := congrFun ht 2
  have q3 : win2_4.index t (3 : Fin 4) = 0 := congrFun ht 3
  refine ⟨t, flush2_4 t, ?_⟩
  rw [mem_blk]
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 2 ≤ (i 1).val ∧ (i 1).val < win2_4.index t (1 : Fin 4) * 2 + 2; omega
  | ⟨2, _⟩ => show win2_4.index t (2 : Fin 4) * 128 ≤ (i 2).val ∧ (i 2).val < win2_4.index t (2 : Fin 4) * 128 + 128; omega
  | ⟨3, _⟩ => show win2_4.index t (3 : Fin 4) * 4096 ≤ (i 3).val ∧ (i 3).val < win2_4.index t (3 : Fin 4) * 4096 + 4096; omega

/-- After the region the attention-weights array is `G` of the projected queries and keys the region found. -/
theorem final (c : Dev nD) : (dat2 V c).arrAt 4 cfg2.N
    = G (V c (Pipeline.arrRef spec2 0)) (V c (Pipeline.arrRef spec2 1)) :=
  (dat2 V c).arrAt_eq_of_cover 4 _ (fun t _ => flushed_eq V c t) cover

end Cert.KernelIdeal.Region2A

end
-- ==== Proof.KernelChainPack.lean ====
/-
  The pack layer's projected queries and keys, as the attention region finds them.

  Before region 0 the host flattens the short sequence `aux` to rows, transposes `Wq₁` and lays `bq₁` out as a row; region 0
  multiplies; the host folds the rows back to `[8, 256, 512]`. Before region 1 it does the same with `hidden`, `Wk₁`, `bk₁`;
  region 1 multiplies; the host folds its first output back to `[8, 4096, 512]`. No later stretch or region writes these
  two arrays before region 2 reads them.
-/
import proofs.«120082_j85341000171970_2_alg».proof.Proof.Gen.KernelIdeal.Frame
import proofs.«120082_j85341000171970_2_alg».proof.Proof.KernelRegion0
import proofs.«120082_j85341000171970_2_alg».proof.Proof.KernelRegion1K
import proofs.«120082_j85341000171970_2_alg».proof.Proof.KernelRegion2Attn
import proofs.«120082_j85341000171970_2_alg».proof.Proof.KernelArgs
import Idealize.ShloMosaic.Lib.StableHlo.Run
import Idealize.ShloMosaic.Lib.ValueLayout
import Idealize.ShloMosaic.PureOps.Ideal

set_option maxRecDepth 16384

noncomputable section

namespace Cert.KernelIdeal.ChainPack

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The short sequence flattened to rows. -/
theorem W1_v0 (c : Dev nD) : W1 m ρ c (Proc.devRef .tc main_v0)
    = shapeCast S2048x512 (m ((c : Thread nD τ).loc main_arg1)) shapeCasts_S8x256x512_S2048x512 := by
  show StableHlo.after hostOps0 (W0 m ρ c) (Proc.devRef .tc main_v0) = _
  after_results <;> rfl
/-- `Wq₁` transposed. -/
theorem W1_v1 (c : Dev nD) : W1 m ρ c (Proc.devRef .tc main_v1)
    = transpose S512x512 [1, 0] (m ((c : Thread nD τ).loc main_arg2)) transposes_S512x512_S512x512_1_0 := by
  show StableHlo.after hostOps0 (W0 m ρ c) (Proc.devRef .tc main_v1) = _
  after_results <;> rfl
/-- `bq₁` as a row. -/
theorem W1_v2 (c : Dev nD) : W1 m ρ c (Proc.devRef .tc main_v2)
    = shapeCast S1x512 (m ((c : Thread nD τ).loc main_arg3)) shapeCasts_S512_S1x512 := by
  show StableHlo.after hostOps0 (W0 m ρ c) (Proc.devRef .tc main_v2) = _
  after_results <;> rfl
/-- `hidden` is untouched up to region 1's stretch. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- `Wk₁` is untouched up to region 1's stretch. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
/-- `bk₁` is untouched up to region 1's stretch. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
/-- Region 0's rows folded back to `[8, 256, 512]`. -/
theorem W3_v4 (c : Dev nD) : W3 m ρ c (Proc.devRef .tc main_v4)
    = shapeCast S8x256x512 (W2 m ρ c (Proc.devRef .tc main_v3)) shapeCasts_S2048x512_S8x256x512 := by
  show StableHlo.after hostOps1 (W2 m ρ c) (Proc.devRef .tc main_v4) = _
  after_results <;> rfl
/-- The long sequence flattened to rows. -/
theorem W3_v5 (c : Dev nD) : W3 m ρ c (Proc.devRef .tc main_v5)
    = shapeCast S32768x1024 (W2 m ρ c (Proc.devRef .tc main_arg0)) shapeCasts_S8x4096x1024_S32768x1024 := by
  show StableHlo.after hostOps1 (W2 m ρ c) (Proc.devRef .tc main_v5) = _
  after_results <;> rfl
/-- `Wk₁` transposed. -/
theorem W3_v6 (c : Dev nD) : W3 m ρ c (Proc.devRef .tc main_v6)
    = transpose S1024x512 [1, 0] (W2 m ρ c (Proc.devRef .tc main_arg4)) transposes_S512x1024_S1024x512_1_0 := by
  show StableHlo.after hostOps1 (W2 m ρ c) (Proc.devRef .tc main_v6) = _
  after_results <;> rfl
/-- `bk₁` as a row. -/
theorem W3_v9 (c : Dev nD) : W3 m ρ c (Proc.devRef .tc main_v9)
    = shapeCast S1x512 (W2 m ρ c (Proc.devRef .tc main_arg5)) shapeCasts_S512_S1x512 := by
  show StableHlo.after hostOps1 (W2 m ρ c) (Proc.devRef .tc main_v9) = _
  after_results <;> rfl
/-- The folded queries reach region 2 unchanged. -/
theorem W5_v4 (c : Dev nD) : W5 m ρ c (Proc.devRef .tc main_v4) = W3 m ρ c (Proc.devRef .tc main_v4) :=
  calc W5 m ρ c (Proc.devRef .tc main_v4)
    _ = W4 m ρ c (Proc.devRef .tc main_v4) := StableHlo.after_of_forall_not_mem (b := Proc.devRef .tc main_v4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v4) := W4_of_ne m ρ c main_v4 (by decide)
/-- Region 1's key rows folded back to `[8, 4096, 512]`. -/
theorem W5_v13 (c : Dev nD) : W5 m ρ c (Proc.devRef .tc main_v13)
    = shapeCast S8x4096x512 (W4 m ρ c (Proc.devRef .tc main_v12_0)) shapeCasts_S32768x512_S8x4096x512 := by
  show StableHlo.after hostOps2 (W4 m ρ c) (Proc.devRef .tc main_v13) = _
  after_results <;> rfl
/-- Region 0's output array, from what its stretch left. -/
theorem W2_v3 (c : Dev nD) : W2 m ρ c (Proc.devRef .tc main_v3)
    = Region0.G (W1 m ρ c (Proc.devRef .tc main_v0)) (W1 m ρ c (Proc.devRef .tc main_v1)) (W1 m ρ c (Proc.devRef .tc main_v2)) :=
  (W2_arr m ρ c 3).trans (Region0.final (V1 m ρ) c)

/-- Region 1's key output array, from what its stretch left. -/
theorem W4_v12_0 (c : Dev nD) : W4 m ρ c (Proc.devRef .tc main_v12_0)
    = Region1K.G (W3 m ρ c (Proc.devRef .tc main_v5)) (W3 m ρ c (Proc.devRef .tc main_v6)) (W3 m ρ c (Proc.devRef .tc main_v9)) :=
  (W4_arr m ρ c 7).trans (Region1K.final (V3 m ρ) c)

/-- Region 2's queries are the short sequence's query projection `aux·Wq₁ᵀ + bq₁`. -/
theorem q1_eq (c : Dev nD) : W5 m ρ c (Proc.devRef .tc main_v4)
    = fun i => Cert.Spec.lin (Whole.argsOf m c).aux (Whole.argsOf m c).wq1 (Whole.argsOf m c).bq1 (i 0) (i 1) (i 2) := by
  refine (W5_v4 m ρ c).trans ((W3_v4 m ρ c).trans ?_)
  rw [W2_v3]
  funext i
  obtain ⟨b, r, o, rfl⟩ : ∃ (b : Fin 8) (r : Fin 256) (o : Fin 512), i = ix3 b r o := ⟨i 0, i 1, i 2, eq_ix3 i⟩
  have hrow : 256 * b.val + r.val < 2048 := by have := b.isLt; have := r.isLt; omega
  refine (shapeCast_apply _ _ (ix3 b r o) (ix2 (⟨256 * b.val + r.val, hrow⟩ : Fin 2048) o) (by
    rw [Shape.rowMajor_val_two, Shape.rowMajor_val_three]
    show (256 * b.val + r.val) * 512 + o.val = (b.val * 256 + r.val) * 512 + o.val
    rw [Nat.mul_comm 256 b.val])).trans ?_
  unfold Region0.G Cert.Spec.lin
  refine congrArg₂ (· + ·) (Finset.sum_congr rfl fun k _ => congrArg₂ (· * ·) ?_ ?_) ?_
  · refine (congrFun (W1_v0 m ρ c) _).trans ?_
    refine (shapeCast_apply _ _ _ (ix3 b r k) (by
      rw [Shape.rowMajor_val_two, Shape.rowMajor_val_three]
      show (b.val * 256 + r.val) * 512 + k.val = (256 * b.val + r.val) * 512 + k.val
      rw [Nat.mul_comm 256 b.val])).trans ?_
    rfl
  · refine (congrFun (W1_v1 m ρ c) _).trans ?_
    refine (transpose_ix2_apply _ _ k o).trans ?_
    rfl
  · refine (congrFun (W1_v2 m ρ c) _).trans ?_
    refine (shapeCast_a_1a_apply _ _ (0 : Fin 1) o).trans ?_
    rfl
/-- Region 2's keys are the long sequence's key projection `hidden·Wk₁ᵀ + bk₁`. -/
theorem k1_eq (c : Dev nD) : W5 m ρ c (Proc.devRef .tc main_v13)
    = fun i => Cert.Spec.lin (Whole.argsOf m c).hidden (Whole.argsOf m c).wk1 (Whole.argsOf m c).bk1 (i 0) (i 1) (i 2) := by
  refine (W5_v13 m ρ c).trans ?_
  rw [W4_v12_0]
  funext i
  obtain ⟨b, r, o, rfl⟩ : ∃ (b : Fin 8) (r : Fin 4096) (o : Fin 512), i = ix3 b r o := ⟨i 0, i 1, i 2, eq_ix3 i⟩
  have hrow : 4096 * b.val + r.val < 32768 := by have := b.isLt; have := r.isLt; omega
  refine (shapeCast_apply _ _ (ix3 b r o) (ix2 (⟨4096 * b.val + r.val, hrow⟩ : Fin 32768) o) (by
    rw [Shape.rowMajor_val_two, Shape.rowMajor_val_three]
    show (4096 * b.val + r.val) * 512 + o.val = (b.val * 4096 + r.val) * 512 + o.val
    rw [Nat.mul_comm 4096 b.val])).trans ?_
  unfold Region1K.G Cert.Spec.lin
  refine congrArg₂ (· + ·) (Finset.sum_congr rfl fun k _ => congrArg₂ (· * ·) ?_ ?_) ?_
  · refine (congrFun (W3_v5 m ρ c) _).trans ?_
    refine (shapeCast_apply _ _ _ (ix3 b r k) (by
      rw [Shape.rowMajor_val_two, Shape.rowMajor_val_three]
      show (b.val * 4096 + r.val) * 1024 + k.val = (4096 * b.val + r.val) * 1024 + k.val
      rw [Nat.mul_comm 4096 b.val])).trans ?_
    exact congrFun (W2_arg0 m ρ c) _
  · refine (congrFun (W3_v6 m ρ c) _).trans ?_
    refine (transpose_ix2_apply _ _ k o).trans ?_
    exact congrFun (W2_arg4 m ρ c) _
  · refine (congrFun (W3_v9 m ρ c) _).trans ?_
    refine (shapeCast_a_1a_apply _ _ (0 : Fin 1) o).trans ?_
    exact congrFun (W2_arg5 m ρ c) _
/-- The pack layer's attention weights are untouched after region 2. -/
theorem W19_v16_1 (c : Dev nD) : W19 m ρ c (Proc.devRef .tc main_v16_1) = W6 m ρ c (Proc.devRef .tc main_v16_1) :=
  calc W19 m ρ c (Proc.devRef .tc main_v16_1)
    _ = W18 m ρ c (Proc.devRef .tc main_v16_1) := StableHlo.after_of_forall_not_mem (b := Proc.devRef .tc main_v16_1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v16_1) := W18_of_ne m ρ c main_v16_1 (by decide)
    _ = W16 m ρ c (Proc.devRef .tc main_v16_1) := StableHlo.after_of_forall_not_mem (b := Proc.devRef .tc main_v16_1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v16_1) := W16_of_ne m ρ c main_v16_1 (by decide)
    _ = W14 m ρ c (Proc.devRef .tc main_v16_1) := StableHlo.after_of_forall_not_mem (b := Proc.devRef .tc main_v16_1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v16_1) := W14_of_ne m ρ c main_v16_1 (by decide)
    _ = W12 m ρ c (Proc.devRef .tc main_v16_1) := StableHlo.after_of_forall_not_mem (b := Proc.devRef .tc main_v16_1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v16_1) := W12_of_ne m ρ c main_v16_1 (by decide)
    _ = W10 m ρ c (Proc.devRef .tc main_v16_1) := StableHlo.after_of_forall_not_mem (b := Proc.devRef .tc main_v16_1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v16_1) := W10_of_ne m ρ c main_v16_1 (by decide)
    _ = W8 m ρ c (Proc.devRef .tc main_v16_1) := StableHlo.after_of_forall_not_mem (b := Proc.devRef .tc main_v16_1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v16_1) := W8_of_ne m ρ c main_v16_1 (by decide)
    _ = W6 m ρ c (Proc.devRef .tc main_v16_1) := StableHlo.after_of_forall_not_mem (b := Proc.devRef .tc main_v16_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The pack layer's attention-weights buffer ends at the specification's `attn₁` of the launch arguments. -/
theorem attn1_eq (c : Dev nD) : W19 m ρ c (Proc.devRef .tc main_v16_1)
    = fun i => Cert.Spec.attn1 Cert.Spec.σ₀ (Whole.argsOf m c) (i 0) (i 1) (i 2) (i 3) := by
  refine (W19_v16_1 m ρ c).trans (((W6_arr m ρ c 4).trans (Region2A.final (V5 m ρ) c)).trans ?_)
  show Region2A.G (W5 m ρ c (Proc.devRef .tc main_v4)) (W5 m ρ c (Proc.devRef .tc main_v13)) = _
  rw [q1_eq, k1_eq]
  rfl

end Cert.KernelIdeal.ChainPack

end
-- ==== Proof.KernelRegion1Q.lean ====
/-
  Region 1 (Q): the long sequence's query projection for the unpack layer, as one function of the arrays the region finds.

  The region runs over 64 grid points; point `t` reads rows `512·t … 512·t + 511` of the flattened sequence `x` ([32768, 1024]),
  the whole transposed weight `wT` ([1024, 512]) and the bias row ([1, 512]), and writes back the same rows of the output.
  Entry `(p, q)` of the block it writes is `(∑ₖ x[512·t + p, k] · wT[k, q]) + bias[0, q]`, which is entry `(512·t + p, q)` of ONE
  function of the three arrays; the 64 row blocks tile the output, so after the region the output array is that function.
-/
import proofs.«120082_j85341000171970_2_alg».proof.Proof.Gen.KernelIdeal.Frame
import proofs.«120082_j85341000171970_2_alg».proof.Proof.KernelLinPayload

set_option maxRecDepth 16384

noncomputable section

namespace Cert.KernelIdeal.Region1Q

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows times the transposed weight, plus the bias row. -/
def G (x : S32768x1024.Idx → EReal) (wT : S1024x512.Idx → EReal) (b : S1x512.Idx → EReal) : S32768x512.Idx → EReal :=
  fun i => (∑ k : Fin 1024, x (ix2 (i 0) k) * wT (ix2 k (i 1))) + b (ix2 (0 : Fin 1) (i 1))

/-- The index maps over the grid: the row windows move with the point, the weight and bias windows stay at block 0. -/
theorem idx_facts : ∀ t : Fin cfg1.N, win1_0.index t (0 : Fin 2) = t.val ∧ win1_0.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_9.index t (0 : Fin 2) = t.val ∧ win1_9.index t (1 : Fin 2) = 0 :=
  (by decide +kernel : ∀ t : Fin grid1.N, _)

/-- What point `t` writes back is block `t` of `G` of the arrays as the region finds them. -/
theorem flushed_eq (c : Dev nD) (t : Fin cfg1.N) :
    (dat1 V c).flushed 9 t = ((cfg1.win 9).blk t).view.read (Elt Ideal)
      (G (V c (Pipeline.arrRef spec1 0)) (V c (Pipeline.arrRef spec1 5)) (V c (Pipeline.arrRef spec1 6))) := by
  show (cfg1.win 9).cut (grid1.coords t) ((dat1 V c).after 9 t) = _
  rw [after1_9]
  unfold out1_9
  rw [View.canon_unit_zero hz]
  simp only [View.ld_unit_zero (S := S512x1024) hz, View.ld_unit_zero (S := S1024x512) hz, View.ld_unit_zero (S := S1x512) hz]
  obtain ⟨e00, e01, e10, e11, e20, e21, e30, e31⟩ := idx_facts t
  funext j
  obtain ⟨p, q, rfl⟩ : ∃ (p : Fin 512) (q : Fin 512), j = ix2 p q := ⟨j 0, j 1, eq_ix2 j⟩
  show k1_pay4 (iblk1 V c 0 t) (iblk1 V c 5 t) (iblk1 V c 6 t) (ix2 p q)
    = G (V c (Pipeline.arrRef spec1 0)) (V c (Pipeline.arrRef spec1 5)) (V c (Pipeline.arrRef spec1 6))
        (((cfg1.win 9).blk t).view.emb (ix2 p q))
  refine (LinPay.k1_pay4_apply (iblk1 V c 0 t) (iblk1 V c 5 t) (iblk1 V c 6 t) p q).trans ?_
  unfold G
  refine congrArg₂ (· + ·) (Finset.sum_congr rfl fun k _ => congrArg₂ (· * ·) ?_ ?_) ?_
  · show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 512 + 1 * p.val = win1_9.index t (0 : Fin 2) * 512 + 1 * p.val; omega
    | ⟨1, _⟩ => show win1_0.index t (1 : Fin 2) * 1024 + 1 * k.val = k.val; omega
  · show V c (Pipeline.arrRef spec1 5) (((cfg1.win 5).blk t).view.emb (ix2 k q)) = _
    refine congrArg (V c (Pipeline.arrRef spec1 5)) (funext fun a => Fin.ext ?_)
    match a with
    | ⟨0, _⟩ => show win1_5.index t (0 : Fin 2) * 1024 + 1 * k.val = k.val; omega
    | ⟨1, _⟩ => show win1_5.index t (1 : Fin 2) * 512 + 1 * q.val = win1_9.index t (1 : Fin 2) * 512 + 1 * q.val; omega
  · show V c (Pipeline.arrRef spec1 6) (((cfg1.win 6).blk t).view.emb (ix2 (0 : Fin 1) q)) = _
    refine congrArg (V c (Pipeline.arrRef spec1 6)) (funext fun a => Fin.ext ?_)
    match a with
    | ⟨0, _⟩ => show win1_6.index t (0 : Fin 2) * 1 + 1 * 0 = 0; omega
    | ⟨1, _⟩ => show win1_6.index t (1 : Fin 2) * 512 + 1 * q.val = win1_9.index t (1 : Fin 2) * 512 + 1 * q.val; omega

/-- An index of the output is in point `t`'s block iff each coordinate is in the block's range on its axis. -/
theorem mem_blk (t : Fin cfg1.N) (i : S32768x512.Idx) :
    i ∈ ((cfg1.win 9).blk t).view.set ↔ ∀ a : Fin 2, win1_9.index t a * S512x512.size a ≤ (i a).val
      ∧ (i a).val < win1_9.index t a * S512x512.size a + S512x512.size a := by
  show i ∈ ((View.whole main_v12_2).slice (win1_9.rect t)).set ↔ _
  rw [View.set_slice_whole, Rect.mem_set_unit]
  exact Iff.rfl

/-- Every row block of the output is some point's. -/
theorem idx_onto : ∀ q0 : Fin 64, ∃ t : Fin cfg1.N, win1_9.index t = ![q0.val, 0] :=
  (by decide +kernel : ∀ q0 : Fin 64, ∃ t : Fin grid1.N, win1_9.index t = ![q0.val, 0])

/-- The 64 row blocks cover the output: row `r` is in block `r / 512`. -/
theorem cover (i : S32768x512.Idx) :
    ∃ t : Fin cfg1.N, (cfg1.win 9).flush t = true ∧ i ∈ ((cfg1.win 9).blk t).view.set := by
  have hi0 : (i 0).val < 32768 := (i 0).isLt
  have hi1 : (i 1).val < 512 := (i 1).isLt
  obtain ⟨t, ht⟩ := idx_onto ⟨(i 0).val / 512, by omega⟩
  have q0 : win1_9.index t (0 : Fin 2) = (i 0).val / 512 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 512 ≤ (i 0).val ∧ (i 0).val < win1_9.index t (0 : Fin 2) * 512 + 512; omega
  | ⟨1, _⟩ => show win1_9.index t (1 : Fin 2) * 512 ≤ (i 1).val ∧ (i 1).val < win1_9.index t (1 : Fin 2) * 512 + 512; omega

/-- After the region its output array is `G` of the arrays the region found. -/
theorem final (c : Dev nD) : (dat1 V c).arrAt 9 cfg1.N
    = G (V c (Pipeline.arrRef spec1 0)) (V c (Pipeline.arrRef spec1 5)) (V c (Pipeline.arrRef spec1 6)) :=
  (dat1 V c).arrAt_eq_of_cover 9 _ (fun t _ => flushed_eq V c t) cover

end Cert.KernelIdeal.Region1Q

end
-- ==== Proof.KernelRegion5.lean ====
/-
  Region 5: the unpack layer's key projection, as one function of the arrays the region finds.

  The region runs over 4 grid points; point `t` reads rows `512·t … 512·t + 511` of the flattened sequence `x` ([2048, 512]),
  the whole transposed weight `wT` ([512, 512]) and the bias row ([1, 512]), and writes back the same rows of the output.
  Entry `(p, q)` of the block it writes is `(∑ₖ x[512·t + p, k] · wT[k, q]) + bias[0, q]`, which is entry `(512·t + p, q)` of ONE
  function of the three arrays; the 4 row blocks tile the output, so after the region the output array is that function.
-/
import proofs.«120082_j85341000171970_2_alg».proof.Proof.Gen.KernelIdeal.Frame
import proofs.«120082_j85341000171970_2_alg».proof.Proof.KernelLinPayload

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows times the transposed weight, plus the bias row. -/
def G (x : S2048x512.Idx → EReal) (wT : S512x512.Idx → EReal) (b : S1x512.Idx → EReal) : S2048x512.Idx → EReal :=
  fun i => (∑ k : Fin 512, x (ix2 (i 0) k) * wT (ix2 k (i 1))) + b (ix2 (0 : Fin 1) (i 1))

/-- The index maps over the grid: the row windows move with the point, the weight and bias windows stay at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` of `G` of the arrays as the region finds them. -/
theorem flushed_eq (c : Dev nD) (t : Fin cfg5.N) :
    (dat5 V c).flushed 3 t = ((cfg5.win 3).blk t).view.read (Elt Ideal)
      (G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S512x512) hz, View.ld_unit_zero (S := S1x512) hz]
  obtain ⟨e00, e01, e10, e11, e20, e21, e30, e31⟩ := idx_facts t
  funext j
  obtain ⟨p, q, rfl⟩ : ∃ (p : Fin 512) (q : Fin 512), j = ix2 p q := ⟨j 0, j 1, eq_ix2 j⟩
  show k5_pay1 (iblk5 V c 0 t) (iblk5 V c 1 t) (iblk5 V c 2 t) (ix2 p q)
    = G (V c (Pipeline.arrRef spec5 0)) (V c (Pipeline.arrRef spec5 1)) (V c (Pipeline.arrRef spec5 2))
        (((cfg5.win 3).blk t).view.emb (ix2 p q))
  refine (LinPay.k5_pay1_apply (iblk5 V c 0 t) (iblk5 V c 1 t) (iblk5 V c 2 t) p q).trans ?_
  unfold G
  refine congrArg₂ (· + ·) (Finset.sum_congr rfl fun k _ => congrArg₂ (· * ·) ?_ ?_) ?_
  · show V c (Pipeline.arrRef spec5 0) (((cfg5.win 0).blk t).view.emb (ix2 p k)) = _
    refine congrArg (V c (Pipeline.arrRef spec5 0)) (funext fun a => Fin.ext ?_)
    match a with
    | ⟨0, _⟩ => show win5_0.index t (0 : Fin 2) * 512 + 1 * p.val = win5_3.index t (0 : Fin 2) * 512 + 1 * p.val; omega
    | ⟨1, _⟩ => show win5_0.index t (1 : Fin 2) * 512 + 1 * k.val = k.val; omega
  · show V c (Pipeline.arrRef spec5 1) (((cfg5.win 1).blk t).view.emb (ix2 k q)) = _
    refine congrArg (V c (Pipeline.arrRef spec5 1)) (funext fun a => Fin.ext ?_)
    match a with
    | ⟨0, _⟩ => show win5_1.index t (0 : Fin 2) * 512 + 1 * k.val = k.val; omega
    | ⟨1, _⟩ => show win5_1.index t (1 : Fin 2) * 512 + 1 * q.val = win5_3.index t (1 : Fin 2) * 512 + 1 * q.val; omega
  · show V c (Pipeline.arrRef spec5 2) (((cfg5.win 2).blk t).view.emb (ix2 (0 : Fin 1) q)) = _
    refine congrArg (V c (Pipeline.arrRef spec5 2)) (funext fun a => Fin.ext ?_)
    match a with
    | ⟨0, _⟩ => show win5_2.index t (0 : Fin 2) * 1 + 1 * 0 = 0; omega
    | ⟨1, _⟩ => show win5_2.index t (1 : Fin 2) * 512 + 1 * q.val = win5_3.index t (1 : Fin 2) * 512 + 1 * q.val; omega

/-- An index of the output is in point `t`'s block iff each coordinate is in the block's range on its axis. -/
theorem mem_blk (t : Fin cfg5.N) (i : S2048x512.Idx) :
    i ∈ ((cfg5.win 3).blk t).view.set ↔ ∀ a : Fin 2, win5_3.index t a * S512x512.size a ≤ (i a).val
      ∧ (i a).val < win5_3.index t a * S512x512.size a + S512x512.size a := by
  show i ∈ ((View.whole main_v31).slice (win5_3.rect t)).set ↔ _
  rw [View.set_slice_whole, Rect.mem_set_unit]
  exact Iff.rfl

/-- Every row block of the output is some point's. -/
theorem idx_onto : ∀ q0 : Fin 4, ∃ t : Fin cfg5.N, win5_3.index t = ![q0.val, 0] :=
  (by decide +kernel : ∀ q0 : Fin 4, ∃ t : Fin grid5.N, win5_3.index t = ![q0.val, 0])

/-- The 4 row blocks cover the output: row `r` is in block `r / 512`. -/
theorem cover (i : S2048x512.Idx) :
    ∃ t : Fin cfg5.N, (cfg5.win 3).flush t = true ∧ i ∈ ((cfg5.win 3).blk t).view.set := by
  have hi0 : (i 0).val < 2048 := (i 0).isLt
  have hi1 : (i 1).val < 512 := (i 1).isLt
  obtain ⟨t, ht⟩ := idx_onto ⟨(i 0).val / 512, by omega⟩
  have q0 : win5_3.index t (0 : Fin 2) = (i 0).val / 512 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 512 ≤ (i 1).val ∧ (i 1).val < win5_3.index t (1 : Fin 2) * 512 + 512; omega

/-- After the region its output array is `G` of the arrays the region found. -/
theorem final (c : Dev nD) : (dat5 V c).arrAt 3 cfg5.N
    = G (V c (Pipeline.arrRef spec5 0)) (V c (Pipeline.arrRef spec5 1)) (V c (Pipeline.arrRef spec5 2)) :=
  (dat5 V c).arrAt_eq_of_cover 3 _ (fun t _ => flushed_eq V c t) cover

end Cert.KernelIdeal.Region5

end
-- ==== Proof.KernelRegion6.lean ====
/-
  Region 6: the unpack layer's value projection, as one function of the arrays the region finds.

  The region runs over 4 grid points; point `t` reads rows `512·t … 512·t + 511` of the flattened sequence `x` ([2048, 512]),
  the whole transposed weight `wT` ([512, 1024]) and the bias row ([1, 1024]), and writes back the same rows of the output.
  Entry `(p, q)` of the block it writes is `(∑ₖ x[512·t + p, k] · wT[k, q]) + bias[0, q]`, which is entry `(512·t + p, q)` of ONE
  function of the three arrays; the 4 row blocks tile the output, so after the region the output array is that function.
-/
import proofs.«120082_j85341000171970_2_alg».proof.Proof.Gen.KernelIdeal.Frame
import proofs.«120082_j85341000171970_2_alg».proof.Proof.KernelLinPayload

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows times the transposed weight, plus the bias row. -/
def G (x : S2048x512.Idx → EReal) (wT : S512x1024.Idx → EReal) (b : S1x1024.Idx → EReal) : S2048x1024.Idx → EReal :=
  fun i => (∑ k : Fin 512, x (ix2 (i 0) k) * wT (ix2 k (i 1))) + b (ix2 (0 : Fin 1) (i 1))

/-- The index maps over the grid: the row windows move with the point, the weight and bias windows stay at block 0. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of `G` of the arrays as the region finds them. -/
theorem flushed_eq (c : Dev nD) (t : Fin cfg6.N) :
    (dat6 V c).flushed 3 t = ((cfg6.win 3).blk t).view.read (Elt Ideal)
      (G (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S512x512) hz, View.ld_unit_zero (S := S512x1024) hz, View.ld_unit_zero (S := S1x1024) hz]
  obtain ⟨e00, e01, e10, e11, e20, e21, e30, e31⟩ := idx_facts t
  funext j
  obtain ⟨p, q, rfl⟩ : ∃ (p : Fin 512) (q : Fin 1024), j = ix2 p q := ⟨j 0, j 1, eq_ix2 j⟩
  show k6_pay1 (iblk6 V c 0 t) (iblk6 V c 1 t) (iblk6 V c 2 t) (ix2 p q)
    = G (V c (Pipeline.arrRef spec6 0)) (V c (Pipeline.arrRef spec6 1)) (V c (Pipeline.arrRef spec6 2))
        (((cfg6.win 3).blk t).view.emb (ix2 p q))
  refine (LinPay.k6_pay1_apply (iblk6 V c 0 t) (iblk6 V c 1 t) (iblk6 V c 2 t) p q).trans ?_
  unfold G
  refine congrArg₂ (· + ·) (Finset.sum_congr rfl fun k _ => congrArg₂ (· * ·) ?_ ?_) ?_
  · show V c (Pipeline.arrRef spec6 0) (((cfg6.win 0).blk t).view.emb (ix2 p k)) = _
    refine congrArg (V c (Pipeline.arrRef spec6 0)) (funext fun a => Fin.ext ?_)
    match a with
    | ⟨0, _⟩ => show win6_0.index t (0 : Fin 2) * 512 + 1 * p.val = win6_3.index t (0 : Fin 2) * 512 + 1 * p.val; omega
    | ⟨1, _⟩ => show win6_0.index t (1 : Fin 2) * 512 + 1 * k.val = k.val; omega
  · show V c (Pipeline.arrRef spec6 1) (((cfg6.win 1).blk t).view.emb (ix2 k q)) = _
    refine congrArg (V c (Pipeline.arrRef spec6 1)) (funext fun a => Fin.ext ?_)
    match a with
    | ⟨0, _⟩ => show win6_1.index t (0 : Fin 2) * 512 + 1 * k.val = k.val; omega
    | ⟨1, _⟩ => show win6_1.index t (1 : Fin 2) * 1024 + 1 * q.val = win6_3.index t (1 : Fin 2) * 1024 + 1 * q.val; omega
  · show V c (Pipeline.arrRef spec6 2) (((cfg6.win 2).blk t).view.emb (ix2 (0 : Fin 1) q)) = _
    refine congrArg (V c (Pipeline.arrRef spec6 2)) (funext fun a => Fin.ext ?_)
    match a with
    | ⟨0, _⟩ => show win6_2.index t (0 : Fin 2) * 1 + 1 * 0 = 0; omega
    | ⟨1, _⟩ => show win6_2.index t (1 : Fin 2) * 1024 + 1 * q.val = win6_3.index t (1 : Fin 2) * 1024 + 1 * q.val; omega

/-- An index of the output is in point `t`'s block iff each coordinate is in the block's range on its axis. -/
theorem mem_blk (t : Fin cfg6.N) (i : S2048x1024.Idx) :
    i ∈ ((cfg6.win 3).blk t).view.set ↔ ∀ a : Fin 2, win6_3.index t a * S512x1024.size a ≤ (i a).val
      ∧ (i a).val < win6_3.index t a * S512x1024.size a + S512x1024.size a := by
  show i ∈ ((View.whole main_v36).slice (win6_3.rect t)).set ↔ _
  rw [View.set_slice_whole, Rect.mem_set_unit]
  exact Iff.rfl

/-- Every row block of the output is some point's. -/
theorem idx_onto : ∀ q0 : Fin 4, ∃ t : Fin cfg6.N, win6_3.index t = ![q0.val, 0] :=
  (by decide +kernel : ∀ q0 : Fin 4, ∃ t : Fin grid6.N, win6_3.index t = ![q0.val, 0])

/-- The 4 row blocks cover the output: row `r` is in block `r / 512`. -/
theorem cover (i : S2048x1024.Idx) :
    ∃ t : Fin cfg6.N, (cfg6.win 3).flush t = true ∧ i ∈ ((cfg6.win 3).blk t).view.set := by
  have hi0 : (i 0).val < 2048 := (i 0).isLt
  have hi1 : (i 1).val < 1024 := (i 1).isLt
  obtain ⟨t, ht⟩ := idx_onto ⟨(i 0).val / 512, by omega⟩
  have q0 : win6_3.index t (0 : Fin 2) = (i 0).val / 512 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 512 ≤ (i 0).val ∧ (i 0).val < win6_3.index t (0 : Fin 2) * 512 + 512; omega
  | ⟨1, _⟩ => show win6_3.index t (1 : Fin 2) * 1024 ≤ (i 1).val ∧ (i 1).val < win6_3.index t (1 : Fin 2) * 1024 + 1024; omega

/-- After the region its output array is `G` of the arrays the region found. -/
theorem final (c : Dev nD) : (dat6 V c).arrAt 3 cfg6.N
    = G (V c (Pipeline.arrRef spec6 0)) (V c (Pipeline.arrRef spec6 1)) (V c (Pipeline.arrRef spec6 2)) :=
  (dat6 V c).arrAt_eq_of_cover 3 _ (fun t _ => flushed_eq V c t) cover

end Cert.KernelIdeal.Region6

end
-- ==== Proof.KernelRegion7Attn.lean ====
/-
  Region 7, attention weights: the unpack layer's fifth window as one function of the arrays the region finds.

  The grid is (batch `b`, head pair `hp`, query tile `mt`): 8 × 4 × 4 points. A point reads the 1024 query rows
  `1024·mt …` of batch `b` at the pair's 128 features `128·hp …` of the projected queries `Q` ([8, 4096, 512]), all 256 key
  rows of batch `b` at the same features of the projected keys `K` ([8, 256, 512]), and stores, for each of the pair's two
  heads `h ∈ {0, 1}`, the softmax rows of its 64-feature slice into slot `h` of a `[1, 2, 1024, 256]` block, written back
  at `(b, hp, mt, 0)` of the `[8, 8, 4096, 256]` output. Feature `64·h + d` of the pair's slice is feature `64·(2·hp + h) + d`
  of the array: head `2·hp + h`. The 128 blocks tile the output, so after the region entry `(b, H, q, k)` of the output is the
  attention weight of query row `q` and key row `k` of batch `b` under head `H`.
-/
import proofs.«120082_j85341000171970_2_alg».proof.Proof.Gen.KernelIdeal.Frame
import proofs.«120082_j85341000171970_2_alg».proof.Proof.KernelAttnPayload

set_option maxRecDepth 16384

noncomputable section

namespace Cert.KernelIdeal.Region7A

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.AttnPay (weight)

variable (V : (c : Dev nD) → (b : Ref sig .tc) → Buf (Elt Ideal) ((c : Thread nD τ).loc b))

/-- Feature `64·h + d` of a pair's 128-wide slice: head `h` of the pair. -/
def lane (h : Fin 2) (d : Fin 64) : Fin 128 := ⟨64 * h.val + d.val, by omega⟩

/-- Feature `64·H + d` of the 512-wide axis: head `H`. -/
def feat (H : Fin 8) (d : Fin 64) : Fin 512 := ⟨64 * H.val + d.val, by omega⟩

/-- The attention weight of one query row against a key block: the row's softmax. -/
def wrow {N : ℕ} (q : Fin 64 → EReal) (k : Fin N → Fin 64 → EReal) (n : Fin N) : EReal :=
  weight (M := 1) (fun _ d => q d) k 0 n

theorem weight_eq_wrow {M N : ℕ} (q : Fin M → Fin 64 → EReal) (k : Fin N → Fin 64 → EReal) (m : Fin M) (n : Fin N) :
    weight q k m n = wrow (q m) k n := rfl

/-- What the body leaves in the block, by coordinates: slot `h`, row `m`, key `n`. -/
def blkC (x0 : Vec Ideal S1x1024x128 .f32) (x1 : Vec Ideal S1x256x128 .f32) (h : Fin 2) (m : Fin 1024) (n : Fin 256) : EReal :=
  wrow (fun d => x0 (ix3 (0 : Fin 1) m (lane h d))) (fun n d => x1 (ix3 (0 : Fin 1) n (lane h d))) n

def blk (x0 : Vec Ideal S1x1024x128 .f32) (x1 : Vec Ideal S1x256x128 .f32) : S1x2x1024x256.Idx → EReal :=
  fun y => blkC x0 x1 (y 1) (y 2) (y 3)

theorem blkC_congr (x0 : Vec Ideal S1x1024x128 .f32) (x1 : Vec Ideal S1x256x128 .f32) {h h' : Fin 2} {m m' : Fin 1024}
    {n n' : Fin 256} (eh : h = h') (em : m = m') (en : n = n') : blkC x0 x1 h m n = blkC x0 x1 h' m' n' := by
  subst eh em en; rfl

/-- The body's two stores — the second head's weights into slot 1, the first head's into slot 0 — leave `blk`. -/
theorem out_eq (x0 : Vec Ideal S1x1024x128 .f32) (x1 : Vec Ideal S1x256x128 .f32) (x2 : Vec Ideal S1x256x256 .f32) :
    out7_4 (F := Ideal) x0 x1 x2 = blk x0 x1 := by
  funext y
  unfold out7_4
  refine View.canon_apply_of_pieces (Val := Elt Ideal) (e := .f32) (blk x0 x1) _ ?_ y (cover7_4 _ _ y)
  intro p hp x
  simp only [List.mem_cons, List.mem_singleton, List.not_mem_nil, or_false] at hp
  rcases hp with rfl | rfl
  · obtain ⟨u, v, m, n, rfl⟩ : ∃ (u v : Fin 1) (m : Fin 1024) (n : Fin 256), x = ix4 u v m n :=
      ⟨x 0, x 1, x 2, x 3, eq_ix4 x⟩
    show k7_pay2 (k7_pay7 (View.ld x0 r7_5)) (View.ld x1 r7_6) (ix4 u v m n)
      = blkC x0 x1 ((r7_8.emb (ix4 u v m n)) 1) ((r7_8.emb (ix4 u v m n)) 2) ((r7_8.emb (ix4 u v m n)) 3)
    refine (AttnPay.k7_pay2_apply _ _ u v m n).trans ?_
    rw [weight_eq_wrow]
    have hv : v.val = 0 := by omega
    refine Eq.trans ?_ (blkC_congr x0 x1 (h := 1) (m := m) (n := n) (Fin.ext ?_) (Fin.ext ?_) (Fin.ext ?_))
    · unfold blkC
      refine congrArg₂ (fun q k => wrow q k n) (funext fun d => ?_) (funext fun n' => funext fun d => ?_)
      · show x0 (r7_5.emb (ix3 (0 : Fin 1) m d)) = x0 (ix3 (0 : Fin 1) m (lane 1 d))
        refine congrArg x0 (funext fun a => Fin.ext ?_)
        match a with
        | ⟨0, _⟩ => show 0 + 1 * (0 : ℕ) = 0; omega
        | ⟨1, _⟩ => show 0 + 1 * m.val = m.val; omega
        | ⟨2, _⟩ => show 64 + 1 * d.val = 64 * 1 + d.val; omega
      · show x1 (r7_6.emb (ix3 (0 : Fin 1) n' d)) = x1 (ix3 (0 : Fin 1) n' (lane 1 d))
        refine congrArg x1 (funext fun a => Fin.ext ?_)
        match a with
        | ⟨0, _⟩ => show 0 + 1 * (0 : ℕ) = 0; omega
        | ⟨1, _⟩ => show 0 + 1 * n'.val = n'.val; omega
        | ⟨2, _⟩ => show 64 + 1 * d.val = 64 * 1 + d.val; omega
    · show (1 : ℕ) = 1 + 1 * v.val; omega
    · show m.val = 0 + 1 * m.val; omega
    · show n.val = 0 + 1 * n.val; omega
  · obtain ⟨u, v, m, n, rfl⟩ : ∃ (u v : Fin 1) (m : Fin 1024) (n : Fin 256), x = ix4 u v m n :=
      ⟨x 0, x 1, x 2, x 3, eq_ix4 x⟩
    show k7_pay5 (View.ld x0 r7_0) (View.ld x1 r7_1) (ix4 u v m n)
      = blkC x0 x1 ((r7_3.emb (ix4 u v m n)) 1) ((r7_3.emb (ix4 u v m n)) 2) ((r7_3.emb (ix4 u v m n)) 3)
    refine (AttnPay.k7_pay5_apply _ _ u v m n).trans ?_
    rw [weight_eq_wrow]
    have hv : v.val = 0 := by omega
    refine Eq.trans ?_ (blkC_congr x0 x1 (h := 0) (m := m) (n := n) (Fin.ext ?_) (Fin.ext ?_) (Fin.ext ?_))
    · unfold blkC
      refine congrArg₂ (fun q k => wrow q k n) (funext fun d => ?_) (funext fun n' => funext fun d => ?_)
      · show x0 (r7_0.emb (ix3 (0 : Fin 1) m d)) = x0 (ix3 (0 : Fin 1) m (lane 0 d))
        refine congrArg x0 (funext fun a => Fin.ext ?_)
        match a with
        | ⟨0, _⟩ => show 0 + 1 * (0 : ℕ) = 0; omega
        | ⟨1, _⟩ => show 0 + 1 * m.val = m.val; omega
        | ⟨2, _⟩ => show 0 + 1 * d.val = 64 * 0 + d.val; omega
      · show x1 (r7_1.emb (ix3 (0 : Fin 1) n' d)) = x1 (ix3 (0 : Fin 1) n' (lane 0 d))
        refine congrArg x1 (funext fun a => Fin.ext ?_)
        match a with
        | ⟨0, _⟩ => show 0 + 1 * (0 : ℕ) = 0; omega
        | ⟨1, _⟩ => show 0 + 1 * n'.val = n'.val; omega
        | ⟨2, _⟩ => show 0 + 1 * d.val = 64 * 0 + d.val; omega
    · show (0 : ℕ) = 0 + 1 * v.val; omega
    · show m.val = 0 + 1 * m.val; omega
    · show n.val = 0 + 1 * n.val; omega

theorem wrow_congr {N : ℕ} {q q' : Fin 64 → EReal} {k k' : Fin N → Fin 64 → EReal} {n n' : Fin N}
    (hq : q = q') (hk : k = k') (hn : n = n') : wrow q k n = wrow q' k' n' := by subst hq hk hn; rfl

/-- The attention weight of batch `b`, head `H`, query row `q`, key row `k`, from the projected queries and keys. -/
def GC (Q : S8x4096x512.Idx → EReal) (K : S8x256x512.Idx → EReal) (b : Fin 8) (H : Fin 8) (q : Fin 4096) (k : Fin 256) : EReal :=
  wrow (fun d => Q (ix3 b q (feat H d))) (fun n d => K (ix3 b n (feat H d))) k

def G (Q : S8x4096x512.Idx → EReal) (K : S8x256x512.Idx → EReal) : S8x8x4096x256.Idx → EReal :=
  fun i => GC Q K (i 0) (i 1) (i 2) (i 3)

/-- The index maps over the grid: queries at (batch, tile, pair), keys at (batch, 0, pair), weights at (batch, pair, tile, 0). -/
theorem idx_facts : ∀ t : Fin cfg7.N,
    win7_0.index t (0 : Fin 3) = win7_4.index t (0 : Fin 4) ∧ win7_0.index t (1 : Fin 3) = win7_4.index t (2 : Fin 4)
    ∧ win7_0.index t (2 : Fin 3) = win7_4.index t (1 : Fin 4)
    ∧ win7_1.index t (0 : Fin 3) = win7_4.index t (0 : Fin 4) ∧ win7_1.index t (1 : Fin 3) = 0
    ∧ win7_1.index t (2 : Fin 3) = win7_4.index t (1 : Fin 4)
    ∧ win7_4.index t (0 : Fin 4) ≤ 7 ∧ win7_4.index t (1 : Fin 4) ≤ 3 ∧ win7_4.index t (2 : Fin 4) ≤ 3
    ∧ win7_4.index t (3 : Fin 4) = 0 :=
  (by decide +kernel : ∀ t : Fin grid7.N, _)

/-- What point `t` writes back is block `t` of `G` of the projected queries and keys as the region finds them. -/
theorem flushed_eq (c : Dev nD) (t : Fin cfg7.N) :
    (dat7 V c).flushed 4 t = ((cfg7.win 4).blk t).view.read (Elt Ideal)
      (G (V c (Pipeline.arrRef spec7 0)) (V c (Pipeline.arrRef spec7 1))) := by
  show (cfg7.win 4).cut (grid7.coords t) ((dat7 V c).after 4 t) = _
  rw [after7_4, out_eq]
  obtain ⟨e00, e01, e02, e10, e11, e12, b0, b1, b2, e43⟩ := idx_facts t
  funext y
  obtain ⟨u, h, m, n, rfl⟩ : ∃ (u : Fin 1) (h : Fin 2) (m : Fin 1024) (n : Fin 256), y = ix4 u h m n :=
    ⟨y 0, y 1, y 2, y 3, eq_ix4 y⟩
  have hu : u.val = 0 := by omega
  show blkC (iblk7 V c 0 t) (iblk7 V c 1 t) h m n
    = G (V c (Pipeline.arrRef spec7 0)) (V c (Pipeline.arrRef spec7 1)) (((cfg7.win 4).blk t).view.emb (ix4 u h m n))
  unfold blkC G GC
  refine wrow_congr (funext fun d => ?_) (funext fun n' => funext fun d => ?_) (Fin.ext ?_)
  · show V c (Pipeline.arrRef spec7 0) (((cfg7.win 0).blk t).view.emb (ix3 (0 : Fin 1) m (lane h d))) = _
    refine congrArg (V c (Pipeline.arrRef spec7 0)) (funext fun a => Fin.ext ?_)
    match a with
    | ⟨0, _⟩ => show win7_0.index t (0 : Fin 3) * 1 + 1 * 0 = win7_4.index t (0 : Fin 4) * 1 + 1 * u.val; omega
    | ⟨1, _⟩ => show win7_0.index t (1 : Fin 3) * 1024 + 1 * m.val = win7_4.index t (2 : Fin 4) * 1024 + 1 * m.val; omega
    | ⟨2, _⟩ =>
      show win7_0.index t (2 : Fin 3) * 128 + 1 * (64 * h.val + d.val) = 64 * (win7_4.index t (1 : Fin 4) * 2 + 1 * h.val) + d.val
      omega
  · show V c (Pipeline.arrRef spec7 1) (((cfg7.win 1).blk t).view.emb (ix3 (0 : Fin 1) n' (lane h d))) = _
    refine congrArg (V c (Pipeline.arrRef spec7 1)) (funext fun a => Fin.ext ?_)
    match a with
    | ⟨0, _⟩ => show win7_1.index t (0 : Fin 3) * 1 + 1 * 0 = win7_4.index t (0 : Fin 4) * 1 + 1 * u.val; omega
    | ⟨1, _⟩ => show win7_1.index t (1 : Fin 3) * 256 + 1 * n'.val = n'.val; omega
    | ⟨2, _⟩ =>
      show win7_1.index t (2 : Fin 3) * 128 + 1 * (64 * h.val + d.val) = 64 * (win7_4.index t (1 : Fin 4) * 2 + 1 * h.val) + d.val
      omega
  · show n.val = win7_4.index t (3 : Fin 4) * 256 + 1 * n.val; omega

/-- An index of the output is in point `t`'s block iff each coordinate is in the block's range on its axis. -/
theorem mem_blk (t : Fin cfg7.N) (i : S8x8x4096x256.Idx) :
    i ∈ ((cfg7.win 4).blk t).view.set ↔ ∀ a : Fin 4, win7_4.index t a * S1x2x1024x256.size a ≤ (i a).val
      ∧ (i a).val < win7_4.index t a * S1x2x1024x256.size a + S1x2x1024x256.size a := by
  show i ∈ ((View.whole main_v38_1).slice (win7_4.rect t)).set ↔ _
  rw [View.set_slice_whole, Rect.mem_set_unit]
  exact Iff.rfl

/-- Every block of the output is some point's. -/
theorem idx_onto : ∀ (q0 : Fin 8) (q1 : Fin 4) (q2 : Fin 4), ∃ t : Fin cfg7.N, win7_4.index t = ![q0.val, q1.val, q2.val, 0] :=
  (by decide +kernel : ∀ (q0 : Fin 8) (q1 : Fin 4) (q2 : Fin 4), ∃ t : Fin grid7.N, win7_4.index t = ![q0.val, q1.val, q2.val, 0])

/-- The 128 blocks cover the output: `(b, H, q, k)` is in the block of batch `b`, pair `H / 2`, tile `q / 1024`. -/
theorem cover (i : S8x8x4096x256.Idx) :
    ∃ t : Fin cfg7.N, (cfg7.win 4).flush t = true ∧ i ∈ ((cfg7.win 4).blk t).view.set := by
  have hi0 : (i 0).val < 8 := (i 0).isLt
  have hi1 : (i 1).val < 8 := (i 1).isLt
  have hi2 : (i 2).val < 4096 := (i 2).isLt
  have hi3 : (i 3).val < 256 := (i 3).isLt
  obtain ⟨t, ht⟩ := idx_onto ⟨(i 0).val, by omega⟩ ⟨(i 1).val / 2, by omega⟩ ⟨(i 2).val / 1024, by omega⟩
  have q0 : win7_4.index t (0 : Fin 4) = (i 0).val := congrFun ht 0
  have q1 : win7_4.index t (1 : Fin 4) = (i 1).val / 2 := congrFun ht 1
  have q2 : win7_4.index t (2 : Fin 4) = (i 2).val / 1024 := congrFun ht 2
  have q3 : win7_4.index t (3 : Fin 4) = 0 := congrFun ht 3
  refine ⟨t, flush7_4 t, ?_⟩
  rw [mem_blk]
  intro a
  match a with
  | ⟨0, _⟩ => show win7_4.index t (0 : Fin 4) * 1 ≤ (i 0).val ∧ (i 0).val < win7_4.index t (0 : Fin 4) * 1 + 1; omega
  | ⟨1, _⟩ => show win7_4.index t (1 : Fin 4) * 2 ≤ (i 1).val ∧ (i 1).val < win7_4.index t (1 : Fin 4) * 2 + 2; omega
  | ⟨2, _⟩ => show win7_4.index t (2 : Fin 4) * 1024 ≤ (i 2).val ∧ (i 2).val < win7_4.index t (2 : Fin 4) * 1024 + 1024; omega
  | ⟨3, _⟩ => show win7_4.index t (3 : Fin 4) * 256 ≤ (i 3).val ∧ (i 3).val < win7_4.index t (3 : Fin 4) * 256 + 256; omega

/-- After the region the attention-weights array is `G` of the projected queries and keys the region found. -/
theorem final (c : Dev nD) : (dat7 V c).arrAt 4 cfg7.N
    = G (V c (Pipeline.arrRef spec7 0)) (V c (Pipeline.arrRef spec7 1)) :=
  (dat7 V c).arrAt_eq_of_cover 4 _ (fun t _ => flushed_eq V c t) cover

end Cert.KernelIdeal.Region7A

end
-- ==== Proof.KernelRegion7Ctx.lean ====
/-
  Region 7, context rows: the unpack layer's fourth window as one function of the arrays the region finds.

  At the same grid point that stores a head pair's attention weights, the body multiplies each head's weights (1024 query
  rows × 256 keys) with that head's 128 value features of all 256 rows of the projected values `Vv` ([8, 256, 1024]) and
  stores the two products side by side in a `[1, 1024, 256]` block, written back at `(b, mt, hp)` of the `[8, 4096, 1024]` output:
  feature `f` of the block belongs to the pair's head `f / 128`, and feature `256·hp + f` of the array to head `2·hp + f / 128`.
  So entry `(b, q, f)` of the output is `∑ₙ weight[b, f / 128, q, n] · Vv[b, n, f]`: the heads are already merged.
-/
import proofs.«120082_j85341000171970_2_alg».proof.Proof.Gen.KernelIdeal.Frame
import proofs.«120082_j85341000171970_2_alg».proof.Proof.KernelAttnPayload
import proofs.«120082_j85341000171970_2_alg».proof.Proof.KernelRegion7Attn

set_option maxRecDepth 16384

noncomputable section

namespace Cert.KernelIdeal.Region7C

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.AttnPay (weight)
open Cert.KernelIdeal.Region7A (lane feat wrow weight_eq_wrow blkC wrow_congr GC)

variable (V : (c : Dev nD) → (b : Ref sig .tc) → Buf (Elt Ideal) ((c : Thread nD τ).loc b))

/-- What the body leaves in the context block, by coordinates: row `m`, feature `f` (head `f / 128` of the pair). -/
def ctxC (x0 : Vec Ideal S1x1024x128 .f32) (x1 : Vec Ideal S1x256x128 .f32) (x2 : Vec Ideal S1x256x256 .f32)
    (m : Fin 1024) (f : Fin 256) : EReal :=
  ∑ n : Fin 256, blkC x0 x1 (⟨f.val / 128, by have := f.isLt; omega⟩ : Fin 2) m n * x2 (ix3 (0 : Fin 1) n f)

def ctxBlk (x0 : Vec Ideal S1x1024x128 .f32) (x1 : Vec Ideal S1x256x128 .f32) (x2 : Vec Ideal S1x256x256 .f32) :
    S1x1024x256.Idx → EReal :=
  fun y => ctxC x0 x1 x2 (y 1) (y 2)

theorem ctxC_congr (x0 : Vec Ideal S1x1024x128 .f32) (x1 : Vec Ideal S1x256x128 .f32) (x2 : Vec Ideal S1x256x256 .f32)
    {m m' : Fin 1024} {f f' : Fin 256} (em : m = m') (ef : f = f') : ctxC x0 x1 x2 m f = ctxC x0 x1 x2 m' f' := by
  subst em ef; rfl

/-- The body's two stores — the second head's product into features 128…255, the first head's into 0…127 — leave `ctxBlk`. -/
theorem out_eq (x0 : Vec Ideal S1x1024x128 .f32) (x1 : Vec Ideal S1x256x128 .f32) (x2 : Vec Ideal S1x256x256 .f32) :
    out7_3 (F := Ideal) x0 x1 x2 = ctxBlk x0 x1 x2 := by
  funext y
  unfold out7_3
  refine View.canon_apply_of_pieces (Val := Elt Ideal) (e := .f32) (ctxBlk x0 x1 x2) _ ?_ y (cover7_3 _ _ y)
  intro p hp x
  simp only [List.mem_cons, List.mem_singleton, List.not_mem_nil, or_false] at hp
  rcases hp with rfl | rfl
  · obtain ⟨u, m, e, rfl⟩ : ∃ (u : Fin 1) (m : Fin 1024) (e : Fin 128), x = ix3 u m e := ⟨x 0, x 1, x 2, eq_ix3 x⟩
    show k7_pay3 (k7_pay7 (View.ld x0 r7_5)) (View.ld x1 r7_6) (View.ld x2 r7_7) (ix3 u m e)
      = ctxC x0 x1 x2 ((r7_9.emb (ix3 u m e)) 1) ((r7_9.emb (ix3 u m e)) 2)
    refine (AttnPay.k7_pay3_apply _ _ _ u m e).trans ?_
    have he : e.val < 128 := e.isLt
    refine Eq.trans ?_ (ctxC_congr x0 x1 x2 (m := m) (f := (⟨128 + e.val, by omega⟩ : Fin 256)) (Fin.ext ?_) (Fin.ext ?_))
    · unfold ctxC
      refine Finset.sum_congr rfl fun n _ => congrArg₂ (· * ·) ?_ ?_
      · rw [weight_eq_wrow]
        unfold blkC
        refine wrow_congr (funext fun d => ?_) (funext fun n' => funext fun d => ?_) rfl
        · show x0 (r7_5.emb (ix3 (0 : Fin 1) m d)) = x0 (ix3 (0 : Fin 1) m (lane _ d))
          refine congrArg x0 (funext fun a => Fin.ext ?_)
          match a with
          | ⟨0, _⟩ => show 0 + 1 * (0 : ℕ) = 0; omega
          | ⟨1, _⟩ => show 0 + 1 * m.val = m.val; omega
          | ⟨2, _⟩ => show 64 + 1 * d.val = 64 * ((128 + e.val) / 128) + d.val; omega
        · show x1 (r7_6.emb (ix3 (0 : Fin 1) n' d)) = x1 (ix3 (0 : Fin 1) n' (lane _ d))
          refine congrArg x1 (funext fun a => Fin.ext ?_)
          match a with
          | ⟨0, _⟩ => show 0 + 1 * (0 : ℕ) = 0; omega
          | ⟨1, _⟩ => show 0 + 1 * n'.val = n'.val; omega
          | ⟨2, _⟩ => show 64 + 1 * d.val = 64 * ((128 + e.val) / 128) + d.val; omega
      · show x2 (r7_7.emb (ix3 (0 : Fin 1) n e)) = x2 (ix3 (0 : Fin 1) n (⟨128 + e.val, by omega⟩ : Fin 256))
        refine congrArg x2 (funext fun a => Fin.ext ?_)
        match a with
        | ⟨0, _⟩ => show 0 + 1 * (0 : ℕ) = 0; omega
        | ⟨1, _⟩ => show 0 + 1 * n.val = n.val; omega
        | ⟨2, _⟩ => show 128 + 1 * e.val = 128 + e.val; omega
    · show m.val = 0 + 1 * m.val; omega
    · show 128 + e.val = 128 + 1 * e.val; omega
  · obtain ⟨u, m, e, rfl⟩ : ∃ (u : Fin 1) (m : Fin 1024) (e : Fin 128), x = ix3 u m e := ⟨x 0, x 1, x 2, eq_ix3 x⟩
    show k7_pay6 (View.ld x0 r7_0) (View.ld x1 r7_1) (View.ld x2 r7_2) (ix3 u m e)
      = ctxC x0 x1 x2 ((r7_4.emb (ix3 u m e)) 1) ((r7_4.emb (ix3 u m e)) 2)
    refine (AttnPay.k7_pay6_apply _ _ _ u m e).trans ?_
    have he : e.val < 128 := e.isLt
    refine Eq.trans ?_ (ctxC_congr x0 x1 x2 (m := m) (f := (⟨0 + e.val, by omega⟩ : Fin 256)) (Fin.ext ?_) (Fin.ext ?_))
    · unfold ctxC
      refine Finset.sum_congr rfl fun n _ => congrArg₂ (· * ·) ?_ ?_
      · rw [weight_eq_wrow]
        unfold blkC
        refine wrow_congr (funext fun d => ?_) (funext fun n' => funext fun d => ?_) rfl
        · show x0 (r7_0.emb (ix3 (0 : Fin 1) m d)) = x0 (ix3 (0 : Fin 1) m (lane _ d))
          refine congrArg x0 (funext fun a => Fin.ext ?_)
          match a with
          | ⟨0, _⟩ => show 0 + 1 * (0 : ℕ) = 0; omega
          | ⟨1, _⟩ => show 0 + 1 * m.val = m.val; omega
          | ⟨2, _⟩ => show 0 + 1 * d.val = 64 * ((0 + e.val) / 128) + d.val; omega
        · show x1 (r7_1.emb (ix3 (0 : Fin 1) n' d)) = x1 (ix3 (0 : Fin 1) n' (lane _ d))
          refine congrArg x1 (funext fun a => Fin.ext ?_)
          match a with
          | ⟨0, _⟩ => show 0 + 1 * (0 : ℕ) = 0; omega
          | ⟨1, _⟩ => show 0 + 1 * n'.val = n'.val; omega
          | ⟨2, _⟩ => show 0 + 1 * d.val = 64 * ((0 + e.val) / 128) + d.val; omega
      · show x2 (r7_2.emb (ix3 (0 : Fin 1) n e)) = x2 (ix3 (0 : Fin 1) n (⟨0 + e.val, by omega⟩ : Fin 256))
        refine congrArg x2 (funext fun a => Fin.ext ?_)
        match a with
        | ⟨0, _⟩ => show 0 + 1 * (0 : ℕ) = 0; omega
        | ⟨1, _⟩ => show 0 + 1 * n.val = n.val; omega
        | ⟨2, _⟩ => show 0 + 1 * e.val = 0 + e.val; omega
    · show m.val = 0 + 1 * m.val; omega
    · show 0 + e.val = 0 + 1 * e.val; omega

/-- Entry `(b, q, f)` of the merged context: the weights of head `f / 128` against feature `f` of the values. -/
def GC3 (Q : S8x4096x512.Idx → EReal) (K : S8x256x512.Idx → EReal) (Vv : S8x256x1024.Idx → EReal)
    (b : Fin 8) (q : Fin 4096) (f : Fin 1024) : EReal :=
  ∑ n : Fin 256, GC Q K b (⟨f.val / 128, by have := f.isLt; omega⟩ : Fin 8) q n * Vv (ix3 b n f)

def G (Q : S8x4096x512.Idx → EReal) (K : S8x256x512.Idx → EReal) (Vv : S8x256x1024.Idx → EReal) : S8x4096x1024.Idx → EReal :=
  fun i => GC3 Q K Vv (i 0) (i 1) (i 2)

/-- The index maps over the grid: queries at (batch, tile, pair), keys and values at (batch, 0, pair), context at (batch, tile, pair). -/
theorem idx_facts : ∀ t : Fin cfg7.N,
    win7_0.index t (0 : Fin 3) = win7_3.index t (0 : Fin 3) ∧ win7_0.index t (1 : Fin 3) = win7_3.index t (1 : Fin 3)
    ∧ win7_0.index t (2 : Fin 3) = win7_3.index t (2 : Fin 3)
    ∧ win7_1.index t (0 : Fin 3) = win7_3.index t (0 : Fin 3) ∧ win7_1.index t (1 : Fin 3) = 0
    ∧ win7_1.index t (2 : Fin 3) = win7_3.index t (2 : Fin 3)
    ∧ win7_2.index t (0 : Fin 3) = win7_3.index t (0 : Fin 3) ∧ win7_2.index t (1 : Fin 3) = 0
    ∧ win7_2.index t (2 : Fin 3) = win7_3.index t (2 : Fin 3)
    ∧ win7_3.index t (0 : Fin 3) ≤ 7 ∧ win7_3.index t (1 : Fin 3) ≤ 3 ∧ win7_3.index t (2 : Fin 3) ≤ 3 :=
  (by decide +kernel : ∀ t : Fin grid7.N, _)

/-- What point `t` writes back is block `t` of `G` of the projected queries, keys and values as the region finds them. -/
theorem flushed_eq (c : Dev nD) (t : Fin cfg7.N) :
    (dat7 V c).flushed 3 t = ((cfg7.win 3).blk t).view.read (Elt Ideal)
      (G (V c (Pipeline.arrRef spec7 0)) (V c (Pipeline.arrRef spec7 1)) (V c (Pipeline.arrRef spec7 2))) := by
  show (cfg7.win 3).cut (grid7.coords t) ((dat7 V c).after 3 t) = _
  rw [after7_3, out_eq]
  obtain ⟨e00, e01, e02, e10, e11, e12, e20, e21, e22, b0, b1, b2⟩ := idx_facts t
  funext y
  obtain ⟨u, m, f, rfl⟩ : ∃ (u : Fin 1) (m : Fin 1024) (f : Fin 256), y = ix3 u m f := ⟨y 0, y 1, y 2, eq_ix3 y⟩
  have hu : u.val = 0 := by omega
  have hf : f.val < 256 := f.isLt
  show ctxC (iblk7 V c 0 t) (iblk7 V c 1 t) (iblk7 V c 2 t) m f
    = G (V c (Pipeline.arrRef spec7 0)) (V c (Pipeline.arrRef spec7 1)) (V c (Pipeline.arrRef spec7 2))
        (((cfg7.win 3).blk t).view.emb (ix3 u m f))
  unfold ctxC G GC3
  refine Finset.sum_congr rfl fun n _ => congrArg₂ (· * ·) ?_ ?_
  · unfold blkC GC
    refine wrow_congr (funext fun d => ?_) (funext fun n' => funext fun d => ?_) rfl
    · show V c (Pipeline.arrRef spec7 0) (((cfg7.win 0).blk t).view.emb (ix3 (0 : Fin 1) m (lane _ d))) = _
      refine congrArg (V c (Pipeline.arrRef spec7 0)) (funext fun a => Fin.ext ?_)
      match a with
      | ⟨0, _⟩ => show win7_0.index t (0 : Fin 3) * 1 + 1 * 0 = win7_3.index t (0 : Fin 3) * 1 + 1 * u.val; omega
      | ⟨1, _⟩ => show win7_0.index t (1 : Fin 3) * 1024 + 1 * m.val = win7_3.index t (1 : Fin 3) * 1024 + 1 * m.val; omega
      | ⟨2, _⟩ =>
        show win7_0.index t (2 : Fin 3) * 128 + 1 * (64 * (f.val / 128) + d.val)
          = 64 * ((win7_3.index t (2 : Fin 3) * 256 + 1 * f.val) / 128) + d.val
        omega
    · show V c (Pipeline.arrRef spec7 1) (((cfg7.win 1).blk t).view.emb (ix3 (0 : Fin 1) n' (lane _ d))) = _
      refine congrArg (V c (Pipeline.arrRef spec7 1)) (funext fun a => Fin.ext ?_)
      match a with
      | ⟨0, _⟩ => show win7_1.index t (0 : Fin 3) * 1 + 1 * 0 = win7_3.index t (0 : Fin 3) * 1 + 1 * u.val; omega
      | ⟨1, _⟩ => show win7_1.index t (1 : Fin 3) * 256 + 1 * n'.val = n'.val; omega
      | ⟨2, _⟩ =>
        show win7_1.index t (2 : Fin 3) * 128 + 1 * (64 * (f.val / 128) + d.val)
          = 64 * ((win7_3.index t (2 : Fin 3) * 256 + 1 * f.val) / 128) + d.val
        omega
  · show V c (Pipeline.arrRef spec7 2) (((cfg7.win 2).blk t).view.emb (ix3 (0 : Fin 1) n f)) = _
    refine congrArg (V c (Pipeline.arrRef spec7 2)) (funext fun a => Fin.ext ?_)
    match a with
    | ⟨0, _⟩ => show win7_2.index t (0 : Fin 3) * 1 + 1 * 0 = win7_3.index t (0 : Fin 3) * 1 + 1 * u.val; omega
    | ⟨1, _⟩ => show win7_2.index t (1 : Fin 3) * 256 + 1 * n.val = n.val; omega
    | ⟨2, _⟩ => show win7_2.index t (2 : Fin 3) * 256 + 1 * f.val = win7_3.index t (2 : Fin 3) * 256 + 1 * f.val; omega

/-- An index of the output is in point `t`'s block iff each coordinate is in the block's range on its axis. -/
theorem mem_blk (t : Fin cfg7.N) (i : S8x4096x1024.Idx) :
    i ∈ ((cfg7.win 3).blk t).view.set ↔ ∀ a : Fin 3, win7_3.index t a * S1x1024x256.size a ≤ (i a).val
      ∧ (i a).val < win7_3.index t a * S1x1024x256.size a + S1x1024x256.size a := by
  show i ∈ ((View.whole main_v38_0).slice (win7_3.rect t)).set ↔ _
  rw [View.set_slice_whole, Rect.mem_set_unit]
  exact Iff.rfl

/-- Every block of the output is some point's. -/
theorem idx_onto : ∀ (q0 : Fin 8) (q1 : Fin 4) (q2 : Fin 4), ∃ t : Fin cfg7.N, win7_3.index t = ![q0.val, q1.val, q2.val] :=
  (by decide +kernel : ∀ (q0 : Fin 8) (q1 : Fin 4) (q2 : Fin 4), ∃ t : Fin grid7.N, win7_3.index t = ![q0.val, q1.val, q2.val])

/-- The 128 blocks cover the output: `(b, q, f)` is in the block of batch `b`, tile `q / 1024`, pair `f / 256`. -/
theorem cover (i : S8x4096x1024.Idx) :
    ∃ t : Fin cfg7.N, (cfg7.win 3).flush t = true ∧ i ∈ ((cfg7.win 3).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, by omega⟩ ⟨(i 1).val / 1024, by omega⟩ ⟨(i 2).val / 256, by omega⟩
  have q0 : win7_3.index t (0 : Fin 3) = (i 0).val := congrFun ht 0
  have q1 : win7_3.index t (1 : Fin 3) = (i 1).val / 1024 := congrFun ht 1
  have q2 : win7_3.index t (2 : Fin 3) = (i 2).val / 256 := congrFun ht 2
  refine ⟨t, flush7_3 t, ?_⟩
  rw [mem_blk]
  intro a
  match a with
  | ⟨0, _⟩ => show win7_3.index t (0 : Fin 3) * 1 ≤ (i 0).val ∧ (i 0).val < win7_3.index t (0 : Fin 3) * 1 + 1; omega
  | ⟨1, _⟩ => show win7_3.index t (1 : Fin 3) * 1024 ≤ (i 1).val ∧ (i 1).val < win7_3.index t (1 : Fin 3) * 1024 + 1024; omega
  | ⟨2, _⟩ => show win7_3.index t (2 : Fin 3) * 256 ≤ (i 2).val ∧ (i 2).val < win7_3.index t (2 : Fin 3) * 256 + 256; omega

/-- After the region the context array is `G` of the projected queries, keys and values the region found. -/
theorem final (c : Dev nD) : (dat7 V c).arrAt 3 cfg7.N
    = G (V c (Pipeline.arrRef spec7 0)) (V c (Pipeline.arrRef spec7 1)) (V c (Pipeline.arrRef spec7 2)) :=
  (dat7 V c).arrAt_eq_of_cover 3 _ (fun t _ => flushed_eq V c t) cover

end Cert.KernelIdeal.Region7C

end
-- ==== Proof.KernelRegion1V.lean ====
/-
  Region 1 (V): the long sequence's value projection, as one function of the arrays the region finds.

  The region runs over 64 grid points; point `t` reads rows `512·t … 512·t + 511` of the flattened sequence `x` ([32768, 1024]),
  the whole transposed weight `wT` ([1024, 1024]) and the bias row ([1, 1024]), and writes back the same rows of the output.
  Entry `(p, q)` of the block it writes is `(∑ₖ x[512·t + p, k] · wT[k, q]) + bias[0, q]`, which is entry `(512·t + p, q)` of ONE
  function of the three arrays; the 64 row blocks tile the output, so after the region the output array is that function.
-/
import proofs.«120082_j85341000171970_2_alg».proof.Proof.Gen.KernelIdeal.Frame
import proofs.«120082_j85341000171970_2_alg».proof.Proof.KernelLinPayload

set_option maxRecDepth 16384

noncomputable section

namespace Cert.KernelIdeal.Region1V

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows times the transposed weight, plus the bias row. -/
def G (x : S32768x1024.Idx → EReal) (wT : S1024x1024.Idx → EReal) (b : S1x1024.Idx → EReal) : S32768x1024.Idx → EReal :=
  fun i => (∑ k : Fin 1024, x (ix2 (i 0) k) * wT (ix2 k (i 1))) + b (ix2 (0 : Fin 1) (i 1))

/-- The index maps over the grid: the row windows move with the point, the weight and bias windows stay at block 0. -/
theorem idx_facts : ∀ t : Fin cfg1.N, win1_0.index t (0 : Fin 2) = t.val ∧ win1_0.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_8.index t (0 : Fin 2) = t.val ∧ win1_8.index t (1 : Fin 2) = 0 :=
  (by decide +kernel : ∀ t : Fin grid1.N, _)

/-- What point `t` writes back is block `t` of `G` of the arrays as the region finds them. -/
theorem flushed_eq (c : Dev nD) (t : Fin cfg1.N) :
    (dat1 V c).flushed 8 t = ((cfg1.win 8).blk t).view.read (Elt Ideal)
      (G (V c (Pipeline.arrRef spec1 0)) (V c (Pipeline.arrRef spec1 3)) (V c (Pipeline.arrRef spec1 4))) := by
  show (cfg1.win 8).cut (grid1.coords t) ((dat1 V c).after 8 t) = _
  rw [after1_8]
  unfold out1_8
  rw [View.canon_unit_zero hz]
  simp only [View.ld_unit_zero (S := S512x1024) hz, View.ld_unit_zero (S := S1024x1024) hz, View.ld_unit_zero (S := S1x1024) hz]
  obtain ⟨e00, e01, e10, e11, e20, e21, e30, e31⟩ := idx_facts t
  funext j
  obtain ⟨p, q, rfl⟩ : ∃ (p : Fin 512) (q : Fin 1024), j = ix2 p q := ⟨j 0, j 1, eq_ix2 j⟩
  show k1_pay3 (iblk1 V c 0 t) (iblk1 V c 3 t) (iblk1 V c 4 t) (ix2 p q)
    = G (V c (Pipeline.arrRef spec1 0)) (V c (Pipeline.arrRef spec1 3)) (V c (Pipeline.arrRef spec1 4))
        (((cfg1.win 8).blk t).view.emb (ix2 p q))
  refine (LinPay.k1_pay3_apply (iblk1 V c 0 t) (iblk1 V c 3 t) (iblk1 V c 4 t) p q).trans ?_
  unfold G
  refine congrArg₂ (· + ·) (Finset.sum_congr rfl fun k _ => congrArg₂ (· * ·) ?_ ?_) ?_
  · show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 512 + 1 * p.val = win1_8.index t (0 : Fin 2) * 512 + 1 * p.val; omega
    | ⟨1, _⟩ => show win1_0.index t (1 : Fin 2) * 1024 + 1 * k.val = k.val; omega
  · show V c (Pipeline.arrRef spec1 3) (((cfg1.win 3).blk t).view.emb (ix2 k q)) = _
    refine congrArg (V c (Pipeline.arrRef spec1 3)) (funext fun a => Fin.ext ?_)
    match a with
    | ⟨0, _⟩ => show win1_3.index t (0 : Fin 2) * 1024 + 1 * k.val = k.val; omega
    | ⟨1, _⟩ => show win1_3.index t (1 : Fin 2) * 1024 + 1 * q.val = win1_8.index t (1 : Fin 2) * 1024 + 1 * q.val; omega
  · show V c (Pipeline.arrRef spec1 4) (((cfg1.win 4).blk t).view.emb (ix2 (0 : Fin 1) q)) = _
    refine congrArg (V c (Pipeline.arrRef spec1 4)) (funext fun a => Fin.ext ?_)
    match a with
    | ⟨0, _⟩ => show win1_4.index t (0 : Fin 2) * 1 + 1 * 0 = 0; omega
    | ⟨1, _⟩ => show win1_4.index t (1 : Fin 2) * 1024 + 1 * q.val = win1_8.index t (1 : Fin 2) * 1024 + 1 * q.val; omega

/-- An index of the output is in point `t`'s block iff each coordinate is in the block's range on its axis. -/
theorem mem_blk (t : Fin cfg1.N) (i : S32768x1024.Idx) :
    i ∈ ((cfg1.win 8).blk t).view.set ↔ ∀ a : Fin 2, win1_8.index t a * S512x1024.size a ≤ (i a).val
      ∧ (i a).val < win1_8.index t a * S512x1024.size a + S512x1024.size a := by
  show i ∈ ((View.whole main_v12_1).slice (win1_8.rect t)).set ↔ _
  rw [View.set_slice_whole, Rect.mem_set_unit]
  exact Iff.rfl

/-- Every row block of the output is some point's. -/
theorem idx_onto : ∀ q0 : Fin 64, ∃ t : Fin cfg1.N, win1_8.index t = ![q0.val, 0] :=
  (by decide +kernel : ∀ q0 : Fin 64, ∃ t : Fin grid1.N, win1_8.index t = ![q0.val, 0])

/-- The 64 row blocks cover the output: row `r` is in block `r / 512`. -/
theorem cover (i : S32768x1024.Idx) :
    ∃ t : Fin cfg1.N, (cfg1.win 8).flush t = true ∧ i ∈ ((cfg1.win 8).blk t).view.set := by
  have hi0 : (i 0).val < 32768 := (i 0).isLt
  have hi1 : (i 1).val < 1024 := (i 1).isLt
  obtain ⟨t, ht⟩ := idx_onto ⟨(i 0).val / 512, by omega⟩
  have q0 : win1_8.index t (0 : Fin 2) = (i 0).val / 512 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 512 ≤ (i 0).val ∧ (i 0).val < win1_8.index t (0 : Fin 2) * 512 + 512; omega
  | ⟨1, _⟩ => show win1_8.index t (1 : Fin 2) * 1024 ≤ (i 1).val ∧ (i 1).val < win1_8.index t (1 : Fin 2) * 1024 + 1024; omega

/-- After the region its output array is `G` of the arrays the region found. -/
theorem final (c : Dev nD) : (dat1 V c).arrAt 8 cfg1.N
    = G (V c (Pipeline.arrRef spec1 0)) (V c (Pipeline.arrRef spec1 3)) (V c (Pipeline.arrRef spec1 4)) :=
  (dat1 V c).arrAt_eq_of_cover 8 _ (fun t _ => flushed_eq V c t) cover

end Cert.KernelIdeal.Region1V

end
-- ==== Proof.KernelRegion2Ctx.lean ====
/-
  Region 2, context rows: the pack layer's fourth window as one function of the arrays the region finds.

  At the same grid point that stores a head pair's attention weights, the body multiplies each head's weights (128 query
  rows × 4096 keys) with that head's 128 value features of all 4096 rows of the projected values `Vv` ([8, 4096, 1024]) and
  stores the two products side by side in a `[1, 128, 256]` block, written back at `(b, mt, hp)` of the `[8, 256, 1024]` output:
  feature `f` of the block belongs to the pair's head `f / 128`, and feature `256·hp + f` of the array to head `2·hp + f / 128`.
  So entry `(b, q, f)` of the output is `∑ₙ weight[b, f / 128, q, n] · Vv[b, n, f]`: the heads are already merged.
-/
import proofs.«120082_j85341000171970_2_alg».proof.Proof.Gen.KernelIdeal.Frame
import proofs.«120082_j85341000171970_2_alg».proof.Proof.KernelAttnPayload
import proofs.«120082_j85341000171970_2_alg».proof.Proof.KernelRegion2Attn

set_option maxRecDepth 16384

noncomputable section

namespace Cert.KernelIdeal.Region2C

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.AttnPay (weight)
open Cert.KernelIdeal.Region2A (lane feat wrow weight_eq_wrow blkC wrow_congr GC)

variable (V : (c : Dev nD) → (b : Ref sig .tc) → Buf (Elt Ideal) ((c : Thread nD τ).loc b))

/-- What the body leaves in the context block, by coordinates: row `m`, feature `f` (head `f / 128` of the pair). -/
def ctxC (x0 : Vec Ideal S1x128x128 .f32) (x1 : Vec Ideal S1x4096x128 .f32) (x2 : Vec Ideal S1x4096x256 .f32)
    (m : Fin 128) (f : Fin 256) : EReal :=
  ∑ n : Fin 4096, blkC x0 x1 (⟨f.val / 128, by have := f.isLt; omega⟩ : Fin 2) m n * x2 (ix3 (0 : Fin 1) n f)

def ctxBlk (x0 : Vec Ideal S1x128x128 .f32) (x1 : Vec Ideal S1x4096x128 .f32) (x2 : Vec Ideal S1x4096x256 .f32) :
    S1x128x256.Idx → EReal :=
  fun y => ctxC x0 x1 x2 (y 1) (y 2)

theorem ctxC_congr (x0 : Vec Ideal S1x128x128 .f32) (x1 : Vec Ideal S1x4096x128 .f32) (x2 : Vec Ideal S1x4096x256 .f32)
    {m m' : Fin 128} {f f' : Fin 256} (em : m = m') (ef : f = f') : ctxC x0 x1 x2 m f = ctxC x0 x1 x2 m' f' := by
  subst em ef; rfl

/-- The body's two stores — the second head's product into features 128…255, the first head's into 0…127 — leave `ctxBlk`. -/
theorem out_eq (x0 : Vec Ideal S1x128x128 .f32) (x1 : Vec Ideal S1x4096x128 .f32) (x2 : Vec Ideal S1x4096x256 .f32) :
    out2_3 (F := Ideal) x0 x1 x2 = ctxBlk x0 x1 x2 := by
  funext y
  unfold out2_3
  refine View.canon_apply_of_pieces (Val := Elt Ideal) (e := .f32) (ctxBlk x0 x1 x2) _ ?_ y (cover2_3 _ _ y)
  intro p hp x
  simp only [List.mem_cons, List.mem_singleton, List.not_mem_nil, or_false] at hp
  rcases hp with rfl | rfl
  · obtain ⟨u, m, e, rfl⟩ : ∃ (u : Fin 1) (m : Fin 128) (e : Fin 128), x = ix3 u m e := ⟨x 0, x 1, x 2, eq_ix3 x⟩
    show k2_pay3 (k2_pay7 (View.ld x0 r2_5)) (View.ld x1 r2_6) (View.ld x2 r2_7) (ix3 u m e)
      = ctxC x0 x1 x2 ((r2_9.emb (ix3 u m e)) 1) ((r2_9.emb (ix3 u m e)) 2)
    refine (AttnPay.k2_pay3_apply _ _ _ u m e).trans ?_
    have he : e.val < 128 := e.isLt
    refine Eq.trans ?_ (ctxC_congr x0 x1 x2 (m := m) (f := (⟨128 + e.val, by omega⟩ : Fin 256)) (Fin.ext ?_) (Fin.ext ?_))
    · unfold ctxC
      refine Finset.sum_congr rfl fun n _ => congrArg₂ (· * ·) ?_ ?_
      · rw [weight_eq_wrow]
        unfold blkC
        refine wrow_congr (funext fun d => ?_) (funext fun n' => funext fun d => ?_) rfl
        · show x0 (r2_5.emb (ix3 (0 : Fin 1) m d)) = x0 (ix3 (0 : Fin 1) m (lane _ d))
          refine congrArg x0 (funext fun a => Fin.ext ?_)
          match a with
          | ⟨0, _⟩ => show 0 + 1 * (0 : ℕ) = 0; omega
          | ⟨1, _⟩ => show 0 + 1 * m.val = m.val; omega
          | ⟨2, _⟩ => show 64 + 1 * d.val = 64 * ((128 + e.val) / 128) + d.val; omega
        · show x1 (r2_6.emb (ix3 (0 : Fin 1) n' d)) = x1 (ix3 (0 : Fin 1) n' (lane _ d))
          refine congrArg x1 (funext fun a => Fin.ext ?_)
          match a with
          | ⟨0, _⟩ => show 0 + 1 * (0 : ℕ) = 0; omega
          | ⟨1, _⟩ => show 0 + 1 * n'.val = n'.val; omega
          | ⟨2, _⟩ => show 64 + 1 * d.val = 64 * ((128 + e.val) / 128) + d.val; omega
      · show x2 (r2_7.emb (ix3 (0 : Fin 1) n e)) = x2 (ix3 (0 : Fin 1) n (⟨128 + e.val, by omega⟩ : Fin 256))
        refine congrArg x2 (funext fun a => Fin.ext ?_)
        match a with
        | ⟨0, _⟩ => show 0 + 1 * (0 : ℕ) = 0; omega
        | ⟨1, _⟩ => show 0 + 1 * n.val = n.val; omega
        | ⟨2, _⟩ => show 128 + 1 * e.val = 128 + e.val; omega
    · show m.val = 0 + 1 * m.val; omega
    · show 128 + e.val = 128 + 1 * e.val; omega
  · obtain ⟨u, m, e, rfl⟩ : ∃ (u : Fin 1) (m : Fin 128) (e : Fin 128), x = ix3 u m e := ⟨x 0, x 1, x 2, eq_ix3 x⟩
    show k2_pay6 (View.ld x0 r2_0) (View.ld x1 r2_1) (View.ld x2 r2_2) (ix3 u m e)
      = ctxC x0 x1 x2 ((r2_4.emb (ix3 u m e)) 1) ((r2_4.emb (ix3 u m e)) 2)
    refine (AttnPay.k2_pay6_apply _ _ _ u m e).trans ?_
    have he : e.val < 128 := e.isLt
    refine Eq.trans ?_ (ctxC_congr x0 x1 x2 (m := m) (f := (⟨0 + e.val, by omega⟩ : Fin 256)) (Fin.ext ?_) (Fin.ext ?_))
    · unfold ctxC
      refine Finset.sum_congr rfl fun n _ => congrArg₂ (· * ·) ?_ ?_
      · rw [weight_eq_wrow]
        unfold blkC
        refine wrow_congr (funext fun d => ?_) (funext fun n' => funext fun d => ?_) rfl
        · show x0 (r2_0.emb (ix3 (0 : Fin 1) m d)) = x0 (ix3 (0 : Fin 1) m (lane _ d))
          refine congrArg x0 (funext fun a => Fin.ext ?_)
          match a with
          | ⟨0, _⟩ => show 0 + 1 * (0 : ℕ) = 0; omega
          | ⟨1, _⟩ => show 0 + 1 * m.val = m.val; omega
          | ⟨2, _⟩ => show 0 + 1 * d.val = 64 * ((0 + e.val) / 128) + d.val; omega
        · show x1 (r2_1.emb (ix3 (0 : Fin 1) n' d)) = x1 (ix3 (0 : Fin 1) n' (lane _ d))
          refine congrArg x1 (funext fun a => Fin.ext ?_)
          match a with
          | ⟨0, _⟩ => show 0 + 1 * (0 : ℕ) = 0; omega
          | ⟨1, _⟩ => show 0 + 1 * n'.val = n'.val; omega
          | ⟨2, _⟩ => show 0 + 1 * d.val = 64 * ((0 + e.val) / 128) + d.val; omega
      · show x2 (r2_2.emb (ix3 (0 : Fin 1) n e)) = x2 (ix3 (0 : Fin 1) n (⟨0 + e.val, by omega⟩ : Fin 256))
        refine congrArg x2 (funext fun a => Fin.ext ?_)
        match a with
        | ⟨0, _⟩ => show 0 + 1 * (0 : ℕ) = 0; omega
        | ⟨1, _⟩ => show 0 + 1 * n.val = n.val; omega
        | ⟨2, _⟩ => show 0 + 1 * e.val = 0 + e.val; omega
    · show m.val = 0 + 1 * m.val; omega
    · show 0 + e.val = 0 + 1 * e.val; omega

/-- Entry `(b, q, f)` of the merged context: the weights of head `f / 128` against feature `f` of the values. -/
def GC3 (Q : S8x256x512.Idx → EReal) (K : S8x4096x512.Idx → EReal) (Vv : S8x4096x1024.Idx → EReal)
    (b : Fin 8) (q : Fin 256) (f : Fin 1024) : EReal :=
  ∑ n : Fin 4096, GC Q K b (⟨f.val / 128, by have := f.isLt; omega⟩ : Fin 8) q n * Vv (ix3 b n f)

def G (Q : S8x256x512.Idx → EReal) (K : S8x4096x512.Idx → EReal) (Vv : S8x4096x1024.Idx → EReal) : S8x256x1024.Idx → EReal :=
  fun i => GC3 Q K Vv (i 0) (i 1) (i 2)

/-- The index maps over the grid: queries at (batch, tile, pair), keys and values at (batch, 0, pair), context at (batch, tile, pair). -/
theorem idx_facts : ∀ t : Fin cfg2.N,
    win2_0.index t (0 : Fin 3) = win2_3.index t (0 : Fin 3) ∧ win2_0.index t (1 : Fin 3) = win2_3.index t (1 : Fin 3)
    ∧ win2_0.index t (2 : Fin 3) = win2_3.index t (2 : Fin 3)
    ∧ win2_1.index t (0 : Fin 3) = win2_3.index t (0 : Fin 3) ∧ win2_1.index t (1 : Fin 3) = 0
    ∧ win2_1.index t (2 : Fin 3) = win2_3.index t (2 : Fin 3)
    ∧ win2_2.index t (0 : Fin 3) = win2_3.index t (0 : Fin 3) ∧ win2_2.index t (1 : Fin 3) = 0
    ∧ win2_2.index t (2 : Fin 3) = win2_3.index t (2 : Fin 3)
    ∧ win2_3.index t (0 : Fin 3) ≤ 7 ∧ win2_3.index t (1 : Fin 3) ≤ 1 ∧ win2_3.index t (2 : Fin 3) ≤ 3 :=
  (by decide +kernel : ∀ t : Fin grid2.N, _)

/-- What point `t` writes back is block `t` of `G` of the projected queries, keys and values as the region finds them. -/
theorem flushed_eq (c : Dev nD) (t : Fin cfg2.N) :
    (dat2 V c).flushed 3 t = ((cfg2.win 3).blk t).view.read (Elt Ideal)
      (G (V c (Pipeline.arrRef spec2 0)) (V c (Pipeline.arrRef spec2 1)) (V c (Pipeline.arrRef spec2 2))) := by
  show (cfg2.win 3).cut (grid2.coords t) ((dat2 V c).after 3 t) = _
  rw [after2_3, out_eq]
  obtain ⟨e00, e01, e02, e10, e11, e12, e20, e21, e22, b0, b1, b2⟩ := idx_facts t
  funext y
  obtain ⟨u, m, f, rfl⟩ : ∃ (u : Fin 1) (m : Fin 128) (f : Fin 256), y = ix3 u m f := ⟨y 0, y 1, y 2, eq_ix3 y⟩
  have hu : u.val = 0 := by omega
  have hf : f.val < 256 := f.isLt
  show ctxC (iblk2 V c 0 t) (iblk2 V c 1 t) (iblk2 V c 2 t) m f
    = G (V c (Pipeline.arrRef spec2 0)) (V c (Pipeline.arrRef spec2 1)) (V c (Pipeline.arrRef spec2 2))
        (((cfg2.win 3).blk t).view.emb (ix3 u m f))
  unfold ctxC G GC3
  refine Finset.sum_congr rfl fun n _ => congrArg₂ (· * ·) ?_ ?_
  · unfold blkC GC
    refine wrow_congr (funext fun d => ?_) (funext fun n' => funext fun d => ?_) rfl
    · show V c (Pipeline.arrRef spec2 0) (((cfg2.win 0).blk t).view.emb (ix3 (0 : Fin 1) m (lane _ d))) = _
      refine congrArg (V c (Pipeline.arrRef spec2 0)) (funext fun a => Fin.ext ?_)
      match a with
      | ⟨0, _⟩ => show win2_0.index t (0 : Fin 3) * 1 + 1 * 0 = win2_3.index t (0 : Fin 3) * 1 + 1 * u.val; omega
      | ⟨1, _⟩ => show win2_0.index t (1 : Fin 3) * 128 + 1 * m.val = win2_3.index t (1 : Fin 3) * 128 + 1 * m.val; omega
      | ⟨2, _⟩ =>
        show win2_0.index t (2 : Fin 3) * 128 + 1 * (64 * (f.val / 128) + d.val)
          = 64 * ((win2_3.index t (2 : Fin 3) * 256 + 1 * f.val) / 128) + d.val
        omega
    · show V c (Pipeline.arrRef spec2 1) (((cfg2.win 1).blk t).view.emb (ix3 (0 : Fin 1) n' (lane _ d))) = _
      refine congrArg (V c (Pipeline.arrRef spec2 1)) (funext fun a => Fin.ext ?_)
      match a with
      | ⟨0, _⟩ => show win2_1.index t (0 : Fin 3) * 1 + 1 * 0 = win2_3.index t (0 : Fin 3) * 1 + 1 * u.val; omega
      | ⟨1, _⟩ => show win2_1.index t (1 : Fin 3) * 4096 + 1 * n'.val = n'.val; omega
      | ⟨2, _⟩ =>
        show win2_1.index t (2 : Fin 3) * 128 + 1 * (64 * (f.val / 128) + d.val)
          = 64 * ((win2_3.index t (2 : Fin 3) * 256 + 1 * f.val) / 128) + d.val
        omega
  · show V c (Pipeline.arrRef spec2 2) (((cfg2.win 2).blk t).view.emb (ix3 (0 : Fin 1) n f)) = _
    refine congrArg (V c (Pipeline.arrRef spec2 2)) (funext fun a => Fin.ext ?_)
    match a with
    | ⟨0, _⟩ => show win2_2.index t (0 : Fin 3) * 1 + 1 * 0 = win2_3.index t (0 : Fin 3) * 1 + 1 * u.val; omega
    | ⟨1, _⟩ => show win2_2.index t (1 : Fin 3) * 4096 + 1 * n.val = n.val; omega
    | ⟨2, _⟩ => show win2_2.index t (2 : Fin 3) * 256 + 1 * f.val = win2_3.index t (2 : Fin 3) * 256 + 1 * f.val; omega

/-- An index of the output is in point `t`'s block iff each coordinate is in the block's range on its axis. -/
theorem mem_blk (t : Fin cfg2.N) (i : S8x256x1024.Idx) :
    i ∈ ((cfg2.win 3).blk t).view.set ↔ ∀ a : Fin 3, win2_3.index t a * S1x128x256.size a ≤ (i a).val
      ∧ (i a).val < win2_3.index t a * S1x128x256.size a + S1x128x256.size a := by
  show i ∈ ((View.whole main_v16_0).slice (win2_3.rect t)).set ↔ _
  rw [View.set_slice_whole, Rect.mem_set_unit]
  exact Iff.rfl

/-- Every block of the output is some point's. -/
theorem idx_onto : ∀ (q0 : Fin 8) (q1 : Fin 2) (q2 : Fin 4), ∃ t : Fin cfg2.N, win2_3.index t = ![q0.val, q1.val, q2.val] :=
  (by decide +kernel : ∀ (q0 : Fin 8) (q1 : Fin 2) (q2 : Fin 4), ∃ t : Fin grid2.N, win2_3.index t = ![q0.val, q1.val, q2.val])

/-- The 64 blocks cover the output: `(b, q, f)` is in the block of batch `b`, tile `q / 128`, pair `f / 256`. -/
theorem cover (i : S8x256x1024.Idx) :
    ∃ t : Fin cfg2.N, (cfg2.win 3).flush t = true ∧ i ∈ ((cfg2.win 3).blk t).view.set := by
  have hi0 : (i 0).val < 8 := (i 0).isLt
  have hi1 : (i 1).val < 256 := (i 1).isLt
  have hi2 : (i 2).val < 1024 := (i 2).isLt
  obtain ⟨t, ht⟩ := idx_onto ⟨(i 0).val, by omega⟩ ⟨(i 1).val / 128, by omega⟩ ⟨(i 2).val / 256, by omega⟩
  have q0 : win2_3.index t (0 : Fin 3) = (i 0).val := congrFun ht 0
  have q1 : win2_3.index t (1 : Fin 3) = (i 1).val / 128 := congrFun ht 1
  have q2 : win2_3.index t (2 : Fin 3) = (i 2).val / 256 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 128 ≤ (i 1).val ∧ (i 1).val < win2_3.index t (1 : Fin 3) * 128 + 128; omega
  | ⟨2, _⟩ => show win2_3.index t (2 : Fin 3) * 256 ≤ (i 2).val ∧ (i 2).val < win2_3.index t (2 : Fin 3) * 256 + 256; omega

/-- After the region the context array is `G` of the projected queries, keys and values the region found. -/
theorem final (c : Dev nD) : (dat2 V c).arrAt 3 cfg2.N
    = G (V c (Pipeline.arrRef spec2 0)) (V c (Pipeline.arrRef spec2 1)) (V c (Pipeline.arrRef spec2 2)) :=
  (dat2 V c).arrAt_eq_of_cover 3 _ (fun t _ => flushed_eq V c t) cover

end Cert.KernelIdeal.Region2C

end
-- ==== Proof.KernelRegion3.lean ====
/-
  Region 3: the packed context's output projection, as one function of the arrays the region finds.

  The region runs over 4 grid points; point `t` reads rows `512·t … 512·t + 511` of the flattened sequence `x` ([2048, 1024]),
  the whole transposed weight `wT` ([1024, 512]) and the bias row ([1, 512]), and writes back the same rows of the output.
  Entry `(p, q)` of the block it writes is `(∑ₖ x[512·t + p, k] · wT[k, q]) + bias[0, q]`, which is entry `(512·t + p, q)` of ONE
  function of the three arrays; the 4 row blocks tile the output, so after the region the output array is that function.
-/
import proofs.«120082_j85341000171970_2_alg».proof.Proof.Gen.KernelIdeal.Frame
import proofs.«120082_j85341000171970_2_alg».proof.Proof.KernelLinPayload

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows times the transposed weight, plus the bias row. -/
def G (x : S2048x1024.Idx → EReal) (wT : S1024x512.Idx → EReal) (b : S1x512.Idx → EReal) : S2048x512.Idx → EReal :=
  fun i => (∑ k : Fin 1024, x (ix2 (i 0) k) * wT (ix2 k (i 1))) + b (ix2 (0 : Fin 1) (i 1))

/-- The index maps over the grid: the row windows move with the point, the weight and bias windows stay at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `G` of the arrays as the region finds them. -/
theorem flushed_eq (c : Dev nD) (t : Fin cfg3.N) :
    (dat3 V c).flushed 3 t = ((cfg3.win 3).blk t).view.read (Elt Ideal)
      (G (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S512x1024) hz, View.ld_unit_zero (S := S1024x512) hz, View.ld_unit_zero (S := S1x512) hz]
  obtain ⟨e00, e01, e10, e11, e20, e21, e30, e31⟩ := idx_facts t
  funext j
  obtain ⟨p, q, rfl⟩ : ∃ (p : Fin 512) (q : Fin 512), j = ix2 p q := ⟨j 0, j 1, eq_ix2 j⟩
  show k3_pay1 (iblk3 V c 0 t) (iblk3 V c 1 t) (iblk3 V c 2 t) (ix2 p q)
    = G (V c (Pipeline.arrRef spec3 0)) (V c (Pipeline.arrRef spec3 1)) (V c (Pipeline.arrRef spec3 2))
        (((cfg3.win 3).blk t).view.emb (ix2 p q))
  refine (LinPay.k3_pay1_apply (iblk3 V c 0 t) (iblk3 V c 1 t) (iblk3 V c 2 t) p q).trans ?_
  unfold G
  refine congrArg₂ (· + ·) (Finset.sum_congr rfl fun k _ => congrArg₂ (· * ·) ?_ ?_) ?_
  · show V c (Pipeline.arrRef spec3 0) (((cfg3.win 0).blk t).view.emb (ix2 p k)) = _
    refine congrArg (V c (Pipeline.arrRef spec3 0)) (funext fun a => Fin.ext ?_)
    match a with
    | ⟨0, _⟩ => show win3_0.index t (0 : Fin 2) * 512 + 1 * p.val = win3_3.index t (0 : Fin 2) * 512 + 1 * p.val; omega
    | ⟨1, _⟩ => show win3_0.index t (1 : Fin 2) * 1024 + 1 * k.val = k.val; omega
  · show V c (Pipeline.arrRef spec3 1) (((cfg3.win 1).blk t).view.emb (ix2 k q)) = _
    refine congrArg (V c (Pipeline.arrRef spec3 1)) (funext fun a => Fin.ext ?_)
    match a with
    | ⟨0, _⟩ => show win3_1.index t (0 : Fin 2) * 1024 + 1 * k.val = k.val; omega
    | ⟨1, _⟩ => show win3_1.index t (1 : Fin 2) * 512 + 1 * q.val = win3_3.index t (1 : Fin 2) * 512 + 1 * q.val; omega
  · show V c (Pipeline.arrRef spec3 2) (((cfg3.win 2).blk t).view.emb (ix2 (0 : Fin 1) q)) = _
    refine congrArg (V c (Pipeline.arrRef spec3 2)) (funext fun a => Fin.ext ?_)
    match a with
    | ⟨0, _⟩ => show win3_2.index t (0 : Fin 2) * 1 + 1 * 0 = 0; omega
    | ⟨1, _⟩ => show win3_2.index t (1 : Fin 2) * 512 + 1 * q.val = win3_3.index t (1 : Fin 2) * 512 + 1 * q.val; omega

/-- An index of the output is in point `t`'s block iff each coordinate is in the block's range on its axis. -/
theorem mem_blk (t : Fin cfg3.N) (i : S2048x512.Idx) :
    i ∈ ((cfg3.win 3).blk t).view.set ↔ ∀ a : Fin 2, win3_3.index t a * S512x512.size a ≤ (i a).val
      ∧ (i a).val < win3_3.index t a * S512x512.size a + S512x512.size a := by
  show i ∈ ((View.whole main_v20).slice (win3_3.rect t)).set ↔ _
  rw [View.set_slice_whole, Rect.mem_set_unit]
  exact Iff.rfl

/-- Every row block of the output is some point's. -/
theorem idx_onto : ∀ q0 : Fin 4, ∃ t : Fin cfg3.N, win3_3.index t = ![q0.val, 0] :=
  (by decide +kernel : ∀ q0 : Fin 4, ∃ t : Fin grid3.N, win3_3.index t = ![q0.val, 0])

/-- The 4 row blocks cover the output: row `r` is in block `r / 512`. -/
theorem cover (i : S2048x512.Idx) :
    ∃ t : Fin cfg3.N, (cfg3.win 3).flush t = true ∧ i ∈ ((cfg3.win 3).blk t).view.set := by
  have hi0 : (i 0).val < 2048 := (i 0).isLt
  have hi1 : (i 1).val < 512 := (i 1).isLt
  obtain ⟨t, ht⟩ := idx_onto ⟨(i 0).val / 512, by omega⟩
  have q0 : win3_3.index t (0 : Fin 2) = (i 0).val / 512 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 512 ≤ (i 1).val ∧ (i 1).val < win3_3.index t (1 : Fin 2) * 512 + 512; omega

/-- After the region its output array is `G` of the arrays the region found. -/
theorem final (c : Dev nD) : (dat3 V c).arrAt 3 cfg3.N
    = G (V c (Pipeline.arrRef spec3 0)) (V c (Pipeline.arrRef spec3 1)) (V c (Pipeline.arrRef spec3 2)) :=
  (dat3 V c).arrAt_eq_of_cover 3 _ (fun t _ => flushed_eq V c t) cover

end Cert.KernelIdeal.Region3

end
-- ==== Proof.KernelChainPack2.lean ====
/-
  The pack layer after its attention: values, merged context, and the output projection `out₁`.

  Region 1's second output is the long sequence's value projection; region 2 multiplies the attention weights with it,
  heads already merged; the host flattens the context to rows, region 3 projects it with `Wo₁`, and the host folds the rows
  back: `out₁ = ctx₁·Wo₁ᵀ + bo₁`, the array both the short sequence's LayerNorm and the unpack layer read.
-/
import proofs.«120082_j85341000171970_2_alg».proof.Proof.Gen.KernelIdeal.Frame
import proofs.«120082_j85341000171970_2_alg».proof.Proof.KernelRegion1V
import proofs.«120082_j85341000171970_2_alg».proof.Proof.KernelRegion2Ctx
import proofs.«120082_j85341000171970_2_alg».proof.Proof.KernelRegion3
import proofs.«120082_j85341000171970_2_alg».proof.Proof.KernelChainPack
import proofs.«120082_j85341000171970_2_alg».proof.Proof.KernelArgs
import Idealize.ShloMosaic.Lib.StableHlo.Run
import Idealize.ShloMosaic.Lib.ValueLayout
import Idealize.ShloMosaic.PureOps.Ideal

set_option maxRecDepth 16384

noncomputable section

namespace Cert.KernelIdeal.ChainPack2

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.KernelIdeal.ChainPack

/-- `Wv₁` is untouched up to region 1's stretch. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
/-- `bv₁` is untouched up to region 1's stretch. -/
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
/-- `Wv₁` transposed. -/
theorem W3_v7 (c : Dev nD) : W3 m ρ c (Proc.devRef .tc main_v7)
    = transpose S1024x1024 [1, 0] (W2 m ρ c (Proc.devRef .tc main_arg6)) transposes_S1024x1024_S1024x1024_1_0 := by
  show StableHlo.after hostOps1 (W2 m ρ c) (Proc.devRef .tc main_v7) = _
  after_results <;> rfl
/-- `bv₁` as a row. -/
theorem W3_v10 (c : Dev nD) : W3 m ρ c (Proc.devRef .tc main_v10)
    = shapeCast S1x1024 (W2 m ρ c (Proc.devRef .tc main_arg7)) shapeCasts_S1024_S1x1024 := by
  show StableHlo.after hostOps1 (W2 m ρ c) (Proc.devRef .tc main_v10) = _
  after_results <;> rfl
/-- Region 1's value output array, from what its stretch left. -/
theorem W4_v12_1 (c : Dev nD) : W4 m ρ c (Proc.devRef .tc main_v12_1)
    = Region1V.G (W3 m ρ c (Proc.devRef .tc main_v5)) (W3 m ρ c (Proc.devRef .tc main_v7)) (W3 m ρ c (Proc.devRef .tc main_v10)) :=
  (W4_arr m ρ c 8).trans (Region1V.final (V3 m ρ) c)
/-- Region 1's value rows folded back to `[8, 4096, 1024]`. -/
theorem W5_v14 (c : Dev nD) : W5 m ρ c (Proc.devRef .tc main_v14)
    = shapeCast S8x4096x1024 (W4 m ρ c (Proc.devRef .tc main_v12_1)) shapeCasts_S32768x1024_S8x4096x1024 := by
  show StableHlo.after hostOps2 (W4 m ρ c) (Proc.devRef .tc main_v14) = _
  after_results <;> rfl
/-- Region 2's values are the long sequence's value projection `hidden·Wv₁ᵀ + bv₁`. -/
theorem v1_eq (c : Dev nD) : W5 m ρ c (Proc.devRef .tc main_v14)
    = fun i => Cert.Spec.lin (Whole.argsOf m c).hidden (Whole.argsOf m c).wv1 (Whole.argsOf m c).bv1 (i 0) (i 1) (i 2) := by
  refine (W5_v14 m ρ c).trans ?_
  rw [W4_v12_1]
  funext i
  obtain ⟨b, r, o, rfl⟩ : ∃ (b : Fin 8) (r : Fin 4096) (o : Fin 1024), i = ix3 b r o := ⟨i 0, i 1, i 2, eq_ix3 i⟩
  have hrow : 4096 * b.val + r.val < 32768 := by have := b.isLt; have := r.isLt; omega
  refine (shapeCast_apply _ _ (ix3 b r o) (ix2 (⟨4096 * b.val + r.val, hrow⟩ : Fin 32768) o) (by
    rw [Shape.rowMajor_val_two, Shape.rowMajor_val_three]
    show (4096 * b.val + r.val) * 1024 + o.val = (b.val * 4096 + r.val) * 1024 + o.val
    rw [Nat.mul_comm 4096 b.val])).trans ?_
  unfold Region1V.G Cert.Spec.lin
  refine congrArg₂ (· + ·) (Finset.sum_congr rfl fun k _ => congrArg₂ (· * ·) ?_ ?_) ?_
  · refine (congrFun (W3_v5 m ρ c) _).trans ?_
    refine (shapeCast_apply _ _ _ (ix3 b r k) (by
      rw [Shape.rowMajor_val_two, Shape.rowMajor_val_three]
      show (b.val * 4096 + r.val) * 1024 + k.val = (4096 * b.val + r.val) * 1024 + k.val
      rw [Nat.mul_comm 4096 b.val])).trans ?_
    exact congrFun (W2_arg0 m ρ c) _
  · refine (congrFun (W3_v7 m ρ c) _).trans ?_
    refine (transpose_ix2_apply _ _ k o).trans ?_
    exact congrFun (W2_arg6 m ρ c) _
  · refine (congrFun (W3_v10 m ρ c) _).trans ?_
    refine (shapeCast_a_1a_apply _ _ (0 : Fin 1) o).trans ?_
    exact congrFun (W2_arg7 m ρ c) _

/-- Region 2's context array is the specification's merged context of the pack layer. -/
theorem ctx1_eq (c : Dev nD) : W6 m ρ c (Proc.devRef .tc main_v16_0)
    = fun i => Cert.Spec.merged (Cert.Spec.context (Cert.Spec.attn1 Cert.Spec.σ₀ (Whole.argsOf m c))
        (Cert.Spec.lin (Whole.argsOf m c).hidden (Whole.argsOf m c).wv1 (Whole.argsOf m c).bv1)) (i 0) (i 1) (i 2) := by
  refine ((W6_arr m ρ c 3).trans (Region2C.final (V5 m ρ) c)).trans ?_
  show Region2C.G (W5 m ρ c (Proc.devRef .tc main_v4)) (W5 m ρ c (Proc.devRef .tc main_v13)) (W5 m ρ c (Proc.devRef .tc main_v14)) = _
  rw [q1_eq, k1_eq, v1_eq]
  funext i
  obtain ⟨b, q, f, rfl⟩ : ∃ (b : Fin 8) (q : Fin 256) (f : Fin 1024), i = ix3 b q f := ⟨i 0, i 1, i 2, eq_ix3 i⟩
  have hf : f.val < 1024 := f.isLt
  show Region2C.GC3 _ _ _ b q f = Cert.Spec.merged _ b q f
  unfold Region2C.GC3 Cert.Spec.merged Cert.Spec.context
  refine Finset.sum_congr rfl fun n _ => congrArg₂ (· * ·) rfl ?_
  show Cert.Spec.lin _ _ _ b n f = Cert.Spec.lin _ _ _ b n (Cert.Spec.vf ⟨f.val / 128, _⟩ ⟨f.val % 128, _⟩)
  refine congrArg (Cert.Spec.lin _ _ _ b n) (Fin.ext ?_)
  show f.val = 128 * (f.val / 128) + f.val % 128
  omega
/-- `Wo₁` is untouched up to region 3's stretch. -/
theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
/-- `bo₁` is untouched up to region 3's stretch. -/
theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
/-- The merged context flattened to rows. -/
theorem W7_v17 (c : Dev nD) : W7 m ρ c (Proc.devRef .tc main_v17)
    = shapeCast S2048x1024 (W6 m ρ c (Proc.devRef .tc main_v16_0)) shapeCasts_S8x256x1024_S2048x1024 := by
  show StableHlo.after hostOps3 (W6 m ρ c) (Proc.devRef .tc main_v17) = _
  after_results <;> rfl
/-- `Wo₁` transposed. -/
theorem W7_v18 (c : Dev nD) : W7 m ρ c (Proc.devRef .tc main_v18)
    = transpose S1024x512 [1, 0] (W6 m ρ c (Proc.devRef .tc main_arg8)) transposes_S512x1024_S1024x512_1_0 := by
  show StableHlo.after hostOps3 (W6 m ρ c) (Proc.devRef .tc main_v18) = _
  after_results <;> rfl
/-- `bo₁` as a row. -/
theorem W7_v19 (c : Dev nD) : W7 m ρ c (Proc.devRef .tc main_v19)
    = shapeCast S1x512 (W6 m ρ c (Proc.devRef .tc main_arg9)) shapeCasts_S512_S1x512 := by
  show StableHlo.after hostOps3 (W6 m ρ c) (Proc.devRef .tc main_v19) = _
  after_results <;> rfl
/-- Region 3's output array, from what its stretch left. -/
theorem W8_v20 (c : Dev nD) : W8 m ρ c (Proc.devRef .tc main_v20)
    = Region3.G (W7 m ρ c (Proc.devRef .tc main_v17)) (W7 m ρ c (Proc.devRef .tc main_v18)) (W7 m ρ c (Proc.devRef .tc main_v19)) :=
  (W8_arr m ρ c 3).trans (Region3.final (V7 m ρ) c)
/-- Region 3's rows folded back to `[8, 256, 512]`. -/
theorem W9_v21 (c : Dev nD) : W9 m ρ c (Proc.devRef .tc main_v21)
    = shapeCast S8x256x512 (W8 m ρ c (Proc.devRef .tc main_v20)) shapeCasts_S2048x512_S8x256x512 := by
  show StableHlo.after hostOps4 (W8 m ρ c) (Proc.devRef .tc main_v21) = _
  after_results <;> rfl
/-- The folded output of region 3 is the specification's `out₁ = ctx₁·Wo₁ᵀ + bo₁`. -/
theorem out1_eq (c : Dev nD) : W9 m ρ c (Proc.devRef .tc main_v21)
    = fun i => Cert.Spec.out1 Cert.Spec.σ₀ (Whole.argsOf m c) (i 0) (i 1) (i 2) := by
  refine (W9_v21 m ρ c).trans ?_
  rw [W8_v20]
  funext i
  obtain ⟨b, r, o, rfl⟩ : ∃ (b : Fin 8) (r : Fin 256) (o : Fin 512), i = ix3 b r o := ⟨i 0, i 1, i 2, eq_ix3 i⟩
  have hrow : 256 * b.val + r.val < 2048 := by have := b.isLt; have := r.isLt; omega
  refine (shapeCast_apply _ _ (ix3 b r o) (ix2 (⟨256 * b.val + r.val, hrow⟩ : Fin 2048) o) (by
    rw [Shape.rowMajor_val_two, Shape.rowMajor_val_three]
    show (256 * b.val + r.val) * 512 + o.val = (b.val * 256 + r.val) * 512 + o.val
    rw [Nat.mul_comm 256 b.val])).trans ?_
  show Region3.G _ _ _ (ix2 (⟨256 * b.val + r.val, hrow⟩ : Fin 2048) o) = Cert.Spec.lin (Cert.Spec.merged (Cert.Spec.context (Cert.Spec.attn1 Cert.Spec.σ₀ (Whole.argsOf m c)) (Cert.Spec.lin (Whole.argsOf m c).hidden (Whole.argsOf m c).wv1 (Whole.argsOf m c).bv1))) (Whole.argsOf m c).wo1 (Whole.argsOf m c).bo1 b r o
  unfold Region3.G Cert.Spec.lin
  refine congrArg₂ (· + ·) (Finset.sum_congr rfl fun k _ => congrArg₂ (· * ·) ?_ ?_) ?_
  · refine (congrFun (W7_v17 m ρ c) _).trans ?_
    refine (shapeCast_apply _ _ _ (ix3 b r k) (by
      rw [Shape.rowMajor_val_two, Shape.rowMajor_val_three]
      show (b.val * 256 + r.val) * 1024 + k.val = (256 * b.val + r.val) * 1024 + k.val
      rw [Nat.mul_comm 256 b.val])).trans ?_
    exact congrFun (ctx1_eq m ρ c) _
  · refine (congrFun (W7_v18 m ρ c) _).trans ?_
    refine (transpose_ix2_apply _ _ k o).trans ?_
    exact congrFun (W6_arg8 m ρ c) _
  · refine (congrFun (W7_v19 m ρ c) _).trans ?_
    refine (shapeCast_a_1a_apply _ _ (0 : Fin 1) o).trans ?_
    exact congrFun (W6_arg9 m ρ c) _

end Cert.KernelIdeal.ChainPack2

end
-- ==== Proof.KernelChainUnpack.lean ====
/-
  The unpack layer up to its attention: queries, keys, values, attention weights and merged context.

  The queries are region 1's third output (the long sequence projected with `Wq₂`), folded back to `[8, 4096, 512]`. Keys and
  values project `out₁` — read again, flattened, before regions 5 and 6 — with `Wk₂` and `Wv₂`. Region 7 is region 2's body
  on 1024-row query tiles against 256 keys: its fifth window is the layer's attention weights, its fourth the merged context.
-/
import proofs.«120082_j85341000171970_2_alg».proof.Proof.Gen.KernelIdeal.Frame
import proofs.«120082_j85341000171970_2_alg».proof.Proof.KernelRegion1Q
import proofs.«120082_j85341000171970_2_alg».proof.Proof.KernelRegion5
import proofs.«120082_j85341000171970_2_alg».proof.Proof.KernelRegion6
import proofs.«120082_j85341000171970_2_alg».proof.Proof.KernelRegion7Attn
import proofs.«120082_j85341000171970_2_alg».proof.Proof.KernelRegion7Ctx
import proofs.«120082_j85341000171970_2_alg».proof.Proof.KernelChainPack
import proofs.«120082_j85341000171970_2_alg».proof.Proof.KernelChainPack2
import proofs.«120082_j85341000171970_2_alg».proof.Proof.KernelArgs
import Idealize.ShloMosaic.Lib.StableHlo.Run
import Idealize.ShloMosaic.Lib.ValueLayout
import Idealize.ShloMosaic.PureOps.Ideal

set_option maxRecDepth 16384

noncomputable section

namespace Cert.KernelIdeal.ChainUnpack

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.KernelIdeal.ChainPack Cert.KernelIdeal.ChainPack2

/-- `Wq₂` is untouched up to region 1's stretch. -/
theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
/-- `bq₂` is untouched up to region 1's stretch. -/
theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
/-- `Wq₂` transposed. -/
theorem W3_v8 (c : Dev nD) : W3 m ρ c (Proc.devRef .tc main_v8)
    = transpose S1024x512 [1, 0] (W2 m ρ c (Proc.devRef .tc main_arg10)) transposes_S512x1024_S1024x512_1_0 := by
  show StableHlo.after hostOps1 (W2 m ρ c) (Proc.devRef .tc main_v8) = _
  after_results <;> rfl
/-- `bq₂` as a row. -/
theorem W3_v11 (c : Dev nD) : W3 m ρ c (Proc.devRef .tc main_v11)
    = shapeCast S1x512 (W2 m ρ c (Proc.devRef .tc main_arg11)) shapeCasts_S512_S1x512 := by
  show StableHlo.after hostOps1 (W2 m ρ c) (Proc.devRef .tc main_v11) = _
  after_results <;> rfl
/-- Region 1's third output array, from what its stretch left. -/
theorem W4_v12_2 (c : Dev nD) : W4 m ρ c (Proc.devRef .tc main_v12_2)
    = Region1Q.G (W3 m ρ c (Proc.devRef .tc main_v5)) (W3 m ρ c (Proc.devRef .tc main_v8)) (W3 m ρ c (Proc.devRef .tc main_v11)) :=
  (W4_arr m ρ c 9).trans (Region1Q.final (V3 m ρ) c)
/-- Region 1's query rows folded back to `[8, 4096, 512]`. -/
theorem W5_v15 (c : Dev nD) : W5 m ρ c (Proc.devRef .tc main_v15)
    = shapeCast S8x4096x512 (W4 m ρ c (Proc.devRef .tc main_v12_2)) shapeCasts_S32768x512_S8x4096x512 := by
  show StableHlo.after hostOps2 (W4 m ρ c) (Proc.devRef .tc main_v15) = _
  after_results <;> rfl
/-- The folded queries reach region 7 unchanged. -/
theorem W15_v15 (c : Dev nD) : W15 m ρ c (Proc.devRef .tc main_v15) = W5 m ρ c (Proc.devRef .tc main_v15) :=
  calc W15 m ρ c (Proc.devRef .tc main_v15)
    _ = W14 m ρ c (Proc.devRef .tc main_v15) := StableHlo.after_of_forall_not_mem (b := Proc.devRef .tc main_v15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v15) := W14_of_ne m ρ c main_v15 (by decide)
    _ = W12 m ρ c (Proc.devRef .tc main_v15) := StableHlo.after_of_forall_not_mem (b := Proc.devRef .tc main_v15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v15) := W12_of_ne m ρ c main_v15 (by decide)
    _ = W10 m ρ c (Proc.devRef .tc main_v15) := StableHlo.after_of_forall_not_mem (b := Proc.devRef .tc main_v15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v15) := W10_of_ne m ρ c main_v15 (by decide)
    _ = W8 m ρ c (Proc.devRef .tc main_v15) := StableHlo.after_of_forall_not_mem (b := Proc.devRef .tc main_v15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := W8_of_ne m ρ c main_v15 (by decide)
    _ = W6 m ρ c (Proc.devRef .tc main_v15) := StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := W6_of_ne m ρ c main_v15 (by decide)
/-- Region 7's queries are the long sequence's projection `hidden·Wq₂ᵀ + bq₂`. -/
theorem q2_eq (c : Dev nD) : W15 m ρ c (Proc.devRef .tc main_v15)
    = fun i => Cert.Spec.lin (Whole.argsOf m c).hidden (Whole.argsOf m c).wq2 (Whole.argsOf m c).bq2 (i 0) (i 1) (i 2) := by
  refine (W15_v15 m ρ c).trans ((W5_v15 m ρ c).trans ?_)
  rw [W4_v12_2]
  funext i
  obtain ⟨b, r, o, rfl⟩ : ∃ (b : Fin 8) (r : Fin 4096) (o : Fin 512), i = ix3 b r o := ⟨i 0, i 1, i 2, eq_ix3 i⟩
  have hrow : 4096 * b.val + r.val < 32768 := by have := b.isLt; have := r.isLt; omega
  refine (shapeCast_apply _ _ (ix3 b r o) (ix2 (⟨4096 * b.val + r.val, hrow⟩ : Fin 32768) o) (by
    rw [Shape.rowMajor_val_two, Shape.rowMajor_val_three]
    show (4096 * b.val + r.val) * 512 + o.val = (b.val * 4096 + r.val) * 512 + o.val
    rw [Nat.mul_comm 4096 b.val])).trans ?_
  show Region1Q.G _ _ _ (ix2 (⟨4096 * b.val + r.val, hrow⟩ : Fin 32768) o) = Cert.Spec.lin (Whole.argsOf m c).hidden (Whole.argsOf m c).wq2 (Whole.argsOf m c).bq2 b r o
  unfold Region1Q.G Cert.Spec.lin
  refine congrArg₂ (· + ·) (Finset.sum_congr rfl fun k _ => congrArg₂ (· * ·) ?_ ?_) ?_
  · refine (congrFun (W3_v5 m ρ c) _).trans ?_
    refine (shapeCast_apply _ _ _ (ix3 b r k) (by
      rw [Shape.rowMajor_val_two, Shape.rowMajor_val_three]
      show (b.val * 4096 + r.val) * 1024 + k.val = (4096 * b.val + r.val) * 1024 + k.val
      rw [Nat.mul_comm 4096 b.val])).trans ?_
    exact congrFun (W2_arg0 m ρ c) _
  · refine (congrFun (W3_v8 m ρ c) _).trans ?_
    refine (transpose_ix2_apply _ _ k o).trans ?_
    exact congrFun (W2_arg10 m ρ c) _
  · refine (congrFun (W3_v11 m ρ c) _).trans ?_
    refine (shapeCast_a_1a_apply _ _ (0 : Fin 1) o).trans ?_
    exact congrFun (W2_arg11 m ρ c) _
/-- `out₁` is untouched by region 4. -/
theorem W10_v21 (c : Dev nD) : W10 m ρ c (Proc.devRef .tc main_v21) = W9 m ρ c (Proc.devRef .tc main_v21) :=
  calc W10 m ρ c (Proc.devRef .tc main_v21)
    _ = W9 m ρ c (Proc.devRef .tc main_v21) := W10_of_ne m ρ c main_v21 (by decide)
/-- `Wk₂` is untouched up to region 5's stretch. -/
theorem W10_arg12 (c : Dev nD) : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
/-- `bk₂` is untouched up to region 5's stretch. -/
theorem W10_arg13 (c : Dev nD) : W10 m ρ c (Proc.devRef .tc main_arg13) = m ((c : Thread nD τ).loc main_arg13) :=
  calc W10 m ρ c (Proc.devRef .tc main_arg13)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
/-- `out₁` flattened to rows for region 5. -/
theorem W11_v28 (c : Dev nD) : W11 m ρ c (Proc.devRef .tc main_v28)
    = shapeCast S2048x512 (W10 m ρ c (Proc.devRef .tc main_v21)) shapeCasts_S8x256x512_S2048x512 := by
  show StableHlo.after hostOps5 (W10 m ρ c) (Proc.devRef .tc main_v28) = _
  after_results <;> rfl
/-- `Wk₂` transposed. -/
theorem W11_v29 (c : Dev nD) : W11 m ρ c (Proc.devRef .tc main_v29)
    = transpose S512x512 [1, 0] (W10 m ρ c (Proc.devRef .tc main_arg12)) transposes_S512x512_S512x512_1_0 := by
  show StableHlo.after hostOps5 (W10 m ρ c) (Proc.devRef .tc main_v29) = _
  after_results <;> rfl
/-- `bk₂` as a row. -/
theorem W11_v30 (c : Dev nD) : W11 m ρ c (Proc.devRef .tc main_v30)
    = shapeCast S1x512 (W10 m ρ c (Proc.devRef .tc main_arg13)) shapeCasts_S512_S1x512 := by
  show StableHlo.after hostOps5 (W10 m ρ c) (Proc.devRef .tc main_v30) = _
  after_results <;> rfl
/-- Region 5's output array, from what its stretch left. -/
theorem W12_v31 (c : Dev nD) : W12 m ρ c (Proc.devRef .tc main_v31)
    = Region5.G (W11 m ρ c (Proc.devRef .tc main_v28)) (W11 m ρ c (Proc.devRef .tc main_v29)) (W11 m ρ c (Proc.devRef .tc main_v30)) :=
  (W12_arr m ρ c 3).trans (Region5.final (V11 m ρ) c)
/-- Region 5's rows folded back to `[8, 256, 512]`. -/
theorem W13_v32 (c : Dev nD) : W13 m ρ c (Proc.devRef .tc main_v32)
    = shapeCast S8x256x512 (W12 m ρ c (Proc.devRef .tc main_v31)) shapeCasts_S2048x512_S8x256x512 := by
  show StableHlo.after hostOps6 (W12 m ρ c) (Proc.devRef .tc main_v32) = _
  after_results <;> rfl
/-- The folded keys reach region 7 unchanged. -/
theorem W15_v32 (c : Dev nD) : W15 m ρ c (Proc.devRef .tc main_v32) = W13 m ρ c (Proc.devRef .tc main_v32) :=
  calc W15 m ρ c (Proc.devRef .tc main_v32)
    _ = W14 m ρ c (Proc.devRef .tc main_v32) := StableHlo.after_of_forall_not_mem (b := Proc.devRef .tc main_v32) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v32) := W14_of_ne m ρ c main_v32 (by decide)
/-- Region 7's keys are `out₁·Wk₂ᵀ + bk₂`. -/
theorem k2_eq (c : Dev nD) : W15 m ρ c (Proc.devRef .tc main_v32)
    = fun i => Cert.Spec.lin (Cert.Spec.out1 Cert.Spec.σ₀ (Whole.argsOf m c)) (Whole.argsOf m c).wk2 (Whole.argsOf m c).bk2 (i 0) (i 1) (i 2) := by
  refine (W15_v32 m ρ c).trans ((W13_v32 m ρ c).trans ?_)
  rw [W12_v31]
  funext i
  obtain ⟨b, r, o, rfl⟩ : ∃ (b : Fin 8) (r : Fin 256) (o : Fin 512), i = ix3 b r o := ⟨i 0, i 1, i 2, eq_ix3 i⟩
  have hrow : 256 * b.val + r.val < 2048 := by have := b.isLt; have := r.isLt; omega
  refine (shapeCast_apply _ _ (ix3 b r o) (ix2 (⟨256 * b.val + r.val, hrow⟩ : Fin 2048) o) (by
    rw [Shape.rowMajor_val_two, Shape.rowMajor_val_three]
    show (256 * b.val + r.val) * 512 + o.val = (b.val * 256 + r.val) * 512 + o.val
    rw [Nat.mul_comm 256 b.val])).trans ?_
  show Region5.G _ _ _ (ix2 (⟨256 * b.val + r.val, hrow⟩ : Fin 2048) o) = Cert.Spec.lin (Cert.Spec.out1 Cert.Spec.σ₀ (Whole.argsOf m c)) (Whole.argsOf m c).wk2 (Whole.argsOf m c).bk2 b r o
  unfold Region5.G Cert.Spec.lin
  refine congrArg₂ (· + ·) (Finset.sum_congr rfl fun k _ => congrArg₂ (· * ·) ?_ ?_) ?_
  · refine (congrFun (W11_v28 m ρ c) _).trans ?_
    refine (shapeCast_apply _ _ _ (ix3 b r k) (by
      rw [Shape.rowMajor_val_two, Shape.rowMajor_val_three]
      show (b.val * 256 + r.val) * 512 + k.val = (256 * b.val + r.val) * 512 + k.val
      rw [Nat.mul_comm 256 b.val])).trans ?_
    exact (congrFun (W10_v21 m ρ c) _).trans (congrFun (out1_eq m ρ c) _)
  · refine (congrFun (W11_v29 m ρ c) _).trans ?_
    refine (transpose_ix2_apply _ _ k o).trans ?_
    exact congrFun (W10_arg12 m ρ c) _
  · refine (congrFun (W11_v30 m ρ c) _).trans ?_
    refine (shapeCast_a_1a_apply _ _ (0 : Fin 1) o).trans ?_
    exact congrFun (W10_arg13 m ρ c) _
/-- `out₁` is untouched by regions 4 and 5 and the stretch between them. -/
theorem W12_v21 (c : Dev nD) : W12 m ρ c (Proc.devRef .tc main_v21) = W9 m ρ c (Proc.devRef .tc main_v21) :=
  calc W12 m ρ c (Proc.devRef .tc main_v21)
    _ = W11 m ρ c (Proc.devRef .tc main_v21) := W12_of_ne m ρ c main_v21 (by decide)
    _ = W10 m ρ c (Proc.devRef .tc main_v21) := StableHlo.after_of_forall_not_mem (b := Proc.devRef .tc main_v21) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v21) := W10_of_ne m ρ c main_v21 (by decide)
/-- `Wv₂` is untouched up to region 6's stretch. -/
theorem W12_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl
/-- `bv₂` is untouched up to region 6's stretch. -/
theorem W12_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl
/-- `out₁` flattened to rows for region 6. -/
theorem W13_v33 (c : Dev nD) : W13 m ρ c (Proc.devRef .tc main_v33)
    = shapeCast S2048x512 (W12 m ρ c (Proc.devRef .tc main_v21)) shapeCasts_S8x256x512_S2048x512 := by
  show StableHlo.after hostOps6 (W12 m ρ c) (Proc.devRef .tc main_v33) = _
  after_results <;> rfl
/-- `Wv₂` transposed. -/
theorem W13_v34 (c : Dev nD) : W13 m ρ c (Proc.devRef .tc main_v34)
    = transpose S512x1024 [1, 0] (W12 m ρ c (Proc.devRef .tc main_arg14)) transposes_S1024x512_S512x1024_1_0 := by
  show StableHlo.after hostOps6 (W12 m ρ c) (Proc.devRef .tc main_v34) = _
  after_results <;> rfl
/-- `bv₂` as a row. -/
theorem W13_v35 (c : Dev nD) : W13 m ρ c (Proc.devRef .tc main_v35)
    = shapeCast S1x1024 (W12 m ρ c (Proc.devRef .tc main_arg15)) shapeCasts_S1024_S1x1024 := by
  show StableHlo.after hostOps6 (W12 m ρ c) (Proc.devRef .tc main_v35) = _
  after_results <;> rfl
/-- Region 6's output array, from what its stretch left. -/
theorem W14_v36 (c : Dev nD) : W14 m ρ c (Proc.devRef .tc main_v36)
    = Region6.G (W13 m ρ c (Proc.devRef .tc main_v33)) (W13 m ρ c (Proc.devRef .tc main_v34)) (W13 m ρ c (Proc.devRef .tc main_v35)) :=
  (W14_arr m ρ c 3).trans (Region6.final (V13 m ρ) c)
/-- Region 6's rows folded back to `[8, 256, 1024]`. -/
theorem W15_v37 (c : Dev nD) : W15 m ρ c (Proc.devRef .tc main_v37)
    = shapeCast S8x256x1024 (W14 m ρ c (Proc.devRef .tc main_v36)) shapeCasts_S2048x1024_S8x256x1024 := by
  show StableHlo.after hostOps7 (W14 m ρ c) (Proc.devRef .tc main_v37) = _
  after_results <;> rfl
/-- Region 7's values are `out₁·Wv₂ᵀ + bv₂`. -/
theorem v2_eq (c : Dev nD) : W15 m ρ c (Proc.devRef .tc main_v37)
    = fun i => Cert.Spec.lin (Cert.Spec.out1 Cert.Spec.σ₀ (Whole.argsOf m c)) (Whole.argsOf m c).wv2 (Whole.argsOf m c).bv2 (i 0) (i 1) (i 2) := by
  refine (W15_v37 m ρ c).trans ?_
  rw [W14_v36]
  funext i
  obtain ⟨b, r, o, rfl⟩ : ∃ (b : Fin 8) (r : Fin 256) (o : Fin 1024), i = ix3 b r o := ⟨i 0, i 1, i 2, eq_ix3 i⟩
  have hrow : 256 * b.val + r.val < 2048 := by have := b.isLt; have := r.isLt; omega
  refine (shapeCast_apply _ _ (ix3 b r o) (ix2 (⟨256 * b.val + r.val, hrow⟩ : Fin 2048) o) (by
    rw [Shape.rowMajor_val_two, Shape.rowMajor_val_three]
    show (256 * b.val + r.val) * 1024 + o.val = (b.val * 256 + r.val) * 1024 + o.val
    rw [Nat.mul_comm 256 b.val])).trans ?_
  show Region6.G _ _ _ (ix2 (⟨256 * b.val + r.val, hrow⟩ : Fin 2048) o) = Cert.Spec.lin (Cert.Spec.out1 Cert.Spec.σ₀ (Whole.argsOf m c)) (Whole.argsOf m c).wv2 (Whole.argsOf m c).bv2 b r o
  unfold Region6.G Cert.Spec.lin
  refine congrArg₂ (· + ·) (Finset.sum_congr rfl fun k _ => congrArg₂ (· * ·) ?_ ?_) ?_
  · refine (congrFun (W13_v33 m ρ c) _).trans ?_
    refine (shapeCast_apply _ _ _ (ix3 b r k) (by
      rw [Shape.rowMajor_val_two, Shape.rowMajor_val_three]
      show (b.val * 256 + r.val) * 512 + k.val = (256 * b.val + r.val) * 512 + k.val
      rw [Nat.mul_comm 256 b.val])).trans ?_
    exact (congrFun (W12_v21 m ρ c) _).trans (congrFun (out1_eq m ρ c) _)
  · refine (congrFun (W13_v34 m ρ c) _).trans ?_
    refine (transpose_ix2_apply _ _ k o).trans ?_
    exact congrFun (W12_arg14 m ρ c) _
  · refine (congrFun (W13_v35 m ρ c) _).trans ?_
    refine (shapeCast_a_1a_apply _ _ (0 : Fin 1) o).trans ?_
    exact congrFun (W12_arg15 m ρ c) _
/-- The unpack layer's attention weights are untouched after region 7. -/
theorem W19_v38_1 (c : Dev nD) : W19 m ρ c (Proc.devRef .tc main_v38_1) = W16 m ρ c (Proc.devRef .tc main_v38_1) :=
  calc W19 m ρ c (Proc.devRef .tc main_v38_1)
    _ = W18 m ρ c (Proc.devRef .tc main_v38_1) := StableHlo.after_of_forall_not_mem (b := Proc.devRef .tc main_v38_1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v38_1) := W18_of_ne m ρ c main_v38_1 (by decide)
    _ = W16 m ρ c (Proc.devRef .tc main_v38_1) := StableHlo.after_of_forall_not_mem (b := Proc.devRef .tc main_v38_1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The unpack layer's attention-weights buffer ends at the specification's `attn₂` of the launch arguments. -/
theorem attn2_eq (c : Dev nD) : W19 m ρ c (Proc.devRef .tc main_v38_1)
    = fun i => Cert.Spec.attn2 Cert.Spec.σ₀ (Whole.argsOf m c) (i 0) (i 1) (i 2) (i 3) := by
  refine (W19_v38_1 m ρ c).trans (((W16_arr m ρ c 4).trans (Region7A.final (V15 m ρ) c)).trans ?_)
  show Region7A.G (W15 m ρ c (Proc.devRef .tc main_v15)) (W15 m ρ c (Proc.devRef .tc main_v32)) = _
  rw [q2_eq, k2_eq]
  rfl

/-- Region 7's context array is the specification's merged context of the unpack layer. -/
theorem ctx2_eq (c : Dev nD) : W16 m ρ c (Proc.devRef .tc main_v38_0)
    = fun i => Cert.Spec.merged (Cert.Spec.context (Cert.Spec.attn2 Cert.Spec.σ₀ (Whole.argsOf m c))
        (Cert.Spec.lin (Cert.Spec.out1 Cert.Spec.σ₀ (Whole.argsOf m c)) (Whole.argsOf m c).wv2 (Whole.argsOf m c).bv2)) (i 0) (i 1) (i 2) := by
  refine ((W16_arr m ρ c 3).trans (Region7C.final (V15 m ρ) c)).trans ?_
  show Region7C.G (W15 m ρ c (Proc.devRef .tc main_v15)) (W15 m ρ c (Proc.devRef .tc main_v32)) (W15 m ρ c (Proc.devRef .tc main_v37)) = _
  rw [q2_eq, k2_eq, v2_eq]
  funext i
  obtain ⟨b, q, f, rfl⟩ : ∃ (b : Fin 8) (q : Fin 4096) (f : Fin 1024), i = ix3 b q f := ⟨i 0, i 1, i 2, eq_ix3 i⟩
  have hf : f.val < 1024 := f.isLt
  show Region7C.GC3 _ _ _ b q f = Cert.Spec.merged _ b q f
  unfold Region7C.GC3 Cert.Spec.merged Cert.Spec.context
  refine Finset.sum_congr rfl fun n _ => congrArg₂ (· * ·) rfl ?_
  show Cert.Spec.lin _ _ _ b n f = Cert.Spec.lin _ _ _ b n (Cert.Spec.vf ⟨f.val / 128, _⟩ ⟨f.val % 128, _⟩)
  refine congrArg (Cert.Spec.lin _ _ _ b n) (Fin.ext ?_)
  show f.val = 128 * (f.val / 128) + f.val % 128
  omega

end Cert.KernelIdeal.ChainUnpack

end
-- ==== Proof.LibLayerNorm.lean ====
/-
  LayerNorm's normalisation on the extended reals.

  A LayerNorm divides a centred row by the square root of its variance plus a positive ε; a program may instead multiply
  by the reciprocal square root. On the extended reals the two agree exactly when the radicand is positive:
  for a positive real `y` both are `x · (√y)⁻¹`, and for `y = ⊤` both are `x · 0` (`√⊤ = ⊤`, `⊤⁻¹ = 0`, `rsqrt ⊤ = 0`).
  At `y = 0` they differ (the quotient by zero is an infinity of `x`'s sign or the junk value, the product is `x · ⊤`),
  and below zero both square roots are the junk value `⊥` but `x · ⊥` and `x · ⊥⁻¹ = x · 0` differ.

  The radicand of a LayerNorm is positive whatever the row holds: a square `a · a` is non-negative for every extended
  real (`⊥ · ⊥ = ⊤`), so is a finite sum of squares, so is its quotient by a positive real, and ε is positive.
-/
import Idealize.ShloMosaic.PureOps.Ideal
import Idealize.ShloMosaic.PureOps.Ideal.Laws

noncomputable section

namespace Idealize.ShloMosaic.LayerNorm

open Idealize.ShloMosaic

/-- Multiplying by the reciprocal square root of a positive extended real is dividing by its square root. For a positive
    real `r` both sides are `x · (√r)⁻¹` (`√r ≠ 0`, so the quotient is the product with the inverse); at `⊤` both are `x · 0`. -/
theorem mul_rsqrt_eq_div_sqrt (x : EReal) {y : EReal} (hy : 0 < y) :
    x * Ideal.rsqrt y = Ideal.div x (Ideal.sqrt y) := by
  induction y using EReal.rec with
  | bot => exact absurd hy (not_lt.mpr bot_le)
  | top =>
    rw [Ideal.rsqrt_top, Ideal.sqrt_top]
    unfold Ideal.div
    rw [if_neg EReal.top_ne_zero, EReal.inv_top]
  | coe r =>
    have hr : 0 < r := EReal.coe_pos.mp hy
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- A square is non-negative on the extended reals: both factors lie on the same side of zero (`⊥ · ⊥ = ⊤`). -/
theorem mul_self_nonneg (a : EReal) : 0 ≤ a * a :=
  EReal.mul_nonneg_iff.mpr ((le_total 0 a).imp (fun h => ⟨h, h⟩) (fun h => ⟨h, h⟩))

/-- The quotient of a non-negative extended real by a positive real is non-negative: it is the product with the
    reciprocal, a positive real. -/
theorem div_coe_nonneg {s : EReal} (hs : 0 ≤ s) {n : ℝ} (hn : 0 < n) : 0 ≤ Ideal.div s (n : EReal) := by
  rw [Ideal.div_coe hn.ne']
  exact EReal.mul_nonneg hs (EReal.coe_nonneg.mpr (one_div_pos.mpr hn).le)

/-- The mean of squares over a positive real length, plus a positive ε, is positive — whatever the row holds. -/
theorem meanSq_add_pos {D : ℕ} (d : Fin D → EReal) {n : ℝ} (hn : 0 < n) {ε : EReal} (hε : 0 < ε) :
    0 < Ideal.div (∑ j : Fin D, d j * d j) (n : EReal) + ε := by
  have h0 : 0 ≤ Ideal.div (∑ j : Fin D, d j * d j) (n : EReal) :=
    div_coe_nonneg (Finset.sum_nonneg fun j _ => mul_self_nonneg (d j)) hn
  calc (0 : EReal) < ε := hε
    _ = 0 + ε := (zero_add ε).symm
    _ ≤ Ideal.div (∑ j : Fin D, d j * d j) (n : EReal) + ε := add_le_add h0 le_rfl

/-- The LayerNorm step itself: a centred entry times the reciprocal square root of (mean of squares + ε) is that entry
    over the square root, for every row of extended reals, a positive real length and a positive ε. -/
theorem mul_rsqrt_meanSq (x : EReal) {D : ℕ} (d : Fin D → EReal) {n : ℝ} (hn : 0 < n) {ε : EReal} (hε : 0 < ε) :
    x * Ideal.rsqrt (Ideal.div (∑ j : Fin D, d j * d j) (n : EReal) + ε)
      = Ideal.div x (Ideal.sqrt (Ideal.div (∑ j : Fin D, d j * d j) (n : EReal) + ε)) :=
  mul_rsqrt_eq_div_sqrt x (meanSq_add_pos d hn hε)

/-- The binary32 word `0x44000000` denotes the real `512 = 2⁹`. -/
theorem ofBits_512_f32 : Ideal.ofBits .f32 0x44000000#32 = ((512 : ℝ) : EReal) := by
  simp [Ideal.ofBits, Ideal.ieee, -EReal.coe_mul]; norm_num

/-- The binary32 word `0x44800000` denotes the real `1024 = 2¹⁰`. -/
theorem ofBits_1024_f32 : Ideal.ofBits .f32 0x44800000#32 = ((1024 : ℝ) : EReal) := by
  simp [Ideal.ofBits, Ideal.ieee, -EReal.coe_mul]; norm_num

/-- The binary32 word `0x3727C5AC` (the float nearest `10⁻⁵`: `10995116 · 2⁻⁴⁰`) denotes a positive real. -/
theorem ofBits_eps_f32_pos : 0 < Ideal.ofBits .f32 0x3727C5AC#32 := by
  simp [Ideal.ofBits, Ideal.ieee, -EReal.coe_mul]

end Idealize.ShloMosaic.LayerNorm

end
-- ==== Proof.KernelLNPayload.lean ====
/-
  The LayerNorm regions' arithmetic, read at an entry.

  Both bodies end in the same row LayerNorm of a block `s` (512 rows): the row mean `μ = (∑ⱼ s[p, j]) / n` is kept as a column
  and subtracted; the mean of the squared deviations, plus ε, is taken to its reciprocal square root, kept as a column and
  multiplied in; the gain row scales and the bias row shifts every row. At entry `(p, q)` that is
  `(s[p, q] − μ) · rsqrt (var + ε) · g[0, q] + β[0, q]`. The radicand is positive for every row of extended reals — a mean of
  squares over a positive length is non-negative and ε is positive —, and there the product with the reciprocal square root
  is the quotient by the square root, which is how the specification writes the same entry.

  In region 4 the block is the residual sum `x + r`; in region 8 it is `h + (ctx·wT + bias)`, the projection read as a
  linear region's: `(∑ₖ ctx[p, k] · wT[k, j]) + bias[0, j]`.
-/
import proofs.«120082_j85341000171970_2_alg».proof.Proof.Gen.KernelIdeal.Skeleton
import proofs.«120082_j85341000171970_2_alg».proof.Proof.Spec
import proofs.«120082_j85341000171970_2_alg».proof.Proof.LibColumnLayout
import proofs.«120082_j85341000171970_2_alg».proof.Proof.LibLayerNorm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.LNPay

open Cert.KernelIdeal Cert.KernelIdeal.Gen
open Idealize.ShloMosaic Idealize.ShloMosaic.ValueIdx

/-- A row mean in its printed form — the row sum kept as a column, divided by a column of the length `n`, broadcast back
    along the row — read at an entry: the sum of the row's entries over `n`. -/
theorem meanCol_apply {a b : ℕ} (s : FVec Ideal ⟨2, ![a, b]⟩ .f32)
    (h : (⟨2, ![a, b]⟩ : Shape).Reduces [1] ⟨1, ![a]⟩) (hφ : FKind.Formats FTy.f32)
    (hadd : (0x00000000#32 : BitVec FTy.f32.bits) = FKind.add.neutral .f32 hφ)
    (hc : (⟨1, ![a]⟩ : Shape).ShapeCasts ⟨2, ![a, 1]⟩) (n : EReal) (m : Fin a) (u : Fin 1) :
    divf (shapeCast ⟨2, ![a, 1]⟩ (multiReduction .add [1] ⟨1, ![a]⟩ s 0x00000000#32 h hφ hadd) hc)
        (broadcast ⟨2, ![a, 1]⟩ n) (ix2 m u)
      = Cert.Spec.rowMean n (fun j => s (ix2 m j)) := by
  rw [divf_apply, ColumnLayout.shapeCast_a_a1_apply, ColumnLayout.rowSum_apply, broadcast_apply]
  rfl

/-- A row LayerNorm in its printed form, read at an entry. The row mean `μ` (above) is subtracted; the mean of the squared
    deviations plus ε is taken to its reciprocal square root, kept as a column and broadcast back; the product is scaled by
    `G` and shifted by `B`. At `(m, q)` that is `(s[m, q] − μ) · rsqrt (var + ε) · G[m, q] + B[m, q]`, and the radicand is
    positive (a mean of squares over a positive length, plus a positive ε), so the product with the reciprocal square
    root is the quotient by the square root: the specification's LayerNorm of row `m`. -/
theorem rowLN_apply {a b : ℕ} (s G B : FVec Ideal ⟨2, ![a, b]⟩ .f32)
    (h : (⟨2, ![a, b]⟩ : Shape).Reduces [1] ⟨1, ![a]⟩) (hφ hφ' : FKind.Formats FTy.f32)
    (hadd : (0x00000000#32 : BitVec FTy.f32.bits) = FKind.add.neutral .f32 hφ)
    (hadd' : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (nE εE : EReal) {n : ℝ} (hn : nE = (n : EReal)) (hn0 : 0 < n) (hε : 0 < εE) (m : Fin a) (q : Fin b) :
    addf (mulf (mulf
        (subf s (broadcastTo ⟨2, ![a, b]⟩
          (divf (shapeCast ⟨2, ![a, 1]⟩ (multiReduction .add [1] ⟨1, ![a]⟩ s 0x00000000#32 h hφ hadd) hc)
            (broadcast ⟨2, ![a, 1]⟩ nE)) hb))
        (broadcastTo ⟨2, ![a, b]⟩
          (rsqrt (addf
            (divf (shapeCast ⟨2, ![a, 1]⟩
                (multiReduction .add [1] ⟨1, ![a]⟩
                  (mulf
                    (subf s (broadcastTo ⟨2, ![a, b]⟩
                      (divf (shapeCast ⟨2, ![a, 1]⟩ (multiReduction .add [1] ⟨1, ![a]⟩ s 0x00000000#32 h hφ hadd) hc)
                        (broadcast ⟨2, ![a, 1]⟩ nE)) hb))
                    (subf s (broadcastTo ⟨2, ![a, b]⟩
                      (divf (shapeCast ⟨2, ![a, 1]⟩ (multiReduction .add [1] ⟨1, ![a]⟩ s 0x00000000#32 h hφ hadd) hc)
                        (broadcast ⟨2, ![a, 1]⟩ nE)) hb)))
                  0x00000000#32 h hφ' hadd') hc)
              (broadcast ⟨2, ![a, 1]⟩ nE))
            (broadcast ⟨2, ![a, 1]⟩ εE))) hb)) G) B (ix2 m q)
      = Cert.Spec.lnRow nE εE (fun j => s (ix2 m j)) (fun j => G (ix2 m j)) (fun j => B (ix2 m j)) q := by
  have hmean : ∀ j : Fin b,
      subf s (broadcastTo ⟨2, ![a, b]⟩
          (divf (shapeCast ⟨2, ![a, 1]⟩ (multiReduction .add [1] ⟨1, ![a]⟩ s 0x00000000#32 h hφ hadd) hc)
            (broadcast ⟨2, ![a, 1]⟩ nE)) hb) (ix2 m j)
        = s (ix2 m j) - Cert.Spec.rowMean nE (fun j => s (ix2 m j)) := by
    intro j
    rw [subf_apply, ColumnLayout.broadcastTo_a1_ab_apply, meanCol_apply]
  rw [addf_apply, mulf_apply, mulf_apply, hmean q, ColumnLayout.broadcastTo_a1_ab_apply]
  show (s (ix2 m q) - Cert.Spec.rowMean nE (fun j => s (ix2 m j)))
        * Ideal.rsqrt (divf (shapeCast ⟨2, ![a, 1]⟩ (_ : FVec Ideal ⟨1, ![a]⟩ .f32) hc : FVec Ideal ⟨2, ![a, 1]⟩ .f32)
              (broadcast ⟨2, ![a, 1]⟩ nE) (ix2 m (0 : Fin 1)) + εE)
        * G (ix2 m q) + B (ix2 m q) = _
  rw [meanCol_apply]
  unfold Cert.Spec.lnRow
  simp only [mulf_apply, hmean]
  subst hn
  unfold Cert.Spec.rowMean
  rw [Idealize.ShloMosaic.LayerNorm.mul_rsqrt_meanSq _ _ hn0 hε]

/-- The LayerNorm's ε is positive, and the two row lengths are the reals `512` and `1024`. -/
theorem ε₀_pos : 0 < Cert.Spec.ε₀ := Idealize.ShloMosaic.LayerNorm.ofBits_eps_f32_pos
theorem n512₀_eq : Cert.Spec.n512₀ = ((512 : ℝ) : EReal) := Idealize.ShloMosaic.LayerNorm.ofBits_512_f32
theorem n1024₀_eq : Cert.Spec.n1024₀ = ((1024 : ℝ) : EReal) := Idealize.ShloMosaic.LayerNorm.ofBits_1024_f32

/-- The short sequence's residual LayerNorm (region 4): row `p` of the block is `x[p, ·] + r[p, ·]`, normalised by itself,
    scaled by the gain row and shifted by the bias row. -/
theorem k4_pay1_apply (x r : Vec Ideal S512x512 .f32) (g b : Vec Ideal S1x512 .f32) (p q : Fin 512) :
    k4_pay1 (F := Ideal) x r g b (ix2 p q)
      = Cert.Spec.lnRow Cert.Spec.n512₀ Cert.Spec.ε₀ (fun j => x (ix2 p j) + r (ix2 p j))
          (fun j => g (ix2 (0 : Fin 1) j)) (fun j => b (ix2 (0 : Fin 1) j)) q := by
  unfold k4_pay1
  refine (rowLN_apply _ _ _ _ _ _ _ _ _ _ Cert.Spec.n512₀ Cert.Spec.ε₀ n512₀_eq (by norm_num) ε₀_pos p q).trans ?_
  have hrow : (fun j : Fin 512 => addf (F := Ideal) (φ := .f32) (shapeCast S512x512 x shapeCasts_S512x512_S512x512)
      (shapeCast S512x512 r shapeCasts_S512x512_S512x512) (ix2 p j)) = fun j => x (ix2 p j) + r (ix2 p j) := by
    funext j; rw [addf_apply, shapeCast_self, shapeCast_self]
  have hg : (fun j : Fin 512 => broadcastTo S512x512 (shapeCast S1x512 g shapeCasts_S1x512_S1x512)
      broadcasts_S1x512_S512x512 (ix2 p j)) = fun j => g (ix2 (0 : Fin 1) j) := by
    funext j; rw [shapeCast_self]; exact broadcastTo_1b_ab_apply g _ p j
  have hb : (fun j : Fin 512 => broadcastTo S512x512 (shapeCast S1x512 b shapeCasts_S1x512_S1x512)
      broadcasts_S1x512_S512x512 (ix2 p j)) = fun j => b (ix2 (0 : Fin 1) j) := by
    funext j; rw [shapeCast_self]; exact broadcastTo_1b_ab_apply b _ p j
  rw [hrow, hg, hb]

/-- The unpack layer's output projection with its bias, read at an entry: `(∑ₖ ctx[p, k] · wT[k, j]) + bias[0, j]` — the
    operands are rounded to the matrix unit's input format (the identity on the extended reals) and multiplied into a zero
    accumulator; the contraction index has one axis, whose coordinate `k` picks `ctx[p, k]` and `wT[k, j]`. -/
theorem k8_proj_apply (ctx : Vec Ideal S512x1024 .f32) (wT : Vec Ideal S1024x1024 .f32) (bias : Vec Ideal S1x1024 .f32)
    (p : Fin 512) (j : Fin 1024) :
    addf (F := Ideal) (φ := .f32) (matmul (F := Ideal) dot_S512x1024_S1024x1024_S512x1024_1_0_0_1_n_n none
          (truncf .bf16 (shapeCast S512x1024 ctx shapeCasts_S512x1024_S512x1024) bitsLt_bf16_f32)
          (truncf .bf16 (shapeCast S1024x1024 wT shapeCasts_S1024x1024_S1024x1024) bitsLt_bf16_f32)
          (constant (F := Ideal) S512x1024 .f32 0x00000000#32))
        (broadcastTo S512x1024 (shapeCast S1x1024 bias shapeCasts_S1x1024_S1x1024) broadcasts_S1x1024_S512x1024) (ix2 p j)
      = (∑ k : Fin 1024, ctx (ix2 p k) * wT (ix2 k j)) + bias (ix2 (0 : Fin 1) j) := by
  rw [addf_apply, shapeCast_self, shapeCast_self, shapeCast_self]
  refine congrArg₂ (· + ·) ?_ ?_
  · refine (Ideal.matmul_constant_zero_apply dot_S512x1024_S1024x1024_S512x1024_1_0_0_1_n_n none _ _ (ix2 p j)).trans ?_
    refine (Equiv.sum_comp (contrEquiv1 dot_S512x1024_S1024x1024_S512x1024_1_0_0_1_n_n 1024 rfl rfl).symm _).symm.trans ?_
    refine Finset.sum_congr rfl fun k _ => ?_
    have hl : dot_S512x1024_S1024x1024_S512x1024_1_0_0_1_n_n.lhsIdx (ix2 p j) ((contrEquiv1 dot_S512x1024_S1024x1024_S512x1024_1_0_0_1_n_n 1024 rfl rfl).symm k) = ix2 p k := by
      funext a; apply Fin.ext
      match a with
      | ⟨0, _⟩ => rfl
      | ⟨1, _⟩ =>
        exact (dot_S512x1024_S1024x1024_S512x1024_1_0_0_1_n_n.lhsIdx_val_of_single (cl := 1) rfl (ix2 p j) _).trans
          (contrEquiv1_symm_val dot_S512x1024_S1024x1024_S512x1024_1_0_0_1_n_n 1024 rfl rfl k)
    have hr : dot_S512x1024_S1024x1024_S512x1024_1_0_0_1_n_n.rhsIdx (ix2 p j) ((contrEquiv1 dot_S512x1024_S1024x1024_S512x1024_1_0_0_1_n_n 1024 rfl rfl).symm k) = ix2 k j := by
      funext a; apply Fin.ext
      match a with
      | ⟨0, _⟩ =>
        exact (dot_S512x1024_S1024x1024_S512x1024_1_0_0_1_n_n.rhsIdx_val_of_single (cr := 0) rfl (ix2 p j) _).trans
          (contrEquiv1_symm_val dot_S512x1024_S1024x1024_S512x1024_1_0_0_1_n_n 1024 rfl rfl k)
      | ⟨1, _⟩ => rfl
    rw [truncf_apply, truncf_apply, hl, hr]
  · exact broadcastTo_1b_ab_apply bias _ p j

/-- The long sequence's output projection fused with its residual LayerNorm (region 8): row `p` of the block is
    `h[p, ·] + (ctx[p, ·]·wT + bias)`, normalised by itself, scaled by the gain row and shifted by the bias row. -/
theorem k8_pay1_apply (ctx : Vec Ideal S512x1024 .f32) (wT : Vec Ideal S1024x1024 .f32) (bias : Vec Ideal S1x1024 .f32)
    (h : Vec Ideal S512x1024 .f32) (g b : Vec Ideal S1x1024 .f32) (p : Fin 512) (q : Fin 1024) :
    k8_pay1 (F := Ideal) ctx wT bias h g b (ix2 p q)
      = Cert.Spec.lnRow Cert.Spec.n1024₀ Cert.Spec.ε₀
          (fun j => h (ix2 p j) + ((∑ k : Fin 1024, ctx (ix2 p k) * wT (ix2 k j)) + bias (ix2 (0 : Fin 1) j)))
          (fun j => g (ix2 (0 : Fin 1) j)) (fun j => b (ix2 (0 : Fin 1) j)) q := by
  unfold k8_pay1
  refine (rowLN_apply _ _ _ _ _ _ _ _ _ _ Cert.Spec.n1024₀ Cert.Spec.ε₀ n1024₀_eq (by norm_num) ε₀_pos p q).trans ?_
  have hrow : (fun j : Fin 1024 => addf (F := Ideal) (φ := .f32) (shapeCast S512x1024 h shapeCasts_S512x1024_S512x1024)
      (addf (F := Ideal) (φ := .f32) (matmul (F := Ideal) dot_S512x1024_S1024x1024_S512x1024_1_0_0_1_n_n none
          (truncf .bf16 (shapeCast S512x1024 ctx shapeCasts_S512x1024_S512x1024) bitsLt_bf16_f32)
          (truncf .bf16 (shapeCast S1024x1024 wT shapeCasts_S1024x1024_S1024x1024) bitsLt_bf16_f32)
          (constant (F := Ideal) S512x1024 .f32 0x00000000#32))
        (broadcastTo S512x1024 (shapeCast S1x1024 bias shapeCasts_S1x1024_S1x1024) broadcasts_S1x1024_S512x1024)) (ix2 p j))
      = fun j => h (ix2 p j) + ((∑ k : Fin 1024, ctx (ix2 p k) * wT (ix2 k j)) + bias (ix2 (0 : Fin 1) j)) := by
    funext j
    rw [addf_apply, shapeCast_self]
    exact congrArg (h (ix2 p j) + ·) (k8_proj_apply ctx wT bias p j)
  have hg : (fun j : Fin 1024 => broadcastTo S512x1024 (shapeCast S1x1024 g shapeCasts_S1x1024_S1x1024)
      broadcasts_S1x1024_S512x1024 (ix2 p j)) = fun j => g (ix2 (0 : Fin 1) j) := by
    funext j; rw [shapeCast_self]; exact broadcastTo_1b_ab_apply g _ p j
  have hb : (fun j : Fin 1024 => broadcastTo S512x1024 (shapeCast S1x1024 b shapeCasts_S1x1024_S1x1024)
      broadcasts_S1x1024_S512x1024 (ix2 p j)) = fun j => b (ix2 (0 : Fin 1) j) := by
    funext j; rw [shapeCast_self]; exact broadcastTo_1b_ab_apply b _ p j
  rw [hrow, hg, hb]

/-- A row LayerNorm depends only on the entries of the row, the gain and the bias, and on the position read. -/
theorem lnRow_congr {D : ℕ} (n ε : EReal) {row row' g g' β β' : Fin D → EReal} {q q' : Fin D}
    (hrow : ∀ j, row j = row' j) (hg : ∀ j, g j = g' j) (hβ : ∀ j, β j = β' j) (hq : q = q') :
    Cert.Spec.lnRow n ε row g β q = Cert.Spec.lnRow n ε row' g' β' q' := by
  rw [funext hrow, funext hg, funext hβ, hq]

end Cert.KernelIdeal.LNPay

end
-- ==== Proof.KernelRegion4.lean ====
/-
  Region 4: the short sequence's residual LayerNorm, as one function of the arrays the region finds.

  The region runs over 4 grid points; point `t` reads rows `512·t … 512·t + 511` of the flattened sequence `x` and of the
  residual `r` (both [2048, 512]), the whole gain row and bias row ([1, 512]), and writes back the same rows of the output.
  Entry `(p, q)` of the block it writes is entry `q` of the LayerNorm of the row `x[512·t + p, ·] + r[512·t + p, ·]`, which is
  entry `(512·t + p, q)` of ONE function of the four arrays — a row's LayerNorm reads that row only —; the 4 row blocks tile
  the output, so after the region the output array is that function.
-/
import proofs.«120082_j85341000171970_2_alg».proof.Proof.Gen.KernelIdeal.Frame
import proofs.«120082_j85341000171970_2_alg».proof.Proof.KernelLNPayload

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every row of `x + r` normalised by itself, scaled by the gain row and shifted by the bias row. -/
def G (x r : S2048x512.Idx → EReal) (g b : S1x512.Idx → EReal) : S2048x512.Idx → EReal :=
  fun i => Cert.Spec.lnRow Cert.Spec.n512₀ Cert.Spec.ε₀ (fun j => x (ix2 (i 0) j) + r (ix2 (i 0) j))
    (fun j => g (ix2 (0 : Fin 1) j)) (fun j => b (ix2 (0 : Fin 1) j)) (i 1)

/-- The index maps over the grid: the row windows move with the point, the gain and bias windows stay at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

set_option maxHeartbeats 2000000 in
/-- What point `t` writes back is block `t` of `G` of the arrays as the region finds them. -/
theorem flushed_eq (c : Dev nD) (t : Fin cfg4.N) :
    (dat4 V c).flushed 4 t = ((cfg4.win 4).blk t).view.read (Elt Ideal)
      (G (V c (Pipeline.arrRef spec4 0)) (V c (Pipeline.arrRef spec4 1)) (V c (Pipeline.arrRef spec4 2))
        (V c (Pipeline.arrRef spec4 3))) := by
  show (cfg4.win 4).cut (grid4.coords t) ((dat4 V c).after 4 t) = _
  rw [after4_4]
  unfold out4_4
  rw [View.canon_unit_zero hz]
  simp only [View.ld_unit_zero (S := S512x512) hz, View.ld_unit_zero (S := S1x512) hz]
  obtain ⟨e00, e01, e10, e11, e20, e21, e30, e31, e40, e41⟩ := idx_facts t
  funext j
  obtain ⟨p, q, rfl⟩ : ∃ (p : Fin 512) (q : Fin 512), j = ix2 p q := ⟨j 0, j 1, eq_ix2 j⟩
  show k4_pay1 (iblk4 V c 0 t) (iblk4 V c 1 t) (iblk4 V c 2 t) (iblk4 V c 3 t) (ix2 p q)
    = G (V c (Pipeline.arrRef spec4 0)) (V c (Pipeline.arrRef spec4 1)) (V c (Pipeline.arrRef spec4 2))
        (V c (Pipeline.arrRef spec4 3)) (((cfg4.win 4).blk t).view.emb (ix2 p q))
  refine (LNPay.k4_pay1_apply (iblk4 V c 0 t) (iblk4 V c 1 t) (iblk4 V c 2 t) (iblk4 V c 3 t) p q).trans ?_
  unfold G
  refine LNPay.lnRow_congr _ _ (fun k => congrArg₂ (· + ·) ?_ ?_) (fun k => ?_) (fun k => ?_) (Fin.ext ?_)
  · show V c (Pipeline.arrRef spec4 0) (((cfg4.win 0).blk t).view.emb (ix2 p k)) = _
    refine congrArg (V c (Pipeline.arrRef spec4 0)) (funext fun a => Fin.ext ?_)
    match a with
    | ⟨0, _⟩ => show win4_0.index t (0 : Fin 2) * 512 + 1 * p.val = win4_4.index t (0 : Fin 2) * 512 + 1 * p.val; omega
    | ⟨1, _⟩ => show win4_0.index t (1 : Fin 2) * 512 + 1 * k.val = k.val; omega
  · show V c (Pipeline.arrRef spec4 1) (((cfg4.win 1).blk t).view.emb (ix2 p k)) = _
    refine congrArg (V c (Pipeline.arrRef spec4 1)) (funext fun a => Fin.ext ?_)
    match a with
    | ⟨0, _⟩ => show win4_1.index t (0 : Fin 2) * 512 + 1 * p.val = win4_4.index t (0 : Fin 2) * 512 + 1 * p.val; omega
    | ⟨1, _⟩ => show win4_1.index t (1 : Fin 2) * 512 + 1 * k.val = k.val; omega
  · show V c (Pipeline.arrRef spec4 2) (((cfg4.win 2).blk t).view.emb (ix2 (0 : Fin 1) k)) = _
    refine congrArg (V c (Pipeline.arrRef spec4 2)) (funext fun a => Fin.ext ?_)
    match a with
    | ⟨0, _⟩ => show win4_2.index t (0 : Fin 2) * 1 + 1 * 0 = 0; omega
    | ⟨1, _⟩ => show win4_2.index t (1 : Fin 2) * 512 + 1 * k.val = k.val; omega
  · show V c (Pipeline.arrRef spec4 3) (((cfg4.win 3).blk t).view.emb (ix2 (0 : Fin 1) k)) = _
    refine congrArg (V c (Pipeline.arrRef spec4 3)) (funext fun a => Fin.ext ?_)
    match a with
    | ⟨0, _⟩ => show win4_3.index t (0 : Fin 2) * 1 + 1 * 0 = 0; omega
    | ⟨1, _⟩ => show win4_3.index t (1 : Fin 2) * 512 + 1 * k.val = k.val; omega
  · show q.val = win4_4.index t (1 : Fin 2) * 512 + 1 * q.val; omega

/-- An index of the output is in point `t`'s block iff each coordinate is in the block's range on its axis. -/
theorem mem_blk (t : Fin cfg4.N) (i : S2048x512.Idx) :
    i ∈ ((cfg4.win 4).blk t).view.set ↔ ∀ a : Fin 2, win4_4.index t a * S512x512.size a ≤ (i a).val
      ∧ (i a).val < win4_4.index t a * S512x512.size a + S512x512.size a := by
  show i ∈ ((View.whole main_v26).slice (win4_4.rect t)).set ↔ _
  rw [View.set_slice_whole, Rect.mem_set_unit]
  exact Iff.rfl

/-- Every row block of the output is some point's. -/
theorem idx_onto : ∀ q0 : Fin 4, ∃ t : Fin cfg4.N, win4_4.index t = ![q0.val, 0] :=
  (by decide +kernel : ∀ q0 : Fin 4, ∃ t : Fin grid4.N, win4_4.index t = ![q0.val, 0])

/-- The 4 row blocks cover the output: row `r` is in block `r / 512`. -/
theorem cover (i : S2048x512.Idx) :
    ∃ t : Fin cfg4.N, (cfg4.win 4).flush t = true ∧ i ∈ ((cfg4.win 4).blk t).view.set := by
  have hi0 : (i 0).val < 2048 := (i 0).isLt
  have hi1 : (i 1).val < 512 := (i 1).isLt
  obtain ⟨t, ht⟩ := idx_onto ⟨(i 0).val / 512, by omega⟩
  have q0 : win4_4.index t (0 : Fin 2) = (i 0).val / 512 := congrFun ht 0
  have q1 : win4_4.index t (1 : Fin 2) = 0 := congrFun ht 1
  refine ⟨t, flush4_4 t, ?_⟩
  rw [mem_blk]
  intro a
  match a with
  | ⟨0, _⟩ => show win4_4.index t (0 : Fin 2) * 512 ≤ (i 0).val ∧ (i 0).val < win4_4.index t (0 : Fin 2) * 512 + 512; omega
  | ⟨1, _⟩ => show win4_4.index t (1 : Fin 2) * 512 ≤ (i 1).val ∧ (i 1).val < win4_4.index t (1 : Fin 2) * 512 + 512; omega

/-- After the region its output array is `G` of the arrays the region found. -/
theorem final (c : Dev nD) : (dat4 V c).arrAt 4 cfg4.N
    = G (V c (Pipeline.arrRef spec4 0)) (V c (Pipeline.arrRef spec4 1)) (V c (Pipeline.arrRef spec4 2))
        (V c (Pipeline.arrRef spec4 3)) :=
  (dat4 V c).arrAt_eq_of_cover 4 _ (fun t _ => flushed_eq V c t) cover

end Cert.KernelIdeal.Region4

end
-- ==== Proof.KernelRegion8.lean ====
/-
  Region 8: the long sequence's output projection fused with its residual LayerNorm, as one function of the arrays the
  region finds.

  The region runs over 64 grid points; point `t` reads rows `512·t … 512·t + 511` of the flattened context `ctx` and of the
  residual `h` (both [32768, 1024]), the whole transposed weight `wT` ([1024, 1024]) and the projection's bias row, the gain
  row and the LayerNorm's bias row ([1, 1024]), and writes back the same rows of the output. Entry `(p, q)` of the block it
  writes is entry `q` of the LayerNorm of the row `h[512·t + p, ·] + (ctx[512·t + p, ·]·wT + bias)`, which is entry
  `(512·t + p, q)` of ONE function of the six arrays — a row's projection and LayerNorm read that row only —; the 64 row blocks
  tile the output, so after the region the output array is that function.
-/
import proofs.«120082_j85341000171970_2_alg».proof.Proof.Gen.KernelIdeal.Frame
import proofs.«120082_j85341000171970_2_alg».proof.Proof.KernelLNPayload

set_option maxRecDepth 16384

noncomputable section

namespace Cert.KernelIdeal.Region8

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every row of `h + (ctx·wT + bias)` normalised by itself, scaled by the gain row and shifted by the bias row. -/
def G (ctx : S32768x1024.Idx → EReal) (wT : S1024x1024.Idx → EReal) (bias : S1x1024.Idx → EReal)
    (h : S32768x1024.Idx → EReal) (g b : S1x1024.Idx → EReal) : S32768x1024.Idx → EReal :=
  fun i => Cert.Spec.lnRow Cert.Spec.n1024₀ Cert.Spec.ε₀
    (fun j => h (ix2 (i 0) j) + ((∑ k : Fin 1024, ctx (ix2 (i 0) k) * wT (ix2 k j)) + bias (ix2 (0 : Fin 1) j)))
    (fun j => g (ix2 (0 : Fin 1) j)) (fun j => b (ix2 (0 : Fin 1) j)) (i 1)

/-- The index maps over the grid: the row windows move with the point; the weight, bias and gain windows stay at block 0. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

set_option maxHeartbeats 4000000 in
/-- What point `t` writes back is block `t` of `G` of the arrays as the region finds them. -/
theorem flushed_eq (c : Dev nD) (t : Fin cfg8.N) :
    (dat8 V c).flushed 6 t = ((cfg8.win 6).blk t).view.read (Elt Ideal)
      (G (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  show (cfg8.win 6).cut (grid8.coords t) ((dat8 V c).after 6 t) = _
  rw [after8_6]
  unfold out8_6
  rw [View.canon_unit_zero hz]
  simp only [View.ld_unit_zero (S := S512x1024) hz, View.ld_unit_zero (S := S1024x1024) hz,
    View.ld_unit_zero (S := S1x1024) hz]
  obtain ⟨e00, e01, e10, e11, e20, e21, e30, e31, e40, e41, e50, e51, e60, e61⟩ := idx_facts t
  funext j
  obtain ⟨p, q, rfl⟩ : ∃ (p : Fin 512) (q : Fin 1024), j = ix2 p q := ⟨j 0, j 1, eq_ix2 j⟩
  show k8_pay1 (iblk8 V c 0 t) (iblk8 V c 1 t) (iblk8 V c 2 t) (iblk8 V c 3 t) (iblk8 V c 4 t) (iblk8 V c 5 t) (ix2 p q)
    = G (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        (((cfg8.win 6).blk t).view.emb (ix2 p q))
  refine (LNPay.k8_pay1_apply (iblk8 V c 0 t) (iblk8 V c 1 t) (iblk8 V c 2 t) (iblk8 V c 3 t) (iblk8 V c 4 t)
    (iblk8 V c 5 t) p q).trans ?_
  unfold G
  refine LNPay.lnRow_congr _ _
    (fun l => congrArg₂ (· + ·) ?_
      (congrArg₂ (· + ·) (Finset.sum_congr rfl fun k _ => congrArg₂ (· * ·) ?_ ?_) ?_))
    (fun l => ?_) (fun l => ?_) (Fin.ext ?_)
  · show V c (Pipeline.arrRef spec8 3) (((cfg8.win 3).blk t).view.emb (ix2 p l)) = _
    refine congrArg (V c (Pipeline.arrRef spec8 3)) (funext fun a => Fin.ext ?_)
    match a with
    | ⟨0, _⟩ => show win8_3.index t (0 : Fin 2) * 512 + 1 * p.val = win8_6.index t (0 : Fin 2) * 512 + 1 * p.val; omega
    | ⟨1, _⟩ => show win8_3.index t (1 : Fin 2) * 1024 + 1 * l.val = l.val; omega
  · show V c (Pipeline.arrRef spec8 0) (((cfg8.win 0).blk t).view.emb (ix2 p k)) = _
    refine congrArg (V c (Pipeline.arrRef spec8 0)) (funext fun a => Fin.ext ?_)
    match a with
    | ⟨0, _⟩ => show win8_0.index t (0 : Fin 2) * 512 + 1 * p.val = win8_6.index t (0 : Fin 2) * 512 + 1 * p.val; omega
    | ⟨1, _⟩ => show win8_0.index t (1 : Fin 2) * 1024 + 1 * k.val = k.val; omega
  · show V c (Pipeline.arrRef spec8 1) (((cfg8.win 1).blk t).view.emb (ix2 k l)) = _
    refine congrArg (V c (Pipeline.arrRef spec8 1)) (funext fun a => Fin.ext ?_)
    match a with
    | ⟨0, _⟩ => show win8_1.index t (0 : Fin 2) * 1024 + 1 * k.val = k.val; omega
    | ⟨1, _⟩ => show win8_1.index t (1 : Fin 2) * 1024 + 1 * l.val = l.val; omega
  · show V c (Pipeline.arrRef spec8 2) (((cfg8.win 2).blk t).view.emb (ix2 (0 : Fin 1) l)) = _
    refine congrArg (V c (Pipeline.arrRef spec8 2)) (funext fun a => Fin.ext ?_)
    match a with
    | ⟨0, _⟩ => show win8_2.index t (0 : Fin 2) * 1 + 1 * 0 = 0; omega
    | ⟨1, _⟩ => show win8_2.index t (1 : Fin 2) * 1024 + 1 * l.val = l.val; omega
  · show V c (Pipeline.arrRef spec8 4) (((cfg8.win 4).blk t).view.emb (ix2 (0 : Fin 1) l)) = _
    refine congrArg (V c (Pipeline.arrRef spec8 4)) (funext fun a => Fin.ext ?_)
    match a with
    | ⟨0, _⟩ => show win8_4.index t (0 : Fin 2) * 1 + 1 * 0 = 0; omega
    | ⟨1, _⟩ => show win8_4.index t (1 : Fin 2) * 1024 + 1 * l.val = l.val; omega
  · show V c (Pipeline.arrRef spec8 5) (((cfg8.win 5).blk t).view.emb (ix2 (0 : Fin 1) l)) = _
    refine congrArg (V c (Pipeline.arrRef spec8 5)) (funext fun a => Fin.ext ?_)
    match a with
    | ⟨0, _⟩ => show win8_5.index t (0 : Fin 2) * 1 + 1 * 0 = 0; omega
    | ⟨1, _⟩ => show win8_5.index t (1 : Fin 2) * 1024 + 1 * l.val = l.val; omega
  · show q.val = win8_6.index t (1 : Fin 2) * 1024 + 1 * q.val; omega

/-- An index of the output is in point `t`'s block iff each coordinate is in the block's range on its axis. -/
theorem mem_blk (t : Fin cfg8.N) (i : S32768x1024.Idx) :
    i ∈ ((cfg8.win 6).blk t).view.set ↔ ∀ a : Fin 2, win8_6.index t a * S512x1024.size a ≤ (i a).val
      ∧ (i a).val < win8_6.index t a * S512x1024.size a + S512x1024.size a := by
  show i ∈ ((View.whole main_v45).slice (win8_6.rect t)).set ↔ _
  rw [View.set_slice_whole, Rect.mem_set_unit]
  exact Iff.rfl

/-- Every row block of the output is some point's. -/
theorem idx_onto : ∀ q0 : Fin 64, ∃ t : Fin cfg8.N, win8_6.index t = ![q0.val, 0] :=
  (by decide +kernel : ∀ q0 : Fin 64, ∃ t : Fin grid8.N, win8_6.index t = ![q0.val, 0])

/-- The 64 row blocks cover the output: row `r` is in block `r / 512`. -/
theorem cover (i : S32768x1024.Idx) :
    ∃ t : Fin cfg8.N, (cfg8.win 6).flush t = true ∧ i ∈ ((cfg8.win 6).blk t).view.set := by
  have hi0 : (i 0).val < 32768 := (i 0).isLt
  have hi1 : (i 1).val < 1024 := (i 1).isLt
  obtain ⟨t, ht⟩ := idx_onto ⟨(i 0).val / 512, by omega⟩
  have q0 : win8_6.index t (0 : Fin 2) = (i 0).val / 512 := congrFun ht 0
  have q1 : win8_6.index t (1 : Fin 2) = 0 := congrFun ht 1
  refine ⟨t, flush8_6 t, ?_⟩
  rw [mem_blk]
  intro a
  match a with
  | ⟨0, _⟩ => show win8_6.index t (0 : Fin 2) * 512 ≤ (i 0).val ∧ (i 0).val < win8_6.index t (0 : Fin 2) * 512 + 512; omega
  | ⟨1, _⟩ => show win8_6.index t (1 : Fin 2) * 1024 ≤ (i 1).val ∧ (i 1).val < win8_6.index t (1 : Fin 2) * 1024 + 1024; omega

/-- After the region its output array is `G` of the arrays the region found. -/
theorem final (c : Dev nD) : (dat8 V c).arrAt 6 cfg8.N
    = G (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) :=
  (dat8 V c).arrAt_eq_of_cover 6 _ (fun t _ => flushed_eq V c t) cover

end Cert.KernelIdeal.Region8

end
-- ==== Proof.KernelChainNorm.lean ====
/-
  The two residual LayerNorms: the short sequence's result and the long sequence's.

  Before region 4 the host flattens `aux` and `out₁` to rows and lays the gain and bias out as rows; region 4 normalises each
  row of `aux + out₁`; the host folds the rows back: the short sequence's result. Before region 8 it flattens the unpack
  layer's merged context and `hidden`, transposes `Wo₂`, lays `bo₂`, gain and bias out as rows; region 8 projects, adds the
  residual and normalises each row; the host folds the rows back: the long sequence's result. A row's LayerNorm depends on
  that row alone, so flattening `(b, r)` to `256·b + r` (resp. `4096·b + r`) commutes with it.
-/
import proofs.«120082_j85341000171970_2_alg».proof.Proof.Gen.KernelIdeal.Frame
import proofs.«120082_j85341000171970_2_alg».proof.Proof.KernelRegion4
import proofs.«120082_j85341000171970_2_alg».proof.Proof.KernelRegion8
import proofs.«120082_j85341000171970_2_alg».proof.Proof.KernelChainPack
import proofs.«120082_j85341000171970_2_alg».proof.Proof.KernelChainPack2
import proofs.«120082_j85341000171970_2_alg».proof.Proof.KernelChainUnpack
import proofs.«120082_j85341000171970_2_alg».proof.Proof.KernelArgs
import Idealize.ShloMosaic.Lib.StableHlo.Run
import Idealize.ShloMosaic.Lib.ValueLayout
import Idealize.ShloMosaic.PureOps.Ideal

set_option maxRecDepth 16384

noncomputable section

namespace Cert.KernelIdeal.ChainNorm

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.KernelIdeal.ChainPack Cert.KernelIdeal.ChainPack2 Cert.KernelIdeal.ChainUnpack

theorem lnRow_congr3 {D : ℕ} (n ε : EReal) {row row' g g' β β' : Fin D → EReal} (h1 : row = row') (h2 : g = g') (h3 : β = β') :
    Cert.Spec.lnRow n ε row g β = Cert.Spec.lnRow n ε row' g' β' := by subst h1 h2 h3; rfl

/-- `aux` is untouched up to region 4's stretch. -/
theorem W8_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- The short sequence's gain is untouched up to region 4's stretch. -/
theorem W8_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl
/-- The short sequence's bias is untouched up to region 4's stretch. -/
theorem W8_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl
/-- `aux` flattened to rows. -/
theorem W9_v22 (c : Dev nD) : W9 m ρ c (Proc.devRef .tc main_v22)
    = shapeCast S2048x512 (W8 m ρ c (Proc.devRef .tc main_arg1)) shapeCasts_S8x256x512_S2048x512 := by
  show StableHlo.after hostOps4 (W8 m ρ c) (Proc.devRef .tc main_v22) = _
  after_results <;> rfl
/-- `out₁` (just folded) flattened to rows again. -/
theorem W9_v23 (c : Dev nD) : W9 m ρ c (Proc.devRef .tc main_v23)
    = shapeCast S2048x512 (shapeCast S8x256x512 (W8 m ρ c (Proc.devRef .tc main_v20)) shapeCasts_S2048x512_S8x256x512) shapeCasts_S8x256x512_S2048x512 := by
  show StableHlo.after hostOps4 (W8 m ρ c) (Proc.devRef .tc main_v23) = _
  after_results <;> rfl
/-- The gain as a row. -/
theorem W9_v24 (c : Dev nD) : W9 m ρ c (Proc.devRef .tc main_v24)
    = shapeCast S1x512 (W8 m ρ c (Proc.devRef .tc main_arg18)) shapeCasts_S512_S1x512 := by
  show StableHlo.after hostOps4 (W8 m ρ c) (Proc.devRef .tc main_v24) = _
  after_results <;> rfl
/-- The bias as a row. -/
theorem W9_v25 (c : Dev nD) : W9 m ρ c (Proc.devRef .tc main_v25)
    = shapeCast S1x512 (W8 m ρ c (Proc.devRef .tc main_arg19)) shapeCasts_S512_S1x512 := by
  show StableHlo.after hostOps4 (W8 m ρ c) (Proc.devRef .tc main_v25) = _
  after_results <;> rfl
/-- Region 4's output array, from what its stretch left. -/
theorem W10_v26 (c : Dev nD) : W10 m ρ c (Proc.devRef .tc main_v26)
    = Region4.G (W9 m ρ c (Proc.devRef .tc main_v22)) (W9 m ρ c (Proc.devRef .tc main_v23)) (W9 m ρ c (Proc.devRef .tc main_v24)) (W9 m ρ c (Proc.devRef .tc main_v25)) :=
  (W10_arr m ρ c 4).trans (Region4.final (V9 m ρ) c)
/-- Region 4's rows folded back to `[8, 256, 512]`. -/
theorem W11_v27 (c : Dev nD) : W11 m ρ c (Proc.devRef .tc main_v27)
    = shapeCast S8x256x512 (W10 m ρ c (Proc.devRef .tc main_v26)) shapeCasts_S2048x512_S8x256x512 := by
  show StableHlo.after hostOps5 (W10 m ρ c) (Proc.devRef .tc main_v27) = _
  after_results <;> rfl
/-- The short sequence's result is untouched after its stretch. -/
theorem W19_v27 (c : Dev nD) : W19 m ρ c (Proc.devRef .tc main_v27) = W11 m ρ c (Proc.devRef .tc main_v27) :=
  calc W19 m ρ c (Proc.devRef .tc main_v27)
    _ = W18 m ρ c (Proc.devRef .tc main_v27) := StableHlo.after_of_forall_not_mem (b := Proc.devRef .tc main_v27) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v27) := W18_of_ne m ρ c main_v27 (by decide)
    _ = W16 m ρ c (Proc.devRef .tc main_v27) := StableHlo.after_of_forall_not_mem (b := Proc.devRef .tc main_v27) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v27) := W16_of_ne m ρ c main_v27 (by decide)
    _ = W14 m ρ c (Proc.devRef .tc main_v27) := StableHlo.after_of_forall_not_mem (b := Proc.devRef .tc main_v27) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v27) := W14_of_ne m ρ c main_v27 (by decide)
    _ = W12 m ρ c (Proc.devRef .tc main_v27) := StableHlo.after_of_forall_not_mem (b := Proc.devRef .tc main_v27) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v27) := W12_of_ne m ρ c main_v27 (by decide)

/-- The short sequence's result buffer ends at the specification's `LN (aux + out₁)` of the launch arguments. -/
theorem auxOut_eq (c : Dev nD) : W19 m ρ c (Proc.devRef .tc main_v27)
    = fun i => Cert.Spec.auxOut Cert.Spec.σ₀ Cert.Spec.ε₀ Cert.Spec.n512₀ (Whole.argsOf m c) (i 0) (i 1) (i 2) := by
  refine (W19_v27 m ρ c).trans ((W11_v27 m ρ c).trans ?_)
  rw [W10_v26]
  funext i
  obtain ⟨b, r, o, rfl⟩ : ∃ (b : Fin 8) (r : Fin 256) (o : Fin 512), i = ix3 b r o := ⟨i 0, i 1, i 2, eq_ix3 i⟩
  have hrow : 256 * b.val + r.val < 2048 := by have := b.isLt; have := r.isLt; omega
  refine (shapeCast_apply _ _ (ix3 b r o) (ix2 (⟨256 * b.val + r.val, hrow⟩ : Fin 2048) o) (by
    rw [Shape.rowMajor_val_two, Shape.rowMajor_val_three]
    show (256 * b.val + r.val) * 512 + o.val = (b.val * 256 + r.val) * 512 + o.val
    rw [Nat.mul_comm 256 b.val])).trans ?_
  show Region4.G _ _ _ _ (ix2 (⟨256 * b.val + r.val, hrow⟩ : Fin 2048) o)
    = Cert.Spec.auxOut Cert.Spec.σ₀ Cert.Spec.ε₀ Cert.Spec.n512₀ (Whole.argsOf m c) b r o
  unfold Region4.G Cert.Spec.auxOut Cert.Spec.layerNorm
  refine congrFun (lnRow_congr3 _ _ (funext fun j => congrArg₂ (fun u v : EReal => u + v) ?_ ?_) (funext fun j => ?_) (funext fun j => ?_)) o
  · refine (congrFun (W9_v22 m ρ c) _).trans ((shapeCast_apply _ _ _ (ix3 b r j) (by
      rw [Shape.rowMajor_val_two, Shape.rowMajor_val_three]
      show (b.val * 256 + r.val) * 512 + j.val = (256 * b.val + r.val) * 512 + j.val
      rw [Nat.mul_comm 256 b.val])).trans ?_)
    exact congrFun (W8_arg1 m ρ c) _
  · refine (congrFun (W9_v23 m ρ c) _).trans ((shapeCast_apply _ _ _ (ix3 b r j) (by
      rw [Shape.rowMajor_val_two, Shape.rowMajor_val_three]
      show (b.val * 256 + r.val) * 512 + j.val = (256 * b.val + r.val) * 512 + j.val
      rw [Nat.mul_comm 256 b.val])).trans ?_)
    exact congrFun ((W9_v21 m ρ c).symm.trans (out1_eq m ρ c)) (ix3 b r j)
  · refine (congrFun (W9_v24 m ρ c) _).trans ((shapeCast_a_1a_apply _ _ (0 : Fin 1) j).trans ?_)
    exact congrFun (W8_arg18 m ρ c) _
  · refine (congrFun (W9_v25 m ρ c) _).trans ((shapeCast_a_1a_apply _ _ (0 : Fin 1) j).trans ?_)
    exact congrFun (W8_arg19 m ρ c) _

/-- `hidden` is untouched up to region 8's stretch. -/
theorem W16_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of_ne m ρ c main_arg0 (by decide)
    _ = W14 m ρ c (Proc.devRef .tc main_arg0) := StableHlo.after_of_forall_not_mem (b := Proc.devRef .tc main_arg0) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg0) := W14_of_ne m ρ c main_arg0 (by decide)
    _ = W12 m ρ c (Proc.devRef .tc main_arg0) := StableHlo.after_of_forall_not_mem (b := Proc.devRef .tc main_arg0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg0) := W12_of_ne m ρ c main_arg0 (by decide)
    _ = W10 m ρ c (Proc.devRef .tc main_arg0) := StableHlo.after_of_forall_not_mem (b := Proc.devRef .tc main_arg0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- `Wo₂` is untouched up to region 8's stretch. -/
theorem W16_arg16 (c : Dev nD) : W16 m ρ c (Proc.devRef .tc main_arg16) = m ((c : Thread nD τ).loc main_arg16) :=
  calc W16 m ρ c (Proc.devRef .tc main_arg16)
    _ = W15 m ρ c (Proc.devRef .tc main_arg16) := W16_of_ne m ρ c main_arg16 (by decide)
    _ = W14 m ρ c (Proc.devRef .tc main_arg16) := StableHlo.after_of_forall_not_mem (b := Proc.devRef .tc main_arg16) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg16) := W14_of_ne m ρ c main_arg16 (by decide)
    _ = W12 m ρ c (Proc.devRef .tc main_arg16) := StableHlo.after_of_forall_not_mem (b := Proc.devRef .tc main_arg16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl
/-- `bo₂` is untouched up to region 8's stretch. -/
theorem W16_arg17 (c : Dev nD) : W16 m ρ c (Proc.devRef .tc main_arg17) = m ((c : Thread nD τ).loc main_arg17) :=
  calc W16 m ρ c (Proc.devRef .tc main_arg17)
    _ = W15 m ρ c (Proc.devRef .tc main_arg17) := W16_of_ne m ρ c main_arg17 (by decide)
    _ = W14 m ρ c (Proc.devRef .tc main_arg17) := StableHlo.after_of_forall_not_mem (b := Proc.devRef .tc main_arg17) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg17) := W14_of_ne m ρ c main_arg17 (by decide)
    _ = W12 m ρ c (Proc.devRef .tc main_arg17) := StableHlo.after_of_forall_not_mem (b := Proc.devRef .tc main_arg17) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl
/-- The long sequence's gain is untouched up to region 8's stretch. -/
theorem W16_arg20 (c : Dev nD) : W16 m ρ c (Proc.devRef .tc main_arg20) = m ((c : Thread nD τ).loc main_arg20) :=
  calc W16 m ρ c (Proc.devRef .tc main_arg20)
    _ = W15 m ρ c (Proc.devRef .tc main_arg20) := W16_of_ne m ρ c main_arg20 (by decide)
    _ = W14 m ρ c (Proc.devRef .tc main_arg20) := StableHlo.after_of_forall_not_mem (b := Proc.devRef .tc main_arg20) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg20) := W14_of_ne m ρ c main_arg20 (by decide)
    _ = W12 m ρ c (Proc.devRef .tc main_arg20) := StableHlo.after_of_forall_not_mem (b := Proc.devRef .tc main_arg20) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg20) := W12_of_ne m ρ c main_arg20 (by decide)
    _ = W10 m ρ c (Proc.devRef .tc main_arg20) := StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg20) := W10_of_ne m ρ c main_arg20 (by decide)
    _ = W8 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl
/-- The long sequence's bias is untouched up to region 8's stretch. -/
theorem W16_arg21 (c : Dev nD) : W16 m ρ c (Proc.devRef .tc main_arg21) = m ((c : Thread nD τ).loc main_arg21) :=
  calc W16 m ρ c (Proc.devRef .tc main_arg21)
    _ = W15 m ρ c (Proc.devRef .tc main_arg21) := W16_of_ne m ρ c main_arg21 (by decide)
    _ = W14 m ρ c (Proc.devRef .tc main_arg21) := StableHlo.after_of_forall_not_mem (b := Proc.devRef .tc main_arg21) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg21) := W14_of_ne m ρ c main_arg21 (by decide)
    _ = W12 m ρ c (Proc.devRef .tc main_arg21) := StableHlo.after_of_forall_not_mem (b := Proc.devRef .tc main_arg21) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg21) := W12_of_ne m ρ c main_arg21 (by decide)
    _ = W10 m ρ c (Proc.devRef .tc main_arg21) := StableHlo.after_of_forall_not_mem (b := Proc.devRef .tc main_arg21) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg21) := W10_of_ne m ρ c main_arg21 (by decide)
    _ = W8 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl
/-- The unpack layer's merged context flattened to rows. -/
theorem W17_v39 (c : Dev nD) : W17 m ρ c (Proc.devRef .tc main_v39)
    = shapeCast S32768x1024 (W16 m ρ c (Proc.devRef .tc main_v38_0)) shapeCasts_S8x4096x1024_S32768x1024 := by
  show StableHlo.after hostOps8 (W16 m ρ c) (Proc.devRef .tc main_v39) = _
  after_results <;> rfl
/-- `hidden` flattened to rows. -/
theorem W17_v40 (c : Dev nD) : W17 m ρ c (Proc.devRef .tc main_v40)
    = shapeCast S32768x1024 (W16 m ρ c (Proc.devRef .tc main_arg0)) shapeCasts_S8x4096x1024_S32768x1024 := by
  show StableHlo.after hostOps8 (W16 m ρ c) (Proc.devRef .tc main_v40) = _
  after_results <;> rfl
/-- `Wo₂` transposed. -/
theorem W17_v41 (c : Dev nD) : W17 m ρ c (Proc.devRef .tc main_v41)
    = transpose S1024x1024 [1, 0] (W16 m ρ c (Proc.devRef .tc main_arg16)) transposes_S1024x1024_S1024x1024_1_0 := by
  show StableHlo.after hostOps8 (W16 m ρ c) (Proc.devRef .tc main_v41) = _
  after_results <;> rfl
/-- `bo₂` as a row. -/
theorem W17_v42 (c : Dev nD) : W17 m ρ c (Proc.devRef .tc main_v42)
    = shapeCast S1x1024 (W16 m ρ c (Proc.devRef .tc main_arg17)) shapeCasts_S1024_S1x1024 := by
  show StableHlo.after hostOps8 (W16 m ρ c) (Proc.devRef .tc main_v42) = _
  after_results <;> rfl
/-- The gain as a row. -/
theorem W17_v43 (c : Dev nD) : W17 m ρ c (Proc.devRef .tc main_v43)
    = shapeCast S1x1024 (W16 m ρ c (Proc.devRef .tc main_arg20)) shapeCasts_S1024_S1x1024 := by
  show StableHlo.after hostOps8 (W16 m ρ c) (Proc.devRef .tc main_v43) = _
  after_results <;> rfl
/-- The bias as a row. -/
theorem W17_v44 (c : Dev nD) : W17 m ρ c (Proc.devRef .tc main_v44)
    = shapeCast S1x1024 (W16 m ρ c (Proc.devRef .tc main_arg21)) shapeCasts_S1024_S1x1024 := by
  show StableHlo.after hostOps8 (W16 m ρ c) (Proc.devRef .tc main_v44) = _
  after_results <;> rfl
/-- Region 8's output array, from what its stretch left. -/
theorem W18_v45 (c : Dev nD) : W18 m ρ c (Proc.devRef .tc main_v45)
    = Region8.G (W17 m ρ c (Proc.devRef .tc main_v39)) (W17 m ρ c (Proc.devRef .tc main_v41)) (W17 m ρ c (Proc.devRef .tc main_v42)) (W17 m ρ c (Proc.devRef .tc main_v40)) (W17 m ρ c (Proc.devRef .tc main_v43)) (W17 m ρ c (Proc.devRef .tc main_v44)) :=
  (W18_arr m ρ c 6).trans (Region8.final (V17 m ρ) c)
/-- Region 8's rows folded back to `[8, 4096, 1024]`. -/
theorem W19_v46 (c : Dev nD) : W19 m ρ c (Proc.devRef .tc main_v46)
    = shapeCast S8x4096x1024 (W18 m ρ c (Proc.devRef .tc main_v45)) shapeCasts_S32768x1024_S8x4096x1024 := by
  show StableHlo.after hostOps9 (W18 m ρ c) (Proc.devRef .tc main_v46) = _
  after_results <;> rfl

/-- The long sequence's result buffer ends at the specification's `LN (hidden + (ctx₂·Wo₂ᵀ + bo₂))` of the launch arguments. -/
theorem out_eq (c : Dev nD) : W19 m ρ c (Proc.devRef .tc main_v46)
    = fun i => Cert.Spec.out Cert.Spec.σ₀ Cert.Spec.ε₀ Cert.Spec.n1024₀ (Whole.argsOf m c) (i 0) (i 1) (i 2) := by
  refine (W19_v46 m ρ c).trans ?_
  rw [W18_v45]
  funext i
  obtain ⟨b, r, o, rfl⟩ : ∃ (b : Fin 8) (r : Fin 4096) (o : Fin 1024), i = ix3 b r o := ⟨i 0, i 1, i 2, eq_ix3 i⟩
  have hrow : 4096 * b.val + r.val < 32768 := by have := b.isLt; have := r.isLt; omega
  refine (shapeCast_apply _ _ (ix3 b r o) (ix2 (⟨4096 * b.val + r.val, hrow⟩ : Fin 32768) o) (by
    rw [Shape.rowMajor_val_two, Shape.rowMajor_val_three]
    show (4096 * b.val + r.val) * 1024 + o.val = (b.val * 4096 + r.val) * 1024 + o.val
    rw [Nat.mul_comm 4096 b.val])).trans ?_
  show Region8.G _ _ _ _ _ _ (ix2 (⟨4096 * b.val + r.val, hrow⟩ : Fin 32768) o)
    = Cert.Spec.out Cert.Spec.σ₀ Cert.Spec.ε₀ Cert.Spec.n1024₀ (Whole.argsOf m c) b r o
  unfold Region8.G Cert.Spec.out Cert.Spec.layerNorm
  refine congrFun (lnRow_congr3 _ _ (funext fun j => congrArg₂ (fun u v : EReal => u + v) ?_ ?_) (funext fun j => ?_) (funext fun j => ?_)) o
  · refine (congrFun (W17_v40 m ρ c) _).trans ((shapeCast_apply _ _ _ (ix3 b r j) (by
      rw [Shape.rowMajor_val_two, Shape.rowMajor_val_three]
      show (b.val * 4096 + r.val) * 1024 + j.val = (4096 * b.val + r.val) * 1024 + j.val
      rw [Nat.mul_comm 4096 b.val])).trans ?_)
    exact congrFun (W16_arg0 m ρ c) _
  · unfold Cert.Spec.lin
    refine congrArg₂ (· + ·) (Finset.sum_congr rfl fun k _ => congrArg₂ (· * ·) ?_ ?_) ?_
    · refine (congrFun (W17_v39 m ρ c) _).trans ((shapeCast_apply _ _ _ (ix3 b r k) (by
        rw [Shape.rowMajor_val_two, Shape.rowMajor_val_three]
        show (b.val * 4096 + r.val) * 1024 + k.val = (4096 * b.val + r.val) * 1024 + k.val
        rw [Nat.mul_comm 4096 b.val])).trans ?_)
      exact congrFun (ctx2_eq m ρ c) _
    · refine (congrFun (W17_v41 m ρ c) _).trans ((transpose_ix2_apply _ _ k j).trans ?_)
      exact congrFun (W16_arg16 m ρ c) _
    · refine (congrFun (W17_v42 m ρ c) _).trans ((shapeCast_a_1a_apply _ _ (0 : Fin 1) j).trans ?_)
      exact congrFun (W16_arg17 m ρ c) _
  · refine (congrFun (W17_v43 m ρ c) _).trans ((shapeCast_a_1a_apply _ _ (0 : Fin 1) j).trans ?_)
    exact congrFun (W16_arg20 m ρ c) _
  · refine (congrFun (W17_v44 m ρ c) _).trans ((shapeCast_a_1a_apply _ _ (0 : Fin 1) j).trans ?_)
    exact congrFun (W16_arg21 m ρ c) _

end Cert.KernelIdeal.ChainNorm

end
-- ==== Proof.KernelValue.lean ====
/-
  The idealized kernel program computes the specification.

  Its final memory is the last valuation `W19` of the chain of stretches and regions (the run with the final memory
  named). The four result buffers are read through that chain back to the launch memory:

    attn₁  is region 2's fifth window: each grid point (batch, head pair, 128 query rows) writes two heads' softmax rows;
    attn₂  is region 7's fifth window, the same body on 1024 query rows and 256 keys;
    aux'   is region 4's output (residual LayerNorm on 512 rows per point) reshaped from [2048, 512] to [8, 256, 512];
    out    is region 8's output (projection, residual and LayerNorm fused, 512 rows per point) reshaped to [8, 4096, 1024].

  Every linear layer runs on the sequence flattened to rows, `row = 4096·b + r` (resp. `256·b + r`), against the weight
  transposed on the host, so `x2d[row, k] · wT[k, o]` is `x[b, r, k] · w[o, k]`; the attention regions slice heads out of
  the feature axis in place, two heads per point, so no head transpose is ever formed.
-/
import proofs.«120082_j85341000171970_2_alg».proof.Proof.Gen.KernelIdeal.Frame
import proofs.«120082_j85341000171970_2_alg».proof.Proof.KernelFinalMem
import proofs.«120082_j85341000171970_2_alg».proof.Proof.Spec
import proofs.«120082_j85341000171970_2_alg».proof.Proof.KernelArgs
import proofs.«120082_j85341000171970_2_alg».proof.Proof.KernelChainPack
import proofs.«120082_j85341000171970_2_alg».proof.Proof.KernelChainUnpack
import proofs.«120082_j85341000171970_2_alg».proof.Proof.KernelChainNorm

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The long sequence's result buffer ends at `LN (hidden + (ctx₂·Wo₂ᵀ + bo₂))`. -/
theorem final_out (c : Dev nD) : W19 m ρ c (Proc.devRef .tc main_v46)
    = (fun i => Cert.Spec.out Cert.Spec.σ₀ Cert.Spec.ε₀ Cert.Spec.n1024₀ (argsOf m c) (i 0) (i 1) (i 2)) :=
  ChainNorm.out_eq m ρ c

/-- The short sequence's result buffer ends at `LN (aux + out₁)`. -/
theorem final_auxOut (c : Dev nD) : W19 m ρ c (Proc.devRef .tc main_v27)
    = (fun i => Cert.Spec.auxOut Cert.Spec.σ₀ Cert.Spec.ε₀ Cert.Spec.n512₀ (argsOf m c) (i 0) (i 1) (i 2)) :=
  ChainNorm.auxOut_eq m ρ c

/-- The unpack layer's attention weights. -/
theorem final_attn2 (c : Dev nD) : W19 m ρ c (Proc.devRef .tc main_v38_1)
    = (fun i => Cert.Spec.attn2 Cert.Spec.σ₀ (argsOf m c) (i 0) (i 1) (i 2) (i 3)) :=
  ChainUnpack.attn2_eq m ρ c

/-- The pack layer's attention weights. -/
theorem final_attn1 (c : Dev nD) : W19 m ρ c (Proc.devRef .tc main_v16_1)
    = (fun i => Cert.Spec.attn1 Cert.Spec.σ₀ (argsOf m c) (i 0) (i 1) (i 2) (i 3)) :=
  ChainPack.attn1_eq m ρ c

/-- The run: every weakly fair execution terminates, the four results at the specification of the launch arguments,
    the arguments unchanged. -/
theorem run : θ_run defs (onTc (τ := τ) (main (F := Ideal))) ⟨m, fun _ => 0, ρ⟩ (fun r => ∀ c : Dev nD,
      r.2.mem ((c.tc : Thread nD τ).loc main_v46) = (fun i => Cert.Spec.out Cert.Spec.σ₀ Cert.Spec.ε₀ Cert.Spec.n1024₀ (argsOf m c) (i 0) (i 1) (i 2))
      ∧ r.2.mem ((c.tc : Thread nD τ).loc main_v27) = (fun i => Cert.Spec.auxOut Cert.Spec.σ₀ Cert.Spec.ε₀ Cert.Spec.n512₀ (argsOf m c) (i 0) (i 1) (i 2))
      ∧ r.2.mem ((c.tc : Thread nD τ).loc main_v38_1) = (fun i => Cert.Spec.attn2 Cert.Spec.σ₀ (argsOf m c) (i 0) (i 1) (i 2) (i 3))
      ∧ r.2.mem ((c.tc : Thread nD τ).loc main_v16_1) = (fun i => Cert.Spec.attn1 Cert.Spec.σ₀ (argsOf m c) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(Cert.KernelIdeal.FinalMem.final_at m ρ h c main_v46 (by decide)).trans (final_out m ρ c),
     (Cert.KernelIdeal.FinalMem.final_at m ρ h c main_v27 (by decide)).trans (final_auxOut m ρ c),
     (Cert.KernelIdeal.FinalMem.final_at m ρ h c main_v38_1 (by decide)).trans (final_attn2 m ρ c),
     (Cert.KernelIdeal.FinalMem.final_at m ρ h c main_v16_1 (by decide)).trans (final_attn1 m ρ c),
     (Cert.KernelIdeal.FinalMem.final_at m ρ h c main_arg0 (by decide)).trans (W19_main_arg0 m ρ c),
     (Cert.KernelIdeal.FinalMem.final_at m ρ h c main_arg1 (by decide)).trans (W19_main_arg1 m ρ c),
     (Cert.KernelIdeal.FinalMem.final_at m ρ h c main_arg2 (by decide)).trans (W19_main_arg2 m ρ c),
     (Cert.KernelIdeal.FinalMem.final_at m ρ h c main_arg3 (by decide)).trans (W19_main_arg3 m ρ c),
     (Cert.KernelIdeal.FinalMem.final_at m ρ h c main_arg4 (by decide)).trans (W19_main_arg4 m ρ c),
     (Cert.KernelIdeal.FinalMem.final_at m ρ h c main_arg5 (by decide)).trans (W19_main_arg5 m ρ c),
     (Cert.KernelIdeal.FinalMem.final_at m ρ h c main_arg6 (by decide)).trans (W19_main_arg6 m ρ c),
     (Cert.KernelIdeal.FinalMem.final_at m ρ h c main_arg7 (by decide)).trans (W19_main_arg7 m ρ c),
     (Cert.KernelIdeal.FinalMem.final_at m ρ h c main_arg8 (by decide)).trans (W19_main_arg8 m ρ c),
     (Cert.KernelIdeal.FinalMem.final_at m ρ h c main_arg9 (by decide)).trans (W19_main_arg9 m ρ c),
     (Cert.KernelIdeal.FinalMem.final_at m ρ h c main_arg10 (by decide)).trans (W19_main_arg10 m ρ c),
     (Cert.KernelIdeal.FinalMem.final_at m ρ h c main_arg11 (by decide)).trans (W19_main_arg11 m ρ c),
     (Cert.KernelIdeal.FinalMem.final_at m ρ h c main_arg12 (by decide)).trans (W19_main_arg12 m ρ c),
     (Cert.KernelIdeal.FinalMem.final_at m ρ h c main_arg13 (by decide)).trans (W19_main_arg13 m ρ c),
     (Cert.KernelIdeal.FinalMem.final_at m ρ h c main_arg14 (by decide)).trans (W19_main_arg14 m ρ c),
     (Cert.KernelIdeal.FinalMem.final_at m ρ h c main_arg15 (by decide)).trans (W19_main_arg15 m ρ c),
     (Cert.KernelIdeal.FinalMem.final_at m ρ h c main_arg16 (by decide)).trans (W19_main_arg16 m ρ c),
     (Cert.KernelIdeal.FinalMem.final_at m ρ h c main_arg17 (by decide)).trans (W19_main_arg17 m ρ c),
     (Cert.KernelIdeal.FinalMem.final_at m ρ h c main_arg18 (by decide)).trans (W19_main_arg18 m ρ c),
     (Cert.KernelIdeal.FinalMem.final_at m ρ h c main_arg19 (by decide)).trans (W19_main_arg19 m ρ c),
     (Cert.KernelIdeal.FinalMem.final_at m ρ h c main_arg20 (by decide)).trans (W19_main_arg20 m ρ c),
     (Cert.KernelIdeal.FinalMem.final_at m ρ h c main_arg21 (by decide)).trans (W19_main_arg21 m ρ c)⟩)
    (Cert.KernelIdeal.FinalMem.run_final m ρ)

end Cert.KernelIdeal.Whole

end
-- ==== Proof.RefLin.lean ====
/-
  Linear layers, head splits, batched products and head merges of the reference, read at an entry.

  A `dot_general` contracting the last axis of `x[b, r, ·]` with the last axis of an output-major weight, plus the bias
  broadcast along batch and row, is `(∑ₖ x[b, r, k] · w[o, k]) + bias[o]` at `(b, r, o)`: the contraction index has one axis,
  whose coordinate `k` picks `x[b, r, k]` and `w[o, k]`. The reshape `[b, r, 8·w] → [b, r, 8, w]` keeps row-major positions, so
  after the transpose `(0, 2, 1, 3)` entry `(b, h, q, d)` is feature `w·h + d` of row `q`. The products batched over
  `(b, h)` contract the last axis of the left operand with the last (logits) or the row (context) axis of the right one. The
  inverse transpose and reshape give feature `f` of the merged axis to head `f / 128` at `f % 128`.
-/
import proofs.«120082_j85341000171970_2_alg».proof.Proof.Gen.ReferenceIdeal.Run
import proofs.«120082_j85341000171970_2_alg».proof.Proof.Spec
import proofs.«120082_j85341000171970_2_alg».proof.Proof.LibColumnLayout
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.ReferenceIdeal.RefLin

open Cert.ReferenceIdeal Cert.ReferenceIdeal.Gen
open Idealize.ShloMosaic Idealize.ShloMosaic.ValueIdx

/-! ## Linear layers -/

theorem lin_256_512_512 (x : FVec Ideal S8x256x512 .f32) (w : FVec Ideal S512x512 .f32) (bias : FVec Ideal S512 .f32)
    (b : Fin 8) (r : Fin 256) (o : Fin 512) :
    addf (Host.dotGeneral dot_S8x256x512_S512x512_S8x256x512_2_1_01_0_n_n none x w)
        (broadcastInDim S8x256x512 ![0, 1, 2] bcast_S1x1x512_S8x256x512_0_1_2 (broadcastInDim S1x1x512 ![2] bcast_S512_S1x1x512_2 bias)) (ix3 b r o)
      = (∑ k : Fin 512, x (ix3 b r k) * w (ix2 o k)) + bias (ix1 o) := by
  rw [addf_apply]
  refine congrArg₂ (· + ·) ?_ ?_
  · refine (Ideal.dotGeneral_apply dot_S8x256x512_S512x512_S8x256x512_2_1_01_0_n_n none .single x w (ix3 b r o)).trans ?_
    refine (Equiv.sum_comp (contrEquiv1 dot_S8x256x512_S512x512_S8x256x512_2_1_01_0_n_n 512 rfl rfl).symm _).symm.trans ?_
    refine Finset.sum_congr rfl fun k _ => ?_
    have hl : dot_S8x256x512_S512x512_S8x256x512_2_1_01_0_n_n.lhsIdx (ix3 b r o) ((contrEquiv1 dot_S8x256x512_S512x512_S8x256x512_2_1_01_0_n_n 512 rfl rfl).symm k) = ix3 b r k := by
      funext a; apply Fin.ext
      match a with
      | ⟨0, _⟩ => rfl
      | ⟨1, _⟩ => rfl
      | ⟨2, _⟩ =>
        exact (dot_S8x256x512_S512x512_S8x256x512_2_1_01_0_n_n.lhsIdx_val_of_single (cl := 2) rfl (ix3 b r o) _).trans
          (contrEquiv1_symm_val dot_S8x256x512_S512x512_S8x256x512_2_1_01_0_n_n 512 rfl rfl k)
    have hr : dot_S8x256x512_S512x512_S8x256x512_2_1_01_0_n_n.rhsIdx (ix3 b r o) ((contrEquiv1 dot_S8x256x512_S512x512_S8x256x512_2_1_01_0_n_n 512 rfl rfl).symm k) = ix2 o k := by
      funext a; apply Fin.ext
      match a with
      | ⟨0, _⟩ => rfl
      | ⟨1, _⟩ =>
        exact (dot_S8x256x512_S512x512_S8x256x512_2_1_01_0_n_n.rhsIdx_val_of_single (cr := 1) rfl (ix3 b r o) _).trans
          (contrEquiv1_symm_val dot_S8x256x512_S512x512_S8x256x512_2_1_01_0_n_n 512 rfl rfl k)
    rw [hl, hr]
  · refine (broadcastInDim_apply _ bcast_S1x1x512_S8x256x512_0_1_2 _ (ix3 b r o) (ix3 (0 : Fin 1) (0 : Fin 1) o) fun a => ?_).trans ?_
    · match a with
      | ⟨0, _⟩ => rfl
      | ⟨1, _⟩ => rfl
      | ⟨2, _⟩ => rfl
    · refine broadcastInDim_apply _ bcast_S512_S1x1x512_2 _ (ix3 (0 : Fin 1) (0 : Fin 1) o) (ix1 o) fun a => ?_
      match a with
      | ⟨0, _⟩ => rfl

theorem lin_4096_1024_512 (x : FVec Ideal S8x4096x1024 .f32) (w : FVec Ideal S512x1024 .f32) (bias : FVec Ideal S512 .f32)
    (b : Fin 8) (r : Fin 4096) (o : Fin 512) :
    addf (Host.dotGeneral dot_S8x4096x1024_S512x1024_S8x4096x512_2_1_01_0_n_n none x w)
        (broadcastInDim S8x4096x512 ![0, 1, 2] bcast_S1x1x512_S8x4096x512_0_1_2 (broadcastInDim S1x1x512 ![2] bcast_S512_S1x1x512_2 bias)) (ix3 b r o)
      = (∑ k : Fin 1024, x (ix3 b r k) * w (ix2 o k)) + bias (ix1 o) := by
  rw [addf_apply]
  refine congrArg₂ (· + ·) ?_ ?_
  · refine (Ideal.dotGeneral_apply dot_S8x4096x1024_S512x1024_S8x4096x512_2_1_01_0_n_n none .single x w (ix3 b r o)).trans ?_
    refine (Equiv.sum_comp (contrEquiv1 dot_S8x4096x1024_S512x1024_S8x4096x512_2_1_01_0_n_n 1024 rfl rfl).symm _).symm.trans ?_
    refine Finset.sum_congr rfl fun k _ => ?_
    have hl : dot_S8x4096x1024_S512x1024_S8x4096x512_2_1_01_0_n_n.lhsIdx (ix3 b r o) ((contrEquiv1 dot_S8x4096x1024_S512x1024_S8x4096x512_2_1_01_0_n_n 1024 rfl rfl).symm k) = ix3 b r k := by
      funext a; apply Fin.ext
      match a with
      | ⟨0, _⟩ => rfl
      | ⟨1, _⟩ => rfl
      | ⟨2, _⟩ =>
        exact (dot_S8x4096x1024_S512x1024_S8x4096x512_2_1_01_0_n_n.lhsIdx_val_of_single (cl := 2) rfl (ix3 b r o) _).trans
          (contrEquiv1_symm_val dot_S8x4096x1024_S512x1024_S8x4096x512_2_1_01_0_n_n 1024 rfl rfl k)
    have hr : dot_S8x4096x1024_S512x1024_S8x4096x512_2_1_01_0_n_n.rhsIdx (ix3 b r o) ((contrEquiv1 dot_S8x4096x1024_S512x1024_S8x4096x512_2_1_01_0_n_n 1024 rfl rfl).symm k) = ix2 o k := by
      funext a; apply Fin.ext
      match a with
      | ⟨0, _⟩ => rfl
      | ⟨1, _⟩ =>
        exact (dot_S8x4096x1024_S512x1024_S8x4096x512_2_1_01_0_n_n.rhsIdx_val_of_single (cr := 1) rfl (ix3 b r o) _).trans
          (contrEquiv1_symm_val dot_S8x4096x1024_S512x1024_S8x4096x512_2_1_01_0_n_n 1024 rfl rfl k)
    rw [hl, hr]
  · refine (broadcastInDim_apply _ bcast_S1x1x512_S8x4096x512_0_1_2 _ (ix3 b r o) (ix3 (0 : Fin 1) (0 : Fin 1) o) fun a => ?_).trans ?_
    · match a with
      | ⟨0, _⟩ => rfl
      | ⟨1, _⟩ => rfl
      | ⟨2, _⟩ => rfl
    · refine broadcastInDim_apply _ bcast_S512_S1x1x512_2 _ (ix3 (0 : Fin 1) (0 : Fin 1) o) (ix1 o) fun a => ?_
      match a with
      | ⟨0, _⟩ => rfl

theorem lin_4096_1024_1024 (x : FVec Ideal S8x4096x1024 .f32) (w : FVec Ideal S1024x1024 .f32) (bias : FVec Ideal S1024 .f32)
    (b : Fin 8) (r : Fin 4096) (o : Fin 1024) :
    addf (Host.dotGeneral dot_S8x4096x1024_S1024x1024_S8x4096x1024_2_1_01_0_n_n none x w)
        (broadcastInDim S8x4096x1024 ![0, 1, 2] bcast_S1x1x1024_S8x4096x1024_0_1_2 (broadcastInDim S1x1x1024 ![2] bcast_S1024_S1x1x1024_2 bias)) (ix3 b r o)
      = (∑ k : Fin 1024, x (ix3 b r k) * w (ix2 o k)) + bias (ix1 o) := by
  rw [addf_apply]
  refine congrArg₂ (· + ·) ?_ ?_
  · refine (Ideal.dotGeneral_apply dot_S8x4096x1024_S1024x1024_S8x4096x1024_2_1_01_0_n_n none .single x w (ix3 b r o)).trans ?_
    refine (Equiv.sum_comp (contrEquiv1 dot_S8x4096x1024_S1024x1024_S8x4096x1024_2_1_01_0_n_n 1024 rfl rfl).symm _).symm.trans ?_
    refine Finset.sum_congr rfl fun k _ => ?_
    have hl : dot_S8x4096x1024_S1024x1024_S8x4096x1024_2_1_01_0_n_n.lhsIdx (ix3 b r o) ((contrEquiv1 dot_S8x4096x1024_S1024x1024_S8x4096x1024_2_1_01_0_n_n 1024 rfl rfl).symm k) = ix3 b r k := by
      funext a; apply Fin.ext
      match a with
      | ⟨0, _⟩ => rfl
      | ⟨1, _⟩ => rfl
      | ⟨2, _⟩ =>
        exact (dot_S8x4096x1024_S1024x1024_S8x4096x1024_2_1_01_0_n_n.lhsIdx_val_of_single (cl := 2) rfl (ix3 b r o) _).trans
          (contrEquiv1_symm_val dot_S8x4096x1024_S1024x1024_S8x4096x1024_2_1_01_0_n_n 1024 rfl rfl k)
    have hr : dot_S8x4096x1024_S1024x1024_S8x4096x1024_2_1_01_0_n_n.rhsIdx (ix3 b r o) ((contrEquiv1 dot_S8x4096x1024_S1024x1024_S8x4096x1024_2_1_01_0_n_n 1024 rfl rfl).symm k) = ix2 o k := by
      funext a; apply Fin.ext
      match a with
      | ⟨0, _⟩ => rfl
      | ⟨1, _⟩ =>
        exact (dot_S8x4096x1024_S1024x1024_S8x4096x1024_2_1_01_0_n_n.rhsIdx_val_of_single (cr := 1) rfl (ix3 b r o) _).trans
          (contrEquiv1_symm_val dot_S8x4096x1024_S1024x1024_S8x4096x1024_2_1_01_0_n_n 1024 rfl rfl k)
    rw [hl, hr]
  · refine (broadcastInDim_apply _ bcast_S1x1x1024_S8x4096x1024_0_1_2 _ (ix3 b r o) (ix3 (0 : Fin 1) (0 : Fin 1) o) fun a => ?_).trans ?_
    · match a with
      | ⟨0, _⟩ => rfl
      | ⟨1, _⟩ => rfl
      | ⟨2, _⟩ => rfl
    · refine broadcastInDim_apply _ bcast_S1024_S1x1x1024_2 _ (ix3 (0 : Fin 1) (0 : Fin 1) o) (ix1 o) fun a => ?_
      match a with
      | ⟨0, _⟩ => rfl

theorem lin_256_1024_512 (x : FVec Ideal S8x256x1024 .f32) (w : FVec Ideal S512x1024 .f32) (bias : FVec Ideal S512 .f32)
    (b : Fin 8) (r : Fin 256) (o : Fin 512) :
    addf (Host.dotGeneral dot_S8x256x1024_S512x1024_S8x256x512_2_1_01_0_n_n none x w)
        (broadcastInDim S8x256x512 ![0, 1, 2] bcast_S1x1x512_S8x256x512_0_1_2 (broadcastInDim S1x1x512 ![2] bcast_S512_S1x1x512_2 bias)) (ix3 b r o)
      = (∑ k : Fin 1024, x (ix3 b r k) * w (ix2 o k)) + bias (ix1 o) := by
  rw [addf_apply]
  refine congrArg₂ (· + ·) ?_ ?_
  · refine (Ideal.dotGeneral_apply dot_S8x256x1024_S512x1024_S8x256x512_2_1_01_0_n_n none .single x w (ix3 b r o)).trans ?_
    refine (Equiv.sum_comp (contrEquiv1 dot_S8x256x1024_S512x1024_S8x256x512_2_1_01_0_n_n 1024 rfl rfl).symm _).symm.trans ?_
    refine Finset.sum_congr rfl fun k _ => ?_
    have hl : dot_S8x256x1024_S512x1024_S8x256x512_2_1_01_0_n_n.lhsIdx (ix3 b r o) ((contrEquiv1 dot_S8x256x1024_S512x1024_S8x256x512_2_1_01_0_n_n 1024 rfl rfl).symm k) = ix3 b r k := by
      funext a; apply Fin.ext
      match a with
      | ⟨0, _⟩ => rfl
      | ⟨1, _⟩ => rfl
      | ⟨2, _⟩ =>
        exact (dot_S8x256x1024_S512x1024_S8x256x512_2_1_01_0_n_n.lhsIdx_val_of_single (cl := 2) rfl (ix3 b r o) _).trans
          (contrEquiv1_symm_val dot_S8x256x1024_S512x1024_S8x256x512_2_1_01_0_n_n 1024 rfl rfl k)
    have hr : dot_S8x256x1024_S512x1024_S8x256x512_2_1_01_0_n_n.rhsIdx (ix3 b r o) ((contrEquiv1 dot_S8x256x1024_S512x1024_S8x256x512_2_1_01_0_n_n 1024 rfl rfl).symm k) = ix2 o k := by
      funext a; apply Fin.ext
      match a with
      | ⟨0, _⟩ => rfl
      | ⟨1, _⟩ =>
        exact (dot_S8x256x1024_S512x1024_S8x256x512_2_1_01_0_n_n.rhsIdx_val_of_single (cr := 1) rfl (ix3 b r o) _).trans
          (contrEquiv1_symm_val dot_S8x256x1024_S512x1024_S8x256x512_2_1_01_0_n_n 1024 rfl rfl k)
    rw [hl, hr]
  · refine (broadcastInDim_apply _ bcast_S1x1x512_S8x256x512_0_1_2 _ (ix3 b r o) (ix3 (0 : Fin 1) (0 : Fin 1) o) fun a => ?_).trans ?_
    · match a with
      | ⟨0, _⟩ => rfl
      | ⟨1, _⟩ => rfl
      | ⟨2, _⟩ => rfl
    · refine broadcastInDim_apply _ bcast_S512_S1x1x512_2 _ (ix3 (0 : Fin 1) (0 : Fin 1) o) (ix1 o) fun a => ?_
      match a with
      | ⟨0, _⟩ => rfl

theorem lin_256_512_1024 (x : FVec Ideal S8x256x512 .f32) (w : FVec Ideal S1024x512 .f32) (bias : FVec Ideal S1024 .f32)
    (b : Fin 8) (r : Fin 256) (o : Fin 1024) :
    addf (Host.dotGeneral dot_S8x256x512_S1024x512_S8x256x1024_2_1_01_0_n_n none x w)
        (broadcastInDim S8x256x1024 ![0, 1, 2] bcast_S1x1x1024_S8x256x1024_0_1_2 (broadcastInDim S1x1x1024 ![2] bcast_S1024_S1x1x1024_2 bias)) (ix3 b r o)
      = (∑ k : Fin 512, x (ix3 b r k) * w (ix2 o k)) + bias (ix1 o) := by
  rw [addf_apply]
  refine congrArg₂ (· + ·) ?_ ?_
  · refine (Ideal.dotGeneral_apply dot_S8x256x512_S1024x512_S8x256x1024_2_1_01_0_n_n none .single x w (ix3 b r o)).trans ?_
    refine (Equiv.sum_comp (contrEquiv1 dot_S8x256x512_S1024x512_S8x256x1024_2_1_01_0_n_n 512 rfl rfl).symm _).symm.trans ?_
    refine Finset.sum_congr rfl fun k _ => ?_
    have hl : dot_S8x256x512_S1024x512_S8x256x1024_2_1_01_0_n_n.lhsIdx (ix3 b r o) ((contrEquiv1 dot_S8x256x512_S1024x512_S8x256x1024_2_1_01_0_n_n 512 rfl rfl).symm k) = ix3 b r k := by
      funext a; apply Fin.ext
      match a with
      | ⟨0, _⟩ => rfl
      | ⟨1, _⟩ => rfl
      | ⟨2, _⟩ =>
        exact (dot_S8x256x512_S1024x512_S8x256x1024_2_1_01_0_n_n.lhsIdx_val_of_single (cl := 2) rfl (ix3 b r o) _).trans
          (contrEquiv1_symm_val dot_S8x256x512_S1024x512_S8x256x1024_2_1_01_0_n_n 512 rfl rfl k)
    have hr : dot_S8x256x512_S1024x512_S8x256x1024_2_1_01_0_n_n.rhsIdx (ix3 b r o) ((contrEquiv1 dot_S8x256x512_S1024x512_S8x256x1024_2_1_01_0_n_n 512 rfl rfl).symm k) = ix2 o k := by
      funext a; apply Fin.ext
      match a with
      | ⟨0, _⟩ => rfl
      | ⟨1, _⟩ =>
        exact (dot_S8x256x512_S1024x512_S8x256x1024_2_1_01_0_n_n.rhsIdx_val_of_single (cr := 1) rfl (ix3 b r o) _).trans
          (contrEquiv1_symm_val dot_S8x256x512_S1024x512_S8x256x1024_2_1_01_0_n_n 512 rfl rfl k)
    rw [hl, hr]
  · refine (broadcastInDim_apply _ bcast_S1x1x1024_S8x256x1024_0_1_2 _ (ix3 b r o) (ix3 (0 : Fin 1) (0 : Fin 1) o) fun a => ?_).trans ?_
    · match a with
      | ⟨0, _⟩ => rfl
      | ⟨1, _⟩ => rfl
      | ⟨2, _⟩ => rfl
    · refine broadcastInDim_apply _ bcast_S1024_S1x1x1024_2 _ (ix3 (0 : Fin 1) (0 : Fin 1) o) (ix1 o) fun a => ?_
      match a with
      | ⟨0, _⟩ => rfl

/-! ## Heads -/

theorem heads_256_64 (y : FVec Ideal S8x256x512 .f32) (b : Fin 8) (h : Fin 8) (q : Fin 256) (d : Fin 64) :
    transpose S8x8x256x64 [0, 2, 1, 3] (shapeCast S8x256x8x64 y shapeCasts_S8x256x512_S8x256x8x64) transposes_S8x256x8x64_S8x8x256x64_0_2_1_3 (ix4 b h q d)
      = y (ix3 b q (Cert.Spec.qk h d)) := by
  refine (transpose_apply _ _ transposes_S8x256x8x64_S8x8x256x64_0_2_1_3 (ix4 b h q d) (ix4 b q h d) fun a => ?_).trans ?_
  · match a with
    | ⟨0, _⟩ => rfl
    | ⟨1, _⟩ => rfl
    | ⟨2, _⟩ => rfl
    | ⟨3, _⟩ => rfl
  · refine shapeCast_apply y shapeCasts_S8x256x512_S8x256x8x64 (ix4 b q h d) (ix3 b q (Cert.Spec.qk h d)) ?_
    rw [Shape.rowMajor_val_three, Shape.rowMajor_val_four]
    show (b.val * 256 + q.val) * 512 + (64 * h.val + d.val) = ((b.val * 256 + q.val) * 8 + h.val) * 64 + d.val
    omega

theorem heads_4096_64 (y : FVec Ideal S8x4096x512 .f32) (b : Fin 8) (h : Fin 8) (q : Fin 4096) (d : Fin 64) :
    transpose S8x8x4096x64 [0, 2, 1, 3] (shapeCast S8x4096x8x64 y shapeCasts_S8x4096x512_S8x4096x8x64) transposes_S8x4096x8x64_S8x8x4096x64_0_2_1_3 (ix4 b h q d)
      = y (ix3 b q (Cert.Spec.qk h d)) := by
  refine (transpose_apply _ _ transposes_S8x4096x8x64_S8x8x4096x64_0_2_1_3 (ix4 b h q d) (ix4 b q h d) fun a => ?_).trans ?_
  · match a with
    | ⟨0, _⟩ => rfl
    | ⟨1, _⟩ => rfl
    | ⟨2, _⟩ => rfl
    | ⟨3, _⟩ => rfl
  · refine shapeCast_apply y shapeCasts_S8x4096x512_S8x4096x8x64 (ix4 b q h d) (ix3 b q (Cert.Spec.qk h d)) ?_
    rw [Shape.rowMajor_val_three, Shape.rowMajor_val_four]
    show (b.val * 4096 + q.val) * 512 + (64 * h.val + d.val) = ((b.val * 4096 + q.val) * 8 + h.val) * 64 + d.val
    omega

theorem heads_4096_128 (y : FVec Ideal S8x4096x1024 .f32) (b : Fin 8) (h : Fin 8) (q : Fin 4096) (d : Fin 128) :
    transpose S8x8x4096x128 [0, 2, 1, 3] (shapeCast S8x4096x8x128 y shapeCasts_S8x4096x1024_S8x4096x8x128) transposes_S8x4096x8x128_S8x8x4096x128_0_2_1_3 (ix4 b h q d)
      = y (ix3 b q (Cert.Spec.vf h d)) := by
  refine (transpose_apply _ _ transposes_S8x4096x8x128_S8x8x4096x128_0_2_1_3 (ix4 b h q d) (ix4 b q h d) fun a => ?_).trans ?_
  · match a with
    | ⟨0, _⟩ => rfl
    | ⟨1, _⟩ => rfl
    | ⟨2, _⟩ => rfl
    | ⟨3, _⟩ => rfl
  · refine shapeCast_apply y shapeCasts_S8x4096x1024_S8x4096x8x128 (ix4 b q h d) (ix3 b q (Cert.Spec.vf h d)) ?_
    rw [Shape.rowMajor_val_three, Shape.rowMajor_val_four]
    show (b.val * 4096 + q.val) * 1024 + (128 * h.val + d.val) = ((b.val * 4096 + q.val) * 8 + h.val) * 128 + d.val
    omega

theorem heads_256_128 (y : FVec Ideal S8x256x1024 .f32) (b : Fin 8) (h : Fin 8) (q : Fin 256) (d : Fin 128) :
    transpose S8x8x256x128 [0, 2, 1, 3] (shapeCast S8x256x8x128 y shapeCasts_S8x256x1024_S8x256x8x128) transposes_S8x256x8x128_S8x8x256x128_0_2_1_3 (ix4 b h q d)
      = y (ix3 b q (Cert.Spec.vf h d)) := by
  refine (transpose_apply _ _ transposes_S8x256x8x128_S8x8x256x128_0_2_1_3 (ix4 b h q d) (ix4 b q h d) fun a => ?_).trans ?_
  · match a with
    | ⟨0, _⟩ => rfl
    | ⟨1, _⟩ => rfl
    | ⟨2, _⟩ => rfl
    | ⟨3, _⟩ => rfl
  · refine shapeCast_apply y shapeCasts_S8x256x1024_S8x256x8x128 (ix4 b q h d) (ix3 b q (Cert.Spec.vf h d)) ?_
    rw [Shape.rowMajor_val_three, Shape.rowMajor_val_four]
    show (b.val * 256 + q.val) * 1024 + (128 * h.val + d.val) = ((b.val * 256 + q.val) * 8 + h.val) * 128 + d.val
    omega

/-! ## Products batched over heads -/

theorem bdot_logits_256_4096 (l : FVec Ideal S8x8x256x64 .f32) (r : FVec Ideal S8x8x4096x64 .f32)
    (b : Fin 8) (h : Fin 8) (q : Fin 256) (n : Fin 4096) :
    Host.dotGeneral dot_S8x8x256x64_S8x8x4096x64_S8x8x256x4096_3_3_2_2_01_01 none l r (ix4 b h q n) = ∑ k : Fin 64, l (ix4 b h q k) * r (ix4 b h n k) := by
  refine (Ideal.dotGeneral_apply dot_S8x8x256x64_S8x8x4096x64_S8x8x256x4096_3_3_2_2_01_01 none .single l r (ix4 b h q n)).trans ?_
  refine (Equiv.sum_comp (contrEquiv1 dot_S8x8x256x64_S8x8x4096x64_S8x8x256x4096_3_3_2_2_01_01 64 rfl rfl).symm _).symm.trans ?_
  refine Finset.sum_congr rfl fun k _ => ?_
  have hl : dot_S8x8x256x64_S8x8x4096x64_S8x8x256x4096_3_3_2_2_01_01.lhsIdx (ix4 b h q n) ((contrEquiv1 dot_S8x8x256x64_S8x8x4096x64_S8x8x256x4096_3_3_2_2_01_01 64 rfl rfl).symm k) = ix4 b h q k := by
    funext a; apply Fin.ext
    match a with
    | ⟨0, _⟩ => rfl
    | ⟨1, _⟩ => rfl
    | ⟨2, _⟩ => rfl
    | ⟨3, _⟩ =>
      exact (dot_S8x8x256x64_S8x8x4096x64_S8x8x256x4096_3_3_2_2_01_01.lhsIdx_val_of_single (cl := 3) rfl (ix4 b h q n) _).trans
        (contrEquiv1_symm_val dot_S8x8x256x64_S8x8x4096x64_S8x8x256x4096_3_3_2_2_01_01 64 rfl rfl k)
  have hr : dot_S8x8x256x64_S8x8x4096x64_S8x8x256x4096_3_3_2_2_01_01.rhsIdx (ix4 b h q n) ((contrEquiv1 dot_S8x8x256x64_S8x8x4096x64_S8x8x256x4096_3_3_2_2_01_01 64 rfl rfl).symm k) = ix4 b h n k := by
    funext a; apply Fin.ext
    match a with
    | ⟨0, _⟩ => rfl
    | ⟨1, _⟩ => rfl
      | ⟨2, _⟩ => rfl
      | ⟨3, _⟩ =>
        exact (dot_S8x8x256x64_S8x8x4096x64_S8x8x256x4096_3_3_2_2_01_01.rhsIdx_val_of_single (cr := 3) rfl (ix4 b h q n) _).trans
          (contrEquiv1_symm_val dot_S8x8x256x64_S8x8x4096x64_S8x8x256x4096_3_3_2_2_01_01 64 rfl rfl k)
  rw [hl, hr]

theorem bdot_ctx_256_4096 (l : FVec Ideal S8x8x256x4096 .f32) (r : FVec Ideal S8x8x4096x128 .f32)
    (b : Fin 8) (h : Fin 8) (q : Fin 256) (n : Fin 128) :
    Host.dotGeneral dot_S8x8x256x4096_S8x8x4096x128_S8x8x256x128_3_2_2_3_01_01 none l r (ix4 b h q n) = ∑ k : Fin 4096, l (ix4 b h q k) * r (ix4 b h k n) := by
  refine (Ideal.dotGeneral_apply dot_S8x8x256x4096_S8x8x4096x128_S8x8x256x128_3_2_2_3_01_01 none .single l r (ix4 b h q n)).trans ?_
  refine (Equiv.sum_comp (contrEquiv1 dot_S8x8x256x4096_S8x8x4096x128_S8x8x256x128_3_2_2_3_01_01 4096 rfl rfl).symm _).symm.trans ?_
  refine Finset.sum_congr rfl fun k _ => ?_
  have hl : dot_S8x8x256x4096_S8x8x4096x128_S8x8x256x128_3_2_2_3_01_01.lhsIdx (ix4 b h q n) ((contrEquiv1 dot_S8x8x256x4096_S8x8x4096x128_S8x8x256x128_3_2_2_3_01_01 4096 rfl rfl).symm k) = ix4 b h q k := by
    funext a; apply Fin.ext
    match a with
    | ⟨0, _⟩ => rfl
    | ⟨1, _⟩ => rfl
    | ⟨2, _⟩ => rfl
    | ⟨3, _⟩ =>
      exact (dot_S8x8x256x4096_S8x8x4096x128_S8x8x256x128_3_2_2_3_01_01.lhsIdx_val_of_single (cl := 3) rfl (ix4 b h q n) _).trans
        (contrEquiv1_symm_val dot_S8x8x256x4096_S8x8x4096x128_S8x8x256x128_3_2_2_3_01_01 4096 rfl rfl k)
  have hr : dot_S8x8x256x4096_S8x8x4096x128_S8x8x256x128_3_2_2_3_01_01.rhsIdx (ix4 b h q n) ((contrEquiv1 dot_S8x8x256x4096_S8x8x4096x128_S8x8x256x128_3_2_2_3_01_01 4096 rfl rfl).symm k) = ix4 b h k n := by
    funext a; apply Fin.ext
    match a with
    | ⟨0, _⟩ => rfl
    | ⟨1, _⟩ => rfl
      | ⟨2, _⟩ =>
        exact (dot_S8x8x256x4096_S8x8x4096x128_S8x8x256x128_3_2_2_3_01_01.rhsIdx_val_of_single (cr := 2) rfl (ix4 b h q n) _).trans
          (contrEquiv1_symm_val dot_S8x8x256x4096_S8x8x4096x128_S8x8x256x128_3_2_2_3_01_01 4096 rfl rfl k)
      | ⟨3, _⟩ => rfl
  rw [hl, hr]

theorem bdot_logits_4096_256 (l : FVec Ideal S8x8x4096x64 .f32) (r : FVec Ideal S8x8x256x64 .f32)
    (b : Fin 8) (h : Fin 8) (q : Fin 4096) (n : Fin 256) :
    Host.dotGeneral dot_S8x8x4096x64_S8x8x256x64_S8x8x4096x256_3_3_2_2_01_01 none l r (ix4 b h q n) = ∑ k : Fin 64, l (ix4 b h q k) * r (ix4 b h n k) := by
  refine (Ideal.dotGeneral_apply dot_S8x8x4096x64_S8x8x256x64_S8x8x4096x256_3_3_2_2_01_01 none .single l r (ix4 b h q n)).trans ?_
  refine (Equiv.sum_comp (contrEquiv1 dot_S8x8x4096x64_S8x8x256x64_S8x8x4096x256_3_3_2_2_01_01 64 rfl rfl).symm _).symm.trans ?_
  refine Finset.sum_congr rfl fun k _ => ?_
  have hl : dot_S8x8x4096x64_S8x8x256x64_S8x8x4096x256_3_3_2_2_01_01.lhsIdx (ix4 b h q n) ((contrEquiv1 dot_S8x8x4096x64_S8x8x256x64_S8x8x4096x256_3_3_2_2_01_01 64 rfl rfl).symm k) = ix4 b h q k := by
    funext a; apply Fin.ext
    match a with
    | ⟨0, _⟩ => rfl
    | ⟨1, _⟩ => rfl
    | ⟨2, _⟩ => rfl
    | ⟨3, _⟩ =>
      exact (dot_S8x8x4096x64_S8x8x256x64_S8x8x4096x256_3_3_2_2_01_01.lhsIdx_val_of_single (cl := 3) rfl (ix4 b h q n) _).trans
        (contrEquiv1_symm_val dot_S8x8x4096x64_S8x8x256x64_S8x8x4096x256_3_3_2_2_01_01 64 rfl rfl k)
  have hr : dot_S8x8x4096x64_S8x8x256x64_S8x8x4096x256_3_3_2_2_01_01.rhsIdx (ix4 b h q n) ((contrEquiv1 dot_S8x8x4096x64_S8x8x256x64_S8x8x4096x256_3_3_2_2_01_01 64 rfl rfl).symm k) = ix4 b h n k := by
    funext a; apply Fin.ext
    match a with
    | ⟨0, _⟩ => rfl
    | ⟨1, _⟩ => rfl
      | ⟨2, _⟩ => rfl
      | ⟨3, _⟩ =>
        exact (dot_S8x8x4096x64_S8x8x256x64_S8x8x4096x256_3_3_2_2_01_01.rhsIdx_val_of_single (cr := 3) rfl (ix4 b h q n) _).trans
          (contrEquiv1_symm_val dot_S8x8x4096x64_S8x8x256x64_S8x8x4096x256_3_3_2_2_01_01 64 rfl rfl k)
  rw [hl, hr]

theorem bdot_ctx_4096_256 (l : FVec Ideal S8x8x4096x256 .f32) (r : FVec Ideal S8x8x256x128 .f32)
    (b : Fin 8) (h : Fin 8) (q : Fin 4096) (n : Fin 128) :
    Host.dotGeneral dot_S8x8x4096x256_S8x8x256x128_S8x8x4096x128_3_2_2_3_01_01 none l r (ix4 b h q n) = ∑ k : Fin 256, l (ix4 b h q k) * r (ix4 b h k n) := by
  refine (Ideal.dotGeneral_apply dot_S8x8x4096x256_S8x8x256x128_S8x8x4096x128_3_2_2_3_01_01 none .single l r (ix4 b h q n)).trans ?_
  refine (Equiv.sum_comp (contrEquiv1 dot_S8x8x4096x256_S8x8x256x128_S8x8x4096x128_3_2_2_3_01_01 256 rfl rfl).symm _).symm.trans ?_
  refine Finset.sum_congr rfl fun k _ => ?_
  have hl : dot_S8x8x4096x256_S8x8x256x128_S8x8x4096x128_3_2_2_3_01_01.lhsIdx (ix4 b h q n) ((contrEquiv1 dot_S8x8x4096x256_S8x8x256x128_S8x8x4096x128_3_2_2_3_01_01 256 rfl rfl).symm k) = ix4 b h q k := by
    funext a; apply Fin.ext
    match a with
    | ⟨0, _⟩ => rfl
    | ⟨1, _⟩ => rfl
    | ⟨2, _⟩ => rfl
    | ⟨3, _⟩ =>
      exact (dot_S8x8x4096x256_S8x8x256x128_S8x8x4096x128_3_2_2_3_01_01.lhsIdx_val_of_single (cl := 3) rfl (ix4 b h q n) _).trans
        (contrEquiv1_symm_val dot_S8x8x4096x256_S8x8x256x128_S8x8x4096x128_3_2_2_3_01_01 256 rfl rfl k)
  have hr : dot_S8x8x4096x256_S8x8x256x128_S8x8x4096x128_3_2_2_3_01_01.rhsIdx (ix4 b h q n) ((contrEquiv1 dot_S8x8x4096x256_S8x8x256x128_S8x8x4096x128_3_2_2_3_01_01 256 rfl rfl).symm k) = ix4 b h k n := by
    funext a; apply Fin.ext
    match a with
    | ⟨0, _⟩ => rfl
    | ⟨1, _⟩ => rfl
      | ⟨2, _⟩ =>
        exact (dot_S8x8x4096x256_S8x8x256x128_S8x8x4096x128_3_2_2_3_01_01.rhsIdx_val_of_single (cr := 2) rfl (ix4 b h q n) _).trans
          (contrEquiv1_symm_val dot_S8x8x4096x256_S8x8x256x128_S8x8x4096x128_3_2_2_3_01_01 256 rfl rfl k)
      | ⟨3, _⟩ => rfl
  rw [hl, hr]

/-! ## Merging the heads -/

theorem merge_256 (c : FVec Ideal S8x8x256x128 .f32) (b : Fin 8) (q : Fin 256) (f : Fin 1024) :
    shapeCast S8x256x1024 (transpose S8x256x8x128 [0, 2, 1, 3] c transposes_S8x8x256x128_S8x256x8x128_0_2_1_3) shapeCasts_S8x256x8x128_S8x256x1024 (ix3 b q f)
      = c (ix4 b (⟨f.val / 128, by omega⟩ : Fin 8) q (⟨f.val % 128, Nat.mod_lt _ (by norm_num)⟩ : Fin 128)) := by
  refine (shapeCast_apply _ shapeCasts_S8x256x8x128_S8x256x1024 (ix3 b q f)
    (ix4 b q (⟨f.val / 128, by omega⟩ : Fin 8) (⟨f.val % 128, Nat.mod_lt _ (by norm_num)⟩ : Fin 128)) ?_).trans ?_
  · rw [Shape.rowMajor_val_three, Shape.rowMajor_val_four]
    show ((b.val * 256 + q.val) * 8 + f.val / 128) * 128 + f.val % 128 = (b.val * 256 + q.val) * 1024 + f.val
    omega
  · refine transpose_apply _ c transposes_S8x8x256x128_S8x256x8x128_0_2_1_3 _ _ fun a => ?_
    match a with
    | ⟨0, _⟩ => rfl
    | ⟨1, _⟩ => rfl
    | ⟨2, _⟩ => rfl
    | ⟨3, _⟩ => rfl

theorem merge_4096 (c : FVec Ideal S8x8x4096x128 .f32) (b : Fin 8) (q : Fin 4096) (f : Fin 1024) :
    shapeCast S8x4096x1024 (transpose S8x4096x8x128 [0, 2, 1, 3] c transposes_S8x8x4096x128_S8x4096x8x128_0_2_1_3) shapeCasts_S8x4096x8x128_S8x4096x1024 (ix3 b q f)
      = c (ix4 b (⟨f.val / 128, by omega⟩ : Fin 8) q (⟨f.val % 128, Nat.mod_lt _ (by norm_num)⟩ : Fin 128)) := by
  refine (shapeCast_apply _ shapeCasts_S8x4096x8x128_S8x4096x1024 (ix3 b q f)
    (ix4 b q (⟨f.val / 128, by omega⟩ : Fin 8) (⟨f.val % 128, Nat.mod_lt _ (by norm_num)⟩ : Fin 128)) ?_).trans ?_
  · rw [Shape.rowMajor_val_three, Shape.rowMajor_val_four]
    show ((b.val * 4096 + q.val) * 8 + f.val / 128) * 128 + f.val % 128 = (b.val * 4096 + q.val) * 1024 + f.val
    omega
  · refine transpose_apply _ c transposes_S8x8x4096x128_S8x4096x8x128_0_2_1_3 _ _ fun a => ?_
    match a with
    | ⟨0, _⟩ => rfl
    | ⟨1, _⟩ => rfl
    | ⟨2, _⟩ => rfl
    | ⟨3, _⟩ => rfl

end Cert.ReferenceIdeal.RefLin

end
-- ==== Proof.RefSoftmax.lean ====
/-
  The reference's softmax along the keys, read at an entry.

  The row maximum is a one-axis reduce with a `max` body from the word of `−∞`, which is `⊥`: at a row, the fold of `max` over
  the row's entries from `⊥`; joining it once more with `−∞` changes nothing (`max ⊥ x = x`). It is kept as a column
  (`[8, 8, q] → [8, 8, q, 1] → [8, 8, q, k]`), subtracted, and exponentiated entry by entry. The row sum is a one-axis reduce
  with an add body from the zero word: zero plus the sum of the row. The quotient is the total quotient of the extended
  reals, entry by entry.
-/
import proofs.«120082_j85341000171970_2_alg».proof.Proof.Gen.ReferenceIdeal.Run
import proofs.«120082_j85341000171970_2_alg».proof.Proof.Spec
import proofs.«120082_j85341000171970_2_alg».proof.Proof.LibColumnLayout
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.ReferenceIdeal.RefSoftmax

open Cert.ReferenceIdeal Cert.ReferenceIdeal.Gen
open Idealize.ShloMosaic Idealize.ShloMosaic.ValueIdx

/-- A reduced `[8, 8, 256]` array kept as a column and broadcast back along the keys reads, at `(b, h, q, k)`, its entry `(b, h, q)`. -/
theorem keep_256_4096 {α : Type} (v : S8x8x256.Idx → α) (b : Fin 8) (h : Fin 8) (q : Fin 256) (k : Fin 4096) :
    broadcastInDim S8x8x256x4096 ![0, 1, 2, 3] bcast_S8x8x256x1_S8x8x256x4096_0_1_2_3 (broadcastInDim S8x8x256x1 ![0, 1, 2] bcast_S8x8x256_S8x8x256x1_0_1_2 v) (ix4 b h q k) = v (ix3 b h q) := by
  refine (broadcastInDim_apply _ bcast_S8x8x256x1_S8x8x256x4096_0_1_2_3 _ (ix4 b h q k) (ix4 b h q (0 : Fin 1)) fun a => ?_).trans ?_
  · match a with
    | ⟨0, _⟩ => rfl
    | ⟨1, _⟩ => rfl
    | ⟨2, _⟩ => rfl
    | ⟨3, _⟩ => rfl
  · refine broadcastInDim_apply _ bcast_S8x8x256_S8x8x256x1_0_1_2 _ (ix4 b h q (0 : Fin 1)) (ix3 b h q) fun a => ?_
    match a with
    | ⟨0, _⟩ => rfl
    | ⟨1, _⟩ => rfl
    | ⟨2, _⟩ => rfl

/-- The maximum over the keys from `−∞`, at row `(b, h, q)`: the fold of `max` over the row from `⊥`. -/
theorem rowMax_256_4096 (s : FVec Ideal S8x8x256x4096 .f32) (b : Fin 8) (h : Fin 8) (q : Fin 256) :
    Host.reduce FloatOps.maximumf s (constant (F := Ideal) S_ .f32 0xFF800000#32) reducesTo_S8x8x256x4096_S8x8x256_d3 h_S_ (ix3 b h q)
      = (Finset.univ : Finset (Fin 4096)).fold max ⊥ (fun k => s (ix4 b h q k)) := by
  have hR : S8x8x256x4096.Reduces [3] S8x8x256 := by decide
  rw [Host.reduce_eq_fold_single FloatOps.maximumf s _ reducesTo_S8x8x256x4096_S8x8x256_d3 hR h_S_]
  show (Finset.univ : Finset (Fin 4096)).fold max (Ideal.ofBits .f32 0xFF800000#32) (s ∘ hR.lift (ix3 b h q)) = _
  rw [ColumnLayout.ofBits_neg_inf_f32]
  refine congrArg (Finset.fold max ⊥ · Finset.univ) (funext fun k => congrArg s (funext fun ax => Fin.ext ?_))
  match ax with
  | ⟨0, _⟩ => rfl
  | ⟨1, _⟩ => rfl
  | ⟨2, _⟩ => rfl
  | ⟨3, _⟩ => rfl

/-- The sum over the keys from zero, at row `(b, h, q)`: the sum of the row. -/
theorem rowSum_256_4096 (x : FVec Ideal S8x8x256x4096 .f32) (b : Fin 8) (h : Fin 8) (q : Fin 256) :
    Host.reduceAdd x (constant (F := Ideal) S_ .f32 0x00000000#32) reducesTo_S8x8x256x4096_S8x8x256_d3 h_S_ (ix3 b h q) = ∑ k : Fin 4096, x (ix4 b h q k) := by
  have hR : S8x8x256x4096.Reduces [3] S8x8x256 := by decide
  refine (Ideal.hostReduceAdd_single reducesTo_S8x8x256x4096_S8x8x256_d3 hR x _ (ix3 b h q)).trans ?_
  show Ideal.ofBits .f32 0x00000000#32 + _ = _
  rw [Ideal.ofBits_zero_f32, zero_add]
  refine Finset.sum_congr rfl fun k _ => congrArg x (funext fun ax => Fin.ext ?_)
  match ax with
  | ⟨0, _⟩ => rfl
  | ⟨1, _⟩ => rfl
  | ⟨2, _⟩ => rfl
  | ⟨3, _⟩ => rfl

/-- The softmax numerators: `exp (s − max)`, the row maximum taken from `−∞` and joined once more with `−∞`. -/
theorem softNum_256_4096 (s : FVec Ideal S8x8x256x4096 .f32) (b : Fin 8) (h : Fin 8) (q : Fin 256) (k : Fin 4096) :
    Host.exp (subf s (broadcastInDim S8x8x256x4096 ![0, 1, 2, 3] bcast_S8x8x256x1_S8x8x256x4096_0_1_2_3 (broadcastInDim S8x8x256x1 ![0, 1, 2] bcast_S8x8x256_S8x8x256x1_0_1_2
        (maximumf (broadcastInDim S8x8x256 ![] bcast_S_S8x8x256 (constant (F := Ideal) S_ .f32 0xFF800000#32))
          (Host.reduce FloatOps.maximumf s (constant (F := Ideal) S_ .f32 0xFF800000#32) reducesTo_S8x8x256x4096_S8x8x256_d3 h_S_))))) (ix4 b h q k)
      = Ideal.exp (s (ix4 b h q k) - (Finset.univ : Finset (Fin 4096)).fold max ⊥ (fun k' => s (ix4 b h q k'))) := by
  show Ideal.exp (s (ix4 b h q k) - broadcastInDim S8x8x256x4096 ![0, 1, 2, 3] bcast_S8x8x256x1_S8x8x256x4096_0_1_2_3 (broadcastInDim S8x8x256x1 ![0, 1, 2] bcast_S8x8x256_S8x8x256x1_0_1_2
        (maximumf (broadcastInDim S8x8x256 ![] bcast_S_S8x8x256 (constant (F := Ideal) S_ .f32 0xFF800000#32))
          (Host.reduce FloatOps.maximumf s (constant (F := Ideal) S_ .f32 0xFF800000#32) reducesTo_S8x8x256x4096_S8x8x256_d3 h_S_))) (ix4 b h q k)) = _
  rw [keep_256_4096, maximumf_apply, rowMax_256_4096, broadcastInDim_scalar_apply, constant_apply, ColumnLayout.ofBits_neg_inf_f32,
    max_eq_right bot_le]

/-- The quotient by the row sum kept as a column. -/
theorem quot_256_4096 (p : FVec Ideal S8x8x256x4096 .f32) (b : Fin 8) (h : Fin 8) (q : Fin 256) (k : Fin 4096) :
    Host.divf p (broadcastInDim S8x8x256x4096 ![0, 1, 2, 3] bcast_S8x8x256x1_S8x8x256x4096_0_1_2_3 (broadcastInDim S8x8x256x1 ![0, 1, 2] bcast_S8x8x256_S8x8x256x1_0_1_2
        (Host.reduceAdd p (constant (F := Ideal) S_ .f32 0x00000000#32) reducesTo_S8x8x256x4096_S8x8x256_d3 h_S_))) (ix4 b h q k)
      = Ideal.div (p (ix4 b h q k)) (∑ k' : Fin 4096, p (ix4 b h q k')) := by
  rw [hostDivf_apply, keep_256_4096, rowSum_256_4096]

/-- A reduced `[8, 8, 4096]` array kept as a column and broadcast back along the keys reads, at `(b, h, q, k)`, its entry `(b, h, q)`. -/
theorem keep_4096_256 {α : Type} (v : S8x8x4096.Idx → α) (b : Fin 8) (h : Fin 8) (q : Fin 4096) (k : Fin 256) :
    broadcastInDim S8x8x4096x256 ![0, 1, 2, 3] bcast_S8x8x4096x1_S8x8x4096x256_0_1_2_3 (broadcastInDim S8x8x4096x1 ![0, 1, 2] bcast_S8x8x4096_S8x8x4096x1_0_1_2 v) (ix4 b h q k) = v (ix3 b h q) := by
  refine (broadcastInDim_apply _ bcast_S8x8x4096x1_S8x8x4096x256_0_1_2_3 _ (ix4 b h q k) (ix4 b h q (0 : Fin 1)) fun a => ?_).trans ?_
  · match a with
    | ⟨0, _⟩ => rfl
    | ⟨1, _⟩ => rfl
    | ⟨2, _⟩ => rfl
    | ⟨3, _⟩ => rfl
  · refine broadcastInDim_apply _ bcast_S8x8x4096_S8x8x4096x1_0_1_2 _ (ix4 b h q (0 : Fin 1)) (ix3 b h q) fun a => ?_
    match a with
    | ⟨0, _⟩ => rfl
    | ⟨1, _⟩ => rfl
    | ⟨2, _⟩ => rfl

/-- The maximum over the keys from `−∞`, at row `(b, h, q)`: the fold of `max` over the row from `⊥`. -/
theorem rowMax_4096_256 (s : FVec Ideal S8x8x4096x256 .f32) (b : Fin 8) (h : Fin 8) (q : Fin 4096) :
    Host.reduce FloatOps.maximumf s (constant (F := Ideal) S_ .f32 0xFF800000#32) reducesTo_S8x8x4096x256_S8x8x4096_d3 h_S_ (ix3 b h q)
      = (Finset.univ : Finset (Fin 256)).fold max ⊥ (fun k => s (ix4 b h q k)) := by
  have hR : S8x8x4096x256.Reduces [3] S8x8x4096 := by decide
  rw [Host.reduce_eq_fold_single FloatOps.maximumf s _ reducesTo_S8x8x4096x256_S8x8x4096_d3 hR h_S_]
  show (Finset.univ : Finset (Fin 256)).fold max (Ideal.ofBits .f32 0xFF800000#32) (s ∘ hR.lift (ix3 b h q)) = _
  rw [ColumnLayout.ofBits_neg_inf_f32]
  refine congrArg (Finset.fold max ⊥ · Finset.univ) (funext fun k => congrArg s (funext fun ax => Fin.ext ?_))
  match ax with
  | ⟨0, _⟩ => rfl
  | ⟨1, _⟩ => rfl
  | ⟨2, _⟩ => rfl
  | ⟨3, _⟩ => rfl

/-- The sum over the keys from zero, at row `(b, h, q)`: the sum of the row. -/
theorem rowSum_4096_256 (x : FVec Ideal S8x8x4096x256 .f32) (b : Fin 8) (h : Fin 8) (q : Fin 4096) :
    Host.reduceAdd x (constant (F := Ideal) S_ .f32 0x00000000#32) reducesTo_S8x8x4096x256_S8x8x4096_d3 h_S_ (ix3 b h q) = ∑ k : Fin 256, x (ix4 b h q k) := by
  have hR : S8x8x4096x256.Reduces [3] S8x8x4096 := by decide
  refine (Ideal.hostReduceAdd_single reducesTo_S8x8x4096x256_S8x8x4096_d3 hR x _ (ix3 b h q)).trans ?_
  show Ideal.ofBits .f32 0x00000000#32 + _ = _
  rw [Ideal.ofBits_zero_f32, zero_add]
  refine Finset.sum_congr rfl fun k _ => congrArg x (funext fun ax => Fin.ext ?_)
  match ax with
  | ⟨0, _⟩ => rfl
  | ⟨1, _⟩ => rfl
  | ⟨2, _⟩ => rfl
  | ⟨3, _⟩ => rfl

/-- The softmax numerators: `exp (s − max)`, the row maximum taken from `−∞` and joined once more with `−∞`. -/
theorem softNum_4096_256 (s : FVec Ideal S8x8x4096x256 .f32) (b : Fin 8) (h : Fin 8) (q : Fin 4096) (k : Fin 256) :
    Host.exp (subf s (broadcastInDim S8x8x4096x256 ![0, 1, 2, 3] bcast_S8x8x4096x1_S8x8x4096x256_0_1_2_3 (broadcastInDim S8x8x4096x1 ![0, 1, 2] bcast_S8x8x4096_S8x8x4096x1_0_1_2
        (maximumf (broadcastInDim S8x8x4096 ![] bcast_S_S8x8x4096 (constant (F := Ideal) S_ .f32 0xFF800000#32))
          (Host.reduce FloatOps.maximumf s (constant (F := Ideal) S_ .f32 0xFF800000#32) reducesTo_S8x8x4096x256_S8x8x4096_d3 h_S_))))) (ix4 b h q k)
      = Ideal.exp (s (ix4 b h q k) - (Finset.univ : Finset (Fin 256)).fold max ⊥ (fun k' => s (ix4 b h q k'))) := by
  show Ideal.exp (s (ix4 b h q k) - broadcastInDim S8x8x4096x256 ![0, 1, 2, 3] bcast_S8x8x4096x1_S8x8x4096x256_0_1_2_3 (broadcastInDim S8x8x4096x1 ![0, 1, 2] bcast_S8x8x4096_S8x8x4096x1_0_1_2
        (maximumf (broadcastInDim S8x8x4096 ![] bcast_S_S8x8x4096 (constant (F := Ideal) S_ .f32 0xFF800000#32))
          (Host.reduce FloatOps.maximumf s (constant (F := Ideal) S_ .f32 0xFF800000#32) reducesTo_S8x8x4096x256_S8x8x4096_d3 h_S_))) (ix4 b h q k)) = _
  rw [keep_4096_256, maximumf_apply, rowMax_4096_256, broadcastInDim_scalar_apply, constant_apply, ColumnLayout.ofBits_neg_inf_f32,
    max_eq_right bot_le]

/-- The quotient by the row sum kept as a column. -/
theorem quot_4096_256 (p : FVec Ideal S8x8x4096x256 .f32) (b : Fin 8) (h : Fin 8) (q : Fin 4096) (k : Fin 256) :
    Host.divf p (broadcastInDim S8x8x4096x256 ![0, 1, 2, 3] bcast_S8x8x4096x1_S8x8x4096x256_0_1_2_3 (broadcastInDim S8x8x4096x1 ![0, 1, 2] bcast_S8x8x4096_S8x8x4096x1_0_1_2
        (Host.reduceAdd p (constant (F := Ideal) S_ .f32 0x00000000#32) reducesTo_S8x8x4096x256_S8x8x4096_d3 h_S_))) (ix4 b h q k)
      = Ideal.div (p (ix4 b h q k)) (∑ k' : Fin 256, p (ix4 b h q k')) := by
  rw [hostDivf_apply, keep_4096_256, rowSum_4096_256]

end Cert.ReferenceIdeal.RefSoftmax

end
-- ==== Proof.RefLayerNorm.lean ====
/-
  The pieces of the reference's LayerNorm along the features, read at an entry.

  The row sum is a one-axis reduce with an add body from the zero word: zero plus the sum of the row. Kept as a column
  `[8, r] → [8, r, 1]` and divided by the splat row length it is the row's mean; a column broadcast back along the features
  reads the column's entry of the row; the gain and the bias, `[d] → [1, 1, d] → [8, r, d]`, read their entry of the feature.
-/
import proofs.«120082_j85341000171970_2_alg».proof.Proof.Gen.ReferenceIdeal.Run
import proofs.«120082_j85341000171970_2_alg».proof.Proof.Spec
import proofs.«120082_j85341000171970_2_alg».proof.Proof.LibColumnLayout
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.ReferenceIdeal.RefLayerNorm

open Cert.ReferenceIdeal Cert.ReferenceIdeal.Gen
open Idealize.ShloMosaic Idealize.ShloMosaic.ValueIdx

/-- The sum over the features from zero, at row `(b, r)`: the sum of the row. -/
theorem rowSum_256_512 (x : FVec Ideal S8x256x512 .f32) (b : Fin 8) (r : Fin 256) :
    Host.reduceAdd x (constant (F := Ideal) S_ .f32 0x00000000#32) reducesTo_S8x256x512_S8x256_d2 h_S_ (ix2 b r) = ∑ j : Fin 512, x (ix3 b r j) := by
  have hR : S8x256x512.Reduces [2] S8x256 := by decide
  refine (Ideal.hostReduceAdd_single reducesTo_S8x256x512_S8x256_d2 hR x _ (ix2 b r)).trans ?_
  show Ideal.ofBits .f32 0x00000000#32 + _ = _
  rw [Ideal.ofBits_zero_f32, zero_add]
  refine Finset.sum_congr rfl fun k _ => congrArg x (funext fun ax => Fin.ext ?_)
  match ax with
  | ⟨0, _⟩ => rfl
  | ⟨1, _⟩ => rfl
  | ⟨2, _⟩ => rfl

/-- A row statistic kept as a column and divided by a splat scalar: at `(b, r, u)` the statistic of row `(b, r)` over the scalar. -/
theorem meanCol_256_512 (v : FVec Ideal S8x256 .f32) (w : BitVec 32) (b : Fin 8) (r : Fin 256) (u : Fin 1) :
    Host.divf (broadcastInDim S8x256x1 ![0, 1] bcast_S8x256_S8x256x1_0_1 v) (broadcastInDim S8x256x1 ![] bcast_S_S8x256x1 (constant (F := Ideal) S_ .f32 w)) (ix3 b r u)
      = Ideal.div (v (ix2 b r)) (Ideal.ofBits .f32 w) := by
  rw [hostDivf_apply, broadcastInDim_scalar_apply, constant_apply]
  refine congrArg (Ideal.div · _) ?_
  refine broadcastInDim_apply _ bcast_S8x256_S8x256x1_0_1 _ (ix3 b r u) (ix2 b r) fun a => ?_
  match a with
  | ⟨0, _⟩ => rfl
  | ⟨1, _⟩ => rfl

/-- A splat scalar in a column reads the scalar. -/
theorem splatCol_256_512 (w : BitVec 32) (b : Fin 8) (r : Fin 256) (u : Fin 1) :
    broadcastInDim S8x256x1 ![] bcast_S_S8x256x1 (constant (F := Ideal) S_ .f32 w) (ix3 b r u) = Ideal.ofBits .f32 w := by
  rw [broadcastInDim_scalar_apply, constant_apply]

/-- A column broadcast along the features reads, at `(b, r, j)`, the column's entry of row `(b, r)`. -/
theorem col_256_512 {α : Type} (c : S8x256x1.Idx → α) (b : Fin 8) (r : Fin 256) (j : Fin 512) :
    broadcastInDim S8x256x512 ![0, 1, 2] bcast_S8x256x1_S8x256x512_0_1_2 c (ix3 b r j) = c (ix3 b r (0 : Fin 1)) := by
  refine broadcastInDim_apply _ bcast_S8x256x1_S8x256x512_0_1_2 _ (ix3 b r j) (ix3 b r (0 : Fin 1)) fun a => ?_
  match a with
  | ⟨0, _⟩ => rfl
  | ⟨1, _⟩ => rfl
  | ⟨2, _⟩ => rfl

/-- A feature vector broadcast along batch and row reads, at `(b, r, j)`, its entry `j`. -/
theorem featRow_256_512 {α : Type} (g : S512.Idx → α) (b : Fin 8) (r : Fin 256) (j : Fin 512) :
    broadcastInDim S8x256x512 ![0, 1, 2] bcast_S1x1x512_S8x256x512_0_1_2 (broadcastInDim S1x1x512 ![2] bcast_S512_S1x1x512_2 g) (ix3 b r j) = g (ix1 j) := by
  refine (broadcastInDim_apply _ bcast_S1x1x512_S8x256x512_0_1_2 _ (ix3 b r j) (ix3 (0 : Fin 1) (0 : Fin 1) j) fun a => ?_).trans ?_
  · match a with
    | ⟨0, _⟩ => rfl
    | ⟨1, _⟩ => rfl
    | ⟨2, _⟩ => rfl
  · refine broadcastInDim_apply _ bcast_S512_S1x1x512_2 _ (ix3 (0 : Fin 1) (0 : Fin 1) j) (ix1 j) fun a => ?_
    match a with
    | ⟨0, _⟩ => rfl

/-- The standard deviation column: the mean of the squares of a centred array, plus ε, under the square root. -/
theorem lnStd_256_512 (c : FVec Ideal S8x256x512 .f32) (wn wε : BitVec 32) (b : Fin 8) (r : Fin 256) (u : Fin 1) :
    Host.sqrt (addf (Host.divf (broadcastInDim S8x256x1 ![0, 1] bcast_S8x256_S8x256x1_0_1 (Host.reduceAdd (mulf c c) (constant (F := Ideal) S_ .f32 0x00000000#32) reducesTo_S8x256x512_S8x256_d2 h_S_)) (broadcastInDim S8x256x1 ![] bcast_S_S8x256x1 (constant (F := Ideal) S_ .f32 wn))) (broadcastInDim S8x256x1 ![] bcast_S_S8x256x1 (constant (F := Ideal) S_ .f32 wε))) (ix3 b r u)
      = Ideal.sqrt (Ideal.div (∑ j : Fin 512, c (ix3 b r j) * c (ix3 b r j)) (Ideal.ofBits .f32 wn) + Ideal.ofBits .f32 wε) := by
  show Ideal.sqrt (addf (Host.divf (broadcastInDim S8x256x1 ![0, 1] bcast_S8x256_S8x256x1_0_1 (Host.reduceAdd (mulf c c) (constant (F := Ideal) S_ .f32 0x00000000#32) reducesTo_S8x256x512_S8x256_d2 h_S_)) (broadcastInDim S8x256x1 ![] bcast_S_S8x256x1 (constant (F := Ideal) S_ .f32 wn))) (broadcastInDim S8x256x1 ![] bcast_S_S8x256x1 (constant (F := Ideal) S_ .f32 wε)) (ix3 b r u)) = _
  rw [addf_apply, meanCol_256_512, splatCol_256_512, rowSum_256_512]
  rfl

/-- The whole normalisation at an entry: `(x − m) / std · g + β`, the mean column `m` and the centred array `c` given. -/
theorem ln_256_512 (x : FVec Ideal S8x256x512 .f32) (m : FVec Ideal S8x256x1 .f32) (c : FVec Ideal S8x256x512 .f32)
    (g β : FVec Ideal S512 .f32) (wn wε : BitVec 32) (b : Fin 8) (r : Fin 256) (j : Fin 512) :
    addf (mulf (Host.divf (subf x (broadcastInDim S8x256x512 ![0, 1, 2] bcast_S8x256x1_S8x256x512_0_1_2 m))
          (broadcastInDim S8x256x512 ![0, 1, 2] bcast_S8x256x1_S8x256x512_0_1_2 (Host.sqrt (addf (Host.divf (broadcastInDim S8x256x1 ![0, 1] bcast_S8x256_S8x256x1_0_1 (Host.reduceAdd (mulf c c) (constant (F := Ideal) S_ .f32 0x00000000#32) reducesTo_S8x256x512_S8x256_d2 h_S_)) (broadcastInDim S8x256x1 ![] bcast_S_S8x256x1 (constant (F := Ideal) S_ .f32 wn))) (broadcastInDim S8x256x1 ![] bcast_S_S8x256x1 (constant (F := Ideal) S_ .f32 wε))))))
        (broadcastInDim S8x256x512 ![0, 1, 2] bcast_S1x1x512_S8x256x512_0_1_2 (broadcastInDim S1x1x512 ![2] bcast_S512_S1x1x512_2 g)))
      (broadcastInDim S8x256x512 ![0, 1, 2] bcast_S1x1x512_S8x256x512_0_1_2 (broadcastInDim S1x1x512 ![2] bcast_S512_S1x1x512_2 β)) (ix3 b r j)
      = Ideal.div (x (ix3 b r j) - m (ix3 b r (0 : Fin 1)))
          (Ideal.sqrt (Ideal.div (∑ j' : Fin 512, c (ix3 b r j') * c (ix3 b r j')) (Ideal.ofBits .f32 wn) + Ideal.ofBits .f32 wε))
          * g (ix1 j) + β (ix1 j) := by
  rw [addf_apply, mulf_apply, hostDivf_apply, subf_apply, col_256_512, col_256_512, featRow_256_512, featRow_256_512, lnStd_256_512]

/-- The sum over the features from zero, at row `(b, r)`: the sum of the row. -/
theorem rowSum_4096_1024 (x : FVec Ideal S8x4096x1024 .f32) (b : Fin 8) (r : Fin 4096) :
    Host.reduceAdd x (constant (F := Ideal) S_ .f32 0x00000000#32) reducesTo_S8x4096x1024_S8x4096_d2 h_S_ (ix2 b r) = ∑ j : Fin 1024, x (ix3 b r j) := by
  have hR : S8x4096x1024.Reduces [2] S8x4096 := by decide
  refine (Ideal.hostReduceAdd_single reducesTo_S8x4096x1024_S8x4096_d2 hR x _ (ix2 b r)).trans ?_
  show Ideal.ofBits .f32 0x00000000#32 + _ = _
  rw [Ideal.ofBits_zero_f32, zero_add]
  refine Finset.sum_congr rfl fun k _ => congrArg x (funext fun ax => Fin.ext ?_)
  match ax with
  | ⟨0, _⟩ => rfl
  | ⟨1, _⟩ => rfl
  | ⟨2, _⟩ => rfl

/-- A row statistic kept as a column and divided by a splat scalar: at `(b, r, u)` the statistic of row `(b, r)` over the scalar. -/
theorem meanCol_4096_1024 (v : FVec Ideal S8x4096 .f32) (w : BitVec 32) (b : Fin 8) (r : Fin 4096) (u : Fin 1) :
    Host.divf (broadcastInDim S8x4096x1 ![0, 1] bcast_S8x4096_S8x4096x1_0_1 v) (broadcastInDim S8x4096x1 ![] bcast_S_S8x4096x1 (constant (F := Ideal) S_ .f32 w)) (ix3 b r u)
      = Ideal.div (v (ix2 b r)) (Ideal.ofBits .f32 w) := by
  rw [hostDivf_apply, broadcastInDim_scalar_apply, constant_apply]
  refine congrArg (Ideal.div · _) ?_
  refine broadcastInDim_apply _ bcast_S8x4096_S8x4096x1_0_1 _ (ix3 b r u) (ix2 b r) fun a => ?_
  match a with
  | ⟨0, _⟩ => rfl
  | ⟨1, _⟩ => rfl

/-- A splat scalar in a column reads the scalar. -/
theorem splatCol_4096_1024 (w : BitVec 32) (b : Fin 8) (r : Fin 4096) (u : Fin 1) :
    broadcastInDim S8x4096x1 ![] bcast_S_S8x4096x1 (constant (F := Ideal) S_ .f32 w) (ix3 b r u) = Ideal.ofBits .f32 w := by
  rw [broadcastInDim_scalar_apply, constant_apply]

/-- A column broadcast along the features reads, at `(b, r, j)`, the column's entry of row `(b, r)`. -/
theorem col_4096_1024 {α : Type} (c : S8x4096x1.Idx → α) (b : Fin 8) (r : Fin 4096) (j : Fin 1024) :
    broadcastInDim S8x4096x1024 ![0, 1, 2] bcast_S8x4096x1_S8x4096x1024_0_1_2 c (ix3 b r j) = c (ix3 b r (0 : Fin 1)) := by
  refine broadcastInDim_apply _ bcast_S8x4096x1_S8x4096x1024_0_1_2 _ (ix3 b r j) (ix3 b r (0 : Fin 1)) fun a => ?_
  match a with
  | ⟨0, _⟩ => rfl
  | ⟨1, _⟩ => rfl
  | ⟨2, _⟩ => rfl

/-- A feature vector broadcast along batch and row reads, at `(b, r, j)`, its entry `j`. -/
theorem featRow_4096_1024 {α : Type} (g : S1024.Idx → α) (b : Fin 8) (r : Fin 4096) (j : Fin 1024) :
    broadcastInDim S8x4096x1024 ![0, 1, 2] bcast_S1x1x1024_S8x4096x1024_0_1_2 (broadcastInDim S1x1x1024 ![2] bcast_S1024_S1x1x1024_2 g) (ix3 b r j) = g (ix1 j) := by
  refine (broadcastInDim_apply _ bcast_S1x1x1024_S8x4096x1024_0_1_2 _ (ix3 b r j) (ix3 (0 : Fin 1) (0 : Fin 1) j) fun a => ?_).trans ?_
  · match a with
    | ⟨0, _⟩ => rfl
    | ⟨1, _⟩ => rfl
    | ⟨2, _⟩ => rfl
  · refine broadcastInDim_apply _ bcast_S1024_S1x1x1024_2 _ (ix3 (0 : Fin 1) (0 : Fin 1) j) (ix1 j) fun a => ?_
    match a with
    | ⟨0, _⟩ => rfl

/-- The standard deviation column: the mean of the squares of a centred array, plus ε, under the square root. -/
theorem lnStd_4096_1024 (c : FVec Ideal S8x4096x1024 .f32) (wn wε : BitVec 32) (b : Fin 8) (r : Fin 4096) (u : Fin 1) :
    Host.sqrt (addf (Host.divf (broadcastInDim S8x4096x1 ![0, 1] bcast_S8x4096_S8x4096x1_0_1 (Host.reduceAdd (mulf c c) (constant (F := Ideal) S_ .f32 0x00000000#32) reducesTo_S8x4096x1024_S8x4096_d2 h_S_)) (broadcastInDim S8x4096x1 ![] bcast_S_S8x4096x1 (constant (F := Ideal) S_ .f32 wn))) (broadcastInDim S8x4096x1 ![] bcast_S_S8x4096x1 (constant (F := Ideal) S_ .f32 wε))) (ix3 b r u)
      = Ideal.sqrt (Ideal.div (∑ j : Fin 1024, c (ix3 b r j) * c (ix3 b r j)) (Ideal.ofBits .f32 wn) + Ideal.ofBits .f32 wε) := by
  show Ideal.sqrt (addf (Host.divf (broadcastInDim S8x4096x1 ![0, 1] bcast_S8x4096_S8x4096x1_0_1 (Host.reduceAdd (mulf c c) (constant (F := Ideal) S_ .f32 0x00000000#32) reducesTo_S8x4096x1024_S8x4096_d2 h_S_)) (broadcastInDim S8x4096x1 ![] bcast_S_S8x4096x1 (constant (F := Ideal) S_ .f32 wn))) (broadcastInDim S8x4096x1 ![] bcast_S_S8x4096x1 (constant (F := Ideal) S_ .f32 wε)) (ix3 b r u)) = _
  rw [addf_apply, meanCol_4096_1024, splatCol_4096_1024, rowSum_4096_1024]
  rfl

/-- The whole normalisation at an entry: `(x − m) / std · g + β`, the mean column `m` and the centred array `c` given. -/
theorem ln_4096_1024 (x : FVec Ideal S8x4096x1024 .f32) (m : FVec Ideal S8x4096x1 .f32) (c : FVec Ideal S8x4096x1024 .f32)
    (g β : FVec Ideal S1024 .f32) (wn wε : BitVec 32) (b : Fin 8) (r : Fin 4096) (j : Fin 1024) :
    addf (mulf (Host.divf (subf x (broadcastInDim S8x4096x1024 ![0, 1, 2] bcast_S8x4096x1_S8x4096x1024_0_1_2 m))
          (broadcastInDim S8x4096x1024 ![0, 1, 2] bcast_S8x4096x1_S8x4096x1024_0_1_2 (Host.sqrt (addf (Host.divf (broadcastInDim S8x4096x1 ![0, 1] bcast_S8x4096_S8x4096x1_0_1 (Host.reduceAdd (mulf c c) (constant (F := Ideal) S_ .f32 0x00000000#32) reducesTo_S8x4096x1024_S8x4096_d2 h_S_)) (broadcastInDim S8x4096x1 ![] bcast_S_S8x4096x1 (constant (F := Ideal) S_ .f32 wn))) (broadcastInDim S8x4096x1 ![] bcast_S_S8x4096x1 (constant (F := Ideal) S_ .f32 wε))))))
        (broadcastInDim S8x4096x1024 ![0, 1, 2] bcast_S1x1x1024_S8x4096x1024_0_1_2 (broadcastInDim S1x1x1024 ![2] bcast_S1024_S1x1x1024_2 g)))
      (broadcastInDim S8x4096x1024 ![0, 1, 2] bcast_S1x1x1024_S8x4096x1024_0_1_2 (broadcastInDim S1x1x1024 ![2] bcast_S1024_S1x1x1024_2 β)) (ix3 b r j)
      = Ideal.div (x (ix3 b r j) - m (ix3 b r (0 : Fin 1)))
          (Ideal.sqrt (Ideal.div (∑ j' : Fin 1024, c (ix3 b r j') * c (ix3 b r j')) (Ideal.ofBits .f32 wn) + Ideal.ofBits .f32 wε))
          * g (ix1 j) + β (ix1 j) := by
  rw [addf_apply, mulf_apply, hostDivf_apply, subf_apply, col_4096_1024, col_4096_1024, featRow_4096_1024, featRow_4096_1024, lnStd_4096_1024]

end Cert.ReferenceIdeal.RefLayerNorm

end
-- ==== Proof.RefPack.lean ====
/-
  The pack layer of the reference, stage by stage.

  Each named intermediate of the run is one stage of the specification read at an entry: the scaled logits of the short
  sequence's queries against the long sequence's keys; the softmax numerators; the attention weights; the context, merged
  over heads and projected to the short sequence's width; the residual sum; its row mean; the centred rows; and the
  LayerNorm with gain and bias. Every stage opens one definition, replaces the earlier intermediates by their stages, and
  pushes the entry's coordinates through the few operations that are left.
-/
import proofs.«120082_j85341000171970_2_alg».proof.Proof.Gen.ReferenceIdeal.Run
import proofs.«120082_j85341000171970_2_alg».proof.Proof.Spec
import proofs.«120082_j85341000171970_2_alg».proof.Proof.RefLin
import proofs.«120082_j85341000171970_2_alg».proof.Proof.RefSoftmax
import proofs.«120082_j85341000171970_2_alg».proof.Proof.RefLayerNorm
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.ReferenceIdeal.RefPack

open Cert.ReferenceIdeal Cert.ReferenceIdeal.Gen Cert.ReferenceIdeal.Value
open Idealize.ShloMosaic Idealize.ShloMosaic.ValueIdx Idealize.ShloMosaic.TcCoe Idealize.SL.Sem Idealize.ShloMosaic.StableHlo
open Cert.ReferenceIdeal.RefLin Cert.ReferenceIdeal.RefSoftmax Cert.ReferenceIdeal.RefLayerNorm
open Cert.Spec (σ₀ ε₀ n512₀ n1024₀)

variable (V0 : Valuation τ sig (Elt Ideal))

/-- The 22 argument arrays of a valuation, as the specification's arguments. -/
abbrev args : Cert.Spec.Args :=
  Cert.Spec.Args.ofArrays (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21))

/-- The pack layer's scaled logits at an entry. -/
theorem v20_apply (b : Fin 8) (h : Fin 8) (q : Fin 256) (k : Fin 4096) :
    res_main_v20 V0 (ix4 b h q k) = (Cert.Spec.logits σ₀ (Cert.Spec.lin (args V0).aux (args V0).wq1 (args V0).bq1) (Cert.Spec.lin (args V0).hidden (args V0).wk1 (args V0).bk1)) b h q k := by
  unfold res_main_v20
  rw [mulf_apply]
  refine congrArg₂ (· * ·) ?_ ?_
  · refine (bdot_logits_256_4096 _ _ b h q k).trans (Finset.sum_congr rfl fun d _ => ?_)
    rw [heads_256_64, heads_4096_64, lin_256_512_512, lin_4096_1024_512]
    rfl
  · rw [broadcastInDim_scalar_apply, constant_apply]
    rfl

theorem v20_eq : res_main_v20 V0 = fun i => (Cert.Spec.logits σ₀ (Cert.Spec.lin (args V0).aux (args V0).wq1 (args V0).bq1) (Cert.Spec.lin (args V0).hidden (args V0).wk1 (args V0).bk1)) (i 0) (i 1) (i 2) (i 3) := by
  funext i
  exact (congrArg _ (eq_ix4 i)).trans (v20_apply V0 (i 0) (i 1) (i 2) (i 3))

/-- The pack layer's softmax numerators at an entry. -/
theorem v27_apply (b : Fin 8) (h : Fin 8) (q : Fin 256) (k : Fin 4096) :
    res_main_v27 V0 (ix4 b h q k) = Cert.Spec.softNum (Cert.Spec.logits σ₀ (Cert.Spec.lin (args V0).aux (args V0).wq1 (args V0).bq1) (Cert.Spec.lin (args V0).hidden (args V0).wk1 (args V0).bk1)) b h q k := by
  unfold res_main_v27
  rw [v20_eq]
  exact softNum_256_4096 _ b h q k

theorem v27_eq : res_main_v27 V0 = fun i => Cert.Spec.softNum (Cert.Spec.logits σ₀ (Cert.Spec.lin (args V0).aux (args V0).wq1 (args V0).bq1) (Cert.Spec.lin (args V0).hidden (args V0).wk1 (args V0).bk1)) (i 0) (i 1) (i 2) (i 3) := by
  funext i
  exact (congrArg _ (eq_ix4 i)).trans (v27_apply V0 (i 0) (i 1) (i 2) (i 3))

/-- The pack layer's attention weights at an entry. -/
theorem attn1_apply (b : Fin 8) (h : Fin 8) (q : Fin 256) (k : Fin 4096) :
    Host.divf (res_main_v27 V0) (broadcastInDim S8x8x256x4096 ![0, 1, 2, 3] bcast_S8x8x256x1_S8x8x256x4096_0_1_2_3 (broadcastInDim S8x8x256x1 ![0, 1, 2] bcast_S8x8x256_S8x8x256x1_0_1_2 (Host.reduceAdd (res_main_v27 V0) (constant S_ .f32 0x00000000#32) reducesTo_S8x8x256x4096_S8x8x256_d3 h_S_))) (ix4 b h q k)
      = Cert.Spec.attn1 σ₀ (args V0) b h q k := by
  rw [v27_eq]
  exact quot_256_4096 _ b h q k

theorem attn1_eq : Host.divf (res_main_v27 V0) (broadcastInDim S8x8x256x4096 ![0, 1, 2, 3] bcast_S8x8x256x1_S8x8x256x4096_0_1_2_3 (broadcastInDim S8x8x256x1 ![0, 1, 2] bcast_S8x8x256_S8x8x256x1_0_1_2 (Host.reduceAdd (res_main_v27 V0) (constant S_ .f32 0x00000000#32) reducesTo_S8x8x256x4096_S8x8x256_d3 h_S_))) = fun i => Cert.Spec.attn1 σ₀ (args V0) (i 0) (i 1) (i 2) (i 3) := by
  funext i
  exact (congrArg _ (eq_ix4 i)).trans (attn1_apply V0 (i 0) (i 1) (i 2) (i 3))

/-- The packed context, merged over heads and projected to the short sequence's width, at an entry. -/
theorem v38_apply (b : Fin 8) (r : Fin 256) (o : Fin 512) :
    res_main_v38 V0 (ix3 b r o) = Cert.Spec.out1 σ₀ (args V0) b r o := by
  unfold res_main_v38
  rw [attn1_eq]
  refine (lin_256_1024_512 _ _ _ b r o).trans ?_
  refine congrArg₂ (· + ·) (Finset.sum_congr rfl fun f _ => congrArg (· * _) ?_) rfl
  refine (merge_256 _ b r f).trans ?_
  refine (bdot_ctx_256_4096 _ _ b _ r _).trans ?_
  show _ = ∑ k : Fin 4096, Cert.Spec.attn1 σ₀ (args V0) b _ r k * (Cert.Spec.lin (args V0).hidden (args V0).wv1 (args V0).bv1) b k _
  refine Finset.sum_congr rfl fun k _ => ?_
  rw [heads_4096_128, lin_4096_1024_1024]
  rfl

theorem v38_eq : res_main_v38 V0 = fun i => Cert.Spec.out1 σ₀ (args V0) (i 0) (i 1) (i 2) := by
  funext i
  exact (congrArg _ (eq_ix3 i)).trans (v38_apply V0 (i 0) (i 1) (i 2))

/-- The short sequence plus its packed update: the rows the LayerNorm normalises. -/
abbrev resid1 : Fin 8 → Fin 256 → Fin 512 → EReal :=
  fun b r j => (args V0).aux b r j + Cert.Spec.out1 σ₀ (args V0) b r j

theorem v39_apply (b : Fin 8) (r : Fin 256) (j : Fin 512) :
    res_main_v39 V0 (ix3 b r j) = (resid1 V0) b r j := by
  unfold res_main_v39
  rw [v38_eq, addf_apply]
  rfl

theorem v39_eq : res_main_v39 V0 = fun i => (resid1 V0) (i 0) (i 1) (i 2) := by
  funext i
  exact (congrArg _ (eq_ix3 i)).trans (v39_apply V0 (i 0) (i 1) (i 2))

/-- The row means, kept as a column. -/
theorem v43_apply (b : Fin 8) (r : Fin 256) (u : Fin 1) :
    res_main_v43 V0 (ix3 b r u) = Cert.Spec.rowMean n512₀ ((resid1 V0) b r) := by
  unfold res_main_v43
  rw [v39_eq]
  refine (meanCol_256_512 _ _ b r u).trans ?_
  rw [rowSum_256_512]
  rfl

theorem v43_eq : res_main_v43 V0 = fun i => Cert.Spec.rowMean n512₀ ((resid1 V0) (i 0) (i 1)) := by
  funext i
  exact (congrArg _ (eq_ix3 i)).trans (v43_apply V0 (i 0) (i 1) (i 2))

/-- The centred rows. -/
theorem v45_apply (b : Fin 8) (r : Fin 256) (j : Fin 512) :
    res_main_v45 V0 (ix3 b r j) = (resid1 V0) b r j - Cert.Spec.rowMean n512₀ ((resid1 V0) b r) := by
  unfold res_main_v45
  rw [v39_eq, v43_eq, subf_apply, col_256_512]
  rfl

theorem v45_eq : res_main_v45 V0 = fun i => (resid1 V0) (i 0) (i 1) (i 2) - Cert.Spec.rowMean n512₀ ((resid1 V0) (i 0) (i 1)) := by
  funext i
  exact (congrArg _ (eq_ix3 i)).trans (v45_apply V0 (i 0) (i 1) (i 2))

/-- The short sequence's result at an entry: the LayerNorm of the residual rows. -/
theorem auxOut_apply (b : Fin 8) (r : Fin 256) (j : Fin 512) :
    addf (mulf (Host.divf (subf (res_main_v39 V0) (broadcastInDim S8x256x512 ![0, 1, 2] bcast_S8x256x1_S8x256x512_0_1_2 (res_main_v43 V0))) (broadcastInDim S8x256x512 ![0, 1, 2] bcast_S8x256x1_S8x256x512_0_1_2 (Host.sqrt (addf (Host.divf (broadcastInDim S8x256x1 ![0, 1] bcast_S8x256_S8x256x1_0_1 (Host.reduceAdd (mulf (res_main_v45 V0) (res_main_v45 V0)) (constant S_ .f32 0x00000000#32) reducesTo_S8x256x512_S8x256_d2 h_S_)) (broadcastInDim S8x256x1 ![] bcast_S_S8x256x1 (constant S_ .f32 0x44000000#32))) (broadcastInDim S8x256x1 ![] bcast_S_S8x256x1 (constant S_ .f32 0x3727C5AC#32)))))) (broadcastInDim S8x256x512 ![0, 1, 2] bcast_S1x1x512_S8x256x512_0_1_2 (broadcastInDim S1x1x512 ![2] bcast_S512_S1x1x512_2 (V0 (Proc.devRef .tc main_arg18))))) (broadcastInDim S8x256x512 ![0, 1, 2] bcast_S1x1x512_S8x256x512_0_1_2 (broadcastInDim S1x1x512 ![2] bcast_S512_S1x1x512_2 (V0 (Proc.devRef .tc main_arg19)))) (ix3 b r j)
      = Cert.Spec.auxOut σ₀ ε₀ n512₀ (args V0) b r j := by
  rw [v39_eq, v43_eq, v45_eq]
  exact ln_256_512 _ _ _ _ _ _ _ b r j

theorem auxOut_eq : addf (mulf (Host.divf (subf (res_main_v39 V0) (broadcastInDim S8x256x512 ![0, 1, 2] bcast_S8x256x1_S8x256x512_0_1_2 (res_main_v43 V0))) (broadcastInDim S8x256x512 ![0, 1, 2] bcast_S8x256x1_S8x256x512_0_1_2 (Host.sqrt (addf (Host.divf (broadcastInDim S8x256x1 ![0, 1] bcast_S8x256_S8x256x1_0_1 (Host.reduceAdd (mulf (res_main_v45 V0) (res_main_v45 V0)) (constant S_ .f32 0x00000000#32) reducesTo_S8x256x512_S8x256_d2 h_S_)) (broadcastInDim S8x256x1 ![] bcast_S_S8x256x1 (constant S_ .f32 0x44000000#32))) (broadcastInDim S8x256x1 ![] bcast_S_S8x256x1 (constant S_ .f32 0x3727C5AC#32)))))) (broadcastInDim S8x256x512 ![0, 1, 2] bcast_S1x1x512_S8x256x512_0_1_2 (broadcastInDim S1x1x512 ![2] bcast_S512_S1x1x512_2 (V0 (Proc.devRef .tc main_arg18))))) (broadcastInDim S8x256x512 ![0, 1, 2] bcast_S1x1x512_S8x256x512_0_1_2 (broadcastInDim S1x1x512 ![2] bcast_S512_S1x1x512_2 (V0 (Proc.devRef .tc main_arg19)))) = fun i => Cert.Spec.auxOut σ₀ ε₀ n512₀ (args V0) (i 0) (i 1) (i 2) := by
  funext i
  exact (congrArg _ (eq_ix3 i)).trans (auxOut_apply V0 (i 0) (i 1) (i 2))

end Cert.ReferenceIdeal.RefPack

end
-- ==== Proof.RefUnpack.lean ====
/-
  The unpack layer of the reference, stage by stage.

  The long sequence's queries against the keys and values projected from the packed output: the scaled logits, the softmax
  numerators, the attention weights, the context merged over heads and projected back to the long sequence's width, the
  residual sum, its row mean, the centred rows, and the LayerNorm with gain and bias. Each stage opens one definition,
  replaces the earlier intermediates by their stages, and pushes the entry's coordinates through the operations left.
-/
import proofs.«120082_j85341000171970_2_alg».proof.Proof.Gen.ReferenceIdeal.Run
import proofs.«120082_j85341000171970_2_alg».proof.Proof.Spec
import proofs.«120082_j85341000171970_2_alg».proof.Proof.RefLin
import proofs.«120082_j85341000171970_2_alg».proof.Proof.RefSoftmax
import proofs.«120082_j85341000171970_2_alg».proof.Proof.RefLayerNorm
import proofs.«120082_j85341000171970_2_alg».proof.Proof.RefPack
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.ReferenceIdeal.RefUnpack

open Cert.ReferenceIdeal Cert.ReferenceIdeal.Gen Cert.ReferenceIdeal.Value
open Idealize.ShloMosaic Idealize.ShloMosaic.ValueIdx Idealize.ShloMosaic.TcCoe Idealize.SL.Sem Idealize.ShloMosaic.StableHlo
open Cert.ReferenceIdeal.RefLin Cert.ReferenceIdeal.RefSoftmax Cert.ReferenceIdeal.RefLayerNorm
open Cert.Spec (σ₀ ε₀ n512₀ n1024₀)

variable (V0 : Valuation τ sig (Elt Ideal))

open Cert.ReferenceIdeal.RefPack

/-- The unpack layer's scaled logits at an entry. -/
theorem v84_apply (b : Fin 8) (h : Fin 8) (q : Fin 4096) (k : Fin 256) :
    res_main_v84 V0 (ix4 b h q k) = (Cert.Spec.logits σ₀ (Cert.Spec.lin (args V0).hidden (args V0).wq2 (args V0).bq2) (Cert.Spec.lin (Cert.Spec.out1 σ₀ (args V0)) (args V0).wk2 (args V0).bk2)) b h q k := by
  unfold res_main_v84
  rw [v38_eq, mulf_apply]
  refine congrArg₂ (· * ·) ?_ ?_
  · refine (bdot_logits_4096_256 _ _ b h q k).trans (Finset.sum_congr rfl fun d _ => ?_)
    rw [heads_4096_64, heads_256_64, lin_4096_1024_512, lin_256_512_512]
    rfl
  · rw [broadcastInDim_scalar_apply, constant_apply]
    rfl

theorem v84_eq : res_main_v84 V0 = fun i => (Cert.Spec.logits σ₀ (Cert.Spec.lin (args V0).hidden (args V0).wq2 (args V0).bq2) (Cert.Spec.lin (Cert.Spec.out1 σ₀ (args V0)) (args V0).wk2 (args V0).bk2)) (i 0) (i 1) (i 2) (i 3) := by
  funext i
  exact (congrArg _ (eq_ix4 i)).trans (v84_apply V0 (i 0) (i 1) (i 2) (i 3))

/-- The unpack layer's softmax numerators at an entry. -/
theorem v91_apply (b : Fin 8) (h : Fin 8) (q : Fin 4096) (k : Fin 256) :
    res_main_v91 V0 (ix4 b h q k) = Cert.Spec.softNum (Cert.Spec.logits σ₀ (Cert.Spec.lin (args V0).hidden (args V0).wq2 (args V0).bq2) (Cert.Spec.lin (Cert.Spec.out1 σ₀ (args V0)) (args V0).wk2 (args V0).bk2)) b h q k := by
  unfold res_main_v91
  rw [v84_eq]
  exact softNum_4096_256 _ b h q k

theorem v91_eq : res_main_v91 V0 = fun i => Cert.Spec.softNum (Cert.Spec.logits σ₀ (Cert.Spec.lin (args V0).hidden (args V0).wq2 (args V0).bq2) (Cert.Spec.lin (Cert.Spec.out1 σ₀ (args V0)) (args V0).wk2 (args V0).bk2)) (i 0) (i 1) (i 2) (i 3) := by
  funext i
  exact (congrArg _ (eq_ix4 i)).trans (v91_apply V0 (i 0) (i 1) (i 2) (i 3))

/-- The unpack layer's attention weights at an entry. -/
theorem attn2_apply (b : Fin 8) (h : Fin 8) (q : Fin 4096) (k : Fin 256) :
    Host.divf (res_main_v91 V0) (broadcastInDim S8x8x4096x256 ![0, 1, 2, 3] bcast_S8x8x4096x1_S8x8x4096x256_0_1_2_3 (broadcastInDim S8x8x4096x1 ![0, 1, 2] bcast_S8x8x4096_S8x8x4096x1_0_1_2 (Host.reduceAdd (res_main_v91 V0) (constant S_ .f32 0x00000000#32) reducesTo_S8x8x4096x256_S8x8x4096_d3 h_S_))) (ix4 b h q k)
      = Cert.Spec.attn2 σ₀ (args V0) b h q k := by
  rw [v91_eq]
  exact quot_4096_256 _ b h q k

theorem attn2_eq : Host.divf (res_main_v91 V0) (broadcastInDim S8x8x4096x256 ![0, 1, 2, 3] bcast_S8x8x4096x1_S8x8x4096x256_0_1_2_3 (broadcastInDim S8x8x4096x1 ![0, 1, 2] bcast_S8x8x4096_S8x8x4096x1_0_1_2 (Host.reduceAdd (res_main_v91 V0) (constant S_ .f32 0x00000000#32) reducesTo_S8x8x4096x256_S8x8x4096_d3 h_S_))) = fun i => Cert.Spec.attn2 σ₀ (args V0) (i 0) (i 1) (i 2) (i 3) := by
  funext i
  exact (congrArg _ (eq_ix4 i)).trans (attn2_apply V0 (i 0) (i 1) (i 2) (i 3))

/-- The long sequence plus its unpacked update: the rows the LayerNorm normalises. -/
abbrev resid2 : Fin 8 → Fin 4096 → Fin 1024 → EReal :=
  fun b r j => (args V0).hidden b r j
    + Cert.Spec.lin (Cert.Spec.merged (Cert.Spec.context (Cert.Spec.attn2 σ₀ (args V0)) (Cert.Spec.lin (Cert.Spec.out1 σ₀ (args V0)) (args V0).wv2 (args V0).bv2))) (args V0).wo2 (args V0).bo2 b r j

theorem v103_apply (b : Fin 8) (r : Fin 4096) (j : Fin 1024) :
    res_main_v103 V0 (ix3 b r j) = (resid2 V0) b r j := by
  unfold res_main_v103
  rw [attn2_eq, v38_eq, addf_apply]
  refine congrArg₂ (· + ·) rfl ?_
  refine (lin_4096_1024_1024 _ _ _ b r j).trans ?_
  refine congrArg₂ (· + ·) (Finset.sum_congr rfl fun f _ => congrArg (· * _) ?_) rfl
  refine (merge_4096 _ b r f).trans ?_
  refine (bdot_ctx_4096_256 _ _ b _ r _).trans ?_
  show _ = ∑ k : Fin 256, Cert.Spec.attn2 σ₀ (args V0) b _ r k * (Cert.Spec.lin (Cert.Spec.out1 σ₀ (args V0)) (args V0).wv2 (args V0).bv2) b k _
  refine Finset.sum_congr rfl fun k _ => ?_
  rw [heads_256_128, lin_256_512_1024]
  rfl

theorem v103_eq : res_main_v103 V0 = fun i => (resid2 V0) (i 0) (i 1) (i 2) := by
  funext i
  exact (congrArg _ (eq_ix3 i)).trans (v103_apply V0 (i 0) (i 1) (i 2))

/-- The row means, kept as a column. -/
theorem v107_apply (b : Fin 8) (r : Fin 4096) (u : Fin 1) :
    res_main_v107 V0 (ix3 b r u) = Cert.Spec.rowMean n1024₀ ((resid2 V0) b r) := by
  unfold res_main_v107
  rw [v103_eq]
  refine (meanCol_4096_1024 _ _ b r u).trans ?_
  rw [rowSum_4096_1024]
  rfl

theorem v107_eq : res_main_v107 V0 = fun i => Cert.Spec.rowMean n1024₀ ((resid2 V0) (i 0) (i 1)) := by
  funext i
  exact (congrArg _ (eq_ix3 i)).trans (v107_apply V0 (i 0) (i 1) (i 2))

/-- The centred rows. -/
theorem v109_apply (b : Fin 8) (r : Fin 4096) (j : Fin 1024) :
    res_main_v109 V0 (ix3 b r j) = (resid2 V0) b r j - Cert.Spec.rowMean n1024₀ ((resid2 V0) b r) := by
  unfold res_main_v109
  rw [v103_eq, v107_eq, subf_apply, col_4096_1024]
  rfl

theorem v109_eq : res_main_v109 V0 = fun i => (resid2 V0) (i 0) (i 1) (i 2) - Cert.Spec.rowMean n1024₀ ((resid2 V0) (i 0) (i 1)) := by
  funext i
  exact (congrArg _ (eq_ix3 i)).trans (v109_apply V0 (i 0) (i 1) (i 2))

/-- The long sequence's result at an entry: the LayerNorm of the residual rows. -/
theorem out_apply (b : Fin 8) (r : Fin 4096) (j : Fin 1024) :
    addf (mulf (Host.divf (subf (res_main_v103 V0) (broadcastInDim S8x4096x1024 ![0, 1, 2] bcast_S8x4096x1_S8x4096x1024_0_1_2 (res_main_v107 V0))) (broadcastInDim S8x4096x1024 ![0, 1, 2] bcast_S8x4096x1_S8x4096x1024_0_1_2 (Host.sqrt (addf (Host.divf (broadcastInDim S8x4096x1 ![0, 1] bcast_S8x4096_S8x4096x1_0_1 (Host.reduceAdd (mulf (res_main_v109 V0) (res_main_v109 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (V0 (Proc.devRef .tc main_arg20))))) (broadcastInDim S8x4096x1024 ![0, 1, 2] bcast_S1x1x1024_S8x4096x1024_0_1_2 (broadcastInDim S1x1x1024 ![2] bcast_S1024_S1x1x1024_2 (V0 (Proc.devRef .tc main_arg21)))) (ix3 b r j)
      = Cert.Spec.out σ₀ ε₀ n1024₀ (args V0) b r j := by
  rw [v103_eq, v107_eq, v109_eq]
  exact ln_4096_1024 _ _ _ _ _ _ _ b r j

theorem out_eq : addf (mulf (Host.divf (subf (res_main_v103 V0) (broadcastInDim S8x4096x1024 ![0, 1, 2] bcast_S8x4096x1_S8x4096x1024_0_1_2 (res_main_v107 V0))) (broadcastInDim S8x4096x1024 ![0, 1, 2] bcast_S8x4096x1_S8x4096x1024_0_1_2 (Host.sqrt (addf (Host.divf (broadcastInDim S8x4096x1 ![0, 1] bcast_S8x4096_S8x4096x1_0_1 (Host.reduceAdd (mulf (res_main_v109 V0) (res_main_v109 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (V0 (Proc.devRef .tc main_arg20))))) (broadcastInDim S8x4096x1024 ![0, 1, 2] bcast_S1x1x1024_S8x4096x1024_0_1_2 (broadcastInDim S1x1x1024 ![2] bcast_S1024_S1x1x1024_2 (V0 (Proc.devRef .tc main_arg21)))) = fun i => Cert.Spec.out σ₀ ε₀ n1024₀ (args V0) (i 0) (i 1) (i 2) := by
  funext i
  exact (congrArg _ (eq_ix3 i)).trans (out_apply V0 (i 0) (i 1) (i 2))

end Cert.ReferenceIdeal.RefUnpack

end
-- ==== Proof.RefValue.lean ====
/-
  The idealized reference computes the specification.

  The reference's run ends each result buffer at the composed term of its host operations over the launch contents. Read
  index by index at the extended reals, those terms are the specification: a `dot_general` contracting the last axis of
  `x[b, r, ·]` with the last axis of an output-major weight is the linear layer's sum; the reshape `[b, r, 8·w] → [b, r, 8, w]`
  followed by the transpose `(0, 2, 1, 3)` hands head `h` the features `w·h + d`; the batched `dot_general`s over heads are
  the logits and the context; `max`, `exp`, the row sum and the quotient are the softmax; the inverse transpose and reshape
  merge the heads; mean, centred squares, mean, `+ ε`, square root, quotient, gain and bias are the LayerNorm.
-/
import proofs.«120082_j85341000171970_2_alg».proof.Proof.Gen.ReferenceIdeal.Run
import proofs.«120082_j85341000171970_2_alg».proof.Proof.Spec
import proofs.«120082_j85341000171970_2_alg».proof.Proof.RefPack
import proofs.«120082_j85341000171970_2_alg».proof.Proof.RefUnpack

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))

/-- The 22 argument arrays of a valuation, as the specification's arguments. -/
def argsOf : Cert.Spec.Args :=
  Cert.Spec.Args.ofArrays (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21))

/-- The long sequence's result term is `LN (hidden + (ctx₂·Wo₂ᵀ + bo₂))`. -/
theorem out_eq :
    addf (mulf (Host.divf (subf (res_main_v103 V0) (broadcastInDim S8x4096x1024 ![0, 1, 2] bcast_S8x4096x1_S8x4096x1024_0_1_2 (res_main_v107 V0))) (broadcastInDim S8x4096x1024 ![0, 1, 2] bcast_S8x4096x1_S8x4096x1024_0_1_2 (Host.sqrt (addf (Host.divf (broadcastInDim S8x4096x1 ![0, 1] bcast_S8x4096_S8x4096x1_0_1 (Host.reduceAdd (mulf (res_main_v109 V0) (res_main_v109 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (V0 (Proc.devRef .tc main_arg20))))) (broadcastInDim S8x4096x1024 ![0, 1, 2] bcast_S1x1x1024_S8x4096x1024_0_1_2 (broadcastInDim S1x1x1024 ![2] bcast_S1024_S1x1x1024_2 (V0 (Proc.devRef .tc main_arg21))))
    = (fun i => Cert.Spec.out Cert.Spec.σ₀ Cert.Spec.ε₀ Cert.Spec.n1024₀ (argsOf V0) (i 0) (i 1) (i 2)) := by
  exact RefUnpack.out_eq V0

/-- The short sequence's result term is `LN (aux + out₁)`. -/
theorem auxOut_eq :
    addf (mulf (Host.divf (subf (res_main_v39 V0) (broadcastInDim S8x256x512 ![0, 1, 2] bcast_S8x256x1_S8x256x512_0_1_2 (res_main_v43 V0))) (broadcastInDim S8x256x512 ![0, 1, 2] bcast_S8x256x1_S8x256x512_0_1_2 (Host.sqrt (addf (Host.divf (broadcastInDim S8x256x1 ![0, 1] bcast_S8x256_S8x256x1_0_1 (Host.reduceAdd (mulf (res_main_v45 V0) (res_main_v45 V0)) (constant S_ .f32 0x00000000#32) reducesTo_S8x256x512_S8x256_d2 h_S_)) (broadcastInDim S8x256x1 ![] bcast_S_S8x256x1 (constant S_ .f32 0x44000000#32))) (broadcastInDim S8x256x1 ![] bcast_S_S8x256x1 (constant S_ .f32 0x3727C5AC#32)))))) (broadcastInDim S8x256x512 ![0, 1, 2] bcast_S1x1x512_S8x256x512_0_1_2 (broadcastInDim S1x1x512 ![2] bcast_S512_S1x1x512_2 (V0 (Proc.devRef .tc main_arg18))))) (broadcastInDim S8x256x512 ![0, 1, 2] bcast_S1x1x512_S8x256x512_0_1_2 (broadcastInDim S1x1x512 ![2] bcast_S512_S1x1x512_2 (V0 (Proc.devRef .tc main_arg19))))
    = (fun i => Cert.Spec.auxOut Cert.Spec.σ₀ Cert.Spec.ε₀ Cert.Spec.n512₀ (argsOf V0) (i 0) (i 1) (i 2)) := by
  exact RefPack.auxOut_eq V0

/-- The unpack layer's attention term is the softmax of its scaled logits. -/
theorem attn2_eq :
    Host.divf (res_main_v91 V0) (broadcastInDim S8x8x4096x256 ![0, 1, 2, 3] bcast_S8x8x4096x1_S8x8x4096x256_0_1_2_3 (broadcastInDim S8x8x4096x1 ![0, 1, 2] bcast_S8x8x4096_S8x8x4096x1_0_1_2 (Host.reduceAdd (res_main_v91 V0) (constant S_ .f32 0x00000000#32) reducesTo_S8x8x4096x256_S8x8x4096_d3 h_S_)))
    = (fun i => Cert.Spec.attn2 Cert.Spec.σ₀ (argsOf V0) (i 0) (i 1) (i 2) (i 3)) := by
  exact RefUnpack.attn2_eq V0

/-- The pack layer's attention term is the softmax of its scaled logits. -/
theorem attn1_eq :
    Host.divf (res_main_v27 V0) (broadcastInDim S8x8x256x4096 ![0, 1, 2, 3] bcast_S8x8x256x1_S8x8x256x4096_0_1_2_3 (broadcastInDim S8x8x256x1 ![0, 1, 2] bcast_S8x8x256_S8x8x256x1_0_1_2 (Host.reduceAdd (res_main_v27 V0) (constant S_ .f32 0x00000000#32) reducesTo_S8x8x256x4096_S8x8x256_d3 h_S_)))
    = (fun i => Cert.Spec.attn1 Cert.Spec.σ₀ (argsOf V0) (i 0) (i 1) (i 2) (i 3)) := by
  exact RefPack.attn1_eq V0

end Cert.ReferenceIdeal.RefValue

end
-- ==== Proof.lean ====
/-
  The certificate: the kernel program (word-level and idealized) and the idealized reference each run to completion with
  their arguments unchanged, and at the extended reals the idealized kernel and the idealized reference end with the same
  four results — the long sequence's LayerNorm output, the short sequence's, and the two layers' attention weights.

  Both idealized programs compute one function of the 22 argument arrays, the specification (two attention layers, each
  with a residual LayerNorm): the kernel region by region over flattened rows and in-place head slices, the reference as
  batched `dot_general`s over transposed heads. Every step that relates them is a reindexing of a finite sum or the
  identity `x · y^(-1/2) = x / √y` at `y = variance + ε > 0`; no step needs the inputs to be finite. The ideal pass rewrote
  nothing in the kernel, so the idealization claim is the trivial one.
-/
import proofs.«120082_j85341000171970_2_alg».proof.Defs
import proofs.«120082_j85341000171970_2_alg».proof.Proof.Gen.Kernel
import proofs.«120082_j85341000171970_2_alg».proof.Proof.Gen.Kernel.Skeleton
import proofs.«120082_j85341000171970_2_alg».proof.Proof.Gen.Kernel.Launch
import proofs.«120082_j85341000171970_2_alg».proof.Proof.Gen.Kernel.Points
import proofs.«120082_j85341000171970_2_alg».proof.Proof.Gen.Kernel.Frame
import proofs.«120082_j85341000171970_2_alg».proof.Proof.Gen.KernelIdeal
import proofs.«120082_j85341000171970_2_alg».proof.Proof.Gen.KernelIdeal.Skeleton
import proofs.«120082_j85341000171970_2_alg».proof.Proof.Gen.KernelIdeal.Launch
import proofs.«120082_j85341000171970_2_alg».proof.Proof.Gen.KernelIdeal.Points
import proofs.«120082_j85341000171970_2_alg».proof.Proof.Gen.KernelIdeal.Frame
import proofs.«120082_j85341000171970_2_alg».proof.Proof.Gen.ReferenceIdeal
import proofs.«120082_j85341000171970_2_alg».proof.Proof.Gen.ReferenceIdeal.Run
import proofs.«120082_j85341000171970_2_alg».proof.Proof.Gen.Pre_finite_inputs
import proofs.«120082_j85341000171970_2_alg».proof.Proof.KernelValue
import proofs.«120082_j85341000171970_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- Memories that agree on the 22 argument buffers give the specification the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.RefValue.argsOf (StableHlo.launchContents m' c) = Cert.KernelIdeal.Whole.argsOf m c := by
  unfold Cert.ReferenceIdeal.RefValue.argsOf Cert.KernelIdeal.Whole.argsOf
  show Cert.Spec.Args.ofArrays (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) = _
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

/-- Both idealized programs end at the specification of arguments that agree. -/
theorem algebraic : Cert.algebraic_KernelIdeal_ReferenceIdeal := by
  intro m ρ m' ρ' _ hagree
  refine ⟨_, _, _, _, Cert.KernelIdeal.Whole.run m ρ, ?_⟩
  refine (θ_run Cert.ReferenceIdeal.defs _ _).mono (fun _ h c => ⟨(h c).1.trans ?_, (h c).2.1.trans ?_, (h c).2.2.1.trans ?_,
    (h c).2.2.2.1.trans ?_, (h c).2.2.2.2⟩) (Cert.ReferenceIdeal.Value.run (F := Ideal) m' ρ')
  · rw [Cert.ReferenceIdeal.RefValue.out_eq, args_agree m m' c hagree] <;> rfl
  · rw [Cert.ReferenceIdeal.RefValue.auxOut_eq, args_agree m m' c hagree] <;> rfl
  · rw [Cert.ReferenceIdeal.RefValue.attn2_eq, args_agree m m' c hagree] <;> rfl
  · rw [Cert.ReferenceIdeal.RefValue.attn1_eq, args_agree m m' c hagree] <;> rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
